-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v108)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v108) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v192) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S3x128x128 : Shape := ⟨3, ![3, 128, 128]⟩
abbrev S3x128 : Shape := ⟨2, ![3, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_

variable [Facts]

def fn_part1 {F : FTy → Type} [FloatOps F] (main_arg5 : FVec F S3x128 .f32) (main_v13 : IVec S_ 1) (main_v16 : IVec S3x128 1) : IVec S_ 1 :=
  let main_c_5 : IVec S_ 1 := constantI S_ 1 1#1
  let main_v17 : IVec S_ 1 := (fun x v => Host.reduce IntOp.andi x v reducesTo_S3x128_S_d0_1 h_S_) main_v16 main_c_5
  let main_v18 : IVec S_ 1 := andi main_v13 main_v17
  let main_v19 : FVec F S3x128 .f32 := Host.absf main_arg5
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S3x128x128 .f32) (main_arg3 : FVec F S3x128 .f32) (main_arg4 : FVec F S3x128 .f32) (main_arg5 : FVec F S3x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S3x128x128 .f32 := Host.absf main_arg2
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg3
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S3x128 .f32 := Host.absf main_arg4
  let main_cst_4 : FVec F S_ .f32 := constant S_ .f32 0x7F800000#32
  let main_v15 : FVec F S3x128 .f32 := broadcastInDim S3x128 ![] bcast_S_S3x128 main_cst_4
  let main_v16 : IVec S3x128 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S3x128x128 : Shape := ⟨3, ![3, 128, 128]⟩
abbrev S3x128 : Shape := ⟨2, ![3, 128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S1x128x128 : Shape := ⟨3, ![1, 128, 128]⟩
abbrev S128x128 : Shape := ⟨2, ![128, 128]⟩
abbrev S5000x128 : Shape := ⟨2, ![5000, 128]⟩
abbrev S800000x128 : Shape := ⟨2, ![800000, 128]⟩
abbrev S1x128 : Shape := ⟨2, ![1, 128]⟩
abbrev S128 : Shape := ⟨1, ![128]⟩
abbrev S5000x1 : Shape := ⟨2, ![5000, 1]⟩

abbrev nBuf : Space → Nat
  | .hbm => 134
  | .vmem => 93
  | .smem => 0
  | _ => 0

abbrev hbmTy0_0 (i : Nat) : BufTy := match i % 128 with
  | 0 => ⟨S50000x128, .f32⟩
  | 1 => ⟨S2x800000, .i32⟩
  | 2 => ⟨S3x128x128, .f32⟩
  | 3 => ⟨S3x128, .f32⟩
  | 4 => ⟨S3x128, .f32⟩
  | 5 => ⟨S3x128, .f32⟩
  | 6 => ⟨S1x800000, .i32⟩
  | 7 => ⟨S800000, .i32⟩
  | 8 => ⟨S1x800000, .i32⟩
  | 9 => ⟨S800000, .i32⟩
  | 10 => ⟨S_, .f32⟩
  | 11 => ⟨S800000, .f32⟩
  | 12 => ⟨S_, .f32⟩
  | 13 => ⟨S50000, .f32⟩
  | 14 => ⟨S800000x1, .i32⟩
  | 15 => ⟨S50000, .f32⟩
  | 16 => ⟨S_, .f32⟩
  | 17 => ⟨S50000, .f32⟩
  | 18 => ⟨S50000, .f32⟩
  | 19 => ⟨S50000, .f32⟩
  | 20 => ⟨S_, .i32⟩
  | 21 => ⟨S800000, .i32⟩
  | 22 => ⟨S800000, .i1⟩
  | 23 => ⟨S_, .i32⟩
  | 24 => ⟨S800000, .i32⟩
  | 25 => ⟨S800000, .i32⟩
  | 26 => ⟨S800000, .i32⟩
  | 27 => ⟨S800000x1, .i32⟩
  | 28 => ⟨S800000, .f32⟩
  | 29 => ⟨S_, .i32⟩
  | 30 => ⟨S800000, .i32⟩
  | 31 => ⟨S800000, .i1⟩
  | 32 => ⟨S_, .i32⟩
  | 33 => ⟨S800000, .i32⟩
  | 34 => ⟨S800000, .i32⟩
  | 35 => ⟨S800000, .i32⟩
  | 36 => ⟨S800000x1, .i32⟩
  | 37 => ⟨S800000, .f32⟩
  | 38 => ⟨S800000, .f32⟩
  | 39 => ⟨S50000, .f32⟩
  | 40 => ⟨S50000x1, .f32⟩
  | 41 => ⟨S1x128x128, .f32⟩
  | 42 => ⟨S128x128, .f32⟩
  | 43 => ⟨S50000x128, .f32⟩
  | 44 => ⟨S_, .i32⟩
  | 45 => ⟨S800000, .i32⟩
  | 46 => ⟨S800000, .i1⟩
  | 47 => ⟨S_, .i32⟩
  | 48 => ⟨S800000, .i32⟩
  | 49 => ⟨S800000, .i32⟩
  | 50 => ⟨S800000, .i32⟩
  | 51 => ⟨S800000x1, .i32⟩
  | 52 => ⟨S800000x128, .f32⟩
  | 53 => ⟨S800000x1, .f32⟩
  | 54 => ⟨S800000x128, .f32⟩
  | 55 => ⟨S800000x128, .f32⟩
  | 56 => ⟨S_, .f32⟩
  | 57 => ⟨S50000x128, .f32⟩
  | 58 => ⟨S800000x1, .i32⟩
  | 59 => ⟨S50000x128, .f32⟩
  | 60 => ⟨S1x128, .f32⟩
  | 61 => ⟨S128, .f32⟩
  | 62 => ⟨S1x128, .f32⟩
  | 63 => ⟨S1x128, .f32⟩
  | 64 => ⟨S1x128, .f32⟩
  | 65 => ⟨S1x128, .f32⟩
  | 66 => ⟨S128, .f32⟩
  | 67 => ⟨S1x128, .f32⟩
  | 68 => ⟨S1x128, .f32⟩
  | 69 => ⟨S128, .f32⟩
  | 70 => ⟨S1x128, .f32⟩
  | 71 => ⟨S50000x128, .f32⟩
  | 72 => ⟨S1x128x128, .f32⟩
  | 73 => ⟨S128x128, .f32⟩
  | 74 => ⟨S50000x128, .f32⟩
  | 75 => ⟨S_, .i32⟩
  | 76 => ⟨S800000, .i32⟩
  | 77 => ⟨S800000, .i1⟩
  | 78 => ⟨S_, .i32⟩
  | 79 => ⟨S800000, .i32⟩
  | 80 => ⟨S800000, .i32⟩
  | 81 => ⟨S800000, .i32⟩
  | 82 => ⟨S800000x1, .i32⟩
  | 83 => ⟨S800000x128, .f32⟩
  | 84 => ⟨S800000x1, .f32⟩
  | 85 => ⟨S800000x128, .f32⟩
  | 86 => ⟨S800000x128, .f32⟩
  | 87 => ⟨S_, .f32⟩
  | 88 => ⟨S50000x128, .f32⟩
  | 89 => ⟨S800000x1, .i32⟩
  | 90 => ⟨S50000x128, .f32⟩
  | 91 => ⟨S1x128, .f32⟩
  | 92 => ⟨S128, .f32⟩
  | 93 => ⟨S1x128, .f32⟩
  | 94 => ⟨S1x128, .f32⟩
  | 95 => ⟨S1x128, .f32⟩
  | 96 => ⟨S1x128, .f32⟩
  | 97 => ⟨S128, .f32⟩
  | 98 => ⟨S1x128, .f32⟩
  | 99 => ⟨S1x128, .f32⟩
  | 100 => ⟨S128, .f32⟩
  | 101 => ⟨S1x128, .f32⟩
  | 102 => ⟨S50000x128, .f32⟩
  | 103 => ⟨S1x128x128, .f32⟩
  | 104 => ⟨S128x128, .f32⟩
  | 105 => ⟨S50000x128, .f32⟩
  | 106 => ⟨S_, .i32⟩
  | 107 => ⟨S800000, .i32⟩
  | 108 => ⟨S800000, .i1⟩
  | 109 => ⟨S_, .i32⟩
  | 110 => ⟨S800000, .i32⟩
  | 111 => ⟨S800000, .i32⟩
  | 112 => ⟨S800000, .i32⟩
  | 113 => ⟨S800000x1, .i32⟩
  | 114 => ⟨S800000x128, .f32⟩
  | 115 => ⟨S800000x1, .f32⟩
  | 116 => ⟨S800000x128, .f32⟩
  | 117 => ⟨S800000x128, .f32⟩
  | 118 => ⟨S_, .f32⟩
  | 119 => ⟨S50000x128, .f32⟩
  | 120 => ⟨S800000x1, .i32⟩
  | 121 => ⟨S50000x128, .f32⟩
  | 122 => ⟨S1x128, .f32⟩
  | 123 => ⟨S128, .f32⟩
  | 124 => ⟨S1x128, .f32⟩
  | 125 => ⟨S1x128, .f32⟩
  | 126 => ⟨S1x128, .f32⟩
  | 127 => ⟨S1x128, .f32⟩
  | _ => ⟨S50000x128, .f32⟩

abbrev hbmTy0_1 (i : Nat) : BufTy := match i % 128 with
  | 0 => ⟨S128, .f32⟩
  | 1 => ⟨S1x128, .f32⟩
  | 2 => ⟨S1x128, .f32⟩
  | 3 => ⟨S128, .f32⟩
  | 4 => ⟨S1x128, .f32⟩
  | 5 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x1, .f32⟩
  | .local _ .vmem, ⟨21, _⟩ => ⟨S5000x1, .f32⟩
  | .local _ .vmem, ⟨22, _⟩ => ⟨S1x128, .f32⟩
  | .local _ .vmem, ⟨23, _⟩ => ⟨S1x128, .f32⟩
  | .local _ .vmem, ⟨24, _⟩ => ⟨S1x128, .f32⟩
  | .local _ .vmem, ⟨25, _⟩ => ⟨S1x128, .f32⟩
  | .local _ .vmem, ⟨26, _⟩ => ⟨S1x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S128x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S5000x1, .f32⟩
  | .local _ .vmem, ⟨41, _⟩ => ⟨S5000x1, .f32⟩
  | .local _ .vmem, ⟨42, _⟩ => ⟨S1x128, .f32⟩
  | .local _ .vmem, ⟨43, _⟩ => ⟨S1x128, .f32⟩
  | .local _ .vmem, ⟨44, _⟩ => ⟨S1x128, .f32⟩
  | .local _ .vmem, ⟨45, _⟩ => ⟨S1x128, .f32⟩
  | .local _ .vmem, ⟨46, _⟩ => ⟨S1x128, .f32⟩
  | .local _ .vmem, ⟨47, _⟩ => ⟨S5000x128, .f32⟩
  | .local _ .vmem, ⟨48, _⟩ => ⟨S5000x128, .f32⟩
  | .local _ .vmem, ⟨49, _⟩ => ⟨S5000x128, .f32⟩
  | .local _ .vmem, ⟨50, _⟩ => ⟨S5000x128, .f32⟩
  | .local _ .vmem, ⟨51, _⟩ => ⟨S5000x1, .f32⟩
  | .local _ .vmem, ⟨52, _⟩ => ⟨S5000x1, .f32⟩
  | .local _ .vmem, ⟨53, _⟩ => ⟨S1x128, .f32⟩
  | .local _ .vmem, ⟨54, _⟩ => ⟨S1x128, .f32⟩
  | .local _ .vmem, ⟨55, _⟩ => ⟨S1x128, .f32⟩
  | .local _ .vmem, ⟨56, _⟩ => ⟨S1x128, .f32⟩
  | .local _ .vmem, ⟨57, _⟩ => ⟨S1x128, .f32⟩
  | .local _ .vmem, ⟨58, _⟩ => ⟨S5000x128, .f32⟩
  | .local _ .vmem, ⟨59, _⟩ => ⟨S5000x128, .f32⟩
  | .local _ .vmem, ⟨60, _⟩ => ⟨S5000x128, .f32⟩
  | .local _ .vmem, ⟨61, _⟩ => ⟨S5000x128, .f32⟩
  | .local _ .vmem, ⟨62, _⟩ => ⟨S5000x128, .f32⟩
  | .local _ .vmem, ⟨63, _⟩ => ⟨S5000x128, .f32⟩
  | .local _ .vmem, ⟨64, _⟩ => ⟨S128x128, .f32⟩
  | .local _ .vmem, ⟨65, _⟩ => ⟨S5000x128, .f32⟩
  | .local _ .vmem, ⟨66, _⟩ => ⟨S5000x128, .f32⟩
  | .local _ .vmem, ⟨67, _⟩ => ⟨S5000x128, .f32⟩
  | .local _ .vmem, ⟨68, _⟩ => ⟨S5000x128, .f32⟩
  | .local _ .vmem, ⟨69, _⟩ => ⟨S5000x128, .f32⟩
  | .local _ .vmem, ⟨70, _⟩ => ⟨S5000x128, .f32⟩
  | .local _ .vmem, ⟨71, _⟩ => ⟨S5000x1, .f32⟩
  | .local _ .vmem, ⟨72, _⟩ => ⟨S5000x1, .f32⟩
  | .local _ .vmem, ⟨73, _⟩ => ⟨S1x128, .f32⟩
  | .local _ .vmem, ⟨74, _⟩ => ⟨S1x128, .f32⟩
  | .local _ .vmem, ⟨75, _⟩ => ⟨S1x128, .f32⟩
  | .local _ .vmem, ⟨76, _⟩ => ⟨S1x128, .f32⟩
  | .local _ .vmem, ⟨77, _⟩ => ⟨S1x128, .f32⟩
  | .local _ .vmem, ⟨78, _⟩ => ⟨S5000x128, .f32⟩
  | .local _ .vmem, ⟨79, _⟩ => ⟨S5000x128, .f32⟩
  | .local _ .vmem, ⟨80, _⟩ => ⟨S5000x128, .f32⟩
  | .local _ .vmem, ⟨81, _⟩ => ⟨S5000x128, .f32⟩
  | .local _ .vmem, ⟨82, _⟩ => ⟨S5000x1, .f32⟩
  | .local _ .vmem, ⟨83, _⟩ => ⟨S5000x1, .f32⟩
  | .local _ .vmem, ⟨84, _⟩ => ⟨S1x128, .f32⟩
  | .local _ .vmem, ⟨85, _⟩ => ⟨S1x128, .f32⟩
  | .local _ .vmem, ⟨86, _⟩ => ⟨S1x128, .f32⟩
  | .local _ .vmem, ⟨87, _⟩ => ⟨S1x128, .f32⟩
  | .local _ .vmem, ⟨88, _⟩ => ⟨S1x128, .f32⟩
  | .local _ .vmem, ⟨89, _⟩ => ⟨S5000x128, .f32⟩
  | .local _ .vmem, ⟨90, _⟩ => ⟨S5000x128, .f32⟩
  | .local _ .vmem, ⟨91, _⟩ => ⟨S5000x128, .f32⟩
  | .local _ .vmem, ⟨92, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | _, _ => false

abbrev semScoped : Fin 0 → Bool
  | ⟨_, h⟩ => absurd h (Nat.not_lt_zero _)

abbrev dmaSemScoped : Fin 87 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | _ => false

abbrev sig : RefSig :=
  ofTc nBuf bufTy 0 87 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c_5 : Ref sig .tc := ⟨.hbm, 44, rfl⟩
abbrev main_v31 : Ref sig .tc := ⟨.hbm, 45, rfl⟩
abbrev main_v32 : Ref sig .tc := ⟨.hbm, 46, rfl⟩
abbrev main_c_6 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_7 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47_0 : Ref sig .tc := ⟨.hbm, 63, rfl⟩
abbrev main_v47_1 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_c_8 : Ref sig .tc := ⟨.hbm, 75, rfl⟩
abbrev main_v58 : Ref sig .tc := ⟨.hbm, 76, rfl⟩
abbrev main_v59 : Ref sig .tc := ⟨.hbm, 77, rfl⟩
abbrev main_c_9 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_cst_10 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74_0 : Ref sig .tc := ⟨.hbm, 94, rfl⟩
abbrev main_v74_1 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_c_11 : Ref sig .tc := ⟨.hbm, 106, rfl⟩
abbrev main_v85 : Ref sig .tc := ⟨.hbm, 107, rfl⟩
abbrev main_v86 : Ref sig .tc := ⟨.hbm, 108, rfl⟩
abbrev main_c_12 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_cst_13 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101_0 : Ref sig .tc := ⟨.hbm, 125, rfl⟩
abbrev main_v101_1 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_scratch0 : Ref sig .tc := ⟨.vmem, 14, rfl⟩
abbrev cc1_scratch1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg6_0 : Ref sig .tc := ⟨.vmem, 25, rfl⟩
abbrev cc2_stg7_0 : Ref sig .tc := ⟨.vmem, 26, rfl⟩
abbrev cc2_stg8_0 : Ref sig .tc := ⟨.vmem, 27, rfl⟩
abbrev cc2_stg8_1 : Ref sig .tc := ⟨.vmem, 28, rfl⟩
abbrev cc2_stg9_0 : Ref sig .tc := ⟨.vmem, 29, rfl⟩
abbrev cc2_stg9_1 : Ref sig .tc := ⟨.vmem, 30, rfl⟩
abbrev cc3_stg0_0 : Ref sig .tc := ⟨.vmem, 31, rfl⟩
abbrev cc3_stg0_1 : Ref sig .tc := ⟨.vmem, 32, rfl⟩
abbrev cc3_stg1_0 : Ref sig .tc := ⟨.vmem, 33, rfl⟩
abbrev cc3_stg2_0 : Ref sig .tc := ⟨.vmem, 34, rfl⟩
abbrev cc3_stg2_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg2_1 : Ref sig .tc := ⟨.vmem, 41, rfl⟩
abbrev cc4_stg3_0 : Ref sig .tc := ⟨.vmem, 42, rfl⟩
abbrev cc4_stg4_0 : Ref sig .tc := ⟨.vmem, 43, rfl⟩
abbrev cc4_stg5_0 : Ref sig .tc := ⟨.vmem, 44, rfl⟩
abbrev cc4_scratch0 : Ref sig .tc := ⟨.vmem, 45, rfl⟩
abbrev cc4_scratch1 : Ref sig .tc := ⟨.vmem, 46, rfl⟩
abbrev cc5_stg0_0 : Ref sig .tc := ⟨.vmem, 47, rfl⟩
abbrev cc5_stg0_1 : Ref sig .tc := ⟨.vmem, 48, rfl⟩
abbrev cc5_stg1_0 : Ref sig .tc := ⟨.vmem, 49, rfl⟩
abbrev cc5_stg1_1 : Ref sig .tc := ⟨.vmem, 50, rfl⟩
abbrev cc5_stg2_0 : Ref sig .tc := ⟨.vmem, 51, rfl⟩
abbrev cc5_stg2_1 : Ref sig .tc := ⟨.vmem, 52, rfl⟩
abbrev cc5_stg3_0 : Ref sig .tc := ⟨.vmem, 53, rfl⟩
abbrev cc5_stg4_0 : Ref sig .tc := ⟨.vmem, 54, rfl⟩
abbrev cc5_stg5_0 : Ref sig .tc := ⟨.vmem, 55, rfl⟩
abbrev cc5_stg6_0 : Ref sig .tc := ⟨.vmem, 56, rfl⟩
abbrev cc5_stg7_0 : Ref sig .tc := ⟨.vmem, 57, rfl⟩
abbrev cc5_stg8_0 : Ref sig .tc := ⟨.vmem, 58, rfl⟩
abbrev cc5_stg8_1 : Ref sig .tc := ⟨.vmem, 59, rfl⟩
abbrev cc5_stg9_0 : Ref sig .tc := ⟨.vmem, 60, rfl⟩
abbrev cc5_stg9_1 : Ref sig .tc := ⟨.vmem, 61, rfl⟩
abbrev cc6_stg0_0 : Ref sig .tc := ⟨.vmem, 62, rfl⟩
abbrev cc6_stg0_1 : Ref sig .tc := ⟨.vmem, 63, rfl⟩
abbrev cc6_stg1_0 : Ref sig .tc := ⟨.vmem, 64, rfl⟩
abbrev cc6_stg2_0 : Ref sig .tc := ⟨.vmem, 65, rfl⟩
abbrev cc6_stg2_1 : Ref sig .tc := ⟨.vmem, 66, rfl⟩
abbrev cc7_stg0_0 : Ref sig .tc := ⟨.vmem, 67, rfl⟩
abbrev cc7_stg0_1 : Ref sig .tc := ⟨.vmem, 68, rfl⟩
abbrev cc7_stg1_0 : Ref sig .tc := ⟨.vmem, 69, rfl⟩
abbrev cc7_stg1_1 : Ref sig .tc := ⟨.vmem, 70, rfl⟩
abbrev cc7_stg2_0 : Ref sig .tc := ⟨.vmem, 71, rfl⟩
abbrev cc7_stg2_1 : Ref sig .tc := ⟨.vmem, 72, rfl⟩
abbrev cc7_stg3_0 : Ref sig .tc := ⟨.vmem, 73, rfl⟩
abbrev cc7_stg4_0 : Ref sig .tc := ⟨.vmem, 74, rfl⟩
abbrev cc7_stg5_0 : Ref sig .tc := ⟨.vmem, 75, rfl⟩
abbrev cc7_scratch0 : Ref sig .tc := ⟨.vmem, 76, rfl⟩
abbrev cc7_scratch1 : Ref sig .tc := ⟨.vmem, 77, rfl⟩
abbrev cc8_stg0_0 : Ref sig .tc := ⟨.vmem, 78, rfl⟩
abbrev cc8_stg0_1 : Ref sig .tc := ⟨.vmem, 79, rfl⟩
abbrev cc8_stg1_0 : Ref sig .tc := ⟨.vmem, 80, rfl⟩
abbrev cc8_stg1_1 : Ref sig .tc := ⟨.vmem, 81, rfl⟩
abbrev cc8_stg2_0 : Ref sig .tc := ⟨.vmem, 82, rfl⟩
abbrev cc8_stg2_1 : Ref sig .tc := ⟨.vmem, 83, rfl⟩
abbrev cc8_stg3_0 : Ref sig .tc := ⟨.vmem, 84, rfl⟩
abbrev cc8_stg4_0 : Ref sig .tc := ⟨.vmem, 85, rfl⟩
abbrev cc8_stg5_0 : Ref sig .tc := ⟨.vmem, 86, rfl⟩
abbrev cc8_stg6_0 : Ref sig .tc := ⟨.vmem, 87, rfl⟩
abbrev cc8_stg7_0 : Ref sig .tc := ⟨.vmem, 88, rfl⟩
abbrev cc8_stg8_0 : Ref sig .tc := ⟨.vmem, 89, rfl⟩
abbrev cc8_stg8_1 : Ref sig .tc := ⟨.vmem, 90, rfl⟩
abbrev cc8_stg9_0 : Ref sig .tc := ⟨.vmem, 91, rfl⟩
abbrev cc8_stg9_1 : Ref sig .tc := ⟨.vmem, 92, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc2_sem3_0 : DmaSem sig := 20
abbrev cc2_sem4_0 : DmaSem sig := 21
abbrev cc2_sem5_0 : DmaSem sig := 22
abbrev cc2_sem6_0 : DmaSem sig := 23
abbrev cc2_sem7_0 : DmaSem sig := 24
abbrev cc2_sem8_0 : DmaSem sig := 25
abbrev cc2_sem8_1 : DmaSem sig := 26
abbrev cc2_sem9_0 : DmaSem sig := 27
abbrev cc2_sem9_1 : DmaSem sig := 28
abbrev cc3_sem0_0 : DmaSem sig := 29
abbrev cc3_sem0_1 : DmaSem sig := 30
abbrev cc3_sem1_0 : DmaSem sig := 31
abbrev cc3_sem2_0 : DmaSem sig := 32
abbrev cc3_sem2_1 : DmaSem sig := 33
abbrev cc4_sem0_0 : DmaSem sig := 34
abbrev cc4_sem0_1 : DmaSem sig := 35
abbrev cc4_sem1_0 : DmaSem sig := 36
abbrev cc4_sem1_1 : DmaSem sig := 37
abbrev cc4_sem2_0 : DmaSem sig := 38
abbrev cc4_sem2_1 : DmaSem sig := 39
abbrev cc4_sem3_0 : DmaSem sig := 40
abbrev cc4_sem4_0 : DmaSem sig := 41
abbrev cc4_sem5_0 : DmaSem sig := 42
abbrev cc5_sem0_0 : DmaSem sig := 43
abbrev cc5_sem0_1 : DmaSem sig := 44
abbrev cc5_sem1_0 : DmaSem sig := 45
abbrev cc5_sem1_1 : DmaSem sig := 46
abbrev cc5_sem2_0 : DmaSem sig := 47
abbrev cc5_sem2_1 : DmaSem sig := 48
abbrev cc5_sem3_0 : DmaSem sig := 49
abbrev cc5_sem4_0 : DmaSem sig := 50
abbrev cc5_sem5_0 : DmaSem sig := 51
abbrev cc5_sem6_0 : DmaSem sig := 52
abbrev cc5_sem7_0 : DmaSem sig := 53
abbrev cc5_sem8_0 : DmaSem sig := 54
abbrev cc5_sem8_1 : DmaSem sig := 55
abbrev cc5_sem9_0 : DmaSem sig := 56
abbrev cc5_sem9_1 : DmaSem sig := 57
abbrev cc6_sem0_0 : DmaSem sig := 58
abbrev cc6_sem0_1 : DmaSem sig := 59
abbrev cc6_sem1_0 : DmaSem sig := 60
abbrev cc6_sem2_0 : DmaSem sig := 61
abbrev cc6_sem2_1 : DmaSem sig := 62
abbrev cc7_sem0_0 : DmaSem sig := 63
abbrev cc7_sem0_1 : DmaSem sig := 64
abbrev cc7_sem1_0 : DmaSem sig := 65
abbrev cc7_sem1_1 : DmaSem sig := 66
abbrev cc7_sem2_0 : DmaSem sig := 67
abbrev cc7_sem2_1 : DmaSem sig := 68
abbrev cc7_sem3_0 : DmaSem sig := 69
abbrev cc7_sem4_0 : DmaSem sig := 70
abbrev cc7_sem5_0 : DmaSem sig := 71
abbrev cc8_sem0_0 : DmaSem sig := 72
abbrev cc8_sem0_1 : DmaSem sig := 73
abbrev cc8_sem1_0 : DmaSem sig := 74
abbrev cc8_sem1_1 : DmaSem sig := 75
abbrev cc8_sem2_0 : DmaSem sig := 76
abbrev cc8_sem2_1 : DmaSem sig := 77
abbrev cc8_sem3_0 : DmaSem sig := 78
abbrev cc8_sem4_0 : DmaSem sig := 79
abbrev cc8_sem5_0 : DmaSem sig := 80
abbrev cc8_sem6_0 : DmaSem sig := 81
abbrev cc8_sem7_0 : DmaSem sig := 82
abbrev cc8_sem8_0 : DmaSem sig := 83
abbrev cc8_sem8_1 : DmaSem sig := 84
abbrev cc8_sem9_0 : DmaSem sig := 85
abbrev cc8_sem9_1 : DmaSem sig := 86

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def k1_cond2 (i : grid1.Coords) : BitVec 1 :=
  let arg0 : BitVec 32 := BitVec.ofNat 32 (i 0).val
  let c9_i32 : BitVec 32 := 9#32
  let v31 : BitVec 1 := Scalar.cmpi .eq arg0 c9_i32
  let v32 : BitVec 32 := Scalar.extui v31
  let c0_i32_17 : BitVec 32 := 0#32
  let v33 : BitVec 1 := Scalar.cmpi .ne v32 c0_i32_17
  v33

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S5000x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 2 → Memref sig .tc .vmem S5000x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def k4_cond2 (i : grid4.Coords) : BitVec 1 :=
  let arg0 : BitVec 32 := BitVec.ofNat 32 (i 0).val
  let c9_i32 : BitVec 32 := 9#32
  let v31 : BitVec 1 := Scalar.cmpi .eq arg0 c9_i32
  let v32 : BitVec 32 := Scalar.extui v31
  let c0_i32_17 : BitVec 32 := 0#32
  let v33 : BitVec 1 := Scalar.cmpi .ne v32 c0_i32_17
  v33

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_9 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S1x128 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 2 → Memref sig .tc .vmem S5000x128 .f32 := fun | 0 => Memref.whole cc5_stg8_0 | 1 => Memref.whole cc5_stg8_1 | ⟨_ + 2, h⟩ => absurd h (Nat.not_lt.2 (Nat.le_add_left _ _))
abbrev sem5_8 : Fin 2 → DmaSem sig := fun | 0 => cc5_sem8_0 | 1 => cc5_sem8_1 | ⟨_ + 2, h⟩ => absurd h (Nat.not_lt.2 (Nat.le_add_left _ _))
abbrev reads5_8 : Fin grid5.rank → Bool := ![true]

abbrev stage5_9 : Fin 2 → Memref sig .tc .vmem S5000x128 .f32 := fun | 0 => Memref.whole cc5_stg9_0 | 1 => Memref.whole cc5_stg9_1 | ⟨_ + 2, h⟩ => absurd h (Nat.not_lt.2 (Nat.le_add_left _ _))
abbrev sem5_9 : Fin 2 → DmaSem sig := fun | 0 => cc5_sem9_0 | 1 => cc5_sem9_1 | ⟨_ + 2, h⟩ => absurd h (Nat.not_lt.2 (Nat.le_add_left _ _))
abbrev reads5_9 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![10], ![false]⟩

def k7_cond2 (i : grid7.Coords) : BitVec 1 :=
  let arg0 : BitVec 32 := BitVec.ofNat 32 (i 0).val
  let c9_i32 : BitVec 32 := 9#32
  let v31 : BitVec 1 := Scalar.cmpi .eq arg0 c9_i32
  let v32 : BitVec 32 := Scalar.extui v31
  let c0_i32_17 : BitVec 32 := 0#32
  let v33 : BitVec 1 := Scalar.cmpi .ne v32 c0_i32_17
  v33

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S5000x1 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1x128 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_7 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_8 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_9 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S5000x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S5000x1 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 1 → Memref sig .tc .vmem S1x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S1x128 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 1 → Memref sig .tc .vmem S1x128 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false]

abbrev stage8_7 : Fin 1 → Memref sig .tc .vmem S1x128 .f32 := fun | 0 => Memref.whole cc8_stg7_0 | ⟨_ + 1, h⟩ => absurd h (Nat.not_lt.2 (Nat.le_add_left _ _))
abbrev sem8_7 : Fin 1 → DmaSem sig := fun | 0 => cc8_sem7_0 | ⟨_ + 1, h⟩ => absurd h (Nat.not_lt.2 (Nat.le_add_left _ _))
abbrev reads8_7 : Fin grid8.rank → Bool := ![false]

abbrev stage8_8 : Fin 2 → Memref sig .tc .vmem S5000x128 .f32 := fun | 0 => Memref.whole cc8_stg8_0 | 1 => Memref.whole cc8_stg8_1 | ⟨_ + 2, h⟩ => absurd h (Nat.not_lt.2 (Nat.le_add_left _ _))
abbrev sem8_8 : Fin 2 → DmaSem sig := fun | 0 => cc8_sem8_0 | 1 => cc8_sem8_1 | ⟨_ + 2, h⟩ => absurd h (Nat.not_lt.2 (Nat.le_add_left _ _))
abbrev reads8_8 : Fin grid8.rank → Bool := ![true]

abbrev stage8_9 : Fin 2 → Memref sig .tc .vmem S5000x128 .f32 := fun | 0 => Memref.whole cc8_stg9_0 | 1 => Memref.whole cc8_stg9_1 | ⟨_ + 2, h⟩ => absurd h (Nat.not_lt.2 (Nat.le_add_left _ _))
abbrev sem8_9 : Fin 2 → DmaSem sig := fun | 0 => cc8_sem9_0 | 1 => cc8_sem9_1 | ⟨_ + 2, h⟩ => absurd h (Nat.not_lt.2 (Nat.le_add_left _ _))
abbrev reads8_9 : Fin grid8.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  slices_S3x128x128_S1x128x128_0_0_0 : S3x128x128.Slices ![0, 0, 0] S1x128x128
  shapeCasts_S1x128x128_S128x128 : S1x128x128.ShapeCasts S128x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  slices_S3x128_S1x128_0_0 : S3x128.Slices ![0, 0] S1x128
  shapeCasts_S1x128_S128 : S1x128.ShapeCasts S128
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  broadcasts_S1x128_S5000x128 : S1x128.Broadcasts S5000x128
  reduces_S5000x128_S128 : S5000x128.Reduces [0] S128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S5000x128.size a ≤ S50000x128.size a
  hwx2_8 : ∀ i : grid2.Coords, EltTy.bits .f32 = 32 ∨ (Rect.block (s := S50000x128) S5000x128.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S5000x128.size a ≤ S50000x128.size a
  hwx2_9 : ∀ i : grid2.Coords, EltTy.bits .f32 = 32 ∨ (Rect.block (s := S50000x128) S5000x128.size (cc2_transform_9 i) (hinb2_9 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S50000x128.size a
  hwx4_1 : ∀ i : grid4.Coords, EltTy.bits .f32 = 32 ∨ (Rect.block (s := S50000x128) S5000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S50000x1.size a
  hwx4_2 : ∀ i : grid4.Coords, EltTy.bits .f32 = 32 ∨ (Rect.block (s := S50000x1) S5000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S50000x128.size a
  hwx5_1 : ∀ i : grid5.Coords, EltTy.bits .f32 = 32 ∨ (Rect.block (s := S50000x128) S5000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S50000x1.size a
  hwx5_2 : ∀ i : grid5.Coords, EltTy.bits .f32 = 32 ∨ (Rect.block (s := S50000x1) S5000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x128.size a ≤ S1x128.size a
  hwx5_6 : ∀ i : grid5.Coords, EltTy.bits .f32 = 32 ∨ (Rect.block (s := S1x128) S1x128.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S1x128.size a ≤ S1x128.size a
  hwx5_7 : ∀ i : grid5.Coords, EltTy.bits .f32 = 32 ∨ (Rect.block (s := S1x128) S1x128.size (cc5_transform_7 i) (hinb5_7 i)).WholeWords (EltTy.packing .f32)
  hstage5_8 : ∀ j, (stage5_8 j).IsWhole
  nbuf5_8 : grid5.bufCount reads5_8 false = 2
  hreads5_8 : ∀ i i' : grid5.Coords, (∀ a, reads5_8 a = true → i a = i' a) → cc5_transform_8 i = cc5_transform_8 i'
  hinb5_8 : ∀ (i : grid5.Coords) a, (cc5_transform_8 i a + 1) * S5000x128.size a ≤ S50000x128.size a
  hwx5_8 : ∀ i : grid5.Coords, EltTy.bits .f32 = 32 ∨ (Rect.block (s := S50000x128) S5000x128.size (cc5_transform_8 i) (hinb5_8 i)).WholeWords (EltTy.packing .f32)
  hstage5_9 : ∀ j, (stage5_9 j).IsWhole
  nbuf5_9 : grid5.bufCount reads5_9 false = 2
  hreads5_9 : ∀ i i' : grid5.Coords, (∀ a, reads5_9 a = true → i a = i' a) → cc5_transform_9 i = cc5_transform_9 i'
  hinb5_9 : ∀ (i : grid5.Coords) a, (cc5_transform_9 i a + 1) * S5000x128.size a ≤ S50000x128.size a
  hwx5_9 : ∀ i : grid5.Coords, EltTy.bits .f32 = 32 ∨ (Rect.block (s := S50000x128) S5000x128.size (cc5_transform_9 i) (hinb5_9 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x128.size a ≤ S50000x128.size a
  hwx6_2 : ∀ i : grid6.Coords, EltTy.bits .f32 = 32 ∨ (Rect.block (s := S50000x128) S5000x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S50000x128.size a
  hwx7_0 : ∀ i : grid7.Coords, EltTy.bits .f32 = 32 ∨ (Rect.block (s := S50000x128) S5000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x128.size a ≤ S50000x128.size a
  hwx7_1 : ∀ i : grid7.Coords, EltTy.bits .f32 = 32 ∨ (Rect.block (s := S50000x128) S5000x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x1.size a ≤ S50000x1.size a
  hwx7_2 : ∀ i : grid7.Coords, EltTy.bits .f32 = 32 ∨ (Rect.block (s := S50000x1) S5000x1.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x128.size a ≤ S1x128.size a
  hwx7_4 : ∀ i : grid7.Coords, EltTy.bits .f32 = 32 ∨ (Rect.block (s := S1x128) S1x128.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x128.size a ≤ S1x128.size a
  hwx7_5 : ∀ i : grid7.Coords, EltTy.bits .f32 = 32 ∨ (Rect.block (s := S1x128) S1x128.size (cc7_transform_5 i) (hinb7_5 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S50000x128.size a
  hwx8_0 : ∀ i : grid8.Coords, EltTy.bits .f32 = 32 ∨ (Rect.block (s := S50000x128) S5000x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S5000x128.size a ≤ S50000x128.size a
  hwx8_1 : ∀ i : grid8.Coords, EltTy.bits .f32 = 32 ∨ (Rect.block (s := S50000x128) S5000x128.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S5000x1.size a ≤ S50000x1.size a
  hwx8_2 : ∀ i : grid8.Coords, EltTy.bits .f32 = 32 ∨ (Rect.block (s := S50000x1) S5000x1.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x128.size a ≤ S1x128.size a
  hwx8_3 : ∀ i : grid8.Coords, EltTy.bits .f32 = 32 ∨ (Rect.block (s := S1x128) S1x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x128.size a ≤ S1x128.size a
  hwx8_4 : ∀ i : grid8.Coords, EltTy.bits .f32 = 32 ∨ (Rect.block (s := S1x128) S1x128.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S1x128.size a ≤ S1x128.size a
  hwx8_5 : ∀ i : grid8.Coords, EltTy.bits .f32 = 32 ∨ (Rect.block (s := S1x128) S1x128.size (cc8_transform_5 i) (hinb8_5 i)).WholeWords (EltTy.packing .f32)
  hstage8_6 : ∀ j, (stage8_6 j).IsWhole
  nbuf8_6 : grid8.bufCount reads8_6 true = 1
  hreads8_6 : ∀ i i' : grid8.Coords, (∀ a, reads8_6 a = true → i a = i' a) → cc8_transform_6 i = cc8_transform_6 i'
  hinb8_6 : ∀ (i : grid8.Coords) a, (cc8_transform_6 i a + 1) * S1x128.size a ≤ S1x128.size a
  hwx8_6 : ∀ i : grid8.Coords, EltTy.bits .f32 = 32 ∨ (Rect.block (s := S1x128) S1x128.size (cc8_transform_6 i) (hinb8_6 i)).WholeWords (EltTy.packing .f32)
  hstage8_7 : ∀ j, (stage8_7 j).IsWhole
  nbuf8_7 : grid8.bufCount reads8_7 true = 1
  hreads8_7 : ∀ i i' : grid8.Coords, (∀ a, reads8_7 a = true → i a = i' a) → cc8_transform_7 i = cc8_transform_7 i'
  hinb8_7 : ∀ (i : grid8.Coords) a, (cc8_transform_7 i a + 1) * S1x128.size a ≤ S1x128.size a
  hwx8_7 : ∀ i : grid8.Coords, EltTy.bits .f32 = 32 ∨ (Rect.block (s := S1x128) S1x128.size (cc8_transform_7 i) (hinb8_7 i)).WholeWords (EltTy.packing .f32)
  hstage8_8 : ∀ j, (stage8_8 j).IsWhole
  nbuf8_8 : grid8.bufCount reads8_8 false = 2
  hreads8_8 : ∀ i i' : grid8.Coords, (∀ a, reads8_8 a = true → i a = i' a) → cc8_transform_8 i = cc8_transform_8 i'
  hinb8_8 : ∀ (i : grid8.Coords) a, (cc8_transform_8 i a + 1) * S5000x128.size a ≤ S50000x128.size a
  hwx8_8 : ∀ i : grid8.Coords, EltTy.bits .f32 = 32 ∨ (Rect.block (s := S50000x128) S5000x128.size (cc8_transform_8 i) (hinb8_8 i)).WholeWords (EltTy.packing .f32)
  hstage8_9 : ∀ j, (stage8_9 j).IsWhole
  nbuf8_9 : grid8.bufCount reads8_9 false = 2
  hreads8_9 : ∀ i i' : grid8.Coords, (∀ a, reads8_9 a = true → i a = i' a) → cc8_transform_9 i = cc8_transform_9 i'
  hinb8_9 : ∀ (i : grid8.Coords) a, (cc8_transform_9 i a + 1) * S5000x128.size a ≤ S50000x128.size a
  hwx8_9 : ∀ i : grid8.Coords, EltTy.bits .f32 = 32 ∨ (Rect.block (s := S50000x128) S5000x128.size (cc8_transform_9 i) (hinb8_9 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v29) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v46) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v47_0) S1x128.size cc1_transform_4 reads1_4 true true 1 stage1_4 sem1_4
    hrank1 hreads1_4 hinb1_4 nbuf1_4 (Memref.isWhole_whole _) hwx1_4 hstage1_4

abbrev win1_5 : Pipeline.Window sig grid1 :=
  Pipeline.Window.ofSpec (Memref.whole main_v47_1) S1x128.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun i => !(k1_cond2 i == 1#1) | 5 => fun i => !(k1_cond2 i == 1#1) | ⟨_ + 6, h⟩ => absurd h (Nat.not_lt.2 (Nat.le_add_left _ _))

abbrev win2_0 : Pipeline.Window sig grid2 :=
  Pipeline.Window.ofSpec (Memref.whole main_v43) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v30) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v27) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v46) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v47_0) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v47_1) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v50) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v53) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg0) S5000x128.size cc2_transform_8 reads2_8 false false 2 stage2_8 sem2_8
    hrank2 hreads2_8 hinb2_8 nbuf2_8 (Memref.isWhole_whole _) hwx2_8 hstage2_8

abbrev win2_9 : Pipeline.Window sig grid2 :=
  Pipeline.Window.ofSpec (Memref.whole main_v54) S5000x128.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_v54) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v56) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v57) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v70) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v57) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v27) S5000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v73) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v74_0) S1x128.size cc4_transform_4 reads4_4 true true 1 stage4_4 sem4_4
    hrank4 hreads4_4 hinb4_4 nbuf4_4 (Memref.isWhole_whole _) hwx4_4 hstage4_4

abbrev win4_5 : Pipeline.Window sig grid4 :=
  Pipeline.Window.ofSpec (Memref.whole main_v74_1) S1x128.size cc4_transform_5 reads4_5 true true 1 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev idle4 : Fin 6 → grid4.Coords → Bool := fun | 0 => fun _ => false | 1 => fun _ => false | 2 => fun _ => false | 3 => fun _ => false | 4 => fun i => !(k4_cond2 i == 1#1) | 5 => fun i => !(k4_cond2 i == 1#1) | ⟨_ + 6, h⟩ => absurd h (Nat.not_lt.2 (Nat.le_add_left _ _))

abbrev win5_0 : Pipeline.Window sig grid5 :=
  Pipeline.Window.ofSpec (Memref.whole main_v70) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v57) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v27) S5000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v73) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v74_0) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v74_1) S1x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v77) S1x128.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v80) S1x128.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v54) S5000x128.size cc5_transform_8 reads5_8 false false 2 stage5_8 sem5_8
    hrank5 hreads5_8 hinb5_8 nbuf5_8 (Memref.isWhole_whole _) hwx5_8 hstage5_8

abbrev win5_9 : Pipeline.Window sig grid5 :=
  Pipeline.Window.ofSpec (Memref.whole main_v81) S5000x128.size cc5_transform_9 reads5_9 true false 2 stage5_9 sem5_9
    hrank5 hreads5_9 hinb5_9 nbuf5_9 (Memref.isWhole_whole _) hwx5_9 hstage5_9

abbrev win5 : Fin 10 → Pipeline.Window sig grid5 := fun | 0 => win5_0 | 1 => win5_1 | 2 => win5_2 | 3 => win5_3 | 4 => win5_4 | 5 => win5_5 | 6 => win5_6 | 7 => win5_7 | 8 => win5_8 | 9 => win5_9 | ⟨_ + 10, h⟩ => absurd h (Nat.not_lt.2 (Nat.le_add_left _ _))
abbrev spec5 : Fin 10 → Pipeline.WinSpec sig grid5.rank := fun w => (win5 w).toWinSpec

abbrev win6_0 : Pipeline.Window sig grid6 :=
  Pipeline.Window.ofSpec (Memref.whole main_v81) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v83) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v84) S5000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v97) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v84) S5000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v27) S5000x1.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v100) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v101_0) S1x128.size cc7_transform_4 reads7_4 true true 1 stage7_4 sem7_4
    hrank7 hreads7_4 hinb7_4 nbuf7_4 (Memref.isWhole_whole _) hwx7_4 hstage7_4

abbrev win7_5 : Pipeline.Window sig grid7 :=
  Pipeline.Window.ofSpec (Memref.whole main_v101_1) S1x128.size cc7_transform_5 reads7_5 true true 1 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev idle7 : Fin 6 → grid7.Coords → Bool := fun | 0 => fun _ => false | 1 => fun _ => false | 2 => fun _ => false | 3 => fun _ => false | 4 => fun i => !(k7_cond2 i == 1#1) | 5 => fun i => !(k7_cond2 i == 1#1) | ⟨_ + 6, h⟩ => absurd h (Nat.not_lt.2 (Nat.le_add_left _ _))

abbrev win8_0 : Pipeline.Window sig grid8 :=
  Pipeline.Window.ofSpec (Memref.whole main_v97) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v84) S5000x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v27) S5000x1.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_v100) S1x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v101_0) S1x128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v101_1) S1x128.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v104) S1x128.size cc8_transform_6 reads8_6 false true 1 stage8_6 sem8_6
    hrank8 hreads8_6 hinb8_6 nbuf8_6 (Memref.isWhole_whole _) hwx8_6 hstage8_6

abbrev win8_7 : Pipeline.Window sig grid8 :=
  Pipeline.Window.ofSpec (Memref.whole main_v107) S1x128.size cc8_transform_7 reads8_7 false true 1 stage8_7 sem8_7
    hrank8 hreads8_7 hinb8_7 nbuf8_7 (Memref.isWhole_whole _) hwx8_7 hstage8_7

abbrev win8_8 : Pipeline.Window sig grid8 :=
  Pipeline.Window.ofSpec (Memref.whole main_v81) S5000x128.size cc8_transform_8 reads8_8 false false 2 stage8_8 sem8_8
    hrank8 hreads8_8 hinb8_8 nbuf8_8 (Memref.isWhole_whole _) hwx8_8 hstage8_8

abbrev win8_9 : Pipeline.Window sig grid8 :=
  Pipeline.Window.ofSpec (Memref.whole main_v108) S5000x128.size cc8_transform_9 reads8_9 true false 2 stage8_9 sem8_9
    hrank8 hreads8_9 hinb8_9 nbuf8_9 (Memref.isWhole_whole _) hwx8_9 hstage8_9

abbrev win8 : Fin 10 → Pipeline.Window sig grid8 := fun | 0 => win8_0 | 1 => win8_1 | 2 => win8_2 | 3 => win8_3 | 4 => win8_4 | 5 => win8_5 | 6 => win8_6 | 7 => win8_7 | 8 => win8_8 | 9 => win8_9 | ⟨_ + 10, h⟩ => absurd h (Nat.not_lt.2 (Nat.le_add_left _ _))
abbrev spec8 : Fin 10 → Pipeline.WinSpec sig grid8.rank := fun w => (win8 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S3x128x128 : Shape := ⟨3, ![3, 128, 128]⟩
abbrev S3x128 : Shape := ⟨2, ![3, 128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S1x128x128 : Shape := ⟨3, ![1, 128, 128]⟩
abbrev S128x128 : Shape := ⟨2, ![128, 128]⟩
abbrev S800000x128 : Shape := ⟨2, ![800000, 128]⟩
abbrev S50000x1 : Shape := ⟨2, ![50000, 1]⟩
abbrev S1x128 : Shape := ⟨2, ![1, 128]⟩
abbrev S128 : Shape := ⟨1, ![128]⟩

abbrev nBuf : Space → Nat
  | .hbm => 234
  | .vmem => 0
  | .smem => 0
  | _ => 0

abbrev hbmTy0_0 (i : Nat) : BufTy := match i % 128 with
  | 0 => ⟨S50000x128, .f32⟩
  | 1 => ⟨S2x800000, .i32⟩
  | 2 => ⟨S3x128x128, .f32⟩
  | 3 => ⟨S3x128, .f32⟩
  | 4 => ⟨S3x128, .f32⟩
  | 5 => ⟨S3x128, .f32⟩
  | 6 => ⟨S1x800000, .i32⟩
  | 7 => ⟨S800000, .i32⟩
  | 8 => ⟨S1x800000, .i32⟩
  | 9 => ⟨S800000, .i32⟩
  | 10 => ⟨S_, .f32⟩
  | 11 => ⟨S800000, .f32⟩
  | 12 => ⟨S_, .f32⟩
  | 13 => ⟨S50000, .f32⟩
  | 14 => ⟨S800000x1, .i32⟩
  | 15 => ⟨S50000, .f32⟩
  | 16 => ⟨S_, .f32⟩
  | 17 => ⟨S50000, .f32⟩
  | 18 => ⟨S50000, .f32⟩
  | 19 => ⟨S50000, .f32⟩
  | 20 => ⟨S_, .i32⟩
  | 21 => ⟨S800000, .i32⟩
  | 22 => ⟨S800000, .i1⟩
  | 23 => ⟨S_, .i32⟩
  | 24 => ⟨S800000, .i32⟩
  | 25 => ⟨S800000, .i32⟩
  | 26 => ⟨S800000, .i32⟩
  | 27 => ⟨S800000x1, .i32⟩
  | 28 => ⟨S800000, .f32⟩
  | 29 => ⟨S_, .i32⟩
  | 30 => ⟨S800000, .i32⟩
  | 31 => ⟨S800000, .i1⟩
  | 32 => ⟨S_, .i32⟩
  | 33 => ⟨S800000, .i32⟩
  | 34 => ⟨S800000, .i32⟩
  | 35 => ⟨S800000, .i32⟩
  | 36 => ⟨S800000x1, .i32⟩
  | 37 => ⟨S800000, .f32⟩
  | 38 => ⟨S800000, .f32⟩
  | 39 => ⟨S50000, .f32⟩
  | 40 => ⟨S1x128x128, .f32⟩
  | 41 => ⟨S128x128, .f32⟩
  | 42 => ⟨S50000x128, .f32⟩
  | 43 => ⟨S_, .i32⟩
  | 44 => ⟨S800000, .i32⟩
  | 45 => ⟨S800000, .i1⟩
  | 46 => ⟨S_, .i32⟩
  | 47 => ⟨S800000, .i32⟩
  | 48 => ⟨S800000, .i32⟩
  | 49 => ⟨S800000, .i32⟩
  | 50 => ⟨S800000x1, .i32⟩
  | 51 => ⟨S800000x128, .f32⟩
  | 52 => ⟨S800000x1, .f32⟩
  | 53 => ⟨S800000x128, .f32⟩
  | 54 => ⟨S800000x128, .f32⟩
  | 55 => ⟨S_, .f32⟩
  | 56 => ⟨S50000x128, .f32⟩
  | 57 => ⟨S800000x1, .i32⟩
  | 58 => ⟨S50000x128, .f32⟩
  | 59 => ⟨S50000x1, .f32⟩
  | 60 => ⟨S50000x128, .f32⟩
  | 61 => ⟨S50000x128, .f32⟩
  | 62 => ⟨S50000x128, .f32⟩
  | 63 => ⟨S1x128, .f32⟩
  | 64 => ⟨S128, .f32⟩
  | 65 => ⟨S1x128, .f32⟩
  | 66 => ⟨S50000x128, .f32⟩
  | 67 => ⟨S50000x128, .f32⟩
  | 68 => ⟨S_, .f32⟩
  | 69 => ⟨S128, .f32⟩
  | 70 => ⟨S_, .f32⟩
  | 71 => ⟨S128, .f32⟩
  | 72 => ⟨S128, .f32⟩
  | 73 => ⟨S1x128, .f32⟩
  | 74 => ⟨S50000x128, .f32⟩
  | 75 => ⟨S50000x128, .f32⟩
  | 76 => ⟨S50000x128, .f32⟩
  | 77 => ⟨S_, .f32⟩
  | 78 => ⟨S128, .f32⟩
  | 79 => ⟨S_, .f32⟩
  | 80 => ⟨S128, .f32⟩
  | 81 => ⟨S128, .f32⟩
  | 82 => ⟨S1x128, .f32⟩
  | 83 => ⟨S128, .f32⟩
  | 84 => ⟨S1x128, .f32⟩
  | 85 => ⟨S50000x128, .f32⟩
  | 86 => ⟨S50000x128, .f32⟩
  | 87 => ⟨S1x128, .f32⟩
  | 88 => ⟨S50000x128, .f32⟩
  | 89 => ⟨S50000x128, .f32⟩
  | 90 => ⟨S_, .f32⟩
  | 91 => ⟨S128, .f32⟩
  | 92 => ⟨S128, .f32⟩
  | 93 => ⟨S128, .f32⟩
  | 94 => ⟨S1x128, .f32⟩
  | 95 => ⟨S50000x128, .f32⟩
  | 96 => ⟨S50000x128, .f32⟩
  | 97 => ⟨S1x128, .f32⟩
  | 98 => ⟨S128, .f32⟩
  | 99 => ⟨S1x128, .f32⟩
  | 100 => ⟨S50000x128, .f32⟩
  | 101 => ⟨S50000x128, .f32⟩
  | 102 => ⟨S_, .f32⟩
  | 103 => ⟨S50000x128, .f32⟩
  | 104 => ⟨S50000x128, .f32⟩
  | 105 => ⟨S1x128x128, .f32⟩
  | 106 => ⟨S128x128, .f32⟩
  | 107 => ⟨S50000x128, .f32⟩
  | 108 => ⟨S_, .i32⟩
  | 109 => ⟨S800000, .i32⟩
  | 110 => ⟨S800000, .i1⟩
  | 111 => ⟨S_, .i32⟩
  | 112 => ⟨S800000, .i32⟩
  | 113 => ⟨S800000, .i32⟩
  | 114 => ⟨S800000, .i32⟩
  | 115 => ⟨S800000x1, .i32⟩
  | 116 => ⟨S800000x128, .f32⟩
  | 117 => ⟨S800000x1, .f32⟩
  | 118 => ⟨S800000x128, .f32⟩
  | 119 => ⟨S800000x128, .f32⟩
  | 120 => ⟨S_, .f32⟩
  | 121 => ⟨S50000x128, .f32⟩
  | 122 => ⟨S800000x1, .i32⟩
  | 123 => ⟨S50000x128, .f32⟩
  | 124 => ⟨S50000x1, .f32⟩
  | 125 => ⟨S50000x128, .f32⟩
  | 126 => ⟨S50000x128, .f32⟩
  | 127 => ⟨S50000x128, .f32⟩
  | _ => ⟨S50000x128, .f32⟩

abbrev hbmTy0_1 (i : Nat) : BufTy := match i % 128 with
  | 0 => ⟨S1x128, .f32⟩
  | 1 => ⟨S128, .f32⟩
  | 2 => ⟨S1x128, .f32⟩
  | 3 => ⟨S50000x128, .f32⟩
  | 4 => ⟨S50000x128, .f32⟩
  | 5 => ⟨S_, .f32⟩
  | 6 => ⟨S128, .f32⟩
  | 7 => ⟨S_, .f32⟩
  | 8 => ⟨S128, .f32⟩
  | 9 => ⟨S128, .f32⟩
  | 10 => ⟨S1x128, .f32⟩
  | 11 => ⟨S50000x128, .f32⟩
  | 12 => ⟨S50000x128, .f32⟩
  | 13 => ⟨S50000x128, .f32⟩
  | 14 => ⟨S_, .f32⟩
  | 15 => ⟨S128, .f32⟩
  | 16 => ⟨S_, .f32⟩
  | 17 => ⟨S128, .f32⟩
  | 18 => ⟨S128, .f32⟩
  | 19 => ⟨S1x128, .f32⟩
  | 20 => ⟨S128, .f32⟩
  | 21 => ⟨S1x128, .f32⟩
  | 22 => ⟨S50000x128, .f32⟩
  | 23 => ⟨S50000x128, .f32⟩
  | 24 => ⟨S1x128, .f32⟩
  | 25 => ⟨S50000x128, .f32⟩
  | 26 => ⟨S50000x128, .f32⟩
  | 27 => ⟨S_, .f32⟩
  | 28 => ⟨S128, .f32⟩
  | 29 => ⟨S128, .f32⟩
  | 30 => ⟨S128, .f32⟩
  | 31 => ⟨S1x128, .f32⟩
  | 32 => ⟨S50000x128, .f32⟩
  | 33 => ⟨S50000x128, .f32⟩
  | 34 => ⟨S1x128, .f32⟩
  | 35 => ⟨S128, .f32⟩
  | 36 => ⟨S1x128, .f32⟩
  | 37 => ⟨S50000x128, .f32⟩
  | 38 => ⟨S50000x128, .f32⟩
  | 39 => ⟨S_, .f32⟩
  | 40 => ⟨S50000x128, .f32⟩
  | 41 => ⟨S50000x128, .f32⟩
  | 42 => ⟨S50000x128, .f32⟩
  | 43 => ⟨S1x128x128, .f32⟩
  | 44 => ⟨S128x128, .f32⟩
  | 45 => ⟨S50000x128, .f32⟩
  | 46 => ⟨S_, .i32⟩
  | 47 => ⟨S800000, .i32⟩
  | 48 => ⟨S800000, .i1⟩
  | 49 => ⟨S_, .i32⟩
  | 50 => ⟨S800000, .i32⟩
  | 51 => ⟨S800000, .i32⟩
  | 52 => ⟨S800000, .i32⟩
  | 53 => ⟨S800000x1, .i32⟩
  | 54 => ⟨S800000x128, .f32⟩
  | 55 => ⟨S800000x1, .f32⟩
  | 56 => ⟨S800000x128, .f32⟩
  | 57 => ⟨S800000x128, .f32⟩
  | 58 => ⟨S_, .f32⟩
  | 59 => ⟨S50000x128, .f32⟩
  | 60 => ⟨S800000x1, .i32⟩
  | 61 => ⟨S50000x128, .f32⟩
  | 62 => ⟨S50000x1, .f32⟩
  | 63 => ⟨S50000x128, .f32⟩
  | 64 => ⟨S50000x128, .f32⟩
  | 65 => ⟨S50000x128, .f32⟩
  | 66 => ⟨S1x128, .f32⟩
  | 67 => ⟨S128, .f32⟩
  | 68 => ⟨S1x128, .f32⟩
  | 69 => ⟨S50000x128, .f32⟩
  | 70 => ⟨S50000x128, .f32⟩
  | 71 => ⟨S_, .f32⟩
  | 72 => ⟨S128, .f32⟩
  | 73 => ⟨S_, .f32⟩
  | 74 => ⟨S128, .f32⟩
  | 75 => ⟨S128, .f32⟩
  | 76 => ⟨S1x128, .f32⟩
  | 77 => ⟨S50000x128, .f32⟩
  | 78 => ⟨S50000x128, .f32⟩
  | 79 => ⟨S50000x128, .f32⟩
  | 80 => ⟨S_, .f32⟩
  | 81 => ⟨S128, .f32⟩
  | 82 => ⟨S_, .f32⟩
  | 83 => ⟨S128, .f32⟩
  | 84 => ⟨S128, .f32⟩
  | 85 => ⟨S1x128, .f32⟩
  | 86 => ⟨S128, .f32⟩
  | 87 => ⟨S1x128, .f32⟩
  | 88 => ⟨S50000x128, .f32⟩
  | 89 => ⟨S50000x128, .f32⟩
  | 90 => ⟨S1x128, .f32⟩
  | 91 => ⟨S50000x128, .f32⟩
  | 92 => ⟨S50000x128, .f32⟩
  | 93 => ⟨S_, .f32⟩
  | 94 => ⟨S128, .f32⟩
  | 95 => ⟨S128, .f32⟩
  | 96 => ⟨S128, .f32⟩
  | 97 => ⟨S1x128, .f32⟩
  | 98 => ⟨S50000x128, .f32⟩
  | 99 => ⟨S50000x128, .f32⟩
  | 100 => ⟨S1x128, .f32⟩
  | 101 => ⟨S128, .f32⟩
  | 102 => ⟨S1x128, .f32⟩
  | 103 => ⟨S50000x128, .f32⟩
  | 104 => ⟨S50000x128, .f32⟩
  | 105 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_8 : Ref sig .tc := ⟨.hbm, 68, rfl⟩
abbrev main_v52 : Ref sig .tc := ⟨.hbm, 69, rfl⟩
abbrev main_cst_9 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_cst_10 : Ref sig .tc := ⟨.hbm, 77, rfl⟩
abbrev main_v59 : Ref sig .tc := ⟨.hbm, 78, rfl⟩
abbrev main_cst_11 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_cst_12 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_call0_cst : Ref sig .tc := ⟨.hbm, 102, rfl⟩
abbrev main_call0_v0 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_c_13 : Ref sig .tc := ⟨.hbm, 108, rfl⟩
abbrev main_v85 : Ref sig .tc := ⟨.hbm, 109, rfl⟩
abbrev main_v86 : Ref sig .tc := ⟨.hbm, 110, rfl⟩
abbrev main_c_14 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_cst_15 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_cst_16 : Ref sig .tc := ⟨.hbm, 133, rfl⟩
abbrev main_v107 : Ref sig .tc := ⟨.hbm, 134, rfl⟩
abbrev main_cst_17 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_cst_18 : Ref sig .tc := ⟨.hbm, 142, rfl⟩
abbrev main_v114 : Ref sig .tc := ⟨.hbm, 143, rfl⟩
abbrev main_cst_19 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_cst_20 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_call1_cst : Ref sig .tc := ⟨.hbm, 167, rfl⟩
abbrev main_call1_v0 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩
abbrev main_c_21 : Ref sig .tc := ⟨.hbm, 174, rfl⟩
abbrev main_v141 : Ref sig .tc := ⟨.hbm, 175, rfl⟩
abbrev main_v142 : Ref sig .tc := ⟨.hbm, 176, rfl⟩
abbrev main_c_22 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_v150 : Ref sig .tc := ⟨.hbm, 185, rfl⟩
abbrev main_cst_23 : Ref sig .tc := ⟨.hbm, 186, rfl⟩
abbrev main_v151 : Ref sig .tc := ⟨.hbm, 187, rfl⟩
abbrev main_v152 : Ref sig .tc := ⟨.hbm, 188, rfl⟩
abbrev main_v153 : Ref sig .tc := ⟨.hbm, 189, rfl⟩
abbrev main_v154 : Ref sig .tc := ⟨.hbm, 190, rfl⟩
abbrev main_v155 : Ref sig .tc := ⟨.hbm, 191, rfl⟩
abbrev main_v156 : Ref sig .tc := ⟨.hbm, 192, rfl⟩
abbrev main_v157 : Ref sig .tc := ⟨.hbm, 193, rfl⟩
abbrev main_v158 : Ref sig .tc := ⟨.hbm, 194, rfl⟩
abbrev main_v159 : Ref sig .tc := ⟨.hbm, 195, rfl⟩
abbrev main_v160 : Ref sig .tc := ⟨.hbm, 196, rfl⟩
abbrev main_v161 : Ref sig .tc := ⟨.hbm, 197, rfl⟩
abbrev main_v162 : Ref sig .tc := ⟨.hbm, 198, rfl⟩
abbrev main_cst_24 : Ref sig .tc := ⟨.hbm, 199, rfl⟩
abbrev main_v163 : Ref sig .tc := ⟨.hbm, 200, rfl⟩
abbrev main_cst_25 : Ref sig .tc := ⟨.hbm, 201, rfl⟩
abbrev main_v164 : Ref sig .tc := ⟨.hbm, 202, rfl⟩
abbrev main_v165 : Ref sig .tc := ⟨.hbm, 203, rfl⟩
abbrev main_v166 : Ref sig .tc := ⟨.hbm, 204, rfl⟩
abbrev main_v167 : Ref sig .tc := ⟨.hbm, 205, rfl⟩
abbrev main_v168 : Ref sig .tc := ⟨.hbm, 206, rfl⟩
abbrev main_v169 : Ref sig .tc := ⟨.hbm, 207, rfl⟩
abbrev main_cst_26 : Ref sig .tc := ⟨.hbm, 208, rfl⟩
abbrev main_v170 : Ref sig .tc := ⟨.hbm, 209, rfl⟩
abbrev main_cst_27 : Ref sig .tc := ⟨.hbm, 210, rfl⟩
abbrev main_v171 : Ref sig .tc := ⟨.hbm, 211, rfl⟩
abbrev main_v172 : Ref sig .tc := ⟨.hbm, 212, rfl⟩
abbrev main_v173 : Ref sig .tc := ⟨.hbm, 213, rfl⟩
abbrev main_v174 : Ref sig .tc := ⟨.hbm, 214, rfl⟩
abbrev main_v175 : Ref sig .tc := ⟨.hbm, 215, rfl⟩
abbrev main_v176 : Ref sig .tc := ⟨.hbm, 216, rfl⟩
abbrev main_v177 : Ref sig .tc := ⟨.hbm, 217, rfl⟩
abbrev main_v178 : Ref sig .tc := ⟨.hbm, 218, rfl⟩
abbrev main_v179 : Ref sig .tc := ⟨.hbm, 219, rfl⟩
abbrev main_v180 : Ref sig .tc := ⟨.hbm, 220, rfl⟩
abbrev main_cst_28 : Ref sig .tc := ⟨.hbm, 221, rfl⟩
abbrev main_v181 : Ref sig .tc := ⟨.hbm, 222, rfl⟩
abbrev main_v182 : Ref sig .tc := ⟨.hbm, 223, rfl⟩
abbrev main_v183 : Ref sig .tc := ⟨.hbm, 224, rfl⟩
abbrev main_v184 : Ref sig .tc := ⟨.hbm, 225, rfl⟩
abbrev main_v185 : Ref sig .tc := ⟨.hbm, 226, rfl⟩
abbrev main_v186 : Ref sig .tc := ⟨.hbm, 227, rfl⟩
abbrev main_v187 : Ref sig .tc := ⟨.hbm, 228, rfl⟩
abbrev main_v188 : Ref sig .tc := ⟨.hbm, 229, rfl⟩
abbrev main_v189 : Ref sig .tc := ⟨.hbm, 230, rfl⟩
abbrev main_v190 : Ref sig .tc := ⟨.hbm, 231, rfl⟩
abbrev main_v191 : Ref sig .tc := ⟨.hbm, 232, rfl⟩
abbrev main_v192 : Ref sig .tc := ⟨.hbm, 233, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  slices_S3x128x128_S1x128x128_0_0_0 : S3x128x128.Slices ![0, 0, 0] S1x128x128
  shapeCasts_S1x128x128_S128x128 : S1x128x128.ShapeCasts S128x128
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.FrMat.lean ====
/- The frame halves of the three matrix-product regions (regions 0, 3, 6): per region, at the buffer contents `V` the
   region is entered with, each window's block at a grid point, what the body leaves in the output window's buffer
   (one whole store of the product), the body's triple, the pipeline's proof data and the body obligation. The three
   regions run the same kernel text on their own windows. -/
import proofs.«135670_j59253368815959_1_alg».proof.Proof.Gen.KernelIdeal.Launch
import proofs.«135670_j59253368815959_1_alg».proof.Proof.Gen.KernelIdeal.Skeleton
import proofs.«135670_j59253368815959_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when a region is entered: the parameter every region's half is stated at
variable (V : (c : Dev nD) → (b : Ref sig .tc) → Buf (Elt F) ((c : Thread nD τ).loc b))

/-! # REGION 0: the matrix product of a row block with the weight matrix, at the entry contents `V` -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the row block) holds its block at every point, for any proof data whose array is `V`'s and
    whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the weight matrix, fetched once: its block index never moves) holds its block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_0 : Rect S5000x128 := Rect.unit (s := S5000x128) ![0, 0] S5000x128.size inb_S5000x128_S5000x128_0_0
abbrev r0_1 : Rect S128x128 := Rect.unit (s := S128x128) ![0, 0] S128x128.size inb_S128x128_S128x128_0_0

/-- The output window's buffer after the body: one store of the whole buffer, the product of the row block
    (rounded to bf16) with the weight matrix (rounded to bf16), accumulated in f32. -/
def out0_2 (x0 : Vec F S5000x128 .f32) (x1 : Vec F S128x128 .f32) : Vec F S5000x128 .f32 :=
  View.canon [⟨r0_0, k0_pay1 (View.ld x0 r0_0) (View.ld x1 r0_1)⟩]

/-- The one store is the whole buffer, so it covers it. -/
theorem cover0_2 (p0 : Vec F S5000x128 .f32) (y : S5000x128.Idx) :
    ∃ pc ∈ ([⟨r0_0, p0⟩] : List (View.Piece (Elt F) S5000x128 .f32)), y ∈ pc.1.set :=
  View.cover_of_tiled [⟨r0_0, p0⟩] S5000x128.size (by rfl) y

set_option maxHeartbeats 1000000 in
/-- The body on whole staging memrefs, the two inputs' at contents `x0`, `x1` and the output's at anything (the body
    reads the output buffer before it overwrites it whole; the value read is unused), leaves the inputs as they were
    and the output at `out0_2 x0 x1`. -/
theorem sound_kernel0 (c : Dev nD) (E : Set ℕ) (i : grid0.Coords) (arg1 : Memref sig .tc .vmem S5000x128 .f32) (harg1 : arg1.IsWhole)
    (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them; after the body each input's
    buffer at its block and the output's at `out0_2` of the input blocks; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! # REGION 3: the matrix product of a row block with the weight matrix, at the entry contents `V` -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0 (the row block) holds its block at every point, for any proof data whose array is `V`'s and
    whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1 (the weight matrix, fetched once: its block index never moves) holds its block at every point. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each buffer whole -/

abbrev r3_0 : Rect S5000x128 := Rect.unit (s := S5000x128) ![0, 0] S5000x128.size inb_S5000x128_S5000x128_0_0
abbrev r3_1 : Rect S128x128 := Rect.unit (s := S128x128) ![0, 0] S128x128.size inb_S128x128_S128x128_0_0

/-- The output window's buffer after the body: one store of the whole buffer, the product of the row block
    (rounded to bf16) with the weight matrix (rounded to bf16), accumulated in f32. -/
def out3_2 (x0 : Vec F S5000x128 .f32) (x1 : Vec F S128x128 .f32) : Vec F S5000x128 .f32 :=
  View.canon [⟨r3_0, k3_pay1 (View.ld x0 r3_0) (View.ld x1 r3_1)⟩]

/-- The one store is the whole buffer, so it covers it. -/
theorem cover3_2 (p0 : Vec F S5000x128 .f32) (y : S5000x128.Idx) :
    ∃ pc ∈ ([⟨r3_0, p0⟩] : List (View.Piece (Elt F) S5000x128 .f32)), y ∈ pc.1.set :=
  View.cover_of_tiled [⟨r3_0, p0⟩] S5000x128.size (by rfl) y

set_option maxHeartbeats 1000000 in
/-- The body on whole staging memrefs, the two inputs' at contents `x0`, `x1` and the output's at anything (the body
    reads the output buffer before it overwrites it whole; the value read is unused), leaves the inputs as they were
    and the output at `out3_2 x0 x1`. -/
theorem sound_kernel3 (c : Dev nD) (E : Set ℕ) (i : grid3.Coords) (arg1 : Memref sig .tc .vmem S5000x128 .f32) (harg1 : arg1.IsWhole)
    (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out3_2 x0 x1)) -∗ K ⟨⟩))
      ⊢ wp frame (wpE (defs₀ (F := F)) Variants.none c none) E (cc3__matmul_kernel i arg1 harg1 arg2 harg2 arg3 harg3) K := by
  simp only [cc3__matmul_kernel_eq_skeleton]; unfold cc3__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The pipeline's proof data -/

/-- The proof data of pipeline 3 on core `c`: the arrays as the region finds them; after the body each input's
    buffer at its block and the output's at `out3_2` of the input blocks; the invariant the scoped rest and the
    generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' memrefs hold their blocks, so `sound_kernel3` applies; the invariant and the
    core's debts pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

/-! # REGION 6: the matrix product of a row block with the weight matrix, at the entry contents `V` -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0 (the row block) holds its block at every point, for any proof data whose array is `V`'s and
    whose body leaves the block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1 (the weight matrix, fetched once: its block index never moves) holds its block at every point. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: each buffer whole -/

abbrev r6_0 : Rect S5000x128 := Rect.unit (s := S5000x128) ![0, 0] S5000x128.size inb_S5000x128_S5000x128_0_0
abbrev r6_1 : Rect S128x128 := Rect.unit (s := S128x128) ![0, 0] S128x128.size inb_S128x128_S128x128_0_0

/-- The output window's buffer after the body: one store of the whole buffer, the product of the row block
    (rounded to bf16) with the weight matrix (rounded to bf16), accumulated in f32. -/
def out6_2 (x0 : Vec F S5000x128 .f32) (x1 : Vec F S128x128 .f32) : Vec F S5000x128 .f32 :=
  View.canon [⟨r6_0, k6_pay1 (View.ld x0 r6_0) (View.ld x1 r6_1)⟩]

/-- The one store is the whole buffer, so it covers it. -/
theorem cover6_2 (p0 : Vec F S5000x128 .f32) (y : S5000x128.Idx) :
    ∃ pc ∈ ([⟨r6_0, p0⟩] : List (View.Piece (Elt F) S5000x128 .f32)), y ∈ pc.1.set :=
  View.cover_of_tiled [⟨r6_0, p0⟩] S5000x128.size (by rfl) y

set_option maxHeartbeats 1000000 in
/-- The body on whole staging memrefs, the two inputs' at contents `x0`, `x1` and the output's at anything (the body
    reads the output buffer before it overwrites it whole; the value read is unused), leaves the inputs as they were
    and the output at `out6_2 x0 x1`. -/
theorem sound_kernel6 (c : Dev nD) (E : Set ℕ) (i : grid6.Coords) (arg1 : Memref sig .tc .vmem S5000x128 .f32) (harg1 : arg1.IsWhole)
    (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out6_2 x0 x1)) -∗ K ⟨⟩))
      ⊢ wp frame (wpE (defs₀ (F := F)) Variants.none c none) E (cc6__matmul_kernel i arg1 harg1 arg2 harg2 arg3 harg3) K := by
  simp only [cc6__matmul_kernel_eq_skeleton]; unfold cc6__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover6_2 _)

/-! ## The pipeline's proof data -/

/-- The proof data of pipeline 6 on core `c`: the arrays as the region finds them; after the body each input's
    buffer at its block and the output's at `out6_2` of the input blocks; the invariant the scoped rest and the
    generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = out6_2 (iblk6 V c 0 t) (iblk6 V c 1 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

/-! ## The body obligation, at a generic point -/

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

/-- The body at any point: the inputs' memrefs hold their blocks, so `sound_kernel6` applies; the invariant and the
    core's debts pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).Φ t.succ = (dat6 V c).Φ t.castSucc from rfl,
    show (dat6 V c).owesAt () t.succ = (dat6 V c).owesAt () t.castSucc from rfl,
    after6_0, after6_1, after6_2]
  iintro ⟨HΦ, Ho, ⟨%d0, H0⟩, ⟨%d1, H1⟩, ⟨%d2, H2⟩⟩
  iapply (sound_kernel6 c Set.univ _ _ _ _ _ _ _ (iblk6 V c 0 t) (iblk6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Fr
-- ==== Proof.FrNorm.lean ====
/- The frame halves of the three normalize regions (regions 2, 5, 8): per region, at the buffer contents `V` the region
   is entered with, each window's block at a grid point, what the body leaves in the output window's buffer (one whole
   store), the body's triple, the pipeline's proof data and the body obligation. Nine input windows and one output
   window each; region 2 does not read its ninth input; region 5's body computes its stored value in a separate
   function, opened in place; region 8 does not rectify. -/
import proofs.«135670_j59253368815959_1_alg».proof.Proof.Gen.KernelIdeal.Launch
import proofs.«135670_j59253368815959_1_alg».proof.Proof.Gen.KernelIdeal.Skeleton
import proofs.«135670_j59253368815959_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when a region is entered: the parameter every region's half is stated at
variable (V : (c : Dev nD) → (b : Ref sig .tc) → Buf (Elt F) ((c : Thread nD τ).loc b))

/-! # REGION 2: the normalize kernel on a row block, at the entry contents `V` -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 holds its block at every point, fetched there or not (unfetched, its block index has not moved),
    for any proof data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1 holds its block at every point, fetched there or not (unfetched, its block index has not moved),
    for any proof data whose array is `V`'s and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2 holds its block at every point, fetched there or not (unfetched, its block index has not moved),
    for any proof data whose array is `V`'s and whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3 holds its block at every point, fetched there or not (unfetched, its block index has not moved),
    for any proof data whose array is `V`'s and whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4 holds its block at every point, fetched there or not (unfetched, its block index has not moved),
    for any proof data whose array is `V`'s and whose body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5 holds its block at every point, fetched there or not (unfetched, its block index has not moved),
    for any proof data whose array is `V`'s and whose body leaves the block in place. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6 holds its block at every point, fetched there or not (unfetched, its block index has not moved),
    for any proof data whose array is `V`'s and whose body leaves the block in place. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- Input window 7 holds its block at every point, fetched there or not (unfetched, its block index has not moved),
    for any proof data whose array is `V`'s and whose body leaves the block in place. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-- Input window 8 holds its block at every point, fetched there or not (unfetched, its block index has not moved),
    for any proof data whose array is `V`'s and whose body leaves the block in place. -/
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer whole -/

abbrev r2_0 : Rect S5000x128 := Rect.unit (s := S5000x128) ![0, 0] S5000x128.size inb_S5000x128_S5000x128_0_0
abbrev r2_1 : Rect S5000x1 := Rect.unit (s := S5000x1) ![0, 0] S5000x1.size inb_S5000x1_S5000x1_0_0
abbrev r2_2 : Rect S1x128 := Rect.unit (s := S1x128) ![0, 0] S1x128.size inb_S1x128_S1x128_0_0

/-- The output window's buffer after the body, from the nine input windows' blocks in window order (the ninth is not read): one
    store of the whole buffer, elementwise `max (x6 · (((x0 + x2 · x1 + x3) − x4) · rsqrt (x5 + ε)) + x7) 0`, the column `x2` and the rows
    `x3 … x7` broadcast to the block, `ε` the f32 constant `0x3727C5AC`. -/
def out2_9 (x0 : Vec F S5000x128 .f32) (x1 : Vec F S5000x128 .f32) (x2 : Vec F S5000x1 .f32) (x3 : Vec F S1x128 .f32) (x4 : Vec F S1x128 .f32) (x5 : Vec F S1x128 .f32) (x6 : Vec F S1x128 .f32) (x7 : Vec F S1x128 .f32) (x8 : Vec F S5000x128 .f32) : Vec F S5000x128 .f32 :=
  View.canon [⟨r2_0, k2_pay1 (View.ld x0 r2_0) (View.ld x2 r2_1) (View.ld x1 r2_0) (View.ld x3 r2_2) (View.ld x4 r2_2) (View.ld x5 r2_2) (View.ld x6 r2_2) (View.ld x7 r2_2)⟩]

/-- The one store is the whole buffer, so it covers it. -/
theorem cover2_9 (p0 : Vec F S5000x128 .f32) (y : S5000x128.Idx) :
    ∃ pc ∈ ([⟨r2_0, p0⟩] : List (View.Piece (Elt F) S5000x128 .f32)), y ∈ pc.1.set :=
  View.cover_of_tiled [⟨r2_0, p0⟩] S5000x128.size (by rfl) y

set_option maxHeartbeats 4000000 in
/-- The body on whole staging memrefs, the nine inputs' at contents `x0 … x8` and the output's at anything (the body
    reads the output buffer before it overwrites it whole; the value read is unused), leaves the inputs as they were
    and the output at `out2_9` of the inputs'. -/
theorem sound_kernel2 (c : Dev nD) (E : Set ℕ) (i : grid2.Coords)
    (arg1 : Memref sig .tc .vmem S5000x128 .f32) (harg1 : arg1.IsWhole)
    (arg2 : Memref sig .tc .vmem S5000x128 .f32) (harg2 : arg2.IsWhole)
    (arg3 : Memref sig .tc .vmem S5000x1 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S1x128 .f32) (harg6 : arg6.IsWhole)
    (arg7 : Memref sig .tc .vmem S1x128 .f32) (harg7 : arg7.IsWhole)
    (arg8 : Memref sig .tc .vmem S1x128 .f32) (harg8 : arg8.IsWhole)
    (arg9 : Memref sig .tc .vmem S5000x128 .f32) (harg9 : arg9.IsWhole)
    (arg10 : Memref sig .tc .vmem S5000x128 .f32) (harg10 : arg10.IsWhole)
    (x0 : Vec F S5000x128 .f32) (x1 : Vec F S5000x128 .f32) (x2 : Vec F S5000x1 .f32) (x3 : Vec F S1x128 .f32) (x4 : Vec F S1x128 .f32) (x5 : Vec F S1x128 .f32) (x6 : Vec F S1x128 .f32) (x7 : Vec F S1x128 .f32) (x8 : Vec F S5000x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
            ∗ owns (c : Thread nD τ) arg10 fullShare (out2_9 x0 x1 x2 x3 x4 x5 x6 x7 x8)) -∗ K ⟨⟩))
      ⊢ wp frame (wpE (defs₀ (F := F)) Variants.none c none) E (cc2__normalize_kernel i arg1 harg1 arg2 harg2 arg3 harg3 arg4 harg4 arg5 harg5 arg6 harg6 arg7 harg7 arg8 harg8 arg9 harg9 arg10 harg10) K := by
  simp only [cc2__normalize_kernel_eq_skeleton]; unfold cc2__normalize_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0
  subst hf1
  subst hf2
  subst hf3
  subst hf4
  subst hf5
  subst hf6
  subst hf7
  subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover2_9 _)

/-! ## The pipeline's proof data -/

/-- The proof data of pipeline 2 on core `c`: the arrays as the region finds them; after the body each input's
    buffer at its block and the output's at `out2_9` of the input blocks; the invariant the scoped rest and the
    generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => out2_9 (iblk2 V c 0 t) (iblk2 V c 1 t) (iblk2 V c 2 t) (iblk2 V c 3 t) (iblk2 V c 4 t) (iblk2 V c 5 t) (iblk2 V c 6 t) (iblk2 V c 7 t) (iblk2 V c 8 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = out2_9 (iblk2 V c 0 t) (iblk2 V c 1 t) (iblk2 V c 2 t) (iblk2 V c 3 t) (iblk2 V c 4 t) (iblk2 V c 5 t) (iblk2 V c 6 t) (iblk2 V c 7 t) (iblk2 V c 8 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t))

/-- The body at any point: the inputs' memrefs hold their blocks, so `sound_kernel2` applies; the invariant and the
    core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel2 c Set.univ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! # REGION 5: the normalize kernel on a row block, at the entry contents `V` -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0 holds its block at every point, fetched there or not (unfetched, its block index has not moved),
    for any proof data whose array is `V`'s and whose body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1 holds its block at every point, fetched there or not (unfetched, its block index has not moved),
    for any proof data whose array is `V`'s and whose body leaves the block in place. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2 holds its block at every point, fetched there or not (unfetched, its block index has not moved),
    for any proof data whose array is `V`'s and whose body leaves the block in place. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3 holds its block at every point, fetched there or not (unfetched, its block index has not moved),
    for any proof data whose array is `V`'s and whose body leaves the block in place. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4 holds its block at every point, fetched there or not (unfetched, its block index has not moved),
    for any proof data whose array is `V`'s and whose body leaves the block in place. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- Input window 5 holds its block at every point, fetched there or not (unfetched, its block index has not moved),
    for any proof data whose array is `V`'s and whose body leaves the block in place. -/
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

/-- Input window 6 holds its block at every point, fetched there or not (unfetched, its block index has not moved),
    for any proof data whose array is `V`'s and whose body leaves the block in place. -/
theorem before5_6_of {c : Dev nD} (dat : Dat τ (Elt F) Unit ℕ (UR sig nD τ) ℕ cfg5 c) (hA : dat.A 6 = V c (Pipeline.arrRef spec5 6))
    (hafter : ∀ t, dat.after 6 t = iblk5 V c 6 t) (t : Fin cfg5.N) (d) : dat.before 6 t d = iblk5 V c 6 t :=
  (dat.before_in_eq_fetched 6 rfl (fun _ => rfl) (fun _ _ _ => rfl) (fun t => by rw [hafter]; unfold Dat.blockOf iblk5; rw [hA]; try rfl) t d).trans
    (by unfold Dat.fetched Dat.blockOf iblk5; rw [hA]; try rfl)

/-- Input window 7 holds its block at every point, fetched there or not (unfetched, its block index has not moved),
    for any proof data whose array is `V`'s and whose body leaves the block in place. -/
theorem before5_7_of {c : Dev nD} (dat : Dat τ (Elt F) Unit ℕ (UR sig nD τ) ℕ cfg5 c) (hA : dat.A 7 = V c (Pipeline.arrRef spec5 7))
    (hafter : ∀ t, dat.after 7 t = iblk5 V c 7 t) (t : Fin cfg5.N) (d) : dat.before 7 t d = iblk5 V c 7 t :=
  (dat.before_in_eq_fetched 7 rfl (fun _ => rfl) (fun _ _ _ => rfl) (fun t => by rw [hafter]; unfold Dat.blockOf iblk5; rw [hA]; try rfl) t d).trans
    (by unfold Dat.fetched Dat.blockOf iblk5; rw [hA]; try rfl)

/-- Input window 8 holds its block at every point, fetched there or not (unfetched, its block index has not moved),
    for any proof data whose array is `V`'s and whose body leaves the block in place. -/
theorem before5_8_of {c : Dev nD} (dat : Dat τ (Elt F) Unit ℕ (UR sig nD τ) ℕ cfg5 c) (hA : dat.A 8 = V c (Pipeline.arrRef spec5 8))
    (hafter : ∀ t, dat.after 8 t = iblk5 V c 8 t) (t : Fin cfg5.N) (d) : dat.before 8 t d = iblk5 V c 8 t :=
  (dat.before_in_eq_fetched 8 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: each buffer whole -/

abbrev r5_0 : Rect S5000x128 := Rect.unit (s := S5000x128) ![0, 0] S5000x128.size inb_S5000x128_S5000x128_0_0
abbrev r5_1 : Rect S5000x1 := Rect.unit (s := S5000x1) ![0, 0] S5000x1.size inb_S5000x1_S5000x1_0_0
abbrev r5_2 : Rect S1x128 := Rect.unit (s := S1x128) ![0, 0] S1x128.size inb_S1x128_S1x128_0_0

/-- The output window's buffer after the body, from the nine input windows' blocks in window order: one
    store of the whole buffer, elementwise `max (x6 · (((x0 + x2 · x1 + x3) − x4) · rsqrt (x5 + ε)) + x7) 0 + x8`, the column `x2` and the rows
    `x3 … x7` broadcast to the block, `ε` the f32 constant `0x3727C5AC`. -/
def out5_9 (x0 : Vec F S5000x128 .f32) (x1 : Vec F S5000x128 .f32) (x2 : Vec F S5000x1 .f32) (x3 : Vec F S1x128 .f32) (x4 : Vec F S1x128 .f32) (x5 : Vec F S1x128 .f32) (x6 : Vec F S1x128 .f32) (x7 : Vec F S1x128 .f32) (x8 : Vec F S5000x128 .f32) : Vec F S5000x128 .f32 :=
  View.canon [⟨r5_0, k5_pay1 (View.ld x0 r5_0) (View.ld x2 r5_1) (View.ld x1 r5_0) (View.ld x3 r5_2) (View.ld x4 r5_2) (View.ld x5 r5_2) (View.ld x6 r5_2) (View.ld x7 r5_2) (View.ld x8 r5_0)⟩]

/-- The one store is the whole buffer, so it covers it. -/
theorem cover5_9 (p0 : Vec F S5000x128 .f32) (y : S5000x128.Idx) :
    ∃ pc ∈ ([⟨r5_0, p0⟩] : List (View.Piece (Elt F) S5000x128 .f32)), y ∈ pc.1.set :=
  View.cover_of_tiled [⟨r5_0, p0⟩] S5000x128.size (by rfl) y

set_option maxHeartbeats 4000000 in
/-- The body on whole staging memrefs, the nine inputs' at contents `x0 … x8` and the output's at anything (the body
    reads the output buffer before it overwrites it whole; the value read is unused), leaves the inputs as they were
    and the output at `out5_9` of the inputs'. -/
theorem sound_kernel5 (c : Dev nD) (E : Set ℕ) (i : grid5.Coords)
    (arg1 : Memref sig .tc .vmem S5000x128 .f32) (harg1 : arg1.IsWhole)
    (arg2 : Memref sig .tc .vmem S5000x128 .f32) (harg2 : arg2.IsWhole)
    (arg3 : Memref sig .tc .vmem S5000x1 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S1x128 .f32) (harg6 : arg6.IsWhole)
    (arg7 : Memref sig .tc .vmem S1x128 .f32) (harg7 : arg7.IsWhole)
    (arg8 : Memref sig .tc .vmem S1x128 .f32) (harg8 : arg8.IsWhole)
    (arg9 : Memref sig .tc .vmem S5000x128 .f32) (harg9 : arg9.IsWhole)
    (arg10 : Memref sig .tc .vmem S5000x128 .f32) (harg10 : arg10.IsWhole)
    (x0 : Vec F S5000x128 .f32) (x1 : Vec F S5000x128 .f32) (x2 : Vec F S5000x1 .f32) (x3 : Vec F S1x128 .f32) (x4 : Vec F S1x128 .f32) (x5 : Vec F S1x128 .f32) (x6 : Vec F S1x128 .f32) (x7 : Vec F S1x128 .f32) (x8 : Vec F S5000x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
            ∗ owns (c : Thread nD τ) arg10 fullShare (out5_9 x0 x1 x2 x3 x4 x5 x6 x7 x8)) -∗ K ⟨⟩))
      ⊢ wp frame (wpE (defs₀ (F := F)) Variants.none c none) E (cc5__normalize_kernel i arg1 harg1 arg2 harg2 arg3 harg3 arg4 harg4 arg5 harg5 arg6 harg6 arg7 harg7 arg8 harg8 arg9 harg9 arg10 harg10) K := by
  simp only [cc5__normalize_kernel_eq_skeleton]; unfold cc5__normalize_kernel_skel
  simp only [k5_part1_eq_skeleton]; unfold k5_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0
  subst hf1
  subst hf2
  subst hf3
  subst hf4
  subst hf5
  subst hf6
  subst hf7
  subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover5_9 _)

/-! ## The pipeline's proof data -/

/-- The proof data of pipeline 5 on core `c`: the arrays as the region finds them; after the body each input's
    buffer at its block and the output's at `out5_9` of the input blocks; the invariant the scoped rest and the
    generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => iblk5 V c 7 t
    | ⟨8, _⟩ => iblk5 V c 8 t
    | ⟨9, _⟩ => out5_9 (iblk5 V c 0 t) (iblk5 V c 1 t) (iblk5 V c 2 t) (iblk5 V c 3 t) (iblk5 V c 4 t) (iblk5 V c 5 t) (iblk5 V c 6 t) (iblk5 V c 7 t) (iblk5 V c 8 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t = iblk5 V c 7 t := by dsimp only [dat5]
theorem after5_8 (c : Dev nD) (t : Fin cfg5.N) : (dat5 V c).after 8 t = iblk5 V c 8 t := by dsimp only [dat5]
theorem after5_9 (c : Dev nD) (t : Fin cfg5.N) : (dat5 V c).after 9 t = out5_9 (iblk5 V c 0 t) (iblk5 V c 1 t) (iblk5 V c 2 t) (iblk5 V c 3 t) (iblk5 V c 4 t) (iblk5 V c 5 t) (iblk5 V c 6 t) (iblk5 V c 7 t) (iblk5 V c 8 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d
theorem before5_6 (c : Dev nD) (t : Fin cfg5.N) (d) : (dat5 V c).before 6 t d = iblk5 V c 6 t :=
  before5_6_of V (dat5 V c) (A_eq5 V c 6) (after5_6 V c) t d
theorem before5_7 (c : Dev nD) (t : Fin cfg5.N) (d) : (dat5 V c).before 7 t d = iblk5 V c 7 t :=
  before5_7_of V (dat5 V c) (A_eq5 V c 7) (after5_7 V c) t d
theorem before5_8 (c : Dev nD) (t : Fin cfg5.N) (d) : (dat5 V c).before 8 t d = iblk5 V c 8 t :=
  before5_8_of V (dat5 V c) (A_eq5 V c 8) (after5_8 V c) t d

/-! ## The body obligation, at a generic point -/

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d))
    ∗ (∃ d, owns (c : Thread nD τ) (st5_8 t) fullShare ((dat5 V c).before 8 t d))
    ∗ (∃ d, owns (c : Thread nD τ) (st5_9 t) fullShare ((dat5 V c).before 9 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t)
    ∗ owns (c : Thread nD τ) (st5_7 t) fullShare ((dat5 V c).after 7 t)
    ∗ owns (c : Thread nD τ) (st5_8 t) fullShare ((dat5 V c).after 8 t)
    ∗ owns (c : Thread nD τ) (st5_9 t) fullShare ((dat5 V c).after 9 t))

/-- The body at any point: the inputs' memrefs hold their blocks, so `sound_kernel5` applies; the invariant and the
    core's debts pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6, before5_7, before5_8]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6, after5_7, after5_8, after5_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel5 c Set.univ _ _ _ _ _ _ _ _ _ _ _ _ _ _ _ _ _ _ _ _ _ (iblk5 V c 0 t) (iblk5 V c 1 t) (iblk5 V c 2 t) (iblk5 V c 3 t) (iblk5 V c 4 t) (iblk5 V c 5 t) (iblk5 V c 6 t) (iblk5 V c 7 t) (iblk5 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation5 (c : Dev nD) : BodyObligation (dat5 (F := F) V c) (defs₀ (F := F)) Variants.none () Set.univ := fun t => by
  rw [bigSep_W5, bigSep_W5]
  exact sound_body5 V c t

/-! # REGION 8: the normalize kernel on a row block, at the entry contents `V` -/

/-- Window `w`'s block at point `t`, read off its array as the region finds it (`V`). -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0 holds its block at every point, fetched there or not (unfetched, its block index has not moved),
    for any proof data whose array is `V`'s and whose body leaves the block in place. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Input window 1 holds its block at every point, fetched there or not (unfetched, its block index has not moved),
    for any proof data whose array is `V`'s and whose body leaves the block in place. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- Input window 2 holds its block at every point, fetched there or not (unfetched, its block index has not moved),
    for any proof data whose array is `V`'s and whose body leaves the block in place. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-- Input window 3 holds its block at every point, fetched there or not (unfetched, its block index has not moved),
    for any proof data whose array is `V`'s and whose body leaves the block in place. -/
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

/-- Input window 4 holds its block at every point, fetched there or not (unfetched, its block index has not moved),
    for any proof data whose array is `V`'s and whose body leaves the block in place. -/
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)

/-- Input window 5 holds its block at every point, fetched there or not (unfetched, its block index has not moved),
    for any proof data whose array is `V`'s and whose body leaves the block in place. -/
theorem before8_5_of {c : Dev nD} (dat : Dat τ (Elt F) Unit ℕ (UR sig nD τ) ℕ cfg8 c) (hA : dat.A 5 = V c (Pipeline.arrRef spec8 5))
    (hafter : ∀ t, dat.after 5 t = iblk8 V c 5 t) (t : Fin cfg8.N) (d) : dat.before 5 t d = iblk8 V c 5 t :=
  (dat.before_in_eq_fetched 5 rfl (fun _ => rfl) (fun _ _ _ => rfl) (fun t => by rw [hafter]; unfold Dat.blockOf iblk8; rw [hA]; try rfl) t d).trans
    (by unfold Dat.fetched Dat.blockOf iblk8; rw [hA]; try rfl)

/-- Input window 6 holds its block at every point, fetched there or not (unfetched, its block index has not moved),
    for any proof data whose array is `V`'s and whose body leaves the block in place. -/
theorem before8_6_of {c : Dev nD} (dat : Dat τ (Elt F) Unit ℕ (UR sig nD τ) ℕ cfg8 c) (hA : dat.A 6 = V c (Pipeline.arrRef spec8 6))
    (hafter : ∀ t, dat.after 6 t = iblk8 V c 6 t) (t : Fin cfg8.N) (d) : dat.before 6 t d = iblk8 V c 6 t :=
  (dat.before_in_eq_fetched 6 rfl (fun _ => rfl) (fun _ _ _ => rfl) (fun t => by rw [hafter]; unfold Dat.blockOf iblk8; rw [hA]; try rfl) t d).trans
    (by unfold Dat.fetched Dat.blockOf iblk8; rw [hA]; try rfl)

/-- Input window 7 holds its block at every point, fetched there or not (unfetched, its block index has not moved),
    for any proof data whose array is `V`'s and whose body leaves the block in place. -/
theorem before8_7_of {c : Dev nD} (dat : Dat τ (Elt F) Unit ℕ (UR sig nD τ) ℕ cfg8 c) (hA : dat.A 7 = V c (Pipeline.arrRef spec8 7))
    (hafter : ∀ t, dat.after 7 t = iblk8 V c 7 t) (t : Fin cfg8.N) (d) : dat.before 7 t d = iblk8 V c 7 t :=
  (dat.before_in_eq_fetched 7 rfl (fun _ => rfl) (fun _ _ _ => rfl) (fun t => by rw [hafter]; unfold Dat.blockOf iblk8; rw [hA]; try rfl) t d).trans
    (by unfold Dat.fetched Dat.blockOf iblk8; rw [hA]; try rfl)

/-- Input window 8 holds its block at every point, fetched there or not (unfetched, its block index has not moved),
    for any proof data whose array is `V`'s and whose body leaves the block in place. -/
theorem before8_8_of {c : Dev nD} (dat : Dat τ (Elt F) Unit ℕ (UR sig nD τ) ℕ cfg8 c) (hA : dat.A 8 = V c (Pipeline.arrRef spec8 8))
    (hafter : ∀ t, dat.after 8 t = iblk8 V c 8 t) (t : Fin cfg8.N) (d) : dat.before 8 t d = iblk8 V c 8 t :=
  (dat.before_in_eq_fetched 8 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses: each buffer whole -/

abbrev r8_0 : Rect S5000x128 := Rect.unit (s := S5000x128) ![0, 0] S5000x128.size inb_S5000x128_S5000x128_0_0
abbrev r8_1 : Rect S5000x1 := Rect.unit (s := S5000x1) ![0, 0] S5000x1.size inb_S5000x1_S5000x1_0_0
abbrev r8_2 : Rect S1x128 := Rect.unit (s := S1x128) ![0, 0] S1x128.size inb_S1x128_S1x128_0_0

/-- The output window's buffer after the body, from the nine input windows' blocks in window order: one
    store of the whole buffer, elementwise `x6 · (((x0 + x2 · x1 + x3) − x4) · rsqrt (x5 + ε)) + x7 + x8`, the column `x2` and the rows
    `x3 … x7` broadcast to the block, `ε` the f32 constant `0x3727C5AC`. -/
def out8_9 (x0 : Vec F S5000x128 .f32) (x1 : Vec F S5000x128 .f32) (x2 : Vec F S5000x1 .f32) (x3 : Vec F S1x128 .f32) (x4 : Vec F S1x128 .f32) (x5 : Vec F S1x128 .f32) (x6 : Vec F S1x128 .f32) (x7 : Vec F S1x128 .f32) (x8 : Vec F S5000x128 .f32) : Vec F S5000x128 .f32 :=
  View.canon [⟨r8_0, k8_pay1 (View.ld x0 r8_0) (View.ld x2 r8_1) (View.ld x1 r8_0) (View.ld x3 r8_2) (View.ld x4 r8_2) (View.ld x5 r8_2) (View.ld x6 r8_2) (View.ld x7 r8_2) (View.ld x8 r8_0)⟩]

/-- The one store is the whole buffer, so it covers it. -/
theorem cover8_9 (p0 : Vec F S5000x128 .f32) (y : S5000x128.Idx) :
    ∃ pc ∈ ([⟨r8_0, p0⟩] : List (View.Piece (Elt F) S5000x128 .f32)), y ∈ pc.1.set :=
  View.cover_of_tiled [⟨r8_0, p0⟩] S5000x128.size (by rfl) y

set_option maxHeartbeats 4000000 in
/-- The body on whole staging memrefs, the nine inputs' at contents `x0 … x8` and the output's at anything (the body
    reads the output buffer before it overwrites it whole; the value read is unused), leaves the inputs as they were
    and the output at `out8_9` of the inputs'. -/
theorem sound_kernel8 (c : Dev nD) (E : Set ℕ) (i : grid8.Coords)
    (arg1 : Memref sig .tc .vmem S5000x128 .f32) (harg1 : arg1.IsWhole)
    (arg2 : Memref sig .tc .vmem S5000x128 .f32) (harg2 : arg2.IsWhole)
    (arg3 : Memref sig .tc .vmem S5000x1 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S1x128 .f32) (harg6 : arg6.IsWhole)
    (arg7 : Memref sig .tc .vmem S1x128 .f32) (harg7 : arg7.IsWhole)
    (arg8 : Memref sig .tc .vmem S1x128 .f32) (harg8 : arg8.IsWhole)
    (arg9 : Memref sig .tc .vmem S5000x128 .f32) (harg9 : arg9.IsWhole)
    (arg10 : Memref sig .tc .vmem S5000x128 .f32) (harg10 : arg10.IsWhole)
    (x0 : Vec F S5000x128 .f32) (x1 : Vec F S5000x128 .f32) (x2 : Vec F S5000x1 .f32) (x3 : Vec F S1x128 .f32) (x4 : Vec F S1x128 .f32) (x5 : Vec F S1x128 .f32) (x6 : Vec F S1x128 .f32) (x7 : Vec F S1x128 .f32) (x8 : Vec F S5000x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
            ∗ owns (c : Thread nD τ) arg10 fullShare (out8_9 x0 x1 x2 x3 x4 x5 x6 x7 x8)) -∗ K ⟨⟩))
      ⊢ wp frame (wpE (defs₀ (F := F)) Variants.none c none) E (cc8__normalize_kernel i arg1 harg1 arg2 harg2 arg3 harg3 arg4 harg4 arg5 harg5 arg6 harg6 arg7 harg7 arg8 harg8 arg9 harg9 arg10 harg10) K := by
  simp only [cc8__normalize_kernel_eq_skeleton]; unfold cc8__normalize_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0
  subst hf1
  subst hf2
  subst hf3
  subst hf4
  subst hf5
  subst hf6
  subst hf7
  subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover8_9 _)

/-! ## The pipeline's proof data -/

/-- The proof data of pipeline 8 on core `c`: the arrays as the region finds them; after the body each input's
    buffer at its block and the output's at `out8_9` of the input blocks; the invariant the scoped rest and the
    generator register, untouched; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => iblk8 V c 5 t
    | ⟨6, _⟩ => iblk8 V c 6 t
    | ⟨7, _⟩ => iblk8 V c 7 t
    | ⟨8, _⟩ => iblk8 V c 8 t
    | ⟨9, _⟩ => out8_9 (iblk8 V c 0 t) (iblk8 V c 1 t) (iblk8 V c 2 t) (iblk8 V c 3 t) (iblk8 V c 4 t) (iblk8 V c 5 t) (iblk8 V c 6 t) (iblk8 V c 7 t) (iblk8 V c 8 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = iblk8 V c 5 t := by dsimp only [dat8]
theorem after8_6 (c : Dev nD) (t : Fin cfg8.N) : (dat8 V c).after 6 t = iblk8 V c 6 t := by dsimp only [dat8]
theorem after8_7 (c : Dev nD) (t : Fin cfg8.N) : (dat8 V c).after 7 t = iblk8 V c 7 t := by dsimp only [dat8]
theorem after8_8 (c : Dev nD) (t : Fin cfg8.N) : (dat8 V c).after 8 t = iblk8 V c 8 t := by dsimp only [dat8]
theorem after8_9 (c : Dev nD) (t : Fin cfg8.N) : (dat8 V c).after 9 t = out8_9 (iblk8 V c 0 t) (iblk8 V c 1 t) (iblk8 V c 2 t) (iblk8 V c 3 t) (iblk8 V c 4 t) (iblk8 V c 5 t) (iblk8 V c 6 t) (iblk8 V c 7 t) (iblk8 V c 8 t) := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d
theorem before8_5 (c : Dev nD) (t : Fin cfg8.N) (d) : (dat8 V c).before 5 t d = iblk8 V c 5 t :=
  before8_5_of V (dat8 V c) (A_eq8 V c 5) (after8_5 V c) t d
theorem before8_6 (c : Dev nD) (t : Fin cfg8.N) (d) : (dat8 V c).before 6 t d = iblk8 V c 6 t :=
  before8_6_of V (dat8 V c) (A_eq8 V c 6) (after8_6 V c) t d
theorem before8_7 (c : Dev nD) (t : Fin cfg8.N) (d) : (dat8 V c).before 7 t d = iblk8 V c 7 t :=
  before8_7_of V (dat8 V c) (A_eq8 V c 7) (after8_7 V c) t d
theorem before8_8 (c : Dev nD) (t : Fin cfg8.N) (d) : (dat8 V c).before 8 t d = iblk8 V c 8 t :=
  before8_8_of V (dat8 V c) (A_eq8 V c 8) (after8_8 V c) t d

/-! ## The body obligation, at a generic point -/

def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d))
    ∗ (∃ d, owns (c : Thread nD τ) (st8_6 t) fullShare ((dat8 V c).before 6 t d))
    ∗ (∃ d, owns (c : Thread nD τ) (st8_7 t) fullShare ((dat8 V c).before 7 t d))
    ∗ (∃ d, owns (c : Thread nD τ) (st8_8 t) fullShare ((dat8 V c).before 8 t d))
    ∗ (∃ d, owns (c : Thread nD τ) (st8_9 t) fullShare ((dat8 V c).before 9 t d)))

def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t)
    ∗ owns (c : Thread nD τ) (st8_6 t) fullShare ((dat8 V c).after 6 t)
    ∗ owns (c : Thread nD τ) (st8_7 t) fullShare ((dat8 V c).after 7 t)
    ∗ owns (c : Thread nD τ) (st8_8 t) fullShare ((dat8 V c).after 8 t)
    ∗ owns (c : Thread nD τ) (st8_9 t) fullShare ((dat8 V c).after 9 t))

/-- The body at any point: the inputs' memrefs hold their blocks, so `sound_kernel8` applies; the invariant and the
    core's debts pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4, before8_5, before8_6, before8_7, before8_8]
  rw [show (dat8 V c).Φ t.succ = (dat8 V c).Φ t.castSucc from rfl,
    show (dat8 V c).owesAt () t.succ = (dat8 V c).owesAt () t.castSucc from rfl,
    after8_0, after8_1, after8_2, after8_3, after8_4, after8_5, after8_6, after8_7, after8_8, after8_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel8 c Set.univ _ _ _ _ _ _ _ _ _ _ _ _ _ _ _ _ _ _ _ _ _ (iblk8 V c 0 t) (iblk8 V c 1 t) (iblk8 V c 2 t) (iblk8 V c 3 t) (iblk8 V c 4 t) (iblk8 V c 5 t) (iblk8 V c 6 t) (iblk8 V c 7 t) (iblk8 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation8 (c : Dev nD) : BodyObligation (dat8 (F := F) V c) (defs₀ (F := F)) Variants.none () Set.univ := fun t => by
  rw [bigSep_W8, bigSep_W8]
  exact sound_body8 V c t

end Cert.KernelIdeal.Fr
-- ==== Proof.FrStats.lean ====
/- The frame of the three BatchNorm-statistics regions (custom_calls 1, 4, 7), each at a parameter `V`, the buffer
   contents when the region is entered. The kernel keeps two `[1,128]` accumulators (a sum and a sum of squares over the
   rows of its blocks) in scratch buffers across the 10 grid points: the first point zeroes them, every point adds its
   block's column sums, and the last point alone stores the mean and the variance into the two output windows, which are
   written back there only. So the proof data's invariant carries the accumulators' contents point by point
   (`accK`, a recursion over the points from the input blocks), the outputs are idle before the last point, and the body
   obligation splits in three cases: the first point, the middle points, the last point. -/
import proofs.«135670_j59253368815959_1_alg».proof.Proof.Gen.KernelIdeal.Launch
import proofs.«135670_j59253368815959_1_alg».proof.Proof.Gen.KernelIdeal.Skeleton
import proofs.«135670_j59253368815959_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The BatchNorm-statistics regions (custom_calls 1, 4, 7), each at the region-entry contents `V` -/

section Regions
variable (V : (c : Dev nD) → (b : Ref sig .tc) → Buf (Elt F) ((c : Thread nD τ).loc b))

/-! ## The body's accesses: every load and store of the kernel is of a whole buffer -/

abbrev rSA : Rect S5000x128 := Rect.unit (s := S5000x128) ![0, 0] S5000x128.size inb_S5000x128_S5000x128_0_0
abbrev rSB : Rect S5000x1 := Rect.unit (s := S5000x1) ![0, 0] S5000x1.size inb_S5000x1_S5000x1_0_0
abbrev rSC : Rect S1x128 := Rect.unit (s := S1x128) ![0, 0] S1x128.size inb_S1x128_S1x128_0_0

/-- One whole-buffer store covers the `[1,128]` buffer (checked by evaluation). -/
theorem coverSC (p0 : Vec F S1x128 .f32) (y : S1x128.Idx) :
    ∃ pc ∈ ([⟨rSC, p0⟩] : List (View.Piece (Elt F) S1x128 .f32)), y ∈ pc.1.set :=
  View.cover_of_tiled [⟨rSC, p0⟩] S1x128.size (by rfl) y

/-- Every index of the `[1,128]` buffer lies in the whole-buffer rectangle. -/
theorem mem_rSC (y : S1x128.Idx) : y ∈ (rSC).set := by
  obtain ⟨pc, hm, hy⟩ := View.cover_of_tiled (Val := fun _ => Unit) (e := .f32) [⟨rSC, fun _ => ()⟩] S1x128.size (by rfl) y
  rw [List.mem_singleton] at hm; subst hm; exact hy

/-- A whole-buffer store hides every earlier store: the contents are the last payload. -/
theorem canon_wholeSC (w : (rSC).shape.Idx → Elt F .f32) (L : List (View.Piece (Elt F) S1x128 .f32)) :
    View.canon (⟨rSC, w⟩ :: L) = View.canon [⟨rSC, w⟩] := by
  funext y
  obtain ⟨x, rfl⟩ : ∃ x, (rSC).emb x = y := (rSC).exists_idx_of_mem (mem_rSC y)
  rw [View.canon_cons_emb, View.canon_cons_emb]

/-- and two stores of a whole buffer cover it. -/
theorem coverSC2 (p0 p1 : Vec F S1x128 .f32) (y : S1x128.Idx) :
    ∃ pc ∈ ([⟨rSC, p0⟩, ⟨rSC, p1⟩] : List (View.Piece (Elt F) S1x128 .f32)), y ∈ pc.1.set :=
  ⟨⟨rSC, p0⟩, List.mem_cons_self, mem_rSC y⟩

/-! # REGION 1 of @main: custom_call 1, `cc1__stats_kernel` (pipeline 1), at the entry contents `V` -/

/-! ## The body's branch conditions -/

/-- The condition of the body's first `scf.if` (the accumulators are zeroed), from the grid coordinates. -/
abbrev cond1_0 (i : grid1.Coords) : Prop := (Scalar.cmpi .ne (Scalar.extui (Scalar.cmpi .eq (BitVec.ofNat 32 (i 0).val) 0#32)) 0#32) = 1#1
/-- It holds at the first point only — decided over the grid. -/
theorem hcond1_0 : ∀ t : Fin cfg1.N, cond1_0 (grid1.coords t) ↔ t.val = 0 :=
  (by decide +kernel : ∀ t : Fin grid1.N, cond1_0 (grid1.coords t) ↔ t.val = 0)
/-- The condition of the body's second `scf.if` (the statistics are stored). -/
abbrev cond1_1 (i : grid1.Coords) : Prop := k1_cond2 i = 1#1
/-- It holds at the last point only — decided over the grid. -/
theorem hcond1_1 : ∀ t : Fin cfg1.N, cond1_1 (grid1.coords t) ↔ t.val = 9 :=
  (by decide +kernel : ∀ t : Fin grid1.N, cond1_1 (grid1.coords t) ↔ t.val = 9)

/-! ## What the body leaves in the accumulators and in the output windows' buffers -/

/-- The sum accumulator after a point, from the point's four input blocks and the accumulator before it: its one
    covering store (Lib/Pipeline/FrameBody.lean `View.canon`; the payload is the skeleton's). -/
def accS1 (x0 x1 : Vec F S5000x128 .f32) (x2 : Vec F S5000x1 .f32) (x3 s : Vec F S1x128 .f32) : Vec F S1x128 .f32 :=
  View.canon [⟨rSC, k1_pay6 (View.ld x0 rSA) (View.ld x2 rSB) (View.ld x1 rSA) (View.ld x3 rSC) (View.ld s rSC)⟩]
/-- The sum-of-squares accumulator after a point, likewise. -/
def accQ1 (x0 x1 : Vec F S5000x128 .f32) (x2 : Vec F S5000x1 .f32) (x3 q : Vec F S1x128 .f32) : Vec F S1x128 .f32 :=
  View.canon [⟨rSC, k1_pay7 (View.ld x0 rSA) (View.ld x2 rSB) (View.ld x1 rSA) (View.ld x3 rSC) (View.ld q rSC)⟩]
/-- The accumulators as the first point zeroes them. -/
def zS1 : Vec F S1x128 .f32 := View.canon [⟨rSC, k1_pay3 (F := F)⟩]
def zQ1 : Vec F S1x128 .f32 := View.canon [⟨rSC, k1_pay4 (F := F)⟩]
/-- Window 4's staging buffer after the last point's body: the mean, from the final sum. -/
def out1_4 (s : Vec F S1x128 .f32) : Vec F S1x128 .f32 :=
  View.canon [⟨rSC, k1_pay1 (View.ld s rSC)⟩]
/-- Window 5's staging buffer after the last point's body: the variance, from the final sum and sum of squares. -/
def out1_5 (s q : Vec F S1x128 .f32) : Vec F S1x128 .f32 :=
  View.canon [⟨rSC, k1_pay2 (View.ld s rSC) (View.ld q rSC)⟩]

set_option maxHeartbeats 1000000 in
theorem sound_kernel1A (c : Dev nD) (E : Set ℕ) (i : grid1.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S1x128 .f32) (harg8 : arg8.IsWhole)
    (hc0 : cond1_0 i) (hc1 : ¬cond1_1 i)
    (x0 : Vec F S5000x128 .f32) (x1 : Vec F S5000x128 .f32) (x2 : Vec F S5000x1 .f32) (x3 : Vec F S1x128 .f32)
    (y4 y5 s q : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare y4 ∗ owns (c : Thread nD τ) arg6 fullShare y5
        ∗ owns (c : Thread nD τ) arg7 fullShare s ∗ owns (c : Thread nD τ) arg8 fullShare q
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare y4 ∗ owns (c : Thread nD τ) arg6 fullShare y5
            ∗ owns (c : Thread nD τ) arg7 fullShare (accS1 x0 x1 x2 x3 (zS1 (F := F))) ∗ owns (c : Thread nD τ) arg8 fullShare (accQ1 x0 x1 x2 x3 (zQ1 (F := F)))) -∗ K ⟨⟩))
      ⊢ wp frame (wpE (defs₀ (F := F)) Variants.none c none) E (cc1__stats_kernel i arg1 harg1 arg2 harg2 arg3 harg3 arg4 harg4 arg5 harg5 arg6 harg6 arg7 harg7 arg8 harg8) K := by
  simp only [cc1__stats_kernel_eq_skeleton]; unfold cc1__stats_kernel_skel
  simp only [k1_part1_eq_skeleton]; unfold k1_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf1 hf2 hf3 hf4 hf5 hf6 hf7 hf8
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    sl_unfold_run_names
    rw [View.readCov_eq_canon']
    exact (View.read_writes_eq_canon _ _ _ (coverSC2 _ _)).trans (canon_wholeSC _ _)
  iexists _; isplitr
  swap; · iexact H8
  ipureintro
  sl_unfold_run_names
  rw [View.readCov_eq_canon']
  exact (View.read_writes_eq_canon _ _ _ (coverSC2 _ _)).trans (canon_wholeSC _ _)

set_option maxHeartbeats 1000000 in
theorem sound_kernel1B (c : Dev nD) (E : Set ℕ) (i : grid1.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S1x128 .f32) (harg8 : arg8.IsWhole)
    (hc0 : ¬cond1_0 i) (hc1 : ¬cond1_1 i)
    (x0 : Vec F S5000x128 .f32) (x1 : Vec F S5000x128 .f32) (x2 : Vec F S5000x1 .f32) (x3 : Vec F S1x128 .f32)
    (y4 y5 s q : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare y4 ∗ owns (c : Thread nD τ) arg6 fullShare y5
        ∗ owns (c : Thread nD τ) arg7 fullShare s ∗ owns (c : Thread nD τ) arg8 fullShare q
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare y4 ∗ owns (c : Thread nD τ) arg6 fullShare y5
            ∗ owns (c : Thread nD τ) arg7 fullShare (accS1 x0 x1 x2 x3 s) ∗ owns (c : Thread nD τ) arg8 fullShare (accQ1 x0 x1 x2 x3 q)) -∗ K ⟨⟩))
      ⊢ wp frame (wpE (defs₀ (F := F)) Variants.none c none) E (cc1__stats_kernel i arg1 harg1 arg2 harg2 arg3 harg3 arg4 harg4 arg5 harg5 arg6 harg6 arg7 harg7 arg8 harg8) K := by
  simp only [cc1__stats_kernel_eq_skeleton]; unfold cc1__stats_kernel_skel
  simp only [k1_part1_eq_skeleton]; unfold k1_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf1 hf2 hf3 hf4 hf5 hf6 hf7 hf8
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (coverSC _)
  iexists _; isplitr
  swap; · iexact H8
  ipureintro
  exact View.read_writes_eq_canon _ _ _ (coverSC _)

set_option maxHeartbeats 1000000 in
theorem sound_kernel1C (c : Dev nD) (E : Set ℕ) (i : grid1.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S1x128 .f32) (harg8 : arg8.IsWhole)
    (hc0 : ¬cond1_0 i) (hc1 : cond1_1 i)
    (x0 : Vec F S5000x128 .f32) (x1 : Vec F S5000x128 .f32) (x2 : Vec F S5000x1 .f32) (x3 : Vec F S1x128 .f32)
    (y4 y5 s q : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare y4 ∗ owns (c : Thread nD τ) arg6 fullShare y5
        ∗ owns (c : Thread nD τ) arg7 fullShare s ∗ owns (c : Thread nD τ) arg8 fullShare q
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out1_4 (accS1 x0 x1 x2 x3 s)) ∗ owns (c : Thread nD τ) arg6 fullShare (out1_5 (accS1 x0 x1 x2 x3 s) (accQ1 x0 x1 x2 x3 q))
            ∗ owns (c : Thread nD τ) arg7 fullShare (accS1 x0 x1 x2 x3 s) ∗ owns (c : Thread nD τ) arg8 fullShare (accQ1 x0 x1 x2 x3 q)) -∗ K ⟨⟩))
      ⊢ wp frame (wpE (defs₀ (F := F)) Variants.none c none) E (cc1__stats_kernel i arg1 harg1 arg2 harg2 arg3 harg3 arg4 harg4 arg5 harg5 arg6 harg6 arg7 harg7 arg8 harg8) K := by
  simp only [cc1__stats_kernel_eq_skeleton]; unfold cc1__stats_kernel_skel
  simp only [k1_part1_eq_skeleton]; unfold k1_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf1 hf2 hf3 hf4 hf5 hf6 hf7 hf8
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    sl_unfold_run_names
    rw [View.readCov_eq_canon']
    exact View.read_writes_eq_canon _ _ _ (coverSC _)
  isplitl [H6]
  · iexists _; isplitr
    swap; · iexact H6
    ipureintro
    sl_unfold_run_names
    rw [View.readCov_eq_canon', View.readCov_eq_canon']
    exact View.read_writes_eq_canon _ _ _ (coverSC _)
  isplitl [H7]
  · iexists _; isplitr
    swap; · iexact H7
    ipureintro
    sl_unfold_run_names
    exact View.read_writes_eq_canon _ _ _ (coverSC _)
  iexists _; isplitr
  swap; · iexact H8
  ipureintro
  sl_unfold_run_names
  exact View.read_writes_eq_canon _ _ _ (coverSC _)

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for ANY proof
    data whose array is `V`'s (`hA`) and whose body leaves the block in place (`hafter`): the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for ANY proof
    data whose array is `V`'s (`hA`) and whose body leaves the block in place (`hafter`): the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for ANY proof
    data whose array is `V`'s (`hA`) and whose body leaves the block in place (`hafter`): the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The accumulators, point by point -/

/-- THE ACCUMULATION. The two accumulators (sum, sum of squares) before point `n`, that is after point `n - 1`: zeroed
    before the first point's blocks are added; after point `n`, the body's two stores over the blocks at `n` and the
    accumulators before it. -/
def acc1 (c : Dev nD) : ℕ → Vec F S1x128 .f32 × Vec F S1x128 .f32
  | 0 => (zS1, zQ1)
  | n + 1 => if h : n < cfg1.N then
      (accS1 (iblk1 V c 0 ⟨n, h⟩) (iblk1 V c 1 ⟨n, h⟩) (iblk1 V c 2 ⟨n, h⟩) (iblk1 V c 3 ⟨n, h⟩) (acc1 c n).1,
       accQ1 (iblk1 V c 0 ⟨n, h⟩) (iblk1 V c 1 ⟨n, h⟩) (iblk1 V c 2 ⟨n, h⟩) (iblk1 V c 3 ⟨n, h⟩) (acc1 c n).2)
    else acc1 c n

theorem acc1_zero (c : Dev nD) : acc1 V c 0 = (zS1, zQ1) := rfl
/-- The recursion: the sum after point `t`. -/
theorem acc1_succ_fst (c : Dev nD) (t : Fin cfg1.N) :
    (acc1 V c (t.val + 1)).1 = accS1 (iblk1 V c 0 t) (iblk1 V c 1 t) (iblk1 V c 2 t) (iblk1 V c 3 t) (acc1 V c t.val).1 := by
  rw [acc1, dif_pos t.isLt]
/-- The recursion: the sum of squares after point `t`. -/
theorem acc1_succ_snd (c : Dev nD) (t : Fin cfg1.N) :
    (acc1 V c (t.val + 1)).2 = accQ1 (iblk1 V c 0 t) (iblk1 V c 1 t) (iblk1 V c 2 t) (iblk1 V c 3 t) (acc1 V c t.val).2 := by
  rw [acc1, dif_pos t.isLt]
/-- Before the first point the accumulators are the zeroed ones. -/
theorem acc1_first_fst (c : Dev nD) (t : Fin cfg1.N) (h0 : t.val = 0) : (acc1 V c t.val).1 = zS1 := by rw [h0]; rfl
theorem acc1_first_snd (c : Dev nD) (t : Fin cfg1.N) (h0 : t.val = 0) : (acc1 V c t.val).2 = zQ1 := by rw [h0]; rfl

/-! ## The region invariant: the two scratch accumulators carried between points -/

/-- The scratch operands: whole scoped buffers of the kernel's own, passed beside the windows. -/
abbrev sc1_0 : Memref sig .tc .vmem S1x128 .f32 := Memref.whole cc1_scratch0
abbrev sc1_1 : Memref sig .tc .vmem S1x128 .f32 := Memref.whole cc1_scratch1

/-- The invariant before position `n`: the two scratch buffers — at anything before the first point, afterwards at the
    accumulators the point before left (`acc1`) —, every other scoped buffer that is no staging buffer at some contents,
    and the generator register at some state. -/
def Phi1 (c : Dev nD) (n : ℕ) : sProp 𝕄 :=
  iprop((∃ s, ⌜n ≠ 0 → s = (acc1 V c n).1⌝ ∗ owns (c : Thread nD τ) sc1_0 fullShare s)
    ∗ (∃ q, ⌜n ≠ 0 → q = (acc1 V c n).2⌝ ∗ owns (c : Thread nD τ) sc1_1 fullShare q)
    ∗ Pipeline.scopedRestBut (Ix := Unit) (Name := ℕ) (U := UR sig nD τ) (Lvl := ℕ) (Val := Elt F) spec1 c [cc1_scratch0, cc1_scratch1]
    ∗ ∃ r, prngReg c r)

/-! ## The pipeline's proof data -/

/-- The proof data of pipeline 1 on core `c`: the arrays as the region finds them (`V`); after the body at point `t`
    each input's buffer at its block and the two outputs' at the mean and the variance of the accumulators after `t`
    (consulted at the last point only: elsewhere the outputs are idle and not written back); the invariant `Phi1`;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (acc1 V c (t.val + 1)).1
    | ⟨5, _⟩ => out1_5 (acc1 V c (t.val + 1)).1 (acc1 V c (t.val + 1)).2
  Φ t := Phi1 V c t.val
  q _ := fullShare
  owed _ := 0

/-- The proof data's arrays are the region-entry contents (the proof data's definition projected, by `dsimp`). -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
/-- Window 4 after the body at `t`: the mean of the sum after `t` (what the last point stores and writes back). -/
theorem after1_4 (c : Dev nD) (t : Fin cfg1.N) : (dat1 V c).after 4 t = out1_4 (acc1 V c (t.val + 1)).1 := by dsimp only [dat1]
/-- Window 5 after the body at `t`: the variance of the accumulators after `t`. -/
theorem after1_5 (c : Dev nD) (t : Fin cfg1.N) : (dat1 V c).after 5 t = out1_5 (acc1 V c (t.val + 1)).1 (acc1 V c (t.val + 1)).2 := by dsimp only [dat1]

/-- Each input's current staging buffer holds its block at every point, fetched there or not (`before1_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- The invariant at a point's start and end, restated at the position. -/
theorem Phi1_castSucc (c : Dev nD) (t : Fin cfg1.N) : (dat1 V c).Φ t.castSucc = Phi1 V c t.val := rfl
theorem Phi1_succ (c : Dev nD) (t : Fin cfg1.N) : (dat1 V c).Φ t.succ = Phi1 V c (t.val + 1) := rfl

/-! ## Where the windows are idle (the printed configuration's table `Cfg.idle`) -/

/-- The inputs are never idle. -/
theorem live1_0 : ∀ t : Fin cfg1.N, cfg1.idle 0 (grid1.coords t) = false := fun _ => rfl
theorem live1_1 : ∀ t : Fin cfg1.N, cfg1.idle 1 (grid1.coords t) = false := fun _ => rfl
theorem live1_2 : ∀ t : Fin cfg1.N, cfg1.idle 2 (grid1.coords t) = false := fun _ => rfl
theorem live1_3 : ∀ t : Fin cfg1.N, cfg1.idle 3 (grid1.coords t) = false := fun _ => rfl
/-- Before the last point the two outputs are idle (the body stores nothing into them) and not written back. -/
theorem idle1_4 : ∀ t : Fin cfg1.N, ¬t.val = 9 → cfg1.idle 4 (grid1.coords t) = true := by decide +kernel
theorem idle1_5 : ∀ t : Fin cfg1.N, ¬t.val = 9 → cfg1.idle 5 (grid1.coords t) = true := by decide +kernel
theorem noFlush1_4 : ∀ t : Fin cfg1.N, ¬t.val = 9 → (cfg1.win 4).flush t = false := by decide +kernel
theorem noFlush1_5 : ∀ t : Fin cfg1.N, ¬t.val = 9 → (cfg1.win 5).flush t = false := by decide +kernel
/-- At the last point they are live. -/
theorem live1_4 : ∀ t : Fin cfg1.N, t.val = 9 → cfg1.idle 4 (grid1.coords t) = false := by decide +kernel
theorem live1_5 : ∀ t : Fin cfg1.N, t.val = 9 → cfg1.idle 5 (grid1.coords t) = false := by decide +kernel

/-- What the body obligation asks of each input's buffer after the body: its block, as found. -/
theorem leaves1_0 (c : Dev nD) (t : Fin cfg1.N) : (dat1 V c).leavesExact 0 t = owns (c : Thread nD τ) (st1_0 t) fullShare (iblk1 V c 0 t) := by
  rw [show (dat1 V c).leavesExact 0 t = owns (c : Thread nD τ) (st1_0 t) fullShare ((dat1 V c).after 0 t) from by
    unfold Dat.leavesExact; rw [live1_0 t], after1_0]
theorem leaves1_1 (c : Dev nD) (t : Fin cfg1.N) : (dat1 V c).leavesExact 1 t = owns (c : Thread nD τ) (st1_1 t) fullShare (iblk1 V c 1 t) := by
  rw [show (dat1 V c).leavesExact 1 t = owns (c : Thread nD τ) (st1_1 t) fullShare ((dat1 V c).after 1 t) from by
    unfold Dat.leavesExact; rw [live1_1 t], after1_1]
theorem leaves1_2 (c : Dev nD) (t : Fin cfg1.N) : (dat1 V c).leavesExact 2 t = owns (c : Thread nD τ) (st1_2 t) fullShare (iblk1 V c 2 t) := by
  rw [show (dat1 V c).leavesExact 2 t = owns (c : Thread nD τ) (st1_2 t) fullShare ((dat1 V c).after 2 t) from by
    unfold Dat.leavesExact; rw [live1_2 t], after1_2]
theorem leaves1_3 (c : Dev nD) (t : Fin cfg1.N) : (dat1 V c).leavesExact 3 t = owns (c : Thread nD τ) (st1_3 t) fullShare (iblk1 V c 3 t) := by
  rw [show (dat1 V c).leavesExact 3 t = owns (c : Thread nD τ) (st1_3 t) fullShare ((dat1 V c).after 3 t) from by
    unfold Dat.leavesExact; rw [live1_3 t], after1_3]

/-! ## The body obligation, at a generic point -/

/-- What the body is called with at point `t` (the body obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4000000 in
/-- The body at any point: the inputs' memrefs hold their blocks (`before1_W`); the point's position says which
    case it is in (first, middle, last); the invariant hands the body the two scratch accumulators — at anything at the
    first point, where the body zeroes them, else at what the point before left — and takes them back at this point's
    (`acc1_succ_*`); before the last point the outputs' buffers pass through untouched, at the last point they are
    stored; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl,
    Phi1_castSucc, Phi1_succ, leaves1_0, leaves1_1, leaves1_2, leaves1_3]
  unfold Phi1
  rw [acc1_succ_fst V c t, acc1_succ_snd V c t]
  have hN : t.val < 10 := lt_of_lt_of_eq t.isLt (show cfg1.N = 10 from N_1)
  by_cases h0 : t.val = 0
  · have h9 : ¬t.val = 9 := by omega
    rw [Dat.leavesExact_idle (dat1 V c) 4 t (idle1_4 t h9) (noFlush1_4 t h9),
      Dat.leavesExact_idle (dat1 V c) 5 t (idle1_5 t h9) (noFlush1_5 t h9),
      acc1_first_fst V c t h0, acc1_first_snd V c t h0]
    iintro ⟨⟨⟨%s, -, HS⟩, ⟨%q, -, HQ⟩, Hrest, Hg⟩, Ho, ⟨%d0, H0⟩, ⟨%d1, H1⟩, ⟨%d2, H2⟩, ⟨%d3, H3⟩, ⟨%d4, H4⟩, ⟨%d5, H5⟩⟩
    iapply (sound_kernel1A c Set.univ (grid1.coords t) _ _ _ _ _ _ _ _ _ _ _ _ _ _ _ _ ((hcond1_0 t).mpr h0) (fun h => h9 ((hcond1_1 t).mp h))
      (iblk1 V c 0 t) (iblk1 V c 1 t) (iblk1 V c 2 t) (iblk1 V c 3 t) _ _ s q _)
    isplitl [H0]; · iexact H0
    isplitl [H1]; · iexact H1
    isplitl [H2]; · iexact H2
    isplitl [H3]; · iexact H3
    isplitl [H4]; · iexact H4
    isplitl [H5]; · iexact H5
    isplitl [HS]; · iexact HS
    isplitl [HQ]; · iexact HQ
    iintro ⟨H0, H1, H2, H3, H4, H5, HS, HQ⟩
    isplitl [HS HQ Hrest Hg]
    · isplitl [HS]
      · iexists _; isplitr
        swap; · iexact HS
        ipureintro; exact fun _ => rfl
      isplitl [HQ]
      · iexists _; isplitr
        swap; · iexact HQ
        ipureintro; exact fun _ => rfl
      isplitl [Hrest]; · iexact Hrest
      iexact Hg
    isplitl [Ho]; · iexact Ho
    isplitl [H0]; · iexact H0
    isplitl [H1]; · iexact H1
    isplitl [H2]; · iexact H2
    isplitl [H3]; · iexact H3
    isplitl [H4]; · iexists _; iexact H4
    iexists _; iexact H5
  · by_cases h9 : t.val = 9
    · rw [show (dat1 V c).leavesExact 4 t = owns (c : Thread nD τ) (st1_4 t) fullShare ((dat1 V c).after 4 t) from by
        unfold Dat.leavesExact; rw [live1_4 t h9], after1_4,
        show (dat1 V c).leavesExact 5 t = owns (c : Thread nD τ) (st1_5 t) fullShare ((dat1 V c).after 5 t) from by
        unfold Dat.leavesExact; rw [live1_5 t h9], after1_5,
        acc1_succ_fst V c t, acc1_succ_snd V c t]
      iintro ⟨⟨⟨%s, %hs, HS⟩, ⟨%q, %hq, HQ⟩, Hrest, Hg⟩, Ho, ⟨%d0, H0⟩, ⟨%d1, H1⟩, ⟨%d2, H2⟩, ⟨%d3, H3⟩, ⟨%d4, H4⟩, ⟨%d5, H5⟩⟩
      obtain rfl := hs h0; obtain rfl := hq h0
      iapply (sound_kernel1C c Set.univ (grid1.coords t) _ _ _ _ _ _ _ _ _ _ _ _ _ _ _ _ (fun h => h0 ((hcond1_0 t).mp h)) ((hcond1_1 t).mpr h9)
        (iblk1 V c 0 t) (iblk1 V c 1 t) (iblk1 V c 2 t) (iblk1 V c 3 t) _ _ _ _ _)
      isplitl [H0]; · iexact H0
      isplitl [H1]; · iexact H1
      isplitl [H2]; · iexact H2
      isplitl [H3]; · iexact H3
      isplitl [H4]; · iexact H4
      isplitl [H5]; · iexact H5
      isplitl [HS]; · iexact HS
      isplitl [HQ]; · iexact HQ
      iintro ⟨H0, H1, H2, H3, H4, H5, HS, HQ⟩
      isplitl [HS HQ Hrest Hg]
      · isplitl [HS]
        · iexists _; isplitr
          swap; · iexact HS
          ipureintro; exact fun _ => rfl
        isplitl [HQ]
        · iexists _; isplitr
          swap; · iexact HQ
          ipureintro; exact fun _ => rfl
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [Dat.leavesExact_idle (dat1 V c) 4 t (idle1_4 t h9) (noFlush1_4 t h9),
        Dat.leavesExact_idle (dat1 V c) 5 t (idle1_5 t h9) (noFlush1_5 t h9)]
      iintro ⟨⟨⟨%s, %hs, HS⟩, ⟨%q, %hq, HQ⟩, Hrest, Hg⟩, Ho, ⟨%d0, H0⟩, ⟨%d1, H1⟩, ⟨%d2, H2⟩, ⟨%d3, H3⟩, ⟨%d4, H4⟩, ⟨%d5, H5⟩⟩
      obtain rfl := hs h0; obtain rfl := hq h0
      iapply (sound_kernel1B c Set.univ (grid1.coords t) _ _ _ _ _ _ _ _ _ _ _ _ _ _ _ _ (fun h => h0 ((hcond1_0 t).mp h)) (fun h => h9 ((hcond1_1 t).mp h))
        (iblk1 V c 0 t) (iblk1 V c 1 t) (iblk1 V c 2 t) (iblk1 V c 3 t) _ _ _ _ _)
      isplitl [H0]; · iexact H0
      isplitl [H1]; · iexact H1
      isplitl [H2]; · iexact H2
      isplitl [H3]; · iexact H3
      isplitl [H4]; · iexact H4
      isplitl [H5]; · iexact H5
      isplitl [HS]; · iexact HS
      isplitl [HQ]; · iexact HQ
      iintro ⟨H0, H1, H2, H3, H4, H5, HS, HQ⟩
      isplitl [HS HQ Hrest Hg]
      · isplitl [HS]
        · iexists _; isplitr
          swap; · iexact HS
          ipureintro; exact fun _ => rfl
        isplitl [HQ]
        · iexists _; isplitr
          swap; · iexact HQ
          ipureintro; exact fun _ => rfl
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The invariant at the region's ends -/

/-- What the region is entered with — the generator register, the scoped buffers no window stages (the prefetched
    tables, none here, beside them as any `P`) — is the invariant before the first point: the two scratch buffers
    split out at some contents. -/
theorem hin1 (c : Dev nD) (P : sProp 𝕄) :
    iprop((∃ r, prngReg c r) ∗ P ∗ Pipeline.scopedRest (Ix := Unit) (Name := ℕ) (U := UR sig nD τ) (Lvl := ℕ) (Val := Elt F) spec1 c) ⊢ (dat1 V c).Φ 0 := by
  rw [show (dat1 V c).Φ 0 = Phi1 V c 0 from rfl, scopedRest1_split]; unfold Phi1
  simp only [sc1_0, sc1_1, owns_whole]
  iintro ⟨Hg, -, ⟨⟨%f0, H0⟩, ⟨%f1, H1⟩⟩, Hrest⟩
  isplitl [H0]
  · iexists f0; isplitr; · ipureintro; exact fun h => absurd rfl h
    iexact H0
  isplitl [H1]
  · iexists f1; isplitr; · ipureintro; exact fun h => absurd rfl h
    iexact H1
  isplitl [Hrest]; · iexact Hrest
  iexact Hg

/-- After the last point the invariant gives the generator register and the scoped rest back: the accumulators' named
    contents are forgotten. -/
theorem hout1 (c : Dev nD) :
    (dat1 V c).Φ (Fin.last cfg1.N) ⊢ iprop((∃ r, prngReg c r) ∗ Pipeline.scopedRest (Ix := Unit) (Name := ℕ) (U := UR sig nD τ) (Lvl := ℕ) (Val := Elt F) spec1 c) := by
  rw [show (dat1 V c).Φ (Fin.last cfg1.N) = Phi1 V c (Fin.last cfg1.N).val from rfl, scopedRest1_split]; unfold Phi1
  simp only [sc1_0, sc1_1, owns_whole]
  iintro ⟨⟨%s, -, H0⟩, ⟨%q, -, H1⟩, Hrest, Hg⟩
  isplitl [Hg]; · iexact Hg
  isplitl [H0 H1]
  · isplitl [H0]
    · iexists s; iexact H0
    iexists q; iexact H1
  iexact Hrest

/-! ## What the region writes back: the last point's mean and variance -/

/-- The last point. -/
def tl1 : Fin cfg1.N := ⟨9, by rw [show cfg1.N = 10 from N_1]; decide⟩
/-- Window 4 after the last point's body is the mean of the final sum (the accumulator after all 10 points). -/
theorem after1_4_last (c : Dev nD) : (dat1 V c).after 4 tl1 = out1_4 (acc1 V c 10).1 := after1_4 V c tl1
/-- Window 5 after the last point's body is the variance of the final accumulators. -/
theorem after1_5_last (c : Dev nD) : (dat1 V c).after 5 tl1 = out1_5 (acc1 V c 10).1 (acc1 V c 10).2 := after1_5 V c tl1

/-! # REGION 4 of @main: custom_call 4, `cc4__stats_kernel` (pipeline 4), at the entry contents `V` -/

/-! ## The body's branch conditions -/

/-- The condition of the body's first `scf.if` (the accumulators are zeroed), from the grid coordinates. -/
abbrev cond4_0 (i : grid4.Coords) : Prop := (Scalar.cmpi .ne (Scalar.extui (Scalar.cmpi .eq (BitVec.ofNat 32 (i 0).val) 0#32)) 0#32) = 1#1
/-- It holds at the first point only — decided over the grid. -/
theorem hcond4_0 : ∀ t : Fin cfg4.N, cond4_0 (grid4.coords t) ↔ t.val = 0 :=
  (by decide +kernel : ∀ t : Fin grid4.N, cond4_0 (grid4.coords t) ↔ t.val = 0)
/-- The condition of the body's second `scf.if` (the statistics are stored). -/
abbrev cond4_1 (i : grid4.Coords) : Prop := k4_cond2 i = 1#1
/-- It holds at the last point only — decided over the grid. -/
theorem hcond4_1 : ∀ t : Fin cfg4.N, cond4_1 (grid4.coords t) ↔ t.val = 9 :=
  (by decide +kernel : ∀ t : Fin grid4.N, cond4_1 (grid4.coords t) ↔ t.val = 9)

/-! ## What the body leaves in the accumulators and in the output windows' buffers -/

/-- The sum accumulator after a point, from the point's four input blocks and the accumulator before it: its one
    covering store (Lib/Pipeline/FrameBody.lean `View.canon`; the payload is the skeleton's). -/
def accS4 (x0 x1 : Vec F S5000x128 .f32) (x2 : Vec F S5000x1 .f32) (x3 s : Vec F S1x128 .f32) : Vec F S1x128 .f32 :=
  View.canon [⟨rSC, k4_pay6 (View.ld x0 rSA) (View.ld x2 rSB) (View.ld x1 rSA) (View.ld x3 rSC) (View.ld s rSC)⟩]
/-- The sum-of-squares accumulator after a point, likewise. -/
def accQ4 (x0 x1 : Vec F S5000x128 .f32) (x2 : Vec F S5000x1 .f32) (x3 q : Vec F S1x128 .f32) : Vec F S1x128 .f32 :=
  View.canon [⟨rSC, k4_pay7 (View.ld x0 rSA) (View.ld x2 rSB) (View.ld x1 rSA) (View.ld x3 rSC) (View.ld q rSC)⟩]
/-- The accumulators as the first point zeroes them. -/
def zS4 : Vec F S1x128 .f32 := View.canon [⟨rSC, k4_pay3 (F := F)⟩]
def zQ4 : Vec F S1x128 .f32 := View.canon [⟨rSC, k4_pay4 (F := F)⟩]
/-- Window 4's staging buffer after the last point's body: the mean, from the final sum. -/
def out4_4 (s : Vec F S1x128 .f32) : Vec F S1x128 .f32 :=
  View.canon [⟨rSC, k4_pay1 (View.ld s rSC)⟩]
/-- Window 5's staging buffer after the last point's body: the variance, from the final sum and sum of squares. -/
def out4_5 (s q : Vec F S1x128 .f32) : Vec F S1x128 .f32 :=
  View.canon [⟨rSC, k4_pay2 (View.ld s rSC) (View.ld q rSC)⟩]

set_option maxHeartbeats 1000000 in
theorem sound_kernel4A (c : Dev nD) (E : Set ℕ) (i : grid4.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S1x128 .f32) (harg8 : arg8.IsWhole)
    (hc0 : cond4_0 i) (hc1 : ¬cond4_1 i)
    (x0 : Vec F S5000x128 .f32) (x1 : Vec F S5000x128 .f32) (x2 : Vec F S5000x1 .f32) (x3 : Vec F S1x128 .f32)
    (y4 y5 s q : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare y4 ∗ owns (c : Thread nD τ) arg6 fullShare y5
        ∗ owns (c : Thread nD τ) arg7 fullShare s ∗ owns (c : Thread nD τ) arg8 fullShare q
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare y4 ∗ owns (c : Thread nD τ) arg6 fullShare y5
            ∗ owns (c : Thread nD τ) arg7 fullShare (accS4 x0 x1 x2 x3 (zS4 (F := F))) ∗ owns (c : Thread nD τ) arg8 fullShare (accQ4 x0 x1 x2 x3 (zQ4 (F := F)))) -∗ K ⟨⟩))
      ⊢ wp frame (wpE (defs₀ (F := F)) Variants.none c none) E (cc4__stats_kernel i arg1 harg1 arg2 harg2 arg3 harg3 arg4 harg4 arg5 harg5 arg6 harg6 arg7 harg7 arg8 harg8) K := by
  simp only [cc4__stats_kernel_eq_skeleton]; unfold cc4__stats_kernel_skel
  simp only [k4_part1_eq_skeleton]; unfold k4_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf1 hf2 hf3 hf4 hf5 hf6 hf7 hf8
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    sl_unfold_run_names
    rw [View.readCov_eq_canon']
    exact (View.read_writes_eq_canon _ _ _ (coverSC2 _ _)).trans (canon_wholeSC _ _)
  iexists _; isplitr
  swap; · iexact H8
  ipureintro
  sl_unfold_run_names
  rw [View.readCov_eq_canon']
  exact (View.read_writes_eq_canon _ _ _ (coverSC2 _ _)).trans (canon_wholeSC _ _)

set_option maxHeartbeats 1000000 in
theorem sound_kernel4B (c : Dev nD) (E : Set ℕ) (i : grid4.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S1x128 .f32) (harg8 : arg8.IsWhole)
    (hc0 : ¬cond4_0 i) (hc1 : ¬cond4_1 i)
    (x0 : Vec F S5000x128 .f32) (x1 : Vec F S5000x128 .f32) (x2 : Vec F S5000x1 .f32) (x3 : Vec F S1x128 .f32)
    (y4 y5 s q : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare y4 ∗ owns (c : Thread nD τ) arg6 fullShare y5
        ∗ owns (c : Thread nD τ) arg7 fullShare s ∗ owns (c : Thread nD τ) arg8 fullShare q
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare y4 ∗ owns (c : Thread nD τ) arg6 fullShare y5
            ∗ owns (c : Thread nD τ) arg7 fullShare (accS4 x0 x1 x2 x3 s) ∗ owns (c : Thread nD τ) arg8 fullShare (accQ4 x0 x1 x2 x3 q)) -∗ K ⟨⟩))
      ⊢ wp frame (wpE (defs₀ (F := F)) Variants.none c none) E (cc4__stats_kernel i arg1 harg1 arg2 harg2 arg3 harg3 arg4 harg4 arg5 harg5 arg6 harg6 arg7 harg7 arg8 harg8) K := by
  simp only [cc4__stats_kernel_eq_skeleton]; unfold cc4__stats_kernel_skel
  simp only [k4_part1_eq_skeleton]; unfold k4_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf1 hf2 hf3 hf4 hf5 hf6 hf7 hf8
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (coverSC _)
  iexists _; isplitr
  swap; · iexact H8
  ipureintro
  exact View.read_writes_eq_canon _ _ _ (coverSC _)

set_option maxHeartbeats 1000000 in
theorem sound_kernel4C (c : Dev nD) (E : Set ℕ) (i : grid4.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S1x128 .f32) (harg8 : arg8.IsWhole)
    (hc0 : ¬cond4_0 i) (hc1 : cond4_1 i)
    (x0 : Vec F S5000x128 .f32) (x1 : Vec F S5000x128 .f32) (x2 : Vec F S5000x1 .f32) (x3 : Vec F S1x128 .f32)
    (y4 y5 s q : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare y4 ∗ owns (c : Thread nD τ) arg6 fullShare y5
        ∗ owns (c : Thread nD τ) arg7 fullShare s ∗ owns (c : Thread nD τ) arg8 fullShare q
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out4_4 (accS4 x0 x1 x2 x3 s)) ∗ owns (c : Thread nD τ) arg6 fullShare (out4_5 (accS4 x0 x1 x2 x3 s) (accQ4 x0 x1 x2 x3 q))
            ∗ owns (c : Thread nD τ) arg7 fullShare (accS4 x0 x1 x2 x3 s) ∗ owns (c : Thread nD τ) arg8 fullShare (accQ4 x0 x1 x2 x3 q)) -∗ K ⟨⟩))
      ⊢ wp frame (wpE (defs₀ (F := F)) Variants.none c none) E (cc4__stats_kernel i arg1 harg1 arg2 harg2 arg3 harg3 arg4 harg4 arg5 harg5 arg6 harg6 arg7 harg7 arg8 harg8) K := by
  simp only [cc4__stats_kernel_eq_skeleton]; unfold cc4__stats_kernel_skel
  simp only [k4_part1_eq_skeleton]; unfold k4_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf1 hf2 hf3 hf4 hf5 hf6 hf7 hf8
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    sl_unfold_run_names
    rw [View.readCov_eq_canon']
    exact View.read_writes_eq_canon _ _ _ (coverSC _)
  isplitl [H6]
  · iexists _; isplitr
    swap; · iexact H6
    ipureintro
    sl_unfold_run_names
    rw [View.readCov_eq_canon', View.readCov_eq_canon']
    exact View.read_writes_eq_canon _ _ _ (coverSC _)
  isplitl [H7]
  · iexists _; isplitr
    swap; · iexact H7
    ipureintro
    sl_unfold_run_names
    exact View.read_writes_eq_canon _ _ _ (coverSC _)
  iexists _; isplitr
  swap; · iexact H8
  ipureintro
  sl_unfold_run_names
  exact View.read_writes_eq_canon _ _ _ (coverSC _)

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for ANY proof
    data whose array is `V`'s (`hA`) and whose body leaves the block in place (`hafter`): the window is uncut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not, for ANY proof
    data whose array is `V`'s (`hA`) and whose body leaves the block in place (`hafter`): the window is uncut and never idle. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not, for ANY proof
    data whose array is `V`'s (`hA`) and whose body leaves the block in place (`hafter`): the window is uncut and never idle. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds its block at every point, fetched there or not, for ANY proof
    data whose array is `V`'s (`hA`) and whose body leaves the block in place (`hafter`): the window is uncut and never idle. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-! ## The accumulators, point by point -/

/-- THE ACCUMULATION. The two accumulators (sum, sum of squares) before point `n`, that is after point `n - 1`: zeroed
    before the first point's blocks are added; after point `n`, the body's two stores over the blocks at `n` and the
    accumulators before it. -/
def acc4 (c : Dev nD) : ℕ → Vec F S1x128 .f32 × Vec F S1x128 .f32
  | 0 => (zS4, zQ4)
  | n + 1 => if h : n < cfg4.N then
      (accS4 (iblk4 V c 0 ⟨n, h⟩) (iblk4 V c 1 ⟨n, h⟩) (iblk4 V c 2 ⟨n, h⟩) (iblk4 V c 3 ⟨n, h⟩) (acc4 c n).1,
       accQ4 (iblk4 V c 0 ⟨n, h⟩) (iblk4 V c 1 ⟨n, h⟩) (iblk4 V c 2 ⟨n, h⟩) (iblk4 V c 3 ⟨n, h⟩) (acc4 c n).2)
    else acc4 c n

theorem acc4_zero (c : Dev nD) : acc4 V c 0 = (zS4, zQ4) := rfl
/-- The recursion: the sum after point `t`. -/
theorem acc4_succ_fst (c : Dev nD) (t : Fin cfg4.N) :
    (acc4 V c (t.val + 1)).1 = accS4 (iblk4 V c 0 t) (iblk4 V c 1 t) (iblk4 V c 2 t) (iblk4 V c 3 t) (acc4 V c t.val).1 := by
  rw [acc4, dif_pos t.isLt]
/-- The recursion: the sum of squares after point `t`. -/
theorem acc4_succ_snd (c : Dev nD) (t : Fin cfg4.N) :
    (acc4 V c (t.val + 1)).2 = accQ4 (iblk4 V c 0 t) (iblk4 V c 1 t) (iblk4 V c 2 t) (iblk4 V c 3 t) (acc4 V c t.val).2 := by
  rw [acc4, dif_pos t.isLt]
/-- Before the first point the accumulators are the zeroed ones. -/
theorem acc4_first_fst (c : Dev nD) (t : Fin cfg4.N) (h0 : t.val = 0) : (acc4 V c t.val).1 = zS4 := by rw [h0]; rfl
theorem acc4_first_snd (c : Dev nD) (t : Fin cfg4.N) (h0 : t.val = 0) : (acc4 V c t.val).2 = zQ4 := by rw [h0]; rfl

/-! ## The region invariant: the two scratch accumulators carried between points -/

/-- The scratch operands: whole scoped buffers of the kernel's own, passed beside the windows. -/
abbrev sc4_0 : Memref sig .tc .vmem S1x128 .f32 := Memref.whole cc4_scratch0
abbrev sc4_1 : Memref sig .tc .vmem S1x128 .f32 := Memref.whole cc4_scratch1

/-- The invariant before position `n`: the two scratch buffers — at anything before the first point, afterwards at the
    accumulators the point before left (`acc4`) —, every other scoped buffer that is no staging buffer at some contents,
    and the generator register at some state. -/
def Phi4 (c : Dev nD) (n : ℕ) : sProp 𝕄 :=
  iprop((∃ s, ⌜n ≠ 0 → s = (acc4 V c n).1⌝ ∗ owns (c : Thread nD τ) sc4_0 fullShare s)
    ∗ (∃ q, ⌜n ≠ 0 → q = (acc4 V c n).2⌝ ∗ owns (c : Thread nD τ) sc4_1 fullShare q)
    ∗ Pipeline.scopedRestBut (Ix := Unit) (Name := ℕ) (U := UR sig nD τ) (Lvl := ℕ) (Val := Elt F) spec4 c [cc4_scratch0, cc4_scratch1]
    ∗ ∃ r, prngReg c r)

/-! ## The pipeline's proof data -/

/-- The proof data of pipeline 4 on core `c`: the arrays as the region finds them (`V`); after the body at point `t`
    each input's buffer at its block and the two outputs' at the mean and the variance of the accumulators after `t`
    (consulted at the last point only: elsewhere the outputs are idle and not written back); the invariant `Phi4`;
    nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4_4 (acc4 V c (t.val + 1)).1
    | ⟨5, _⟩ => out4_5 (acc4 V c (t.val + 1)).1 (acc4 V c (t.val + 1)).2
  Φ t := Phi4 V c t.val
  q _ := fullShare
  owed _ := 0

/-- The proof data's arrays are the region-entry contents (the proof data's definition projected, by `dsimp`). -/
theorem A_eq4 (c : Dev nD) (w : Fin cfg4.W) : (dat4 V c).A w = V c (Pipeline.arrRef spec4 w) := by
  dsimp only [dat4]

/-- What the body leaves, window by window (the proof data's `match` reduced by `dsimp`). -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
/-- Window 4 after the body at `t`: the mean of the sum after `t` (what the last point stores and writes back). -/
theorem after4_4 (c : Dev nD) (t : Fin cfg4.N) : (dat4 V c).after 4 t = out4_4 (acc4 V c (t.val + 1)).1 := by dsimp only [dat4]
/-- Window 5 after the body at `t`: the variance of the accumulators after `t`. -/
theorem after4_5 (c : Dev nD) (t : Fin cfg4.N) : (dat4 V c).after 5 t = out4_5 (acc4 V c (t.val + 1)).1 (acc4 V c (t.val + 1)).2 := by dsimp only [dat4]

/-- Each input's current staging buffer holds its block at every point, fetched there or not (`before4_W_of`). -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

/-- The invariant at a point's start and end, restated at the position. -/
theorem Phi4_castSucc (c : Dev nD) (t : Fin cfg4.N) : (dat4 V c).Φ t.castSucc = Phi4 V c t.val := rfl
theorem Phi4_succ (c : Dev nD) (t : Fin cfg4.N) : (dat4 V c).Φ t.succ = Phi4 V c (t.val + 1) := rfl

/-! ## Where the windows are idle (the printed configuration's table `Cfg.idle`) -/

/-- The inputs are never idle. -/
theorem live4_0 : ∀ t : Fin cfg4.N, cfg4.idle 0 (grid4.coords t) = false := fun _ => rfl
theorem live4_1 : ∀ t : Fin cfg4.N, cfg4.idle 1 (grid4.coords t) = false := fun _ => rfl
theorem live4_2 : ∀ t : Fin cfg4.N, cfg4.idle 2 (grid4.coords t) = false := fun _ => rfl
theorem live4_3 : ∀ t : Fin cfg4.N, cfg4.idle 3 (grid4.coords t) = false := fun _ => rfl
/-- Before the last point the two outputs are idle (the body stores nothing into them) and not written back. -/
theorem idle4_4 : ∀ t : Fin cfg4.N, ¬t.val = 9 → cfg4.idle 4 (grid4.coords t) = true := by decide +kernel
theorem idle4_5 : ∀ t : Fin cfg4.N, ¬t.val = 9 → cfg4.idle 5 (grid4.coords t) = true := by decide +kernel
theorem noFlush4_4 : ∀ t : Fin cfg4.N, ¬t.val = 9 → (cfg4.win 4).flush t = false := by decide +kernel
theorem noFlush4_5 : ∀ t : Fin cfg4.N, ¬t.val = 9 → (cfg4.win 5).flush t = false := by decide +kernel
/-- At the last point they are live. -/
theorem live4_4 : ∀ t : Fin cfg4.N, t.val = 9 → cfg4.idle 4 (grid4.coords t) = false := by decide +kernel
theorem live4_5 : ∀ t : Fin cfg4.N, t.val = 9 → cfg4.idle 5 (grid4.coords t) = false := by decide +kernel

/-- What the body obligation asks of each input's buffer after the body: its block, as found. -/
theorem leaves4_0 (c : Dev nD) (t : Fin cfg4.N) : (dat4 V c).leavesExact 0 t = owns (c : Thread nD τ) (st4_0 t) fullShare (iblk4 V c 0 t) := by
  rw [show (dat4 V c).leavesExact 0 t = owns (c : Thread nD τ) (st4_0 t) fullShare ((dat4 V c).after 0 t) from by
    unfold Dat.leavesExact; rw [live4_0 t], after4_0]
theorem leaves4_1 (c : Dev nD) (t : Fin cfg4.N) : (dat4 V c).leavesExact 1 t = owns (c : Thread nD τ) (st4_1 t) fullShare (iblk4 V c 1 t) := by
  rw [show (dat4 V c).leavesExact 1 t = owns (c : Thread nD τ) (st4_1 t) fullShare ((dat4 V c).after 1 t) from by
    unfold Dat.leavesExact; rw [live4_1 t], after4_1]
theorem leaves4_2 (c : Dev nD) (t : Fin cfg4.N) : (dat4 V c).leavesExact 2 t = owns (c : Thread nD τ) (st4_2 t) fullShare (iblk4 V c 2 t) := by
  rw [show (dat4 V c).leavesExact 2 t = owns (c : Thread nD τ) (st4_2 t) fullShare ((dat4 V c).after 2 t) from by
    unfold Dat.leavesExact; rw [live4_2 t], after4_2]
theorem leaves4_3 (c : Dev nD) (t : Fin cfg4.N) : (dat4 V c).leavesExact 3 t = owns (c : Thread nD τ) (st4_3 t) fullShare (iblk4 V c 3 t) := by
  rw [show (dat4 V c).leavesExact 3 t = owns (c : Thread nD τ) (st4_3 t) fullShare ((dat4 V c).after 3 t) from by
    unfold Dat.leavesExact; rw [live4_3 t], after4_3]

/-! ## The body obligation, at a generic point -/

/-- What the body is called with at point `t` (the body obligation's precondition, the windows one by one), -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t)

set_option maxHeartbeats 4000000 in
/-- The body at any point: the inputs' memrefs hold their blocks (`before4_W`); the point's position says which
    case it is in (first, middle, last); the invariant hands the body the two scratch accumulators — at anything at the
    first point, where the body zeroes them, else at what the point before left — and takes them back at this point's
    (`acc4_succ_*`); before the last point the outputs' buffers pass through untouched, at the last point they are
    stored; the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).owesAt () t.succ = (dat4 V c).owesAt () t.castSucc from rfl,
    Phi4_castSucc, Phi4_succ, leaves4_0, leaves4_1, leaves4_2, leaves4_3]
  unfold Phi4
  rw [acc4_succ_fst V c t, acc4_succ_snd V c t]
  have hN : t.val < 10 := lt_of_lt_of_eq t.isLt (show cfg4.N = 10 from N_4)
  by_cases h0 : t.val = 0
  · have h9 : ¬t.val = 9 := by omega
    rw [Dat.leavesExact_idle (dat4 V c) 4 t (idle4_4 t h9) (noFlush4_4 t h9),
      Dat.leavesExact_idle (dat4 V c) 5 t (idle4_5 t h9) (noFlush4_5 t h9),
      acc4_first_fst V c t h0, acc4_first_snd V c t h0]
    iintro ⟨⟨⟨%s, -, HS⟩, ⟨%q, -, HQ⟩, Hrest, Hg⟩, Ho, ⟨%d0, H0⟩, ⟨%d1, H1⟩, ⟨%d2, H2⟩, ⟨%d3, H3⟩, ⟨%d4, H4⟩, ⟨%d5, H5⟩⟩
    iapply (sound_kernel4A c Set.univ (grid4.coords t) _ _ _ _ _ _ _ _ _ _ _ _ _ _ _ _ ((hcond4_0 t).mpr h0) (fun h => h9 ((hcond4_1 t).mp h))
      (iblk4 V c 0 t) (iblk4 V c 1 t) (iblk4 V c 2 t) (iblk4 V c 3 t) _ _ s q _)
    isplitl [H0]; · iexact H0
    isplitl [H1]; · iexact H1
    isplitl [H2]; · iexact H2
    isplitl [H3]; · iexact H3
    isplitl [H4]; · iexact H4
    isplitl [H5]; · iexact H5
    isplitl [HS]; · iexact HS
    isplitl [HQ]; · iexact HQ
    iintro ⟨H0, H1, H2, H3, H4, H5, HS, HQ⟩
    isplitl [HS HQ Hrest Hg]
    · isplitl [HS]
      · iexists _; isplitr
        swap; · iexact HS
        ipureintro; exact fun _ => rfl
      isplitl [HQ]
      · iexists _; isplitr
        swap; · iexact HQ
        ipureintro; exact fun _ => rfl
      isplitl [Hrest]; · iexact Hrest
      iexact Hg
    isplitl [Ho]; · iexact Ho
    isplitl [H0]; · iexact H0
    isplitl [H1]; · iexact H1
    isplitl [H2]; · iexact H2
    isplitl [H3]; · iexact H3
    isplitl [H4]; · iexists _; iexact H4
    iexists _; iexact H5
  · by_cases h9 : t.val = 9
    · rw [show (dat4 V c).leavesExact 4 t = owns (c : Thread nD τ) (st4_4 t) fullShare ((dat4 V c).after 4 t) from by
        unfold Dat.leavesExact; rw [live4_4 t h9], after4_4,
        show (dat4 V c).leavesExact 5 t = owns (c : Thread nD τ) (st4_5 t) fullShare ((dat4 V c).after 5 t) from by
        unfold Dat.leavesExact; rw [live4_5 t h9], after4_5,
        acc4_succ_fst V c t, acc4_succ_snd V c t]
      iintro ⟨⟨⟨%s, %hs, HS⟩, ⟨%q, %hq, HQ⟩, Hrest, Hg⟩, Ho, ⟨%d0, H0⟩, ⟨%d1, H1⟩, ⟨%d2, H2⟩, ⟨%d3, H3⟩, ⟨%d4, H4⟩, ⟨%d5, H5⟩⟩
      obtain rfl := hs h0; obtain rfl := hq h0
      iapply (sound_kernel4C c Set.univ (grid4.coords t) _ _ _ _ _ _ _ _ _ _ _ _ _ _ _ _ (fun h => h0 ((hcond4_0 t).mp h)) ((hcond4_1 t).mpr h9)
        (iblk4 V c 0 t) (iblk4 V c 1 t) (iblk4 V c 2 t) (iblk4 V c 3 t) _ _ _ _ _)
      isplitl [H0]; · iexact H0
      isplitl [H1]; · iexact H1
      isplitl [H2]; · iexact H2
      isplitl [H3]; · iexact H3
      isplitl [H4]; · iexact H4
      isplitl [H5]; · iexact H5
      isplitl [HS]; · iexact HS
      isplitl [HQ]; · iexact HQ
      iintro ⟨H0, H1, H2, H3, H4, H5, HS, HQ⟩
      isplitl [HS HQ Hrest Hg]
      · isplitl [HS]
        · iexists _; isplitr
          swap; · iexact HS
          ipureintro; exact fun _ => rfl
        isplitl [HQ]
        · iexists _; isplitr
          swap; · iexact HQ
          ipureintro; exact fun _ => rfl
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [Dat.leavesExact_idle (dat4 V c) 4 t (idle4_4 t h9) (noFlush4_4 t h9),
        Dat.leavesExact_idle (dat4 V c) 5 t (idle4_5 t h9) (noFlush4_5 t h9)]
      iintro ⟨⟨⟨%s, %hs, HS⟩, ⟨%q, %hq, HQ⟩, Hrest, Hg⟩, Ho, ⟨%d0, H0⟩, ⟨%d1, H1⟩, ⟨%d2, H2⟩, ⟨%d3, H3⟩, ⟨%d4, H4⟩, ⟨%d5, H5⟩⟩
      obtain rfl := hs h0; obtain rfl := hq h0
      iapply (sound_kernel4B c Set.univ (grid4.coords t) _ _ _ _ _ _ _ _ _ _ _ _ _ _ _ _ (fun h => h0 ((hcond4_0 t).mp h)) (fun h => h9 ((hcond4_1 t).mp h))
        (iblk4 V c 0 t) (iblk4 V c 1 t) (iblk4 V c 2 t) (iblk4 V c 3 t) _ _ _ _ _)
      isplitl [H0]; · iexact H0
      isplitl [H1]; · iexact H1
      isplitl [H2]; · iexact H2
      isplitl [H3]; · iexact H3
      isplitl [H4]; · iexact H4
      isplitl [H5]; · iexact H5
      isplitl [HS]; · iexact HS
      isplitl [HQ]; · iexact HQ
      iintro ⟨H0, H1, H2, H3, H4, H5, HS, HQ⟩
      isplitl [HS HQ Hrest Hg]
      · isplitl [HS]
        · iexists _; isplitr
          swap; · iexact HS
          ipureintro; exact fun _ => rfl
        isplitl [HQ]
        · iexists _; isplitr
          swap; · iexact HQ
          ipureintro; exact fun _ => rfl
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The library's body obligation, at every point. -/
theorem body_obligation4 (c : Dev nD) : BodyObligation (dat4 (F := F) V c) (defs₀ (F := F)) Variants.none () Set.univ := fun t => by
  rw [bigSep_W4, bigSep_W4]
  exact sound_body4 V c t

/-! ## The invariant at the region's ends -/

/-- What the region is entered with — the generator register, the scoped buffers no window stages (the prefetched
    tables, none here, beside them as any `P`) — is the invariant before the first point: the two scratch buffers
    split out at some contents. -/
theorem hin4 (c : Dev nD) (P : sProp 𝕄) :
    iprop((∃ r, prngReg c r) ∗ P ∗ Pipeline.scopedRest (Ix := Unit) (Name := ℕ) (U := UR sig nD τ) (Lvl := ℕ) (Val := Elt F) spec4 c) ⊢ (dat4 V c).Φ 0 := by
  rw [show (dat4 V c).Φ 0 = Phi4 V c 0 from rfl, scopedRest4_split]; unfold Phi4
  simp only [sc4_0, sc4_1, owns_whole]
  iintro ⟨Hg, -, ⟨⟨%f0, H0⟩, ⟨%f1, H1⟩⟩, Hrest⟩
  isplitl [H0]
  · iexists f0; isplitr; · ipureintro; exact fun h => absurd rfl h
    iexact H0
  isplitl [H1]
  · iexists f1; isplitr; · ipureintro; exact fun h => absurd rfl h
    iexact H1
  isplitl [Hrest]; · iexact Hrest
  iexact Hg

/-- After the last point the invariant gives the generator register and the scoped rest back: the accumulators' named
    contents are forgotten. -/
theorem hout4 (c : Dev nD) :
    (dat4 V c).Φ (Fin.last cfg4.N) ⊢ iprop((∃ r, prngReg c r) ∗ Pipeline.scopedRest (Ix := Unit) (Name := ℕ) (U := UR sig nD τ) (Lvl := ℕ) (Val := Elt F) spec4 c) := by
  rw [show (dat4 V c).Φ (Fin.last cfg4.N) = Phi4 V c (Fin.last cfg4.N).val from rfl, scopedRest4_split]; unfold Phi4
  simp only [sc4_0, sc4_1, owns_whole]
  iintro ⟨⟨%s, -, H0⟩, ⟨%q, -, H1⟩, Hrest, Hg⟩
  isplitl [Hg]; · iexact Hg
  isplitl [H0 H1]
  · isplitl [H0]
    · iexists s; iexact H0
    iexists q; iexact H1
  iexact Hrest

/-! ## What the region writes back: the last point's mean and variance -/

/-- The last point. -/
def tl4 : Fin cfg4.N := ⟨9, by rw [show cfg4.N = 10 from N_4]; decide⟩
/-- Window 4 after the last point's body is the mean of the final sum (the accumulator after all 10 points). -/
theorem after4_4_last (c : Dev nD) : (dat4 V c).after 4 tl4 = out4_4 (acc4 V c 10).1 := after4_4 V c tl4
/-- Window 5 after the last point's body is the variance of the final accumulators. -/
theorem after4_5_last (c : Dev nD) : (dat4 V c).after 5 tl4 = out4_5 (acc4 V c 10).1 (acc4 V c 10).2 := after4_5 V c tl4

/-! # REGION 7 of @main: custom_call 7, `cc7__stats_kernel` (pipeline 7), at the entry contents `V` -/

/-! ## The body's branch conditions -/

/-- The condition of the body's first `scf.if` (the accumulators are zeroed), from the grid coordinates. -/
abbrev cond7_0 (i : grid7.Coords) : Prop := (Scalar.cmpi .ne (Scalar.extui (Scalar.cmpi .eq (BitVec.ofNat 32 (i 0).val) 0#32)) 0#32) = 1#1
/-- It holds at the first point only — decided over the grid. -/
theorem hcond7_0 : ∀ t : Fin cfg7.N, cond7_0 (grid7.coords t) ↔ t.val = 0 :=
  (by decide +kernel : ∀ t : Fin grid7.N, cond7_0 (grid7.coords t) ↔ t.val = 0)
/-- The condition of the body's second `scf.if` (the statistics are stored). -/
abbrev cond7_1 (i : grid7.Coords) : Prop := k7_cond2 i = 1#1
/-- It holds at the last point only — decided over the grid. -/
theorem hcond7_1 : ∀ t : Fin cfg7.N, cond7_1 (grid7.coords t) ↔ t.val = 9 :=
  (by decide +kernel : ∀ t : Fin grid7.N, cond7_1 (grid7.coords t) ↔ t.val = 9)

/-! ## What the body leaves in the accumulators and in the output windows' buffers -/

/-- The sum accumulator after a point, from the point's four input blocks and the accumulator before it: its one
    covering store (Lib/Pipeline/FrameBody.lean `View.canon`; the payload is the skeleton's). -/
def accS7 (x0 x1 : Vec F S5000x128 .f32) (x2 : Vec F S5000x1 .f32) (x3 s : Vec F S1x128 .f32) : Vec F S1x128 .f32 :=
  View.canon [⟨rSC, k7_pay6 (View.ld x0 rSA) (View.ld x2 rSB) (View.ld x1 rSA) (View.ld x3 rSC) (View.ld s rSC)⟩]
/-- The sum-of-squares accumulator after a point, likewise. -/
def accQ7 (x0 x1 : Vec F S5000x128 .f32) (x2 : Vec F S5000x1 .f32) (x3 q : Vec F S1x128 .f32) : Vec F S1x128 .f32 :=
  View.canon [⟨rSC, k7_pay7 (View.ld x0 rSA) (View.ld x2 rSB) (View.ld x1 rSA) (View.ld x3 rSC) (View.ld q rSC)⟩]
/-- The accumulators as the first point zeroes them. -/
def zS7 : Vec F S1x128 .f32 := View.canon [⟨rSC, k7_pay3 (F := F)⟩]
def zQ7 : Vec F S1x128 .f32 := View.canon [⟨rSC, k7_pay4 (F := F)⟩]
/-- Window 4's staging buffer after the last point's body: the mean, from the final sum. -/
def out7_4 (s : Vec F S1x128 .f32) : Vec F S1x128 .f32 :=
  View.canon [⟨rSC, k7_pay1 (View.ld s rSC)⟩]
/-- Window 5's staging buffer after the last point's body: the variance, from the final sum and sum of squares. -/
def out7_5 (s q : Vec F S1x128 .f32) : Vec F S1x128 .f32 :=
  View.canon [⟨rSC, k7_pay2 (View.ld s rSC) (View.ld q rSC)⟩]

set_option maxHeartbeats 1000000 in
theorem sound_kernel7A (c : Dev nD) (E : Set ℕ) (i : grid7.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S1x128 .f32) (harg8 : arg8.IsWhole)
    (hc0 : cond7_0 i) (hc1 : ¬cond7_1 i)
    (x0 : Vec F S5000x128 .f32) (x1 : Vec F S5000x128 .f32) (x2 : Vec F S5000x1 .f32) (x3 : Vec F S1x128 .f32)
    (y4 y5 s q : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare y4 ∗ owns (c : Thread nD τ) arg6 fullShare y5
        ∗ owns (c : Thread nD τ) arg7 fullShare s ∗ owns (c : Thread nD τ) arg8 fullShare q
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare y4 ∗ owns (c : Thread nD τ) arg6 fullShare y5
            ∗ owns (c : Thread nD τ) arg7 fullShare (accS7 x0 x1 x2 x3 (zS7 (F := F))) ∗ owns (c : Thread nD τ) arg8 fullShare (accQ7 x0 x1 x2 x3 (zQ7 (F := F)))) -∗ K ⟨⟩))
      ⊢ wp frame (wpE (defs₀ (F := F)) Variants.none c none) E (cc7__stats_kernel i arg1 harg1 arg2 harg2 arg3 harg3 arg4 harg4 arg5 harg5 arg6 harg6 arg7 harg7 arg8 harg8) K := by
  simp only [cc7__stats_kernel_eq_skeleton]; unfold cc7__stats_kernel_skel
  simp only [k7_part1_eq_skeleton]; unfold k7_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf1 hf2 hf3 hf4 hf5 hf6 hf7 hf8
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    sl_unfold_run_names
    rw [View.readCov_eq_canon']
    exact (View.read_writes_eq_canon _ _ _ (coverSC2 _ _)).trans (canon_wholeSC _ _)
  iexists _; isplitr
  swap; · iexact H8
  ipureintro
  sl_unfold_run_names
  rw [View.readCov_eq_canon']
  exact (View.read_writes_eq_canon _ _ _ (coverSC2 _ _)).trans (canon_wholeSC _ _)

set_option maxHeartbeats 1000000 in
theorem sound_kernel7B (c : Dev nD) (E : Set ℕ) (i : grid7.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S1x128 .f32) (harg8 : arg8.IsWhole)
    (hc0 : ¬cond7_0 i) (hc1 : ¬cond7_1 i)
    (x0 : Vec F S5000x128 .f32) (x1 : Vec F S5000x128 .f32) (x2 : Vec F S5000x1 .f32) (x3 : Vec F S1x128 .f32)
    (y4 y5 s q : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare y4 ∗ owns (c : Thread nD τ) arg6 fullShare y5
        ∗ owns (c : Thread nD τ) arg7 fullShare s ∗ owns (c : Thread nD τ) arg8 fullShare q
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare y4 ∗ owns (c : Thread nD τ) arg6 fullShare y5
            ∗ owns (c : Thread nD τ) arg7 fullShare (accS7 x0 x1 x2 x3 s) ∗ owns (c : Thread nD τ) arg8 fullShare (accQ7 x0 x1 x2 x3 q)) -∗ K ⟨⟩))
      ⊢ wp frame (wpE (defs₀ (F := F)) Variants.none c none) E (cc7__stats_kernel i arg1 harg1 arg2 harg2 arg3 harg3 arg4 harg4 arg5 harg5 arg6 harg6 arg7 harg7 arg8 harg8) K := by
  simp only [cc7__stats_kernel_eq_skeleton]; unfold cc7__stats_kernel_skel
  simp only [k7_part1_eq_skeleton]; unfold k7_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf1 hf2 hf3 hf4 hf5 hf6 hf7 hf8
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (coverSC _)
  iexists _; isplitr
  swap; · iexact H8
  ipureintro
  exact View.read_writes_eq_canon _ _ _ (coverSC _)

set_option maxHeartbeats 1000000 in
theorem sound_kernel7C (c : Dev nD) (E : Set ℕ) (i : grid7.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S1x128 .f32) (harg8 : arg8.IsWhole)
    (hc0 : ¬cond7_0 i) (hc1 : cond7_1 i)
    (x0 : Vec F S5000x128 .f32) (x1 : Vec F S5000x128 .f32) (x2 : Vec F S5000x1 .f32) (x3 : Vec F S1x128 .f32)
    (y4 y5 s q : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare y4 ∗ owns (c : Thread nD τ) arg6 fullShare y5
        ∗ owns (c : Thread nD τ) arg7 fullShare s ∗ owns (c : Thread nD τ) arg8 fullShare q
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out7_4 (accS7 x0 x1 x2 x3 s)) ∗ owns (c : Thread nD τ) arg6 fullShare (out7_5 (accS7 x0 x1 x2 x3 s) (accQ7 x0 x1 x2 x3 q))
            ∗ owns (c : Thread nD τ) arg7 fullShare (accS7 x0 x1 x2 x3 s) ∗ owns (c : Thread nD τ) arg8 fullShare (accQ7 x0 x1 x2 x3 q)) -∗ K ⟨⟩))
      ⊢ wp frame (wpE (defs₀ (F := F)) Variants.none c none) E (cc7__stats_kernel i arg1 harg1 arg2 harg2 arg3 harg3 arg4 harg4 arg5 harg5 arg6 harg6 arg7 harg7 arg8 harg8) K := by
  simp only [cc7__stats_kernel_eq_skeleton]; unfold cc7__stats_kernel_skel
  simp only [k7_part1_eq_skeleton]; unfold k7_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf1 hf2 hf3 hf4 hf5 hf6 hf7 hf8
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    sl_unfold_run_names
    rw [View.readCov_eq_canon']
    exact View.read_writes_eq_canon _ _ _ (coverSC _)
  isplitl [H6]
  · iexists _; isplitr
    swap; · iexact H6
    ipureintro
    sl_unfold_run_names
    rw [View.readCov_eq_canon', View.readCov_eq_canon']
    exact View.read_writes_eq_canon _ _ _ (coverSC _)
  isplitl [H7]
  · iexists _; isplitr
    swap; · iexact H7
    ipureintro
    sl_unfold_run_names
    exact View.read_writes_eq_canon _ _ _ (coverSC _)
  iexists _; isplitr
  swap; · iexact H8
  ipureintro
  sl_unfold_run_names
  exact View.read_writes_eq_canon _ _ _ (coverSC _)

/-! ## The windows' blocks -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, fetched there or not, for ANY proof
    data whose array is `V`'s (`hA`) and whose body leaves the block in place (`hafter`): the window is uncut and never idle. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's current staging buffer holds its block at every point, fetched there or not, for ANY proof
    data whose array is `V`'s (`hA`) and whose body leaves the block in place (`hafter`): the window is uncut and never idle. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's current staging buffer holds its block at every point, fetched there or not, for ANY proof
    data whose array is `V`'s (`hA`) and whose body leaves the block in place (`hafter`): the window is uncut and never idle. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- Input window 3's current staging buffer holds its block at every point, fetched there or not, for ANY proof
    data whose array is `V`'s (`hA`) and whose body leaves the block in place (`hafter`): the window is uncut and never idle. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-! ## The accumulators, point by point -/

/-- THE ACCUMULATION. The two accumulators (sum, sum of squares) before point `n`, that is after point `n - 1`: zeroed
    before the first point's blocks are added; after point `n`, the body's two stores over the blocks at `n` and the
    accumulators before it. -/
def acc7 (c : Dev nD) : ℕ → Vec F S1x128 .f32 × Vec F S1x128 .f32
  | 0 => (zS7, zQ7)
  | n + 1 => if h : n < cfg7.N then
      (accS7 (iblk7 V c 0 ⟨n, h⟩) (iblk7 V c 1 ⟨n, h⟩) (iblk7 V c 2 ⟨n, h⟩) (iblk7 V c 3 ⟨n, h⟩) (acc7 c n).1,
       accQ7 (iblk7 V c 0 ⟨n, h⟩) (iblk7 V c 1 ⟨n, h⟩) (iblk7 V c 2 ⟨n, h⟩) (iblk7 V c 3 ⟨n, h⟩) (acc7 c n).2)
    else acc7 c n

theorem acc7_zero (c : Dev nD) : acc7 V c 0 = (zS7, zQ7) := rfl
/-- The recursion: the sum after point `t`. -/
theorem acc7_succ_fst (c : Dev nD) (t : Fin cfg7.N) :
    (acc7 V c (t.val + 1)).1 = accS7 (iblk7 V c 0 t) (iblk7 V c 1 t) (iblk7 V c 2 t) (iblk7 V c 3 t) (acc7 V c t.val).1 := by
  rw [acc7, dif_pos t.isLt]
/-- The recursion: the sum of squares after point `t`. -/
theorem acc7_succ_snd (c : Dev nD) (t : Fin cfg7.N) :
    (acc7 V c (t.val + 1)).2 = accQ7 (iblk7 V c 0 t) (iblk7 V c 1 t) (iblk7 V c 2 t) (iblk7 V c 3 t) (acc7 V c t.val).2 := by
  rw [acc7, dif_pos t.isLt]
/-- Before the first point the accumulators are the zeroed ones. -/
theorem acc7_first_fst (c : Dev nD) (t : Fin cfg7.N) (h0 : t.val = 0) : (acc7 V c t.val).1 = zS7 := by rw [h0]; rfl
theorem acc7_first_snd (c : Dev nD) (t : Fin cfg7.N) (h0 : t.val = 0) : (acc7 V c t.val).2 = zQ7 := by rw [h0]; rfl

/-! ## The region invariant: the two scratch accumulators carried between points -/

/-- The scratch operands: whole scoped buffers of the kernel's own, passed beside the windows. -/
abbrev sc7_0 : Memref sig .tc .vmem S1x128 .f32 := Memref.whole cc7_scratch0
abbrev sc7_1 : Memref sig .tc .vmem S1x128 .f32 := Memref.whole cc7_scratch1

/-- The invariant before position `n`: the two scratch buffers — at anything before the first point, afterwards at the
    accumulators the point before left (`acc7`) —, every other scoped buffer that is no staging buffer at some contents,
    and the generator register at some state. -/
def Phi7 (c : Dev nD) (n : ℕ) : sProp 𝕄 :=
  iprop((∃ s, ⌜n ≠ 0 → s = (acc7 V c n).1⌝ ∗ owns (c : Thread nD τ) sc7_0 fullShare s)
    ∗ (∃ q, ⌜n ≠ 0 → q = (acc7 V c n).2⌝ ∗ owns (c : Thread nD τ) sc7_1 fullShare q)
    ∗ Pipeline.scopedRestBut (Ix := Unit) (Name := ℕ) (U := UR sig nD τ) (Lvl := ℕ) (Val := Elt F) spec7 c [cc7_scratch0, cc7_scratch1]
    ∗ ∃ r, prngReg c r)

/-! ## The pipeline's proof data -/

/-- The proof data of pipeline 7 on core `c`: the arrays as the region finds them (`V`); after the body at point `t`
    each input's buffer at its block and the two outputs' at the mean and the variance of the accumulators after `t`
    (consulted at the last point only: elsewhere the outputs are idle and not written back); the invariant `Phi7`;
    nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => out7_4 (acc7 V c (t.val + 1)).1
    | ⟨5, _⟩ => out7_5 (acc7 V c (t.val + 1)).1 (acc7 V c (t.val + 1)).2
  Φ t := Phi7 V c t.val
  q _ := fullShare
  owed _ := 0

/-- The proof data's arrays are the region-entry contents (the proof data's definition projected, by `dsimp`). -/
theorem A_eq7 (c : Dev nD) (w : Fin cfg7.W) : (dat7 V c).A w = V c (Pipeline.arrRef spec7 w) := by
  dsimp only [dat7]

/-- What the body leaves, window by window (the proof data's `match` reduced by `dsimp`). -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
/-- Window 4 after the body at `t`: the mean of the sum after `t` (what the last point stores and writes back). -/
theorem after7_4 (c : Dev nD) (t : Fin cfg7.N) : (dat7 V c).after 4 t = out7_4 (acc7 V c (t.val + 1)).1 := by dsimp only [dat7]
/-- Window 5 after the body at `t`: the variance of the accumulators after `t`. -/
theorem after7_5 (c : Dev nD) (t : Fin cfg7.N) : (dat7 V c).after 5 t = out7_5 (acc7 V c (t.val + 1)).1 (acc7 V c (t.val + 1)).2 := by dsimp only [dat7]

/-- Each input's current staging buffer holds its block at every point, fetched there or not (`before7_W_of`). -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d

/-- The invariant at a point's start and end, restated at the position. -/
theorem Phi7_castSucc (c : Dev nD) (t : Fin cfg7.N) : (dat7 V c).Φ t.castSucc = Phi7 V c t.val := rfl
theorem Phi7_succ (c : Dev nD) (t : Fin cfg7.N) : (dat7 V c).Φ t.succ = Phi7 V c (t.val + 1) := rfl

/-! ## Where the windows are idle (the printed configuration's table `Cfg.idle`) -/

/-- The inputs are never idle. -/
theorem live7_0 : ∀ t : Fin cfg7.N, cfg7.idle 0 (grid7.coords t) = false := fun _ => rfl
theorem live7_1 : ∀ t : Fin cfg7.N, cfg7.idle 1 (grid7.coords t) = false := fun _ => rfl
theorem live7_2 : ∀ t : Fin cfg7.N, cfg7.idle 2 (grid7.coords t) = false := fun _ => rfl
theorem live7_3 : ∀ t : Fin cfg7.N, cfg7.idle 3 (grid7.coords t) = false := fun _ => rfl
/-- Before the last point the two outputs are idle (the body stores nothing into them) and not written back. -/
theorem idle7_4 : ∀ t : Fin cfg7.N, ¬t.val = 9 → cfg7.idle 4 (grid7.coords t) = true := by decide +kernel
theorem idle7_5 : ∀ t : Fin cfg7.N, ¬t.val = 9 → cfg7.idle 5 (grid7.coords t) = true := by decide +kernel
theorem noFlush7_4 : ∀ t : Fin cfg7.N, ¬t.val = 9 → (cfg7.win 4).flush t = false := by decide +kernel
theorem noFlush7_5 : ∀ t : Fin cfg7.N, ¬t.val = 9 → (cfg7.win 5).flush t = false := by decide +kernel
/-- At the last point they are live. -/
theorem live7_4 : ∀ t : Fin cfg7.N, t.val = 9 → cfg7.idle 4 (grid7.coords t) = false := by decide +kernel
theorem live7_5 : ∀ t : Fin cfg7.N, t.val = 9 → cfg7.idle 5 (grid7.coords t) = false := by decide +kernel

/-- What the body obligation asks of each input's buffer after the body: its block, as found. -/
theorem leaves7_0 (c : Dev nD) (t : Fin cfg7.N) : (dat7 V c).leavesExact 0 t = owns (c : Thread nD τ) (st7_0 t) fullShare (iblk7 V c 0 t) := by
  rw [show (dat7 V c).leavesExact 0 t = owns (c : Thread nD τ) (st7_0 t) fullShare ((dat7 V c).after 0 t) from by
    unfold Dat.leavesExact; rw [live7_0 t], after7_0]
theorem leaves7_1 (c : Dev nD) (t : Fin cfg7.N) : (dat7 V c).leavesExact 1 t = owns (c : Thread nD τ) (st7_1 t) fullShare (iblk7 V c 1 t) := by
  rw [show (dat7 V c).leavesExact 1 t = owns (c : Thread nD τ) (st7_1 t) fullShare ((dat7 V c).after 1 t) from by
    unfold Dat.leavesExact; rw [live7_1 t], after7_1]
theorem leaves7_2 (c : Dev nD) (t : Fin cfg7.N) : (dat7 V c).leavesExact 2 t = owns (c : Thread nD τ) (st7_2 t) fullShare (iblk7 V c 2 t) := by
  rw [show (dat7 V c).leavesExact 2 t = owns (c : Thread nD τ) (st7_2 t) fullShare ((dat7 V c).after 2 t) from by
    unfold Dat.leavesExact; rw [live7_2 t], after7_2]
theorem leaves7_3 (c : Dev nD) (t : Fin cfg7.N) : (dat7 V c).leavesExact 3 t = owns (c : Thread nD τ) (st7_3 t) fullShare (iblk7 V c 3 t) := by
  rw [show (dat7 V c).leavesExact 3 t = owns (c : Thread nD τ) (st7_3 t) fullShare ((dat7 V c).after 3 t) from by
    unfold Dat.leavesExact; rw [live7_3 t], after7_3]

/-! ## The body obligation, at a generic point -/

/-- What the body is called with at point `t` (the body obligation's precondition, the windows one by one), -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d)))

/-- and what it returns. -/
def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t
    ∗ (dat7 V c).leavesExact 3 t
    ∗ (dat7 V c).leavesExact 4 t
    ∗ (dat7 V c).leavesExact 5 t)

set_option maxHeartbeats 4000000 in
/-- The body at any point: the inputs' memrefs hold their blocks (`before7_W`); the point's position says which
    case it is in (first, middle, last); the invariant hands the body the two scratch accumulators — at anything at the
    first point, where the body zeroes them, else at what the point before left — and takes them back at this point's
    (`acc7_succ_*`); before the last point the outputs' buffers pass through untouched, at the last point they are
    stored; the core owes nothing throughout. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3]
  rw [show (dat7 V c).owesAt () t.succ = (dat7 V c).owesAt () t.castSucc from rfl,
    Phi7_castSucc, Phi7_succ, leaves7_0, leaves7_1, leaves7_2, leaves7_3]
  unfold Phi7
  rw [acc7_succ_fst V c t, acc7_succ_snd V c t]
  have hN : t.val < 10 := lt_of_lt_of_eq t.isLt (show cfg7.N = 10 from N_7)
  by_cases h0 : t.val = 0
  · have h9 : ¬t.val = 9 := by omega
    rw [Dat.leavesExact_idle (dat7 V c) 4 t (idle7_4 t h9) (noFlush7_4 t h9),
      Dat.leavesExact_idle (dat7 V c) 5 t (idle7_5 t h9) (noFlush7_5 t h9),
      acc7_first_fst V c t h0, acc7_first_snd V c t h0]
    iintro ⟨⟨⟨%s, -, HS⟩, ⟨%q, -, HQ⟩, Hrest, Hg⟩, Ho, ⟨%d0, H0⟩, ⟨%d1, H1⟩, ⟨%d2, H2⟩, ⟨%d3, H3⟩, ⟨%d4, H4⟩, ⟨%d5, H5⟩⟩
    iapply (sound_kernel7A c Set.univ (grid7.coords t) _ _ _ _ _ _ _ _ _ _ _ _ _ _ _ _ ((hcond7_0 t).mpr h0) (fun h => h9 ((hcond7_1 t).mp h))
      (iblk7 V c 0 t) (iblk7 V c 1 t) (iblk7 V c 2 t) (iblk7 V c 3 t) _ _ s q _)
    isplitl [H0]; · iexact H0
    isplitl [H1]; · iexact H1
    isplitl [H2]; · iexact H2
    isplitl [H3]; · iexact H3
    isplitl [H4]; · iexact H4
    isplitl [H5]; · iexact H5
    isplitl [HS]; · iexact HS
    isplitl [HQ]; · iexact HQ
    iintro ⟨H0, H1, H2, H3, H4, H5, HS, HQ⟩
    isplitl [HS HQ Hrest Hg]
    · isplitl [HS]
      · iexists _; isplitr
        swap; · iexact HS
        ipureintro; exact fun _ => rfl
      isplitl [HQ]
      · iexists _; isplitr
        swap; · iexact HQ
        ipureintro; exact fun _ => rfl
      isplitl [Hrest]; · iexact Hrest
      iexact Hg
    isplitl [Ho]; · iexact Ho
    isplitl [H0]; · iexact H0
    isplitl [H1]; · iexact H1
    isplitl [H2]; · iexact H2
    isplitl [H3]; · iexact H3
    isplitl [H4]; · iexists _; iexact H4
    iexists _; iexact H5
  · by_cases h9 : t.val = 9
    · rw [show (dat7 V c).leavesExact 4 t = owns (c : Thread nD τ) (st7_4 t) fullShare ((dat7 V c).after 4 t) from by
        unfold Dat.leavesExact; rw [live7_4 t h9], after7_4,
        show (dat7 V c).leavesExact 5 t = owns (c : Thread nD τ) (st7_5 t) fullShare ((dat7 V c).after 5 t) from by
        unfold Dat.leavesExact; rw [live7_5 t h9], after7_5,
        acc7_succ_fst V c t, acc7_succ_snd V c t]
      iintro ⟨⟨⟨%s, %hs, HS⟩, ⟨%q, %hq, HQ⟩, Hrest, Hg⟩, Ho, ⟨%d0, H0⟩, ⟨%d1, H1⟩, ⟨%d2, H2⟩, ⟨%d3, H3⟩, ⟨%d4, H4⟩, ⟨%d5, H5⟩⟩
      obtain rfl := hs h0; obtain rfl := hq h0
      iapply (sound_kernel7C c Set.univ (grid7.coords t) _ _ _ _ _ _ _ _ _ _ _ _ _ _ _ _ (fun h => h0 ((hcond7_0 t).mp h)) ((hcond7_1 t).mpr h9)
        (iblk7 V c 0 t) (iblk7 V c 1 t) (iblk7 V c 2 t) (iblk7 V c 3 t) _ _ _ _ _)
      isplitl [H0]; · iexact H0
      isplitl [H1]; · iexact H1
      isplitl [H2]; · iexact H2
      isplitl [H3]; · iexact H3
      isplitl [H4]; · iexact H4
      isplitl [H5]; · iexact H5
      isplitl [HS]; · iexact HS
      isplitl [HQ]; · iexact HQ
      iintro ⟨H0, H1, H2, H3, H4, H5, HS, HQ⟩
      isplitl [HS HQ Hrest Hg]
      · isplitl [HS]
        · iexists _; isplitr
          swap; · iexact HS
          ipureintro; exact fun _ => rfl
        isplitl [HQ]
        · iexists _; isplitr
          swap; · iexact HQ
          ipureintro; exact fun _ => rfl
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [Dat.leavesExact_idle (dat7 V c) 4 t (idle7_4 t h9) (noFlush7_4 t h9),
        Dat.leavesExact_idle (dat7 V c) 5 t (idle7_5 t h9) (noFlush7_5 t h9)]
      iintro ⟨⟨⟨%s, %hs, HS⟩, ⟨%q, %hq, HQ⟩, Hrest, Hg⟩, Ho, ⟨%d0, H0⟩, ⟨%d1, H1⟩, ⟨%d2, H2⟩, ⟨%d3, H3⟩, ⟨%d4, H4⟩, ⟨%d5, H5⟩⟩
      obtain rfl := hs h0; obtain rfl := hq h0
      iapply (sound_kernel7B c Set.univ (grid7.coords t) _ _ _ _ _ _ _ _ _ _ _ _ _ _ _ _ (fun h => h0 ((hcond7_0 t).mp h)) (fun h => h9 ((hcond7_1 t).mp h))
        (iblk7 V c 0 t) (iblk7 V c 1 t) (iblk7 V c 2 t) (iblk7 V c 3 t) _ _ _ _ _)
      isplitl [H0]; · iexact H0
      isplitl [H1]; · iexact H1
      isplitl [H2]; · iexact H2
      isplitl [H3]; · iexact H3
      isplitl [H4]; · iexact H4
      isplitl [H5]; · iexact H5
      isplitl [HS]; · iexact HS
      isplitl [HQ]; · iexact HQ
      iintro ⟨H0, H1, H2, H3, H4, H5, HS, HQ⟩
      isplitl [HS HQ Hrest Hg]
      · isplitl [HS]
        · iexists _; isplitr
          swap; · iexact HS
          ipureintro; exact fun _ => rfl
        isplitl [HQ]
        · iexists _; isplitr
          swap; · iexact HQ
          ipureintro; exact fun _ => rfl
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The library's body obligation, at every point. -/
theorem body_obligation7 (c : Dev nD) : BodyObligation (dat7 (F := F) V c) (defs₀ (F := F)) Variants.none () Set.univ := fun t => by
  rw [bigSep_W7, bigSep_W7]
  exact sound_body7 V c t

/-! ## The invariant at the region's ends -/

/-- What the region is entered with — the generator register, the scoped buffers no window stages (the prefetched
    tables, none here, beside them as any `P`) — is the invariant before the first point: the two scratch buffers
    split out at some contents. -/
theorem hin7 (c : Dev nD) (P : sProp 𝕄) :
    iprop((∃ r, prngReg c r) ∗ P ∗ Pipeline.scopedRest (Ix := Unit) (Name := ℕ) (U := UR sig nD τ) (Lvl := ℕ) (Val := Elt F) spec7 c) ⊢ (dat7 V c).Φ 0 := by
  rw [show (dat7 V c).Φ 0 = Phi7 V c 0 from rfl, scopedRest7_split]; unfold Phi7
  simp only [sc7_0, sc7_1, owns_whole]
  iintro ⟨Hg, -, ⟨⟨%f0, H0⟩, ⟨%f1, H1⟩⟩, Hrest⟩
  isplitl [H0]
  · iexists f0; isplitr; · ipureintro; exact fun h => absurd rfl h
    iexact H0
  isplitl [H1]
  · iexists f1; isplitr; · ipureintro; exact fun h => absurd rfl h
    iexact H1
  isplitl [Hrest]; · iexact Hrest
  iexact Hg

/-- After the last point the invariant gives the generator register and the scoped rest back: the accumulators' named
    contents are forgotten. -/
theorem hout7 (c : Dev nD) :
    (dat7 V c).Φ (Fin.last cfg7.N) ⊢ iprop((∃ r, prngReg c r) ∗ Pipeline.scopedRest (Ix := Unit) (Name := ℕ) (U := UR sig nD τ) (Lvl := ℕ) (Val := Elt F) spec7 c) := by
  rw [show (dat7 V c).Φ (Fin.last cfg7.N) = Phi7 V c (Fin.last cfg7.N).val from rfl, scopedRest7_split]; unfold Phi7
  simp only [sc7_0, sc7_1, owns_whole]
  iintro ⟨⟨%s, -, H0⟩, ⟨%q, -, H1⟩, Hrest, Hg⟩
  isplitl [Hg]; · iexact Hg
  isplitl [H0 H1]
  · isplitl [H0]
    · iexists s; iexact H0
    iexists q; iexact H1
  iexact Hrest

/-! ## What the region writes back: the last point's mean and variance -/

/-- The last point. -/
def tl7 : Fin cfg7.N := ⟨9, by rw [show cfg7.N = 10 from N_7]; decide⟩
/-- Window 4 after the last point's body is the mean of the final sum (the accumulator after all 10 points). -/
theorem after7_4_last (c : Dev nD) : (dat7 V c).after 4 tl7 = out7_4 (acc7 V c 10).1 := after7_4 V c tl7
/-- Window 5 after the last point's body is the variance of the final accumulators. -/
theorem after7_5_last (c : Dev nD) : (dat7 V c).after 5 tl7 = out7_5 (acc7 V c 10).1 (acc7 V c 10).2 := after7_5 V c tl7

end Regions

end Cert.KernelIdeal.Fr

end
-- ==== Proof.FrRun.lean ====
/- The run of the whole program as a chain of host stretches and kernel regions: the contents of every buffer at each
   boundary, as a fold from the launch memory (a host stretch applies its operations; a region leaves its arrays at what
   its write-backs leave and every other buffer as it was); every pipeline's proof data at its region's entry contents; each
   region as a record over the state "every unscoped buffer at the boundary's contents, the generator register at some
   state, nothing owed"; and the run itself: every weakly fair execution terminates and the final memory holds, at
   every unscoped buffer, the last boundary's contents. -/
import proofs.«135670_j59253368815959_1_alg».proof.Proof.FrMat
import proofs.«135670_j59253368815959_1_alg».proof.Proof.FrNorm
import proofs.«135670_j59253368815959_1_alg».proof.Proof.FrStats
import proofs.«135670_j59253368815959_1_alg».proof.Proof.Gen.KernelIdeal.Regions

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)

/-- After host stretch 0 (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
theorem W1_keep (c : Dev nD) (b : Ref sig .tc) (h : b ∉ hostOps0_W) :
    W1 m ρ c (Proc.devRef .tc b) = W0 m ρ c (Proc.devRef .tc b) :=
  StableHlo.after_of_writes_sub hostOps0 _ hostOps0_writes h
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- A buffer that is not an output array of region 0 leaves the region as it entered: an input window's array is never
    written, and a buffer no window stages is bypassed. -/
theorem W2_keep (c : Dev nD) (b : Ref sig .tc) (hb : b ∉ ([main_v30] : List (Ref sig .tc))) :
    W2 m ρ c (Proc.devRef .tc b) = W1 m ρ c (Proc.devRef .tc b) := by
  by_cases h : ∃ w, Pipeline.arrRef spec0 w = b
  · obtain ⟨w, rfl⟩ := h
    have key : ∀ w : Fin cfg0.W, Pipeline.arrRef spec0 w ∉ ([main_v30] : List (Ref sig .tc)) → (cfg0.win w).isOut = false := by
      decide
    rw [W2_arr]
    exact ((dat0 (V1 m ρ) c).arrAt_in w (key w hb) _).trans (A_eq0 (V1 m ρ) c w)
  · exact W2_of_ne m ρ c b fun w e => h ⟨w, e⟩

/-- After host stretch 1 (region 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
theorem W3_keep (c : Dev nD) (b : Ref sig .tc) (h : b ∉ hostOps1_W) :
    W3 m ρ c (Proc.devRef .tc b) = W2 m ρ c (Proc.devRef .tc b) :=
  StableHlo.after_of_writes_sub hostOps1 _ hostOps1_writes h
/-- At region 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- A buffer that is not an output array of region 1 leaves the region as it entered: an input window's array is never
    written, and a buffer no window stages is bypassed. -/
theorem W4_keep (c : Dev nD) (b : Ref sig .tc) (hb : b ∉ ([main_v47_0, main_v47_1] : List (Ref sig .tc))) :
    W4 m ρ c (Proc.devRef .tc b) = W3 m ρ c (Proc.devRef .tc b) := by
  by_cases h : ∃ w, Pipeline.arrRef spec1 w = b
  · obtain ⟨w, rfl⟩ := h
    have key : ∀ w : Fin cfg1.W, Pipeline.arrRef spec1 w ∉ ([main_v47_0, main_v47_1] : List (Ref sig .tc)) → (cfg1.win w).isOut = false := by
      decide
    rw [W4_arr]
    exact ((dat1 (V3 m ρ) c).arrAt_in w (key w hb) _).trans (A_eq1 (V3 m ρ) c w)
  · exact W4_of_ne m ρ c b fun w e => h ⟨w, e⟩

/-- After host stretch 2 (region 2's entry). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
theorem W5_keep (c : Dev nD) (b : Ref sig .tc) (h : b ∉ hostOps2_W) :
    W5 m ρ c (Proc.devRef .tc b) = W4 m ρ c (Proc.devRef .tc b) :=
  StableHlo.after_of_writes_sub hostOps2 _ hostOps2_writes h
/-- At region 2's exit: its arrays at what the pipeline leaves, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- A buffer that is not an output array of region 2 leaves the region as it entered: an input window's array is never
    written, and a buffer no window stages is bypassed. -/
theorem W6_keep (c : Dev nD) (b : Ref sig .tc) (hb : b ∉ ([main_v54] : List (Ref sig .tc))) :
    W6 m ρ c (Proc.devRef .tc b) = W5 m ρ c (Proc.devRef .tc b) := by
  by_cases h : ∃ w, Pipeline.arrRef spec2 w = b
  · obtain ⟨w, rfl⟩ := h
    have key : ∀ w : Fin cfg2.W, Pipeline.arrRef spec2 w ∉ ([main_v54] : List (Ref sig .tc)) → (cfg2.win w).isOut = false := by
      decide
    rw [W6_arr]
    exact ((dat2 (V5 m ρ) c).arrAt_in w (key w hb) _).trans (A_eq2 (V5 m ρ) c w)
  · exact W6_of_ne m ρ c b fun w e => h ⟨w, e⟩

/-- After host stretch 3 (region 3's entry). -/
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b
theorem W7_keep (c : Dev nD) (b : Ref sig .tc) (h : b ∉ hostOps3_W) :
    W7 m ρ c (Proc.devRef .tc b) = W6 m ρ c (Proc.devRef .tc b) :=
  StableHlo.after_of_writes_sub hostOps3 _ hostOps3_writes h
/-- At region 3's exit: its arrays at what the pipeline leaves, every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)
/-- A buffer that is not an output array of region 3 leaves the region as it entered: an input window's array is never
    written, and a buffer no window stages is bypassed. -/
theorem W8_keep (c : Dev nD) (b : Ref sig .tc) (hb : b ∉ ([main_v57] : List (Ref sig .tc))) :
    W8 m ρ c (Proc.devRef .tc b) = W7 m ρ c (Proc.devRef .tc b) := by
  by_cases h : ∃ w, Pipeline.arrRef spec3 w = b
  · obtain ⟨w, rfl⟩ := h
    have key : ∀ w : Fin cfg3.W, Pipeline.arrRef spec3 w ∉ ([main_v57] : List (Ref sig .tc)) → (cfg3.win w).isOut = false := by
      decide
    rw [W8_arr]
    exact ((dat3 (V7 m ρ) c).arrAt_in w (key w hb) _).trans (A_eq3 (V7 m ρ) c w)
  · exact W8_of_ne m ρ c b fun w e => h ⟨w, e⟩

/-- After host stretch 4 (region 4's entry). -/
abbrev W9 : Dev nD → Valuation τ sig (Elt F) := fun c => StableHlo.after hostOps4 (W8 m ρ c)
abbrev V9 : (c : Dev nD) → (b : Ref sig .tc) → Buf (Elt F) ((c : Thread nD τ).loc b) := fun c b => W9 m ρ c b
theorem W9_keep (c : Dev nD) (b : Ref sig .tc) (h : b ∉ hostOps4_W) :
    W9 m ρ c (Proc.devRef .tc b) = W8 m ρ c (Proc.devRef .tc b) :=
  StableHlo.after_of_writes_sub hostOps4 _ hostOps4_writes h
/-- At region 4's exit: its arrays at what the pipeline leaves, every other buffer as entered. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
abbrev V10 : (c : Dev nD) → (b : Ref sig .tc) → Buf (Elt F) ((c : Thread nD τ).loc b) := fun c b => W10 m ρ c b
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)
/-- A buffer that is not an output array of region 4 leaves the region as it entered: an input window's array is never
    written, and a buffer no window stages is bypassed. -/
theorem W10_keep (c : Dev nD) (b : Ref sig .tc) (hb : b ∉ ([main_v74_0, main_v74_1] : List (Ref sig .tc))) :
    W10 m ρ c (Proc.devRef .tc b) = W9 m ρ c (Proc.devRef .tc b) := by
  by_cases h : ∃ w, Pipeline.arrRef spec4 w = b
  · obtain ⟨w, rfl⟩ := h
    have key : ∀ w : Fin cfg4.W, Pipeline.arrRef spec4 w ∉ ([main_v74_0, main_v74_1] : List (Ref sig .tc)) → (cfg4.win w).isOut = false := by
      decide
    rw [W10_arr]
    exact ((dat4 (V9 m ρ) c).arrAt_in w (key w hb) _).trans (A_eq4 (V9 m ρ) c w)
  · exact W10_of_ne m ρ c b fun w e => h ⟨w, e⟩

/-- After host stretch 5 (region 5's entry). -/
abbrev W11 : Dev nD → Valuation τ sig (Elt F) := fun c => StableHlo.after hostOps5 (W10 m ρ c)
abbrev V11 : (c : Dev nD) → (b : Ref sig .tc) → Buf (Elt F) ((c : Thread nD τ).loc b) := fun c b => W11 m ρ c b
theorem W11_keep (c : Dev nD) (b : Ref sig .tc) (h : b ∉ hostOps5_W) :
    W11 m ρ c (Proc.devRef .tc b) = W10 m ρ c (Proc.devRef .tc b) :=
  StableHlo.after_of_writes_sub hostOps5 _ hostOps5_writes h
/-- At region 5's exit: its arrays at what the pipeline leaves, every other buffer as entered. -/
def W12 (c : Dev nD) : Valuation τ sig (Elt F) :=
  Pipeline.withArrays spec5 c (W11 m ρ c) fun w => (dat5 (V11 m ρ) c).arrAt w cfg5.N
theorem W12_arr (c : Dev nD) (w : Fin cfg5.W) :
    W12 m ρ c (Proc.devRef .tc (Pipeline.arrRef spec5 w)) = (dat5 (V11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
abbrev V12 : (c : Dev nD) → (b : Ref sig .tc) → Buf (Elt F) ((c : Thread nD τ).loc b) := fun c b => W12 m ρ c b
theorem hF5 (c : Dev nD) (w : Fin cfg5.W) : (dat5 (V11 m ρ) c).arrAt w cfg5.N = V12 m ρ c (Pipeline.arrRef spec5 w) :=
  (W12_arr m ρ c w).symm
theorem hrest5 (c : Dev nD) : ∀ b, b ∉ Finset.univ.image (Pipeline.arrRef spec5) → V12 m ρ c b = V11 m ρ c b :=
  fun b hb => W12_of_ne m ρ c b fun w e => hb (Finset.mem_image.mpr ⟨w, Finset.mem_univ _, e⟩)
/-- A buffer that is not an output array of region 5 leaves the region as it entered: an input window's array is never
    written, and a buffer no window stages is bypassed. -/
theorem W12_keep (c : Dev nD) (b : Ref sig .tc) (hb : b ∉ ([main_v81] : List (Ref sig .tc))) :
    W12 m ρ c (Proc.devRef .tc b) = W11 m ρ c (Proc.devRef .tc b) := by
  by_cases h : ∃ w, Pipeline.arrRef spec5 w = b
  · obtain ⟨w, rfl⟩ := h
    have key : ∀ w : Fin cfg5.W, Pipeline.arrRef spec5 w ∉ ([main_v81] : List (Ref sig .tc)) → (cfg5.win w).isOut = false := by
      decide
    rw [W12_arr]
    exact ((dat5 (V11 m ρ) c).arrAt_in w (key w hb) _).trans (A_eq5 (V11 m ρ) c w)
  · exact W12_of_ne m ρ c b fun w e => h ⟨w, e⟩

/-- After host stretch 6 (region 6's entry). -/
abbrev W13 : Dev nD → Valuation τ sig (Elt F) := fun c => StableHlo.after hostOps6 (W12 m ρ c)
abbrev V13 : (c : Dev nD) → (b : Ref sig .tc) → Buf (Elt F) ((c : Thread nD τ).loc b) := fun c b => W13 m ρ c b
theorem W13_keep (c : Dev nD) (b : Ref sig .tc) (h : b ∉ hostOps6_W) :
    W13 m ρ c (Proc.devRef .tc b) = W12 m ρ c (Proc.devRef .tc b) :=
  StableHlo.after_of_writes_sub hostOps6 _ hostOps6_writes h
/-- At region 6's exit: its arrays at what the pipeline leaves, every other buffer as entered. -/
def W14 (c : Dev nD) : Valuation τ sig (Elt F) :=
  Pipeline.withArrays spec6 c (W13 m ρ c) fun w => (dat6 (V13 m ρ) c).arrAt w cfg6.N
theorem W14_arr (c : Dev nD) (w : Fin cfg6.W) :
    W14 m ρ c (Proc.devRef .tc (Pipeline.arrRef spec6 w)) = (dat6 (V13 m ρ) c).arrAt w cfg6.N := by
  unfold W14; exact Pipeline.withArrays_arr spec6 launch6.win.arr_inj c _ _ w
theorem W14_of_ne (c : Dev nD) (b : Ref sig .tc) (hb : ∀ w, Pipeline.arrRef spec6 w ≠ b) :
    W14 m ρ c (Proc.devRef .tc b) = W13 m ρ c (Proc.devRef .tc b) := by
  unfold W14; exact Pipeline.withArrays_of_ne spec6 c _ _ b hb
abbrev V14 : (c : Dev nD) → (b : Ref sig .tc) → Buf (Elt F) ((c : Thread nD τ).loc b) := fun c b => W14 m ρ c b
theorem hF6 (c : Dev nD) (w : Fin cfg6.W) : (dat6 (V13 m ρ) c).arrAt w cfg6.N = V14 m ρ c (Pipeline.arrRef spec6 w) :=
  (W14_arr m ρ c w).symm
theorem hrest6 (c : Dev nD) : ∀ b, b ∉ Finset.univ.image (Pipeline.arrRef spec6) → V14 m ρ c b = V13 m ρ c b :=
  fun b hb => W14_of_ne m ρ c b fun w e => hb (Finset.mem_image.mpr ⟨w, Finset.mem_univ _, e⟩)
/-- A buffer that is not an output array of region 6 leaves the region as it entered: an input window's array is never
    written, and a buffer no window stages is bypassed. -/
theorem W14_keep (c : Dev nD) (b : Ref sig .tc) (hb : b ∉ ([main_v84] : List (Ref sig .tc))) :
    W14 m ρ c (Proc.devRef .tc b) = W13 m ρ c (Proc.devRef .tc b) := by
  by_cases h : ∃ w, Pipeline.arrRef spec6 w = b
  · obtain ⟨w, rfl⟩ := h
    have key : ∀ w : Fin cfg6.W, Pipeline.arrRef spec6 w ∉ ([main_v84] : List (Ref sig .tc)) → (cfg6.win w).isOut = false := by
      decide
    rw [W14_arr]
    exact ((dat6 (V13 m ρ) c).arrAt_in w (key w hb) _).trans (A_eq6 (V13 m ρ) c w)
  · exact W14_of_ne m ρ c b fun w e => h ⟨w, e⟩

/-- After host stretch 7 (region 7's entry). -/
abbrev W15 : Dev nD → Valuation τ sig (Elt F) := fun c => StableHlo.after hostOps7 (W14 m ρ c)
abbrev V15 : (c : Dev nD) → (b : Ref sig .tc) → Buf (Elt F) ((c : Thread nD τ).loc b) := fun c b => W15 m ρ c b
theorem W15_keep (c : Dev nD) (b : Ref sig .tc) (h : b ∉ hostOps7_W) :
    W15 m ρ c (Proc.devRef .tc b) = W14 m ρ c (Proc.devRef .tc b) :=
  StableHlo.after_of_writes_sub hostOps7 _ hostOps7_writes h
/-- At region 7's exit: its arrays at what the pipeline leaves, every other buffer as entered. -/
def W16 (c : Dev nD) : Valuation τ sig (Elt F) :=
  Pipeline.withArrays spec7 c (W15 m ρ c) fun w => (dat7 (V15 m ρ) c).arrAt w cfg7.N
theorem W16_arr (c : Dev nD) (w : Fin cfg7.W) :
    W16 m ρ c (Proc.devRef .tc (Pipeline.arrRef spec7 w)) = (dat7 (V15 m ρ) c).arrAt w cfg7.N := by
  unfold W16; exact Pipeline.withArrays_arr spec7 launch7.win.arr_inj c _ _ w
theorem W16_of_ne (c : Dev nD) (b : Ref sig .tc) (hb : ∀ w, Pipeline.arrRef spec7 w ≠ b) :
    W16 m ρ c (Proc.devRef .tc b) = W15 m ρ c (Proc.devRef .tc b) := by
  unfold W16; exact Pipeline.withArrays_of_ne spec7 c _ _ b hb
abbrev V16 : (c : Dev nD) → (b : Ref sig .tc) → Buf (Elt F) ((c : Thread nD τ).loc b) := fun c b => W16 m ρ c b
theorem hF7 (c : Dev nD) (w : Fin cfg7.W) : (dat7 (V15 m ρ) c).arrAt w cfg7.N = V16 m ρ c (Pipeline.arrRef spec7 w) :=
  (W16_arr m ρ c w).symm
theorem hrest7 (c : Dev nD) : ∀ b, b ∉ Finset.univ.image (Pipeline.arrRef spec7) → V16 m ρ c b = V15 m ρ c b :=
  fun b hb => W16_of_ne m ρ c b fun w e => hb (Finset.mem_image.mpr ⟨w, Finset.mem_univ _, e⟩)
/-- A buffer that is not an output array of region 7 leaves the region as it entered: an input window's array is never
    written, and a buffer no window stages is bypassed. -/
theorem W16_keep (c : Dev nD) (b : Ref sig .tc) (hb : b ∉ ([main_v101_0, main_v101_1] : List (Ref sig .tc))) :
    W16 m ρ c (Proc.devRef .tc b) = W15 m ρ c (Proc.devRef .tc b) := by
  by_cases h : ∃ w, Pipeline.arrRef spec7 w = b
  · obtain ⟨w, rfl⟩ := h
    have key : ∀ w : Fin cfg7.W, Pipeline.arrRef spec7 w ∉ ([main_v101_0, main_v101_1] : List (Ref sig .tc)) → (cfg7.win w).isOut = false := by
      decide
    rw [W16_arr]
    exact ((dat7 (V15 m ρ) c).arrAt_in w (key w hb) _).trans (A_eq7 (V15 m ρ) c w)
  · exact W16_of_ne m ρ c b fun w e => h ⟨w, e⟩

/-- After host stretch 8 (region 8's entry). -/
abbrev W17 : Dev nD → Valuation τ sig (Elt F) := fun c => StableHlo.after hostOps8 (W16 m ρ c)
abbrev V17 : (c : Dev nD) → (b : Ref sig .tc) → Buf (Elt F) ((c : Thread nD τ).loc b) := fun c b => W17 m ρ c b
theorem W17_keep (c : Dev nD) (b : Ref sig .tc) (h : b ∉ hostOps8_W) :
    W17 m ρ c (Proc.devRef .tc b) = W16 m ρ c (Proc.devRef .tc b) :=
  StableHlo.after_of_writes_sub hostOps8 _ hostOps8_writes h
/-- At region 8's exit: its arrays at what the pipeline leaves, every other buffer as entered. -/
def W18 (c : Dev nD) : Valuation τ sig (Elt F) :=
  Pipeline.withArrays spec8 c (W17 m ρ c) fun w => (dat8 (V17 m ρ) c).arrAt w cfg8.N
theorem W18_arr (c : Dev nD) (w : Fin cfg8.W) :
    W18 m ρ c (Proc.devRef .tc (Pipeline.arrRef spec8 w)) = (dat8 (V17 m ρ) c).arrAt w cfg8.N := by
  unfold W18; exact Pipeline.withArrays_arr spec8 launch8.win.arr_inj c _ _ w
theorem W18_of_ne (c : Dev nD) (b : Ref sig .tc) (hb : ∀ w, Pipeline.arrRef spec8 w ≠ b) :
    W18 m ρ c (Proc.devRef .tc b) = W17 m ρ c (Proc.devRef .tc b) := by
  unfold W18; exact Pipeline.withArrays_of_ne spec8 c _ _ b hb
abbrev V18 : (c : Dev nD) → (b : Ref sig .tc) → Buf (Elt F) ((c : Thread nD τ).loc b) := fun c b => W18 m ρ c b
theorem hF8 (c : Dev nD) (w : Fin cfg8.W) : (dat8 (V17 m ρ) c).arrAt w cfg8.N = V18 m ρ c (Pipeline.arrRef spec8 w) :=
  (W18_arr m ρ c w).symm
theorem hrest8 (c : Dev nD) : ∀ b, b ∉ Finset.univ.image (Pipeline.arrRef spec8) → V18 m ρ c b = V17 m ρ c b :=
  fun b hb => W18_of_ne m ρ c b fun w e => hb (Finset.mem_image.mpr ⟨w, Finset.mem_univ _, e⟩)
/-- A buffer that is not an output array of region 8 leaves the region as it entered: an input window's array is never
    written, and a buffer no window stages is bypassed. -/
theorem W18_keep (c : Dev nD) (b : Ref sig .tc) (hb : b ∉ ([main_v108] : List (Ref sig .tc))) :
    W18 m ρ c (Proc.devRef .tc b) = W17 m ρ c (Proc.devRef .tc b) := by
  by_cases h : ∃ w, Pipeline.arrRef spec8 w = b
  · obtain ⟨w, rfl⟩ := h
    have key : ∀ w : Fin cfg8.W, Pipeline.arrRef spec8 w ∉ ([main_v108] : List (Ref sig .tc)) → (cfg8.win w).isOut = false := by
      decide
    rw [W18_arr]
    exact ((dat8 (V17 m ρ) c).arrAt_in w (key w hb) _).trans (A_eq8 (V17 m ρ) c w)
  · exact W18_of_ne m ρ c b fun w e => h ⟨w, e⟩

/-! ## The arguments end as launched: no host operation writes one and no region has one as an output -/

theorem W18_main_arg0 (c : Dev nD) : W18 m ρ c (Proc.devRef .tc main_arg0) = m ((c : Thread nD τ).loc main_arg0) :=
  (W18_keep m ρ c main_arg0 (by decide)).trans <| (W17_keep m ρ c main_arg0 (by decide)).trans <| (W16_keep m ρ c main_arg0 (by decide)).trans <| (W15_keep m ρ c main_arg0 (by decide)).trans <| (W14_keep m ρ c main_arg0 (by decide)).trans <| (W13_keep m ρ c main_arg0 (by decide)).trans <| (W12_keep m ρ c main_arg0 (by decide)).trans <| (W11_keep m ρ c main_arg0 (by decide)).trans <| (W10_keep m ρ c main_arg0 (by decide)).trans <| (W9_keep m ρ c main_arg0 (by decide)).trans <| (W8_keep m ρ c main_arg0 (by decide)).trans <| (W7_keep m ρ c main_arg0 (by decide)).trans <| (W6_keep m ρ c main_arg0 (by decide)).trans <| (W5_keep m ρ c main_arg0 (by decide)).trans <| (W4_keep m ρ c main_arg0 (by decide)).trans <| (W3_keep m ρ c main_arg0 (by decide)).trans <| (W2_keep m ρ c main_arg0 (by decide)).trans <| (W1_keep m ρ c main_arg0 (by decide)).trans <| rfl

theorem W18_main_arg1 (c : Dev nD) : W18 m ρ c (Proc.devRef .tc main_arg1) = m ((c : Thread nD τ).loc main_arg1) :=
  (W18_keep m ρ c main_arg1 (by decide)).trans <| (W17_keep m ρ c main_arg1 (by decide)).trans <| (W16_keep m ρ c main_arg1 (by decide)).trans <| (W15_keep m ρ c main_arg1 (by decide)).trans <| (W14_keep m ρ c main_arg1 (by decide)).trans <| (W13_keep m ρ c main_arg1 (by decide)).trans <| (W12_keep m ρ c main_arg1 (by decide)).trans <| (W11_keep m ρ c main_arg1 (by decide)).trans <| (W10_keep m ρ c main_arg1 (by decide)).trans <| (W9_keep m ρ c main_arg1 (by decide)).trans <| (W8_keep m ρ c main_arg1 (by decide)).trans <| (W7_keep m ρ c main_arg1 (by decide)).trans <| (W6_keep m ρ c main_arg1 (by decide)).trans <| (W5_keep m ρ c main_arg1 (by decide)).trans <| (W4_keep m ρ c main_arg1 (by decide)).trans <| (W3_keep m ρ c main_arg1 (by decide)).trans <| (W2_keep m ρ c main_arg1 (by decide)).trans <| (W1_keep m ρ c main_arg1 (by decide)).trans <| rfl

theorem W18_main_arg2 (c : Dev nD) : W18 m ρ c (Proc.devRef .tc main_arg2) = m ((c : Thread nD τ).loc main_arg2) :=
  (W18_keep m ρ c main_arg2 (by decide)).trans <| (W17_keep m ρ c main_arg2 (by decide)).trans <| (W16_keep m ρ c main_arg2 (by decide)).trans <| (W15_keep m ρ c main_arg2 (by decide)).trans <| (W14_keep m ρ c main_arg2 (by decide)).trans <| (W13_keep m ρ c main_arg2 (by decide)).trans <| (W12_keep m ρ c main_arg2 (by decide)).trans <| (W11_keep m ρ c main_arg2 (by decide)).trans <| (W10_keep m ρ c main_arg2 (by decide)).trans <| (W9_keep m ρ c main_arg2 (by decide)).trans <| (W8_keep m ρ c main_arg2 (by decide)).trans <| (W7_keep m ρ c main_arg2 (by decide)).trans <| (W6_keep m ρ c main_arg2 (by decide)).trans <| (W5_keep m ρ c main_arg2 (by decide)).trans <| (W4_keep m ρ c main_arg2 (by decide)).trans <| (W3_keep m ρ c main_arg2 (by decide)).trans <| (W2_keep m ρ c main_arg2 (by decide)).trans <| (W1_keep m ρ c main_arg2 (by decide)).trans <| rfl

theorem W18_main_arg3 (c : Dev nD) : W18 m ρ c (Proc.devRef .tc main_arg3) = m ((c : Thread nD τ).loc main_arg3) :=
  (W18_keep m ρ c main_arg3 (by decide)).trans <| (W17_keep m ρ c main_arg3 (by decide)).trans <| (W16_keep m ρ c main_arg3 (by decide)).trans <| (W15_keep m ρ c main_arg3 (by decide)).trans <| (W14_keep m ρ c main_arg3 (by decide)).trans <| (W13_keep m ρ c main_arg3 (by decide)).trans <| (W12_keep m ρ c main_arg3 (by decide)).trans <| (W11_keep m ρ c main_arg3 (by decide)).trans <| (W10_keep m ρ c main_arg3 (by decide)).trans <| (W9_keep m ρ c main_arg3 (by decide)).trans <| (W8_keep m ρ c main_arg3 (by decide)).trans <| (W7_keep m ρ c main_arg3 (by decide)).trans <| (W6_keep m ρ c main_arg3 (by decide)).trans <| (W5_keep m ρ c main_arg3 (by decide)).trans <| (W4_keep m ρ c main_arg3 (by decide)).trans <| (W3_keep m ρ c main_arg3 (by decide)).trans <| (W2_keep m ρ c main_arg3 (by decide)).trans <| (W1_keep m ρ c main_arg3 (by decide)).trans <| rfl

theorem W18_main_arg4 (c : Dev nD) : W18 m ρ c (Proc.devRef .tc main_arg4) = m ((c : Thread nD τ).loc main_arg4) :=
  (W18_keep m ρ c main_arg4 (by decide)).trans <| (W17_keep m ρ c main_arg4 (by decide)).trans <| (W16_keep m ρ c main_arg4 (by decide)).trans <| (W15_keep m ρ c main_arg4 (by decide)).trans <| (W14_keep m ρ c main_arg4 (by decide)).trans <| (W13_keep m ρ c main_arg4 (by decide)).trans <| (W12_keep m ρ c main_arg4 (by decide)).trans <| (W11_keep m ρ c main_arg4 (by decide)).trans <| (W10_keep m ρ c main_arg4 (by decide)).trans <| (W9_keep m ρ c main_arg4 (by decide)).trans <| (W8_keep m ρ c main_arg4 (by decide)).trans <| (W7_keep m ρ c main_arg4 (by decide)).trans <| (W6_keep m ρ c main_arg4 (by decide)).trans <| (W5_keep m ρ c main_arg4 (by decide)).trans <| (W4_keep m ρ c main_arg4 (by decide)).trans <| (W3_keep m ρ c main_arg4 (by decide)).trans <| (W2_keep m ρ c main_arg4 (by decide)).trans <| (W1_keep m ρ c main_arg4 (by decide)).trans <| rfl

theorem W18_main_arg5 (c : Dev nD) : W18 m ρ c (Proc.devRef .tc main_arg5) = m ((c : Thread nD τ).loc main_arg5) :=
  (W18_keep m ρ c main_arg5 (by decide)).trans <| (W17_keep m ρ c main_arg5 (by decide)).trans <| (W16_keep m ρ c main_arg5 (by decide)).trans <| (W15_keep m ρ c main_arg5 (by decide)).trans <| (W14_keep m ρ c main_arg5 (by decide)).trans <| (W13_keep m ρ c main_arg5 (by decide)).trans <| (W12_keep m ρ c main_arg5 (by decide)).trans <| (W11_keep m ρ c main_arg5 (by decide)).trans <| (W10_keep m ρ c main_arg5 (by decide)).trans <| (W9_keep m ρ c main_arg5 (by decide)).trans <| (W8_keep m ρ c main_arg5 (by decide)).trans <| (W7_keep m ρ c main_arg5 (by decide)).trans <| (W6_keep m ρ c main_arg5 (by decide)).trans <| (W5_keep m ρ c main_arg5 (by decide)).trans <| (W4_keep m ρ c main_arg5 (by decide)).trans <| (W3_keep m ρ c main_arg5 (by decide)).trans <| (W2_keep m ρ c main_arg5 (by decide)).trans <| (W1_keep m ρ c main_arg5 (by decide)).trans <| rfl

/-! ## The proof data family and the thread state -/

/-- No pipeline has a prefetched table. -/
abbrev adm : (p : Fin 9) → (pcfgs (F := F) p).Adm := fun p => (cfgs p).toPCfg_adm
/-- Every pipeline's proof data, each at its region's entry contents. -/
def pdats : (p : Fin 9) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V11 m ρ) c
  | ⟨6, _⟩ => fun c => dat6 (V13 m ρ) c
  | ⟨7, _⟩ => fun c => dat7 (V15 m ρ) c
  | ⟨8, _⟩ => fun c => dat8 (V17 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register at some state. -/
abbrev Tₙ (c : Dev nD) : sProp 𝕄 := iprop(StableHlo.held (c : Thread nD τ) (Pipeline.ucRefs τ sig) (W18 m ρ c) ∗ ∃ r, prngReg c r)

/-! ## The regions as segments -/

set_option backward.isDefEq.respectTransparency.types false in
/-- Region 0 over the thread state: entered from every unscoped buffer at `W1`, left at `W2`. Its arrays are split out
    of the unscoped buffers and put back at the exit contents; the generator register goes into the invariant and comes
    back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are split out
    of the unscoped buffers and put back at the exit contents; the generator register goes into the invariant and comes
    back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin1 (V3 m ρ) c _
  hout c := by
    rw [Pipeline.ownSems0_none]
    exact (hout1 (V3 m ρ) c).trans (by
      iintro ⟨Hp, Hr⟩
      isplitl [Hp]; · iexact Hp
      isplitr; · iempintro
      iexact Hr)
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. Its arrays are split out
    of the unscoped buffers and put back at the exit contents; the generator register goes into the invariant and comes
    back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W7`, left at `W8`. Its arrays are split out
    of the unscoped buffers and put back at the exit contents; the generator register goes into the invariant and comes
    back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `W9`, left at `W10`. Its arrays are split out
    of the unscoped buffers and put back at the exit contents; the generator register goes into the invariant and comes
    back; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin4 (V9 m ρ) c _
  hout c := by
    rw [Pipeline.ownSems0_none]
    exact (hout4 (V9 m ρ) c).trans (by
      iintro ⟨Hp, Hr⟩
      isplitl [Hp]; · iexact Hp
      isplitr; · iempintro
      iexact Hr)
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at `W11`, left at `W12`. Its arrays are split out
    of the unscoped buffers and put back at the exit contents; the generator register goes into the invariant and comes
    back; nothing is owed; the kernel has no semaphore of its own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V11 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec5 c (V11 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V11 m ρ c) (V12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 over the thread state: entered from every unscoped buffer at `W13`, left at `W14`. Its arrays are split out
    of the unscoped buffers and put back at the exit contents; the generator register goes into the invariant and comes
    back; nothing is owed; the kernel has no semaphore of its own. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V13 m ρ) c).loose
  hwaits := Pipeline.hwaits_of_owed_zero _ _ _ _ L lv 6 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec6 c (V13 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V13 m ρ c) (V14 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7 over the thread state: entered from every unscoped buffer at `W15`, left at `W16`. Its arrays are split out
    of the unscoped buffers and put back at the exit contents; the generator register goes into the invariant and comes
    back; nothing is owed; the kernel has no semaphore of its own. -/
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V15 m ρ) c).loose
  hwaits := Pipeline.hwaits_of_owed_zero _ _ _ _ L lv 7 fun _ _ => rfl
  pre c := iprop(StableHlo.held (c : Thread nD τ) (Pipeline.ucRefs τ sig) (W15 m ρ c) ∗ R c)
  post c := iprop(StableHlo.held (c : Thread nD τ) (Pipeline.ucRefs τ sig) (W16 m ρ c) ∗ R c)
  X c := iprop(∃ r, prngReg c r)
  Y c := iprop(∃ r, prngReg c r)
  Z c := Pipeline.unscopedRest (Ix := Unit) (Name := ℕ) (U := UR sig nD τ) (Lvl := ℕ) spec7 c (V15 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin7 (V15 m ρ) c _
  hout c := by
    rw [Pipeline.ownSems0_none]
    exact (hout7 (V15 m ρ) c).trans (by
      iintro ⟨Hp, Hr⟩
      isplitl [Hp]; · iexact Hp
      isplitr; · iempintro
      iexact Hr)
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (V15 m ρ c) (V16 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 8 over the thread state: entered from every unscoped buffer at `W17`, left at `W18`. Its arrays are split out
    of the unscoped buffers and put back at the exit contents; the generator register goes into the invariant and comes
    back; nothing is owed; the kernel has no semaphore of its own. -/
def reg8 : Pipeline.RegionSeg (pcfgs (F := F)) adm (pdats m ρ) () defs₀ 𝒱₀ L lv 8 where
  win := launch8.win.to₀
  block_pos := launch8.block_pos
  stage_whole := launch8.stage_whole
  K := PEmpty
  osem k := k.elim
  ho := Pipeline.OwnSemFacts.none _
  hbody c := (body_obligation8 (V17 m ρ) c).loose
  hwaits := Pipeline.hwaits_of_owed_zero _ _ _ _ L lv 8 fun _ _ => rfl
  pre c := iprop(StableHlo.held (c : Thread nD τ) (Pipeline.ucRefs τ sig) (W17 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec8 c (V17 m ρ c)
  hentry c := by
    rw [Pipeline.ownSems0_none]
    have hsplit := Pipeline.arrays_of_unscopedBufs (p := 8) (pcfgs (F := F)) adm (pdats m ρ) launch8.win launch8.arr_whole c
      ((pdats m ρ 8 c).share_full fun _ => rfl) (V17 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m ρ 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m ρ) ((pdats m ρ 8 c).share_full fun _ => rfl)
      (V17 m ρ c) (V18 m ρ c) ((pdats m ρ 8 c).arrAt · cfg8.N) (hF8 m ρ c) (hrest8 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ),
    .host (hseg hostOps6 hostOps6_sub hostOps6_fresh (W12 m ρ)),
    .region (reg6 m ρ),
    .host (hseg hostOps7 hostOps7_sub hostOps7_fresh (W14 m ρ)),
    .region (reg7 m ρ),
    .host (hseg hostOps8 hostOps8_sub hostOps8_fresh (W16 m ρ)),
    .region (reg8 m ρ) ]
theorem main_run (c : Dev nD) : main (F := F) c = Pipeline.Seg.run (segs m ρ) := (main_chain c).trans (by chain_rfl)

set_option backward.isDefEq.respectTransparency.types false in
/-- THE RUN. From any memory with zero counters every weakly fair execution of the program terminates, nothing faulting,
    and the final memory holds at every unscoped buffer the last boundary's contents. -/
theorem run_all : θ_run defs (onTc (τ := τ) (main (F := F))) ⟨m, fun _ => 0, ρ⟩ (fun r => ∀ c : Dev nD, ∀ b : Ref sig .tc,
      ¬ (Proc.devRef .tc b : DevRef τ sig).isScoped → r.2.mem ((c.tc : Thread nD τ).loc b) = W18 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h c b hb => h c _ (mem_uc b hb))

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c main_arg0 (by decide)).trans (W18_main_arg0 m ρ c),
     (h c main_arg1 (by decide)).trans (W18_main_arg1 m ρ c),
     (h c main_arg2 (by decide)).trans (W18_main_arg2 m ρ c),
     (h c main_arg3 (by decide)).trans (W18_main_arg3 m ρ c),
     (h c main_arg4 (by decide)).trans (W18_main_arg4 m ρ c),
     (h c main_arg5 (by decide)).trans (W18_main_arg5 m ρ c)⟩)
    (run_all m ρ)

end Cert.KernelIdeal.Fr

end
-- ==== Proof.KFrMat.lean ====
/- The frame halves of the three matrix-product regions (regions 0, 3, 6): per region, at the buffer contents `V` the
   region is entered with, each window's block at a grid point, what the body leaves in the output window's buffer
   (one whole store of the product), the body's triple, the pipeline's proof data and the body obligation. The three
   regions run the same kernel text on their own windows. -/
import proofs.«135670_j59253368815959_1_alg».proof.Proof.Gen.Kernel.Launch
import proofs.«135670_j59253368815959_1_alg».proof.Proof.Gen.Kernel.Skeleton
import proofs.«135670_j59253368815959_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when a region is entered: the parameter every region's half is stated at
variable (V : (c : Dev nD) → (b : Ref sig .tc) → Buf (Elt F) ((c : Thread nD τ).loc b))

/-! # REGION 0: the matrix product of a row block with the weight matrix, at the entry contents `V` -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the row block) holds its block at every point, for any proof data whose array is `V`'s and
    whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the weight matrix, fetched once: its block index never moves) holds its block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_0 : Rect S5000x128 := Rect.unit (s := S5000x128) ![0, 0] S5000x128.size inb_S5000x128_S5000x128_0_0
abbrev r0_1 : Rect S128x128 := Rect.unit (s := S128x128) ![0, 0] S128x128.size inb_S128x128_S128x128_0_0

/-- The output window's buffer after the body: one store of the whole buffer, the product of the row block
    (rounded to bf16) with the weight matrix (rounded to bf16), accumulated in f32. -/
def out0_2 (x0 : Vec F S5000x128 .f32) (x1 : Vec F S128x128 .f32) : Vec F S5000x128 .f32 :=
  View.canon [⟨r0_0, k0_pay1 (View.ld x0 r0_0) (View.ld x1 r0_1)⟩]

/-- The one store is the whole buffer, so it covers it. -/
theorem cover0_2 (p0 : Vec F S5000x128 .f32) (y : S5000x128.Idx) :
    ∃ pc ∈ ([⟨r0_0, p0⟩] : List (View.Piece (Elt F) S5000x128 .f32)), y ∈ pc.1.set :=
  View.cover_of_tiled [⟨r0_0, p0⟩] S5000x128.size (by rfl) y

set_option maxHeartbeats 1000000 in
/-- The body on whole staging memrefs, the two inputs' at contents `x0`, `x1` and the output's at anything (the body
    reads the output buffer before it overwrites it whole; the value read is unused), leaves the inputs as they were
    and the output at `out0_2 x0 x1`. -/
theorem sound_kernel0 (c : Dev nD) (E : Set ℕ) (i : grid0.Coords) (arg1 : Memref sig .tc .vmem S5000x128 .f32) (harg1 : arg1.IsWhole)
    (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them; after the body each input's
    buffer at its block and the output's at `out0_2` of the input blocks; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! # REGION 3: the matrix product of a row block with the weight matrix, at the entry contents `V` -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0 (the row block) holds its block at every point, for any proof data whose array is `V`'s and
    whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1 (the weight matrix, fetched once: its block index never moves) holds its block at every point. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each buffer whole -/

abbrev r3_0 : Rect S5000x128 := Rect.unit (s := S5000x128) ![0, 0] S5000x128.size inb_S5000x128_S5000x128_0_0
abbrev r3_1 : Rect S128x128 := Rect.unit (s := S128x128) ![0, 0] S128x128.size inb_S128x128_S128x128_0_0

/-- The output window's buffer after the body: one store of the whole buffer, the product of the row block
    (rounded to bf16) with the weight matrix (rounded to bf16), accumulated in f32. -/
def out3_2 (x0 : Vec F S5000x128 .f32) (x1 : Vec F S128x128 .f32) : Vec F S5000x128 .f32 :=
  View.canon [⟨r3_0, k3_pay1 (View.ld x0 r3_0) (View.ld x1 r3_1)⟩]

/-- The one store is the whole buffer, so it covers it. -/
theorem cover3_2 (p0 : Vec F S5000x128 .f32) (y : S5000x128.Idx) :
    ∃ pc ∈ ([⟨r3_0, p0⟩] : List (View.Piece (Elt F) S5000x128 .f32)), y ∈ pc.1.set :=
  View.cover_of_tiled [⟨r3_0, p0⟩] S5000x128.size (by rfl) y

set_option maxHeartbeats 1000000 in
/-- The body on whole staging memrefs, the two inputs' at contents `x0`, `x1` and the output's at anything (the body
    reads the output buffer before it overwrites it whole; the value read is unused), leaves the inputs as they were
    and the output at `out3_2 x0 x1`. -/
theorem sound_kernel3 (c : Dev nD) (E : Set ℕ) (i : grid3.Coords) (arg1 : Memref sig .tc .vmem S5000x128 .f32) (harg1 : arg1.IsWhole)
    (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out3_2 x0 x1)) -∗ K ⟨⟩))
      ⊢ wp frame (wpE (defs₀ (F := F)) Variants.none c none) E (cc3__matmul_kernel i arg1 harg1 arg2 harg2 arg3 harg3) K := by
  simp only [cc3__matmul_kernel_eq_skeleton]; unfold cc3__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The pipeline's proof data -/

/-- The proof data of pipeline 3 on core `c`: the arrays as the region finds them; after the body each input's
    buffer at its block and the output's at `out3_2` of the input blocks; the invariant the scoped rest and the
    generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' memrefs hold their blocks, so `sound_kernel3` applies; the invariant and the
    core's debts pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

/-! # REGION 6: the matrix product of a row block with the weight matrix, at the entry contents `V` -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0 (the row block) holds its block at every point, for any proof data whose array is `V`'s and
    whose body leaves the block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1 (the weight matrix, fetched once: its block index never moves) holds its block at every point. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: each buffer whole -/

abbrev r6_0 : Rect S5000x128 := Rect.unit (s := S5000x128) ![0, 0] S5000x128.size inb_S5000x128_S5000x128_0_0
abbrev r6_1 : Rect S128x128 := Rect.unit (s := S128x128) ![0, 0] S128x128.size inb_S128x128_S128x128_0_0

/-- The output window's buffer after the body: one store of the whole buffer, the product of the row block
    (rounded to bf16) with the weight matrix (rounded to bf16), accumulated in f32. -/
def out6_2 (x0 : Vec F S5000x128 .f32) (x1 : Vec F S128x128 .f32) : Vec F S5000x128 .f32 :=
  View.canon [⟨r6_0, k6_pay1 (View.ld x0 r6_0) (View.ld x1 r6_1)⟩]

/-- The one store is the whole buffer, so it covers it. -/
theorem cover6_2 (p0 : Vec F S5000x128 .f32) (y : S5000x128.Idx) :
    ∃ pc ∈ ([⟨r6_0, p0⟩] : List (View.Piece (Elt F) S5000x128 .f32)), y ∈ pc.1.set :=
  View.cover_of_tiled [⟨r6_0, p0⟩] S5000x128.size (by rfl) y

set_option maxHeartbeats 1000000 in
/-- The body on whole staging memrefs, the two inputs' at contents `x0`, `x1` and the output's at anything (the body
    reads the output buffer before it overwrites it whole; the value read is unused), leaves the inputs as they were
    and the output at `out6_2 x0 x1`. -/
theorem sound_kernel6 (c : Dev nD) (E : Set ℕ) (i : grid6.Coords) (arg1 : Memref sig .tc .vmem S5000x128 .f32) (harg1 : arg1.IsWhole)
    (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out6_2 x0 x1)) -∗ K ⟨⟩))
      ⊢ wp frame (wpE (defs₀ (F := F)) Variants.none c none) E (cc6__matmul_kernel i arg1 harg1 arg2 harg2 arg3 harg3) K := by
  simp only [cc6__matmul_kernel_eq_skeleton]; unfold cc6__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover6_2 _)

/-! ## The pipeline's proof data -/

/-- The proof data of pipeline 6 on core `c`: the arrays as the region finds them; after the body each input's
    buffer at its block and the output's at `out6_2` of the input blocks; the invariant the scoped rest and the
    generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = out6_2 (iblk6 V c 0 t) (iblk6 V c 1 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

/-! ## The body obligation, at a generic point -/

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

/-- The body at any point: the inputs' memrefs hold their blocks, so `sound_kernel6` applies; the invariant and the
    core's debts pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).Φ t.succ = (dat6 V c).Φ t.castSucc from rfl,
    show (dat6 V c).owesAt () t.succ = (dat6 V c).owesAt () t.castSucc from rfl,
    after6_0, after6_1, after6_2]
  iintro ⟨HΦ, Ho, ⟨%d0, H0⟩, ⟨%d1, H1⟩, ⟨%d2, H2⟩⟩
  iapply (sound_kernel6 c Set.univ _ _ _ _ _ _ _ (iblk6 V c 0 t) (iblk6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Fr
-- ==== Proof.KFrNorm.lean ====
/- The frame halves of the three normalize regions (regions 2, 5, 8): per region, at the buffer contents `V` the region
   is entered with, each window's block at a grid point, what the body leaves in the output window's buffer (one whole
   store), the body's triple, the pipeline's proof data and the body obligation. Nine input windows and one output
   window each; region 2 does not read its ninth input; region 5's body computes its stored value in a separate
   function, opened in place; region 8 does not rectify. -/
import proofs.«135670_j59253368815959_1_alg».proof.Proof.Gen.Kernel.Launch
import proofs.«135670_j59253368815959_1_alg».proof.Proof.Gen.Kernel.Skeleton
import proofs.«135670_j59253368815959_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when a region is entered: the parameter every region's half is stated at
variable (V : (c : Dev nD) → (b : Ref sig .tc) → Buf (Elt F) ((c : Thread nD τ).loc b))

/-! # REGION 2: the normalize kernel on a row block, at the entry contents `V` -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 holds its block at every point, fetched there or not (unfetched, its block index has not moved),
    for any proof data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1 holds its block at every point, fetched there or not (unfetched, its block index has not moved),
    for any proof data whose array is `V`'s and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2 holds its block at every point, fetched there or not (unfetched, its block index has not moved),
    for any proof data whose array is `V`'s and whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3 holds its block at every point, fetched there or not (unfetched, its block index has not moved),
    for any proof data whose array is `V`'s and whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4 holds its block at every point, fetched there or not (unfetched, its block index has not moved),
    for any proof data whose array is `V`'s and whose body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5 holds its block at every point, fetched there or not (unfetched, its block index has not moved),
    for any proof data whose array is `V`'s and whose body leaves the block in place. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6 holds its block at every point, fetched there or not (unfetched, its block index has not moved),
    for any proof data whose array is `V`'s and whose body leaves the block in place. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- Input window 7 holds its block at every point, fetched there or not (unfetched, its block index has not moved),
    for any proof data whose array is `V`'s and whose body leaves the block in place. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-- Input window 8 holds its block at every point, fetched there or not (unfetched, its block index has not moved),
    for any proof data whose array is `V`'s and whose body leaves the block in place. -/
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer whole -/

abbrev r2_0 : Rect S5000x128 := Rect.unit (s := S5000x128) ![0, 0] S5000x128.size inb_S5000x128_S5000x128_0_0
abbrev r2_1 : Rect S5000x1 := Rect.unit (s := S5000x1) ![0, 0] S5000x1.size inb_S5000x1_S5000x1_0_0
abbrev r2_2 : Rect S1x128 := Rect.unit (s := S1x128) ![0, 0] S1x128.size inb_S1x128_S1x128_0_0

/-- The output window's buffer after the body, from the nine input windows' blocks in window order (the ninth is not read): one
    store of the whole buffer, elementwise `max (x6 · (((x0 + x2 · x1 + x3) − x4) · rsqrt (x5 + ε)) + x7) 0`, the column `x2` and the rows
    `x3 … x7` broadcast to the block, `ε` the f32 constant `0x3727C5AC`. -/
def out2_9 (x0 : Vec F S5000x128 .f32) (x1 : Vec F S5000x128 .f32) (x2 : Vec F S5000x1 .f32) (x3 : Vec F S1x128 .f32) (x4 : Vec F S1x128 .f32) (x5 : Vec F S1x128 .f32) (x6 : Vec F S1x128 .f32) (x7 : Vec F S1x128 .f32) (x8 : Vec F S5000x128 .f32) : Vec F S5000x128 .f32 :=
  View.canon [⟨r2_0, k2_pay1 (View.ld x0 r2_0) (View.ld x2 r2_1) (View.ld x1 r2_0) (View.ld x3 r2_2) (View.ld x4 r2_2) (View.ld x5 r2_2) (View.ld x6 r2_2) (View.ld x7 r2_2)⟩]

/-- The one store is the whole buffer, so it covers it. -/
theorem cover2_9 (p0 : Vec F S5000x128 .f32) (y : S5000x128.Idx) :
    ∃ pc ∈ ([⟨r2_0, p0⟩] : List (View.Piece (Elt F) S5000x128 .f32)), y ∈ pc.1.set :=
  View.cover_of_tiled [⟨r2_0, p0⟩] S5000x128.size (by rfl) y

set_option maxHeartbeats 4000000 in
/-- The body on whole staging memrefs, the nine inputs' at contents `x0 … x8` and the output's at anything (the body
    reads the output buffer before it overwrites it whole; the value read is unused), leaves the inputs as they were
    and the output at `out2_9` of the inputs'. -/
theorem sound_kernel2 (c : Dev nD) (E : Set ℕ) (i : grid2.Coords)
    (arg1 : Memref sig .tc .vmem S5000x128 .f32) (harg1 : arg1.IsWhole)
    (arg2 : Memref sig .tc .vmem S5000x128 .f32) (harg2 : arg2.IsWhole)
    (arg3 : Memref sig .tc .vmem S5000x1 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S1x128 .f32) (harg6 : arg6.IsWhole)
    (arg7 : Memref sig .tc .vmem S1x128 .f32) (harg7 : arg7.IsWhole)
    (arg8 : Memref sig .tc .vmem S1x128 .f32) (harg8 : arg8.IsWhole)
    (arg9 : Memref sig .tc .vmem S5000x128 .f32) (harg9 : arg9.IsWhole)
    (arg10 : Memref sig .tc .vmem S5000x128 .f32) (harg10 : arg10.IsWhole)
    (x0 : Vec F S5000x128 .f32) (x1 : Vec F S5000x128 .f32) (x2 : Vec F S5000x1 .f32) (x3 : Vec F S1x128 .f32) (x4 : Vec F S1x128 .f32) (x5 : Vec F S1x128 .f32) (x6 : Vec F S1x128 .f32) (x7 : Vec F S1x128 .f32) (x8 : Vec F S5000x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
            ∗ owns (c : Thread nD τ) arg10 fullShare (out2_9 x0 x1 x2 x3 x4 x5 x6 x7 x8)) -∗ K ⟨⟩))
      ⊢ wp frame (wpE (defs₀ (F := F)) Variants.none c none) E (cc2__normalize_kernel i arg1 harg1 arg2 harg2 arg3 harg3 arg4 harg4 arg5 harg5 arg6 harg6 arg7 harg7 arg8 harg8 arg9 harg9 arg10 harg10) K := by
  simp only [cc2__normalize_kernel_eq_skeleton]; unfold cc2__normalize_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0
  subst hf1
  subst hf2
  subst hf3
  subst hf4
  subst hf5
  subst hf6
  subst hf7
  subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover2_9 _)

/-! ## The pipeline's proof data -/

/-- The proof data of pipeline 2 on core `c`: the arrays as the region finds them; after the body each input's
    buffer at its block and the output's at `out2_9` of the input blocks; the invariant the scoped rest and the
    generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => out2_9 (iblk2 V c 0 t) (iblk2 V c 1 t) (iblk2 V c 2 t) (iblk2 V c 3 t) (iblk2 V c 4 t) (iblk2 V c 5 t) (iblk2 V c 6 t) (iblk2 V c 7 t) (iblk2 V c 8 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = out2_9 (iblk2 V c 0 t) (iblk2 V c 1 t) (iblk2 V c 2 t) (iblk2 V c 3 t) (iblk2 V c 4 t) (iblk2 V c 5 t) (iblk2 V c 6 t) (iblk2 V c 7 t) (iblk2 V c 8 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t))

/-- The body at any point: the inputs' memrefs hold their blocks, so `sound_kernel2` applies; the invariant and the
    core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel2 c Set.univ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! # REGION 5: the normalize kernel on a row block, at the entry contents `V` -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0 holds its block at every point, fetched there or not (unfetched, its block index has not moved),
    for any proof data whose array is `V`'s and whose body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1 holds its block at every point, fetched there or not (unfetched, its block index has not moved),
    for any proof data whose array is `V`'s and whose body leaves the block in place. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2 holds its block at every point, fetched there or not (unfetched, its block index has not moved),
    for any proof data whose array is `V`'s and whose body leaves the block in place. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3 holds its block at every point, fetched there or not (unfetched, its block index has not moved),
    for any proof data whose array is `V`'s and whose body leaves the block in place. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4 holds its block at every point, fetched there or not (unfetched, its block index has not moved),
    for any proof data whose array is `V`'s and whose body leaves the block in place. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- Input window 5 holds its block at every point, fetched there or not (unfetched, its block index has not moved),
    for any proof data whose array is `V`'s and whose body leaves the block in place. -/
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

/-- Input window 6 holds its block at every point, fetched there or not (unfetched, its block index has not moved),
    for any proof data whose array is `V`'s and whose body leaves the block in place. -/
theorem before5_6_of {c : Dev nD} (dat : Dat τ (Elt F) Unit ℕ (UR sig nD τ) ℕ cfg5 c) (hA : dat.A 6 = V c (Pipeline.arrRef spec5 6))
    (hafter : ∀ t, dat.after 6 t = iblk5 V c 6 t) (t : Fin cfg5.N) (d) : dat.before 6 t d = iblk5 V c 6 t :=
  (dat.before_in_eq_fetched 6 rfl (fun _ => rfl) (fun _ _ _ => rfl) (fun t => by rw [hafter]; unfold Dat.blockOf iblk5; rw [hA]; try rfl) t d).trans
    (by unfold Dat.fetched Dat.blockOf iblk5; rw [hA]; try rfl)

/-- Input window 7 holds its block at every point, fetched there or not (unfetched, its block index has not moved),
    for any proof data whose array is `V`'s and whose body leaves the block in place. -/
theorem before5_7_of {c : Dev nD} (dat : Dat τ (Elt F) Unit ℕ (UR sig nD τ) ℕ cfg5 c) (hA : dat.A 7 = V c (Pipeline.arrRef spec5 7))
    (hafter : ∀ t, dat.after 7 t = iblk5 V c 7 t) (t : Fin cfg5.N) (d) : dat.before 7 t d = iblk5 V c 7 t :=
  (dat.before_in_eq_fetched 7 rfl (fun _ => rfl) (fun _ _ _ => rfl) (fun t => by rw [hafter]; unfold Dat.blockOf iblk5; rw [hA]; try rfl) t d).trans
    (by unfold Dat.fetched Dat.blockOf iblk5; rw [hA]; try rfl)

/-- Input window 8 holds its block at every point, fetched there or not (unfetched, its block index has not moved),
    for any proof data whose array is `V`'s and whose body leaves the block in place. -/
theorem before5_8_of {c : Dev nD} (dat : Dat τ (Elt F) Unit ℕ (UR sig nD τ) ℕ cfg5 c) (hA : dat.A 8 = V c (Pipeline.arrRef spec5 8))
    (hafter : ∀ t, dat.after 8 t = iblk5 V c 8 t) (t : Fin cfg5.N) (d) : dat.before 8 t d = iblk5 V c 8 t :=
  (dat.before_in_eq_fetched 8 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: each buffer whole -/

abbrev r5_0 : Rect S5000x128 := Rect.unit (s := S5000x128) ![0, 0] S5000x128.size inb_S5000x128_S5000x128_0_0
abbrev r5_1 : Rect S5000x1 := Rect.unit (s := S5000x1) ![0, 0] S5000x1.size inb_S5000x1_S5000x1_0_0
abbrev r5_2 : Rect S1x128 := Rect.unit (s := S1x128) ![0, 0] S1x128.size inb_S1x128_S1x128_0_0

/-- The output window's buffer after the body, from the nine input windows' blocks in window order: one
    store of the whole buffer, elementwise `max (x6 · (((x0 + x2 · x1 + x3) − x4) · rsqrt (x5 + ε)) + x7) 0 + x8`, the column `x2` and the rows
    `x3 … x7` broadcast to the block, `ε` the f32 constant `0x3727C5AC`. -/
def out5_9 (x0 : Vec F S5000x128 .f32) (x1 : Vec F S5000x128 .f32) (x2 : Vec F S5000x1 .f32) (x3 : Vec F S1x128 .f32) (x4 : Vec F S1x128 .f32) (x5 : Vec F S1x128 .f32) (x6 : Vec F S1x128 .f32) (x7 : Vec F S1x128 .f32) (x8 : Vec F S5000x128 .f32) : Vec F S5000x128 .f32 :=
  View.canon [⟨r5_0, k5_pay1 (View.ld x0 r5_0) (View.ld x2 r5_1) (View.ld x1 r5_0) (View.ld x3 r5_2) (View.ld x4 r5_2) (View.ld x5 r5_2) (View.ld x6 r5_2) (View.ld x7 r5_2) (View.ld x8 r5_0)⟩]

/-- The one store is the whole buffer, so it covers it. -/
theorem cover5_9 (p0 : Vec F S5000x128 .f32) (y : S5000x128.Idx) :
    ∃ pc ∈ ([⟨r5_0, p0⟩] : List (View.Piece (Elt F) S5000x128 .f32)), y ∈ pc.1.set :=
  View.cover_of_tiled [⟨r5_0, p0⟩] S5000x128.size (by rfl) y

set_option maxHeartbeats 4000000 in
/-- The body on whole staging memrefs, the nine inputs' at contents `x0 … x8` and the output's at anything (the body
    reads the output buffer before it overwrites it whole; the value read is unused), leaves the inputs as they were
    and the output at `out5_9` of the inputs'. -/
theorem sound_kernel5 (c : Dev nD) (E : Set ℕ) (i : grid5.Coords)
    (arg1 : Memref sig .tc .vmem S5000x128 .f32) (harg1 : arg1.IsWhole)
    (arg2 : Memref sig .tc .vmem S5000x128 .f32) (harg2 : arg2.IsWhole)
    (arg3 : Memref sig .tc .vmem S5000x1 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S1x128 .f32) (harg6 : arg6.IsWhole)
    (arg7 : Memref sig .tc .vmem S1x128 .f32) (harg7 : arg7.IsWhole)
    (arg8 : Memref sig .tc .vmem S1x128 .f32) (harg8 : arg8.IsWhole)
    (arg9 : Memref sig .tc .vmem S5000x128 .f32) (harg9 : arg9.IsWhole)
    (arg10 : Memref sig .tc .vmem S5000x128 .f32) (harg10 : arg10.IsWhole)
    (x0 : Vec F S5000x128 .f32) (x1 : Vec F S5000x128 .f32) (x2 : Vec F S5000x1 .f32) (x3 : Vec F S1x128 .f32) (x4 : Vec F S1x128 .f32) (x5 : Vec F S1x128 .f32) (x6 : Vec F S1x128 .f32) (x7 : Vec F S1x128 .f32) (x8 : Vec F S5000x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
            ∗ owns (c : Thread nD τ) arg10 fullShare (out5_9 x0 x1 x2 x3 x4 x5 x6 x7 x8)) -∗ K ⟨⟩))
      ⊢ wp frame (wpE (defs₀ (F := F)) Variants.none c none) E (cc5__normalize_kernel i arg1 harg1 arg2 harg2 arg3 harg3 arg4 harg4 arg5 harg5 arg6 harg6 arg7 harg7 arg8 harg8 arg9 harg9 arg10 harg10) K := by
  simp only [cc5__normalize_kernel_eq_skeleton]; unfold cc5__normalize_kernel_skel
  simp only [k5_part1_eq_skeleton]; unfold k5_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0
  subst hf1
  subst hf2
  subst hf3
  subst hf4
  subst hf5
  subst hf6
  subst hf7
  subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover5_9 _)

/-! ## The pipeline's proof data -/

/-- The proof data of pipeline 5 on core `c`: the arrays as the region finds them; after the body each input's
    buffer at its block and the output's at `out5_9` of the input blocks; the invariant the scoped rest and the
    generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => iblk5 V c 7 t
    | ⟨8, _⟩ => iblk5 V c 8 t
    | ⟨9, _⟩ => out5_9 (iblk5 V c 0 t) (iblk5 V c 1 t) (iblk5 V c 2 t) (iblk5 V c 3 t) (iblk5 V c 4 t) (iblk5 V c 5 t) (iblk5 V c 6 t) (iblk5 V c 7 t) (iblk5 V c 8 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t = iblk5 V c 7 t := by dsimp only [dat5]
theorem after5_8 (c : Dev nD) (t : Fin cfg5.N) : (dat5 V c).after 8 t = iblk5 V c 8 t := by dsimp only [dat5]
theorem after5_9 (c : Dev nD) (t : Fin cfg5.N) : (dat5 V c).after 9 t = out5_9 (iblk5 V c 0 t) (iblk5 V c 1 t) (iblk5 V c 2 t) (iblk5 V c 3 t) (iblk5 V c 4 t) (iblk5 V c 5 t) (iblk5 V c 6 t) (iblk5 V c 7 t) (iblk5 V c 8 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d
theorem before5_6 (c : Dev nD) (t : Fin cfg5.N) (d) : (dat5 V c).before 6 t d = iblk5 V c 6 t :=
  before5_6_of V (dat5 V c) (A_eq5 V c 6) (after5_6 V c) t d
theorem before5_7 (c : Dev nD) (t : Fin cfg5.N) (d) : (dat5 V c).before 7 t d = iblk5 V c 7 t :=
  before5_7_of V (dat5 V c) (A_eq5 V c 7) (after5_7 V c) t d
theorem before5_8 (c : Dev nD) (t : Fin cfg5.N) (d) : (dat5 V c).before 8 t d = iblk5 V c 8 t :=
  before5_8_of V (dat5 V c) (A_eq5 V c 8) (after5_8 V c) t d

/-! ## The body obligation, at a generic point -/

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d))
    ∗ (∃ d, owns (c : Thread nD τ) (st5_8 t) fullShare ((dat5 V c).before 8 t d))
    ∗ (∃ d, owns (c : Thread nD τ) (st5_9 t) fullShare ((dat5 V c).before 9 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t)
    ∗ owns (c : Thread nD τ) (st5_7 t) fullShare ((dat5 V c).after 7 t)
    ∗ owns (c : Thread nD τ) (st5_8 t) fullShare ((dat5 V c).after 8 t)
    ∗ owns (c : Thread nD τ) (st5_9 t) fullShare ((dat5 V c).after 9 t))

/-- The body at any point: the inputs' memrefs hold their blocks, so `sound_kernel5` applies; the invariant and the
    core's debts pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6, before5_7, before5_8]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6, after5_7, after5_8, after5_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel5 c Set.univ _ _ _ _ _ _ _ _ _ _ _ _ _ _ _ _ _ _ _ _ _ (iblk5 V c 0 t) (iblk5 V c 1 t) (iblk5 V c 2 t) (iblk5 V c 3 t) (iblk5 V c 4 t) (iblk5 V c 5 t) (iblk5 V c 6 t) (iblk5 V c 7 t) (iblk5 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation5 (c : Dev nD) : BodyObligation (dat5 (F := F) V c) (defs₀ (F := F)) Variants.none () Set.univ := fun t => by
  rw [bigSep_W5, bigSep_W5]
  exact sound_body5 V c t

/-! # REGION 8: the normalize kernel on a row block, at the entry contents `V` -/

/-- Window `w`'s block at point `t`, read off its array as the region finds it (`V`). -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0 holds its block at every point, fetched there or not (unfetched, its block index has not moved),
    for any proof data whose array is `V`'s and whose body leaves the block in place. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Input window 1 holds its block at every point, fetched there or not (unfetched, its block index has not moved),
    for any proof data whose array is `V`'s and whose body leaves the block in place. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- Input window 2 holds its block at every point, fetched there or not (unfetched, its block index has not moved),
    for any proof data whose array is `V`'s and whose body leaves the block in place. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-- Input window 3 holds its block at every point, fetched there or not (unfetched, its block index has not moved),
    for any proof data whose array is `V`'s and whose body leaves the block in place. -/
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

/-- Input window 4 holds its block at every point, fetched there or not (unfetched, its block index has not moved),
    for any proof data whose array is `V`'s and whose body leaves the block in place. -/
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)

/-- Input window 5 holds its block at every point, fetched there or not (unfetched, its block index has not moved),
    for any proof data whose array is `V`'s and whose body leaves the block in place. -/
theorem before8_5_of {c : Dev nD} (dat : Dat τ (Elt F) Unit ℕ (UR sig nD τ) ℕ cfg8 c) (hA : dat.A 5 = V c (Pipeline.arrRef spec8 5))
    (hafter : ∀ t, dat.after 5 t = iblk8 V c 5 t) (t : Fin cfg8.N) (d) : dat.before 5 t d = iblk8 V c 5 t :=
  (dat.before_in_eq_fetched 5 rfl (fun _ => rfl) (fun _ _ _ => rfl) (fun t => by rw [hafter]; unfold Dat.blockOf iblk8; rw [hA]; try rfl) t d).trans
    (by unfold Dat.fetched Dat.blockOf iblk8; rw [hA]; try rfl)

/-- Input window 6 holds its block at every point, fetched there or not (unfetched, its block index has not moved),
    for any proof data whose array is `V`'s and whose body leaves the block in place. -/
theorem before8_6_of {c : Dev nD} (dat : Dat τ (Elt F) Unit ℕ (UR sig nD τ) ℕ cfg8 c) (hA : dat.A 6 = V c (Pipeline.arrRef spec8 6))
    (hafter : ∀ t, dat.after 6 t = iblk8 V c 6 t) (t : Fin cfg8.N) (d) : dat.before 6 t d = iblk8 V c 6 t :=
  (dat.before_in_eq_fetched 6 rfl (fun _ => rfl) (fun _ _ _ => rfl) (fun t => by rw [hafter]; unfold Dat.blockOf iblk8; rw [hA]; try rfl) t d).trans
    (by unfold Dat.fetched Dat.blockOf iblk8; rw [hA]; try rfl)

/-- Input window 7 holds its block at every point, fetched there or not (unfetched, its block index has not moved),
    for any proof data whose array is `V`'s and whose body leaves the block in place. -/
theorem before8_7_of {c : Dev nD} (dat : Dat τ (Elt F) Unit ℕ (UR sig nD τ) ℕ cfg8 c) (hA : dat.A 7 = V c (Pipeline.arrRef spec8 7))
    (hafter : ∀ t, dat.after 7 t = iblk8 V c 7 t) (t : Fin cfg8.N) (d) : dat.before 7 t d = iblk8 V c 7 t :=
  (dat.before_in_eq_fetched 7 rfl (fun _ => rfl) (fun _ _ _ => rfl) (fun t => by rw [hafter]; unfold Dat.blockOf iblk8; rw [hA]; try rfl) t d).trans
    (by unfold Dat.fetched Dat.blockOf iblk8; rw [hA]; try rfl)

/-- Input window 8 holds its block at every point, fetched there or not (unfetched, its block index has not moved),
    for any proof data whose array is `V`'s and whose body leaves the block in place. -/
theorem before8_8_of {c : Dev nD} (dat : Dat τ (Elt F) Unit ℕ (UR sig nD τ) ℕ cfg8 c) (hA : dat.A 8 = V c (Pipeline.arrRef spec8 8))
    (hafter : ∀ t, dat.after 8 t = iblk8 V c 8 t) (t : Fin cfg8.N) (d) : dat.before 8 t d = iblk8 V c 8 t :=
  (dat.before_in_eq_fetched 8 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses: each buffer whole -/

abbrev r8_0 : Rect S5000x128 := Rect.unit (s := S5000x128) ![0, 0] S5000x128.size inb_S5000x128_S5000x128_0_0
abbrev r8_1 : Rect S5000x1 := Rect.unit (s := S5000x1) ![0, 0] S5000x1.size inb_S5000x1_S5000x1_0_0
abbrev r8_2 : Rect S1x128 := Rect.unit (s := S1x128) ![0, 0] S1x128.size inb_S1x128_S1x128_0_0

/-- The output window's buffer after the body, from the nine input windows' blocks in window order: one
    store of the whole buffer, elementwise `x6 · (((x0 + x2 · x1 + x3) − x4) · rsqrt (x5 + ε)) + x7 + x8`, the column `x2` and the rows
    `x3 … x7` broadcast to the block, `ε` the f32 constant `0x3727C5AC`. -/
def out8_9 (x0 : Vec F S5000x128 .f32) (x1 : Vec F S5000x128 .f32) (x2 : Vec F S5000x1 .f32) (x3 : Vec F S1x128 .f32) (x4 : Vec F S1x128 .f32) (x5 : Vec F S1x128 .f32) (x6 : Vec F S1x128 .f32) (x7 : Vec F S1x128 .f32) (x8 : Vec F S5000x128 .f32) : Vec F S5000x128 .f32 :=
  View.canon [⟨r8_0, k8_pay1 (View.ld x0 r8_0) (View.ld x2 r8_1) (View.ld x1 r8_0) (View.ld x3 r8_2) (View.ld x4 r8_2) (View.ld x5 r8_2) (View.ld x6 r8_2) (View.ld x7 r8_2) (View.ld x8 r8_0)⟩]

/-- The one store is the whole buffer, so it covers it. -/
theorem cover8_9 (p0 : Vec F S5000x128 .f32) (y : S5000x128.Idx) :
    ∃ pc ∈ ([⟨r8_0, p0⟩] : List (View.Piece (Elt F) S5000x128 .f32)), y ∈ pc.1.set :=
  View.cover_of_tiled [⟨r8_0, p0⟩] S5000x128.size (by rfl) y

set_option maxHeartbeats 4000000 in
/-- The body on whole staging memrefs, the nine inputs' at contents `x0 … x8` and the output's at anything (the body
    reads the output buffer before it overwrites it whole; the value read is unused), leaves the inputs as they were
    and the output at `out8_9` of the inputs'. -/
theorem sound_kernel8 (c : Dev nD) (E : Set ℕ) (i : grid8.Coords)
    (arg1 : Memref sig .tc .vmem S5000x128 .f32) (harg1 : arg1.IsWhole)
    (arg2 : Memref sig .tc .vmem S5000x128 .f32) (harg2 : arg2.IsWhole)
    (arg3 : Memref sig .tc .vmem S5000x1 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S1x128 .f32) (harg6 : arg6.IsWhole)
    (arg7 : Memref sig .tc .vmem S1x128 .f32) (harg7 : arg7.IsWhole)
    (arg8 : Memref sig .tc .vmem S1x128 .f32) (harg8 : arg8.IsWhole)
    (arg9 : Memref sig .tc .vmem S5000x128 .f32) (harg9 : arg9.IsWhole)
    (arg10 : Memref sig .tc .vmem S5000x128 .f32) (harg10 : arg10.IsWhole)
    (x0 : Vec F S5000x128 .f32) (x1 : Vec F S5000x128 .f32) (x2 : Vec F S5000x1 .f32) (x3 : Vec F S1x128 .f32) (x4 : Vec F S1x128 .f32) (x5 : Vec F S1x128 .f32) (x6 : Vec F S1x128 .f32) (x7 : Vec F S1x128 .f32) (x8 : Vec F S5000x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
            ∗ owns (c : Thread nD τ) arg10 fullShare (out8_9 x0 x1 x2 x3 x4 x5 x6 x7 x8)) -∗ K ⟨⟩))
      ⊢ wp frame (wpE (defs₀ (F := F)) Variants.none c none) E (cc8__normalize_kernel i arg1 harg1 arg2 harg2 arg3 harg3 arg4 harg4 arg5 harg5 arg6 harg6 arg7 harg7 arg8 harg8 arg9 harg9 arg10 harg10) K := by
  simp only [cc8__normalize_kernel_eq_skeleton]; unfold cc8__normalize_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0
  subst hf1
  subst hf2
  subst hf3
  subst hf4
  subst hf5
  subst hf6
  subst hf7
  subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover8_9 _)

/-! ## The pipeline's proof data -/

/-- The proof data of pipeline 8 on core `c`: the arrays as the region finds them; after the body each input's
    buffer at its block and the output's at `out8_9` of the input blocks; the invariant the scoped rest and the
    generator register, untouched; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => iblk8 V c 5 t
    | ⟨6, _⟩ => iblk8 V c 6 t
    | ⟨7, _⟩ => iblk8 V c 7 t
    | ⟨8, _⟩ => iblk8 V c 8 t
    | ⟨9, _⟩ => out8_9 (iblk8 V c 0 t) (iblk8 V c 1 t) (iblk8 V c 2 t) (iblk8 V c 3 t) (iblk8 V c 4 t) (iblk8 V c 5 t) (iblk8 V c 6 t) (iblk8 V c 7 t) (iblk8 V c 8 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = iblk8 V c 5 t := by dsimp only [dat8]
theorem after8_6 (c : Dev nD) (t : Fin cfg8.N) : (dat8 V c).after 6 t = iblk8 V c 6 t := by dsimp only [dat8]
theorem after8_7 (c : Dev nD) (t : Fin cfg8.N) : (dat8 V c).after 7 t = iblk8 V c 7 t := by dsimp only [dat8]
theorem after8_8 (c : Dev nD) (t : Fin cfg8.N) : (dat8 V c).after 8 t = iblk8 V c 8 t := by dsimp only [dat8]
theorem after8_9 (c : Dev nD) (t : Fin cfg8.N) : (dat8 V c).after 9 t = out8_9 (iblk8 V c 0 t) (iblk8 V c 1 t) (iblk8 V c 2 t) (iblk8 V c 3 t) (iblk8 V c 4 t) (iblk8 V c 5 t) (iblk8 V c 6 t) (iblk8 V c 7 t) (iblk8 V c 8 t) := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d
theorem before8_5 (c : Dev nD) (t : Fin cfg8.N) (d) : (dat8 V c).before 5 t d = iblk8 V c 5 t :=
  before8_5_of V (dat8 V c) (A_eq8 V c 5) (after8_5 V c) t d
theorem before8_6 (c : Dev nD) (t : Fin cfg8.N) (d) : (dat8 V c).before 6 t d = iblk8 V c 6 t :=
  before8_6_of V (dat8 V c) (A_eq8 V c 6) (after8_6 V c) t d
theorem before8_7 (c : Dev nD) (t : Fin cfg8.N) (d) : (dat8 V c).before 7 t d = iblk8 V c 7 t :=
  before8_7_of V (dat8 V c) (A_eq8 V c 7) (after8_7 V c) t d
theorem before8_8 (c : Dev nD) (t : Fin cfg8.N) (d) : (dat8 V c).before 8 t d = iblk8 V c 8 t :=
  before8_8_of V (dat8 V c) (A_eq8 V c 8) (after8_8 V c) t d

/-! ## The body obligation, at a generic point -/

def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d))
    ∗ (∃ d, owns (c : Thread nD τ) (st8_6 t) fullShare ((dat8 V c).before 6 t d))
    ∗ (∃ d, owns (c : Thread nD τ) (st8_7 t) fullShare ((dat8 V c).before 7 t d))
    ∗ (∃ d, owns (c : Thread nD τ) (st8_8 t) fullShare ((dat8 V c).before 8 t d))
    ∗ (∃ d, owns (c : Thread nD τ) (st8_9 t) fullShare ((dat8 V c).before 9 t d)))

def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t)
    ∗ owns (c : Thread nD τ) (st8_6 t) fullShare ((dat8 V c).after 6 t)
    ∗ owns (c : Thread nD τ) (st8_7 t) fullShare ((dat8 V c).after 7 t)
    ∗ owns (c : Thread nD τ) (st8_8 t) fullShare ((dat8 V c).after 8 t)
    ∗ owns (c : Thread nD τ) (st8_9 t) fullShare ((dat8 V c).after 9 t))

/-- The body at any point: the inputs' memrefs hold their blocks, so `sound_kernel8` applies; the invariant and the
    core's debts pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4, before8_5, before8_6, before8_7, before8_8]
  rw [show (dat8 V c).Φ t.succ = (dat8 V c).Φ t.castSucc from rfl,
    show (dat8 V c).owesAt () t.succ = (dat8 V c).owesAt () t.castSucc from rfl,
    after8_0, after8_1, after8_2, after8_3, after8_4, after8_5, after8_6, after8_7, after8_8, after8_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel8 c Set.univ _ _ _ _ _ _ _ _ _ _ _ _ _ _ _ _ _ _ _ _ _ (iblk8 V c 0 t) (iblk8 V c 1 t) (iblk8 V c 2 t) (iblk8 V c 3 t) (iblk8 V c 4 t) (iblk8 V c 5 t) (iblk8 V c 6 t) (iblk8 V c 7 t) (iblk8 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation8 (c : Dev nD) : BodyObligation (dat8 (F := F) V c) (defs₀ (F := F)) Variants.none () Set.univ := fun t => by
  rw [bigSep_W8, bigSep_W8]
  exact sound_body8 V c t

end Cert.Kernel.Fr
-- ==== Proof.KFrStats.lean ====
/- The frame of the three BatchNorm-statistics regions (custom_calls 1, 4, 7), each at a parameter `V`, the buffer
   contents when the region is entered. The kernel keeps two `[1,128]` accumulators (a sum and a sum of squares over the
   rows of its blocks) in scratch buffers across the 10 grid points: the first point zeroes them, every point adds its
   block's column sums, and the last point alone stores the mean and the variance into the two output windows, which are
   written back there only. So the proof data's invariant carries the accumulators' contents point by point
   (`accK`, a recursion over the points from the input blocks), the outputs are idle before the last point, and the body
   obligation splits in three cases: the first point, the middle points, the last point. -/
import proofs.«135670_j59253368815959_1_alg».proof.Proof.Gen.Kernel.Launch
import proofs.«135670_j59253368815959_1_alg».proof.Proof.Gen.Kernel.Skeleton
import proofs.«135670_j59253368815959_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The BatchNorm-statistics regions (custom_calls 1, 4, 7), each at the region-entry contents `V` -/

section Regions
variable (V : (c : Dev nD) → (b : Ref sig .tc) → Buf (Elt F) ((c : Thread nD τ).loc b))

/-! ## The body's accesses: every load and store of the kernel is of a whole buffer -/

abbrev rSA : Rect S5000x128 := Rect.unit (s := S5000x128) ![0, 0] S5000x128.size inb_S5000x128_S5000x128_0_0
abbrev rSB : Rect S5000x1 := Rect.unit (s := S5000x1) ![0, 0] S5000x1.size inb_S5000x1_S5000x1_0_0
abbrev rSC : Rect S1x128 := Rect.unit (s := S1x128) ![0, 0] S1x128.size inb_S1x128_S1x128_0_0

/-- One whole-buffer store covers the `[1,128]` buffer (checked by evaluation). -/
theorem coverSC (p0 : Vec F S1x128 .f32) (y : S1x128.Idx) :
    ∃ pc ∈ ([⟨rSC, p0⟩] : List (View.Piece (Elt F) S1x128 .f32)), y ∈ pc.1.set :=
  View.cover_of_tiled [⟨rSC, p0⟩] S1x128.size (by rfl) y

/-- Every index of the `[1,128]` buffer lies in the whole-buffer rectangle. -/
theorem mem_rSC (y : S1x128.Idx) : y ∈ (rSC).set := by
  obtain ⟨pc, hm, hy⟩ := View.cover_of_tiled (Val := fun _ => Unit) (e := .f32) [⟨rSC, fun _ => ()⟩] S1x128.size (by rfl) y
  rw [List.mem_singleton] at hm; subst hm; exact hy

/-- A whole-buffer store hides every earlier store: the contents are the last payload. -/
theorem canon_wholeSC (w : (rSC).shape.Idx → Elt F .f32) (L : List (View.Piece (Elt F) S1x128 .f32)) :
    View.canon (⟨rSC, w⟩ :: L) = View.canon [⟨rSC, w⟩] := by
  funext y
  obtain ⟨x, rfl⟩ : ∃ x, (rSC).emb x = y := (rSC).exists_idx_of_mem (mem_rSC y)
  rw [View.canon_cons_emb, View.canon_cons_emb]

/-- and two stores of a whole buffer cover it. -/
theorem coverSC2 (p0 p1 : Vec F S1x128 .f32) (y : S1x128.Idx) :
    ∃ pc ∈ ([⟨rSC, p0⟩, ⟨rSC, p1⟩] : List (View.Piece (Elt F) S1x128 .f32)), y ∈ pc.1.set :=
  ⟨⟨rSC, p0⟩, List.mem_cons_self, mem_rSC y⟩

/-! # REGION 1 of @main: custom_call 1, `cc1__stats_kernel` (pipeline 1), at the entry contents `V` -/

/-! ## The body's branch conditions -/

/-- The condition of the body's first `scf.if` (the accumulators are zeroed), from the grid coordinates. -/
abbrev cond1_0 (i : grid1.Coords) : Prop := (Scalar.cmpi .ne (Scalar.extui (Scalar.cmpi .eq (BitVec.ofNat 32 (i 0).val) 0#32)) 0#32) = 1#1
/-- It holds at the first point only — decided over the grid. -/
theorem hcond1_0 : ∀ t : Fin cfg1.N, cond1_0 (grid1.coords t) ↔ t.val = 0 :=
  (by decide +kernel : ∀ t : Fin grid1.N, cond1_0 (grid1.coords t) ↔ t.val = 0)
/-- The condition of the body's second `scf.if` (the statistics are stored). -/
abbrev cond1_1 (i : grid1.Coords) : Prop := k1_cond2 i = 1#1
/-- It holds at the last point only — decided over the grid. -/
theorem hcond1_1 : ∀ t : Fin cfg1.N, cond1_1 (grid1.coords t) ↔ t.val = 9 :=
  (by decide +kernel : ∀ t : Fin grid1.N, cond1_1 (grid1.coords t) ↔ t.val = 9)

/-! ## What the body leaves in the accumulators and in the output windows' buffers -/

/-- The sum accumulator after a point, from the point's four input blocks and the accumulator before it: its one
    covering store (Lib/Pipeline/FrameBody.lean `View.canon`; the payload is the skeleton's). -/
def accS1 (x0 x1 : Vec F S5000x128 .f32) (x2 : Vec F S5000x1 .f32) (x3 s : Vec F S1x128 .f32) : Vec F S1x128 .f32 :=
  View.canon [⟨rSC, k1_pay6 (View.ld x0 rSA) (View.ld x2 rSB) (View.ld x1 rSA) (View.ld x3 rSC) (View.ld s rSC)⟩]
/-- The sum-of-squares accumulator after a point, likewise. -/
def accQ1 (x0 x1 : Vec F S5000x128 .f32) (x2 : Vec F S5000x1 .f32) (x3 q : Vec F S1x128 .f32) : Vec F S1x128 .f32 :=
  View.canon [⟨rSC, k1_pay7 (View.ld x0 rSA) (View.ld x2 rSB) (View.ld x1 rSA) (View.ld x3 rSC) (View.ld q rSC)⟩]
/-- The accumulators as the first point zeroes them. -/
def zS1 : Vec F S1x128 .f32 := View.canon [⟨rSC, k1_pay3 (F := F)⟩]
def zQ1 : Vec F S1x128 .f32 := View.canon [⟨rSC, k1_pay4 (F := F)⟩]
/-- Window 4's staging buffer after the last point's body: the mean, from the final sum. -/
def out1_4 (s : Vec F S1x128 .f32) : Vec F S1x128 .f32 :=
  View.canon [⟨rSC, k1_pay1 (View.ld s rSC)⟩]
/-- Window 5's staging buffer after the last point's body: the variance, from the final sum and sum of squares. -/
def out1_5 (s q : Vec F S1x128 .f32) : Vec F S1x128 .f32 :=
  View.canon [⟨rSC, k1_pay2 (View.ld s rSC) (View.ld q rSC)⟩]

set_option maxHeartbeats 1000000 in
theorem sound_kernel1A (c : Dev nD) (E : Set ℕ) (i : grid1.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S1x128 .f32) (harg8 : arg8.IsWhole)
    (hc0 : cond1_0 i) (hc1 : ¬cond1_1 i)
    (x0 : Vec F S5000x128 .f32) (x1 : Vec F S5000x128 .f32) (x2 : Vec F S5000x1 .f32) (x3 : Vec F S1x128 .f32)
    (y4 y5 s q : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare y4 ∗ owns (c : Thread nD τ) arg6 fullShare y5
        ∗ owns (c : Thread nD τ) arg7 fullShare s ∗ owns (c : Thread nD τ) arg8 fullShare q
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare y4 ∗ owns (c : Thread nD τ) arg6 fullShare y5
            ∗ owns (c : Thread nD τ) arg7 fullShare (accS1 x0 x1 x2 x3 (zS1 (F := F))) ∗ owns (c : Thread nD τ) arg8 fullShare (accQ1 x0 x1 x2 x3 (zQ1 (F := F)))) -∗ K ⟨⟩))
      ⊢ wp frame (wpE (defs₀ (F := F)) Variants.none c none) E (cc1__stats_kernel i arg1 harg1 arg2 harg2 arg3 harg3 arg4 harg4 arg5 harg5 arg6 harg6 arg7 harg7 arg8 harg8) K := by
  simp only [cc1__stats_kernel_eq_skeleton]; unfold cc1__stats_kernel_skel
  simp only [k1_part1_eq_skeleton]; unfold k1_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf1 hf2 hf3 hf4 hf5 hf6 hf7 hf8
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    sl_unfold_run_names
    rw [View.readCov_eq_canon']
    exact (View.read_writes_eq_canon _ _ _ (coverSC2 _ _)).trans (canon_wholeSC _ _)
  iexists _; isplitr
  swap; · iexact H8
  ipureintro
  sl_unfold_run_names
  rw [View.readCov_eq_canon']
  exact (View.read_writes_eq_canon _ _ _ (coverSC2 _ _)).trans (canon_wholeSC _ _)

set_option maxHeartbeats 1000000 in
theorem sound_kernel1B (c : Dev nD) (E : Set ℕ) (i : grid1.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S1x128 .f32) (harg8 : arg8.IsWhole)
    (hc0 : ¬cond1_0 i) (hc1 : ¬cond1_1 i)
    (x0 : Vec F S5000x128 .f32) (x1 : Vec F S5000x128 .f32) (x2 : Vec F S5000x1 .f32) (x3 : Vec F S1x128 .f32)
    (y4 y5 s q : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare y4 ∗ owns (c : Thread nD τ) arg6 fullShare y5
        ∗ owns (c : Thread nD τ) arg7 fullShare s ∗ owns (c : Thread nD τ) arg8 fullShare q
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare y4 ∗ owns (c : Thread nD τ) arg6 fullShare y5
            ∗ owns (c : Thread nD τ) arg7 fullShare (accS1 x0 x1 x2 x3 s) ∗ owns (c : Thread nD τ) arg8 fullShare (accQ1 x0 x1 x2 x3 q)) -∗ K ⟨⟩))
      ⊢ wp frame (wpE (defs₀ (F := F)) Variants.none c none) E (cc1__stats_kernel i arg1 harg1 arg2 harg2 arg3 harg3 arg4 harg4 arg5 harg5 arg6 harg6 arg7 harg7 arg8 harg8) K := by
  simp only [cc1__stats_kernel_eq_skeleton]; unfold cc1__stats_kernel_skel
  simp only [k1_part1_eq_skeleton]; unfold k1_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf1 hf2 hf3 hf4 hf5 hf6 hf7 hf8
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (coverSC _)
  iexists _; isplitr
  swap; · iexact H8
  ipureintro
  exact View.read_writes_eq_canon _ _ _ (coverSC _)

set_option maxHeartbeats 1000000 in
theorem sound_kernel1C (c : Dev nD) (E : Set ℕ) (i : grid1.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S1x128 .f32) (harg8 : arg8.IsWhole)
    (hc0 : ¬cond1_0 i) (hc1 : cond1_1 i)
    (x0 : Vec F S5000x128 .f32) (x1 : Vec F S5000x128 .f32) (x2 : Vec F S5000x1 .f32) (x3 : Vec F S1x128 .f32)
    (y4 y5 s q : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare y4 ∗ owns (c : Thread nD τ) arg6 fullShare y5
        ∗ owns (c : Thread nD τ) arg7 fullShare s ∗ owns (c : Thread nD τ) arg8 fullShare q
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out1_4 (accS1 x0 x1 x2 x3 s)) ∗ owns (c : Thread nD τ) arg6 fullShare (out1_5 (accS1 x0 x1 x2 x3 s) (accQ1 x0 x1 x2 x3 q))
            ∗ owns (c : Thread nD τ) arg7 fullShare (accS1 x0 x1 x2 x3 s) ∗ owns (c : Thread nD τ) arg8 fullShare (accQ1 x0 x1 x2 x3 q)) -∗ K ⟨⟩))
      ⊢ wp frame (wpE (defs₀ (F := F)) Variants.none c none) E (cc1__stats_kernel i arg1 harg1 arg2 harg2 arg3 harg3 arg4 harg4 arg5 harg5 arg6 harg6 arg7 harg7 arg8 harg8) K := by
  simp only [cc1__stats_kernel_eq_skeleton]; unfold cc1__stats_kernel_skel
  simp only [k1_part1_eq_skeleton]; unfold k1_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf1 hf2 hf3 hf4 hf5 hf6 hf7 hf8
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    sl_unfold_run_names
    rw [View.readCov_eq_canon']
    exact View.read_writes_eq_canon _ _ _ (coverSC _)
  isplitl [H6]
  · iexists _; isplitr
    swap; · iexact H6
    ipureintro
    sl_unfold_run_names
    rw [View.readCov_eq_canon', View.readCov_eq_canon']
    exact View.read_writes_eq_canon _ _ _ (coverSC _)
  isplitl [H7]
  · iexists _; isplitr
    swap; · iexact H7
    ipureintro
    sl_unfold_run_names
    exact View.read_writes_eq_canon _ _ _ (coverSC _)
  iexists _; isplitr
  swap; · iexact H8
  ipureintro
  sl_unfold_run_names
  exact View.read_writes_eq_canon _ _ _ (coverSC _)

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for ANY proof
    data whose array is `V`'s (`hA`) and whose body leaves the block in place (`hafter`): the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for ANY proof
    data whose array is `V`'s (`hA`) and whose body leaves the block in place (`hafter`): the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for ANY proof
    data whose array is `V`'s (`hA`) and whose body leaves the block in place (`hafter`): the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The accumulators, point by point -/

/-- THE ACCUMULATION. The two accumulators (sum, sum of squares) before point `n`, that is after point `n - 1`: zeroed
    before the first point's blocks are added; after point `n`, the body's two stores over the blocks at `n` and the
    accumulators before it. -/
def acc1 (c : Dev nD) : ℕ → Vec F S1x128 .f32 × Vec F S1x128 .f32
  | 0 => (zS1, zQ1)
  | n + 1 => if h : n < cfg1.N then
      (accS1 (iblk1 V c 0 ⟨n, h⟩) (iblk1 V c 1 ⟨n, h⟩) (iblk1 V c 2 ⟨n, h⟩) (iblk1 V c 3 ⟨n, h⟩) (acc1 c n).1,
       accQ1 (iblk1 V c 0 ⟨n, h⟩) (iblk1 V c 1 ⟨n, h⟩) (iblk1 V c 2 ⟨n, h⟩) (iblk1 V c 3 ⟨n, h⟩) (acc1 c n).2)
    else acc1 c n

theorem acc1_zero (c : Dev nD) : acc1 V c 0 = (zS1, zQ1) := rfl
/-- The recursion: the sum after point `t`. -/
theorem acc1_succ_fst (c : Dev nD) (t : Fin cfg1.N) :
    (acc1 V c (t.val + 1)).1 = accS1 (iblk1 V c 0 t) (iblk1 V c 1 t) (iblk1 V c 2 t) (iblk1 V c 3 t) (acc1 V c t.val).1 := by
  rw [acc1, dif_pos t.isLt]
/-- The recursion: the sum of squares after point `t`. -/
theorem acc1_succ_snd (c : Dev nD) (t : Fin cfg1.N) :
    (acc1 V c (t.val + 1)).2 = accQ1 (iblk1 V c 0 t) (iblk1 V c 1 t) (iblk1 V c 2 t) (iblk1 V c 3 t) (acc1 V c t.val).2 := by
  rw [acc1, dif_pos t.isLt]
/-- Before the first point the accumulators are the zeroed ones. -/
theorem acc1_first_fst (c : Dev nD) (t : Fin cfg1.N) (h0 : t.val = 0) : (acc1 V c t.val).1 = zS1 := by rw [h0]; rfl
theorem acc1_first_snd (c : Dev nD) (t : Fin cfg1.N) (h0 : t.val = 0) : (acc1 V c t.val).2 = zQ1 := by rw [h0]; rfl

/-! ## The region invariant: the two scratch accumulators carried between points -/

/-- The scratch operands: whole scoped buffers of the kernel's own, passed beside the windows. -/
abbrev sc1_0 : Memref sig .tc .vmem S1x128 .f32 := Memref.whole cc1_scratch0
abbrev sc1_1 : Memref sig .tc .vmem S1x128 .f32 := Memref.whole cc1_scratch1

/-- The invariant before position `n`: the two scratch buffers — at anything before the first point, afterwards at the
    accumulators the point before left (`acc1`) —, every other scoped buffer that is no staging buffer at some contents,
    and the generator register at some state. -/
def Phi1 (c : Dev nD) (n : ℕ) : sProp 𝕄 :=
  iprop((∃ s, ⌜n ≠ 0 → s = (acc1 V c n).1⌝ ∗ owns (c : Thread nD τ) sc1_0 fullShare s)
    ∗ (∃ q, ⌜n ≠ 0 → q = (acc1 V c n).2⌝ ∗ owns (c : Thread nD τ) sc1_1 fullShare q)
    ∗ Pipeline.scopedRestBut (Ix := Unit) (Name := ℕ) (U := UR sig nD τ) (Lvl := ℕ) (Val := Elt F) spec1 c [cc1_scratch0, cc1_scratch1]
    ∗ ∃ r, prngReg c r)

/-! ## The pipeline's proof data -/

/-- The proof data of pipeline 1 on core `c`: the arrays as the region finds them (`V`); after the body at point `t`
    each input's buffer at its block and the two outputs' at the mean and the variance of the accumulators after `t`
    (consulted at the last point only: elsewhere the outputs are idle and not written back); the invariant `Phi1`;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (acc1 V c (t.val + 1)).1
    | ⟨5, _⟩ => out1_5 (acc1 V c (t.val + 1)).1 (acc1 V c (t.val + 1)).2
  Φ t := Phi1 V c t.val
  q _ := fullShare
  owed _ := 0

/-- The proof data's arrays are the region-entry contents (the proof data's definition projected, by `dsimp`). -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
/-- Window 4 after the body at `t`: the mean of the sum after `t` (what the last point stores and writes back). -/
theorem after1_4 (c : Dev nD) (t : Fin cfg1.N) : (dat1 V c).after 4 t = out1_4 (acc1 V c (t.val + 1)).1 := by dsimp only [dat1]
/-- Window 5 after the body at `t`: the variance of the accumulators after `t`. -/
theorem after1_5 (c : Dev nD) (t : Fin cfg1.N) : (dat1 V c).after 5 t = out1_5 (acc1 V c (t.val + 1)).1 (acc1 V c (t.val + 1)).2 := by dsimp only [dat1]

/-- Each input's current staging buffer holds its block at every point, fetched there or not (`before1_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- The invariant at a point's start and end, restated at the position. -/
theorem Phi1_castSucc (c : Dev nD) (t : Fin cfg1.N) : (dat1 V c).Φ t.castSucc = Phi1 V c t.val := rfl
theorem Phi1_succ (c : Dev nD) (t : Fin cfg1.N) : (dat1 V c).Φ t.succ = Phi1 V c (t.val + 1) := rfl

/-! ## Where the windows are idle (the printed configuration's table `Cfg.idle`) -/

/-- The inputs are never idle. -/
theorem live1_0 : ∀ t : Fin cfg1.N, cfg1.idle 0 (grid1.coords t) = false := fun _ => rfl
theorem live1_1 : ∀ t : Fin cfg1.N, cfg1.idle 1 (grid1.coords t) = false := fun _ => rfl
theorem live1_2 : ∀ t : Fin cfg1.N, cfg1.idle 2 (grid1.coords t) = false := fun _ => rfl
theorem live1_3 : ∀ t : Fin cfg1.N, cfg1.idle 3 (grid1.coords t) = false := fun _ => rfl
/-- Before the last point the two outputs are idle (the body stores nothing into them) and not written back. -/
theorem idle1_4 : ∀ t : Fin cfg1.N, ¬t.val = 9 → cfg1.idle 4 (grid1.coords t) = true := by decide +kernel
theorem idle1_5 : ∀ t : Fin cfg1.N, ¬t.val = 9 → cfg1.idle 5 (grid1.coords t) = true := by decide +kernel
theorem noFlush1_4 : ∀ t : Fin cfg1.N, ¬t.val = 9 → (cfg1.win 4).flush t = false := by decide +kernel
theorem noFlush1_5 : ∀ t : Fin cfg1.N, ¬t.val = 9 → (cfg1.win 5).flush t = false := by decide +kernel
/-- At the last point they are live. -/
theorem live1_4 : ∀ t : Fin cfg1.N, t.val = 9 → cfg1.idle 4 (grid1.coords t) = false := by decide +kernel
theorem live1_5 : ∀ t : Fin cfg1.N, t.val = 9 → cfg1.idle 5 (grid1.coords t) = false := by decide +kernel

/-- What the body obligation asks of each input's buffer after the body: its block, as found. -/
theorem leaves1_0 (c : Dev nD) (t : Fin cfg1.N) : (dat1 V c).leavesExact 0 t = owns (c : Thread nD τ) (st1_0 t) fullShare (iblk1 V c 0 t) := by
  rw [show (dat1 V c).leavesExact 0 t = owns (c : Thread nD τ) (st1_0 t) fullShare ((dat1 V c).after 0 t) from by
    unfold Dat.leavesExact; rw [live1_0 t], after1_0]
theorem leaves1_1 (c : Dev nD) (t : Fin cfg1.N) : (dat1 V c).leavesExact 1 t = owns (c : Thread nD τ) (st1_1 t) fullShare (iblk1 V c 1 t) := by
  rw [show (dat1 V c).leavesExact 1 t = owns (c : Thread nD τ) (st1_1 t) fullShare ((dat1 V c).after 1 t) from by
    unfold Dat.leavesExact; rw [live1_1 t], after1_1]
theorem leaves1_2 (c : Dev nD) (t : Fin cfg1.N) : (dat1 V c).leavesExact 2 t = owns (c : Thread nD τ) (st1_2 t) fullShare (iblk1 V c 2 t) := by
  rw [show (dat1 V c).leavesExact 2 t = owns (c : Thread nD τ) (st1_2 t) fullShare ((dat1 V c).after 2 t) from by
    unfold Dat.leavesExact; rw [live1_2 t], after1_2]
theorem leaves1_3 (c : Dev nD) (t : Fin cfg1.N) : (dat1 V c).leavesExact 3 t = owns (c : Thread nD τ) (st1_3 t) fullShare (iblk1 V c 3 t) := by
  rw [show (dat1 V c).leavesExact 3 t = owns (c : Thread nD τ) (st1_3 t) fullShare ((dat1 V c).after 3 t) from by
    unfold Dat.leavesExact; rw [live1_3 t], after1_3]

/-! ## The body obligation, at a generic point -/

/-- What the body is called with at point `t` (the body obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4000000 in
/-- The body at any point: the inputs' memrefs hold their blocks (`before1_W`); the point's position says which
    case it is in (first, middle, last); the invariant hands the body the two scratch accumulators — at anything at the
    first point, where the body zeroes them, else at what the point before left — and takes them back at this point's
    (`acc1_succ_*`); before the last point the outputs' buffers pass through untouched, at the last point they are
    stored; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl,
    Phi1_castSucc, Phi1_succ, leaves1_0, leaves1_1, leaves1_2, leaves1_3]
  unfold Phi1
  rw [acc1_succ_fst V c t, acc1_succ_snd V c t]
  have hN : t.val < 10 := lt_of_lt_of_eq t.isLt (show cfg1.N = 10 from N_1)
  by_cases h0 : t.val = 0
  · have h9 : ¬t.val = 9 := by omega
    rw [Dat.leavesExact_idle (dat1 V c) 4 t (idle1_4 t h9) (noFlush1_4 t h9),
      Dat.leavesExact_idle (dat1 V c) 5 t (idle1_5 t h9) (noFlush1_5 t h9),
      acc1_first_fst V c t h0, acc1_first_snd V c t h0]
    iintro ⟨⟨⟨%s, -, HS⟩, ⟨%q, -, HQ⟩, Hrest, Hg⟩, Ho, ⟨%d0, H0⟩, ⟨%d1, H1⟩, ⟨%d2, H2⟩, ⟨%d3, H3⟩, ⟨%d4, H4⟩, ⟨%d5, H5⟩⟩
    iapply (sound_kernel1A c Set.univ (grid1.coords t) _ _ _ _ _ _ _ _ _ _ _ _ _ _ _ _ ((hcond1_0 t).mpr h0) (fun h => h9 ((hcond1_1 t).mp h))
      (iblk1 V c 0 t) (iblk1 V c 1 t) (iblk1 V c 2 t) (iblk1 V c 3 t) _ _ s q _)
    isplitl [H0]; · iexact H0
    isplitl [H1]; · iexact H1
    isplitl [H2]; · iexact H2
    isplitl [H3]; · iexact H3
    isplitl [H4]; · iexact H4
    isplitl [H5]; · iexact H5
    isplitl [HS]; · iexact HS
    isplitl [HQ]; · iexact HQ
    iintro ⟨H0, H1, H2, H3, H4, H5, HS, HQ⟩
    isplitl [HS HQ Hrest Hg]
    · isplitl [HS]
      · iexists _; isplitr
        swap; · iexact HS
        ipureintro; exact fun _ => rfl
      isplitl [HQ]
      · iexists _; isplitr
        swap; · iexact HQ
        ipureintro; exact fun _ => rfl
      isplitl [Hrest]; · iexact Hrest
      iexact Hg
    isplitl [Ho]; · iexact Ho
    isplitl [H0]; · iexact H0
    isplitl [H1]; · iexact H1
    isplitl [H2]; · iexact H2
    isplitl [H3]; · iexact H3
    isplitl [H4]; · iexists _; iexact H4
    iexists _; iexact H5
  · by_cases h9 : t.val = 9
    · rw [show (dat1 V c).leavesExact 4 t = owns (c : Thread nD τ) (st1_4 t) fullShare ((dat1 V c).after 4 t) from by
        unfold Dat.leavesExact; rw [live1_4 t h9], after1_4,
        show (dat1 V c).leavesExact 5 t = owns (c : Thread nD τ) (st1_5 t) fullShare ((dat1 V c).after 5 t) from by
        unfold Dat.leavesExact; rw [live1_5 t h9], after1_5,
        acc1_succ_fst V c t, acc1_succ_snd V c t]
      iintro ⟨⟨⟨%s, %hs, HS⟩, ⟨%q, %hq, HQ⟩, Hrest, Hg⟩, Ho, ⟨%d0, H0⟩, ⟨%d1, H1⟩, ⟨%d2, H2⟩, ⟨%d3, H3⟩, ⟨%d4, H4⟩, ⟨%d5, H5⟩⟩
      obtain rfl := hs h0; obtain rfl := hq h0
      iapply (sound_kernel1C c Set.univ (grid1.coords t) _ _ _ _ _ _ _ _ _ _ _ _ _ _ _ _ (fun h => h0 ((hcond1_0 t).mp h)) ((hcond1_1 t).mpr h9)
        (iblk1 V c 0 t) (iblk1 V c 1 t) (iblk1 V c 2 t) (iblk1 V c 3 t) _ _ _ _ _)
      isplitl [H0]; · iexact H0
      isplitl [H1]; · iexact H1
      isplitl [H2]; · iexact H2
      isplitl [H3]; · iexact H3
      isplitl [H4]; · iexact H4
      isplitl [H5]; · iexact H5
      isplitl [HS]; · iexact HS
      isplitl [HQ]; · iexact HQ
      iintro ⟨H0, H1, H2, H3, H4, H5, HS, HQ⟩
      isplitl [HS HQ Hrest Hg]
      · isplitl [HS]
        · iexists _; isplitr
          swap; · iexact HS
          ipureintro; exact fun _ => rfl
        isplitl [HQ]
        · iexists _; isplitr
          swap; · iexact HQ
          ipureintro; exact fun _ => rfl
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [Dat.leavesExact_idle (dat1 V c) 4 t (idle1_4 t h9) (noFlush1_4 t h9),
        Dat.leavesExact_idle (dat1 V c) 5 t (idle1_5 t h9) (noFlush1_5 t h9)]
      iintro ⟨⟨⟨%s, %hs, HS⟩, ⟨%q, %hq, HQ⟩, Hrest, Hg⟩, Ho, ⟨%d0, H0⟩, ⟨%d1, H1⟩, ⟨%d2, H2⟩, ⟨%d3, H3⟩, ⟨%d4, H4⟩, ⟨%d5, H5⟩⟩
      obtain rfl := hs h0; obtain rfl := hq h0
      iapply (sound_kernel1B c Set.univ (grid1.coords t) _ _ _ _ _ _ _ _ _ _ _ _ _ _ _ _ (fun h => h0 ((hcond1_0 t).mp h)) (fun h => h9 ((hcond1_1 t).mp h))
        (iblk1 V c 0 t) (iblk1 V c 1 t) (iblk1 V c 2 t) (iblk1 V c 3 t) _ _ _ _ _)
      isplitl [H0]; · iexact H0
      isplitl [H1]; · iexact H1
      isplitl [H2]; · iexact H2
      isplitl [H3]; · iexact H3
      isplitl [H4]; · iexact H4
      isplitl [H5]; · iexact H5
      isplitl [HS]; · iexact HS
      isplitl [HQ]; · iexact HQ
      iintro ⟨H0, H1, H2, H3, H4, H5, HS, HQ⟩
      isplitl [HS HQ Hrest Hg]
      · isplitl [HS]
        · iexists _; isplitr
          swap; · iexact HS
          ipureintro; exact fun _ => rfl
        isplitl [HQ]
        · iexists _; isplitr
          swap; · iexact HQ
          ipureintro; exact fun _ => rfl
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The invariant at the region's ends -/

/-- What the region is entered with — the generator register, the scoped buffers no window stages (the prefetched
    tables, none here, beside them as any `P`) — is the invariant before the first point: the two scratch buffers
    split out at some contents. -/
theorem hin1 (c : Dev nD) (P : sProp 𝕄) :
    iprop((∃ r, prngReg c r) ∗ P ∗ Pipeline.scopedRest (Ix := Unit) (Name := ℕ) (U := UR sig nD τ) (Lvl := ℕ) (Val := Elt F) spec1 c) ⊢ (dat1 V c).Φ 0 := by
  rw [show (dat1 V c).Φ 0 = Phi1 V c 0 from rfl, scopedRest1_split]; unfold Phi1
  simp only [sc1_0, sc1_1, owns_whole]
  iintro ⟨Hg, -, ⟨⟨%f0, H0⟩, ⟨%f1, H1⟩⟩, Hrest⟩
  isplitl [H0]
  · iexists f0; isplitr; · ipureintro; exact fun h => absurd rfl h
    iexact H0
  isplitl [H1]
  · iexists f1; isplitr; · ipureintro; exact fun h => absurd rfl h
    iexact H1
  isplitl [Hrest]; · iexact Hrest
  iexact Hg

/-- After the last point the invariant gives the generator register and the scoped rest back: the accumulators' named
    contents are forgotten. -/
theorem hout1 (c : Dev nD) :
    (dat1 V c).Φ (Fin.last cfg1.N) ⊢ iprop((∃ r, prngReg c r) ∗ Pipeline.scopedRest (Ix := Unit) (Name := ℕ) (U := UR sig nD τ) (Lvl := ℕ) (Val := Elt F) spec1 c) := by
  rw [show (dat1 V c).Φ (Fin.last cfg1.N) = Phi1 V c (Fin.last cfg1.N).val from rfl, scopedRest1_split]; unfold Phi1
  simp only [sc1_0, sc1_1, owns_whole]
  iintro ⟨⟨%s, -, H0⟩, ⟨%q, -, H1⟩, Hrest, Hg⟩
  isplitl [Hg]; · iexact Hg
  isplitl [H0 H1]
  · isplitl [H0]
    · iexists s; iexact H0
    iexists q; iexact H1
  iexact Hrest

/-! ## What the region writes back: the last point's mean and variance -/

/-- The last point. -/
def tl1 : Fin cfg1.N := ⟨9, by rw [show cfg1.N = 10 from N_1]; decide⟩
/-- Window 4 after the last point's body is the mean of the final sum (the accumulator after all 10 points). -/
theorem after1_4_last (c : Dev nD) : (dat1 V c).after 4 tl1 = out1_4 (acc1 V c 10).1 := after1_4 V c tl1
/-- Window 5 after the last point's body is the variance of the final accumulators. -/
theorem after1_5_last (c : Dev nD) : (dat1 V c).after 5 tl1 = out1_5 (acc1 V c 10).1 (acc1 V c 10).2 := after1_5 V c tl1

/-! # REGION 4 of @main: custom_call 4, `cc4__stats_kernel` (pipeline 4), at the entry contents `V` -/

/-! ## The body's branch conditions -/

/-- The condition of the body's first `scf.if` (the accumulators are zeroed), from the grid coordinates. -/
abbrev cond4_0 (i : grid4.Coords) : Prop := (Scalar.cmpi .ne (Scalar.extui (Scalar.cmpi .eq (BitVec.ofNat 32 (i 0).val) 0#32)) 0#32) = 1#1
/-- It holds at the first point only — decided over the grid. -/
theorem hcond4_0 : ∀ t : Fin cfg4.N, cond4_0 (grid4.coords t) ↔ t.val = 0 :=
  (by decide +kernel : ∀ t : Fin grid4.N, cond4_0 (grid4.coords t) ↔ t.val = 0)
/-- The condition of the body's second `scf.if` (the statistics are stored). -/
abbrev cond4_1 (i : grid4.Coords) : Prop := k4_cond2 i = 1#1
/-- It holds at the last point only — decided over the grid. -/
theorem hcond4_1 : ∀ t : Fin cfg4.N, cond4_1 (grid4.coords t) ↔ t.val = 9 :=
  (by decide +kernel : ∀ t : Fin grid4.N, cond4_1 (grid4.coords t) ↔ t.val = 9)

/-! ## What the body leaves in the accumulators and in the output windows' buffers -/

/-- The sum accumulator after a point, from the point's four input blocks and the accumulator before it: its one
    covering store (Lib/Pipeline/FrameBody.lean `View.canon`; the payload is the skeleton's). -/
def accS4 (x0 x1 : Vec F S5000x128 .f32) (x2 : Vec F S5000x1 .f32) (x3 s : Vec F S1x128 .f32) : Vec F S1x128 .f32 :=
  View.canon [⟨rSC, k4_pay6 (View.ld x0 rSA) (View.ld x2 rSB) (View.ld x1 rSA) (View.ld x3 rSC) (View.ld s rSC)⟩]
/-- The sum-of-squares accumulator after a point, likewise. -/
def accQ4 (x0 x1 : Vec F S5000x128 .f32) (x2 : Vec F S5000x1 .f32) (x3 q : Vec F S1x128 .f32) : Vec F S1x128 .f32 :=
  View.canon [⟨rSC, k4_pay7 (View.ld x0 rSA) (View.ld x2 rSB) (View.ld x1 rSA) (View.ld x3 rSC) (View.ld q rSC)⟩]
/-- The accumulators as the first point zeroes them. -/
def zS4 : Vec F S1x128 .f32 := View.canon [⟨rSC, k4_pay3 (F := F)⟩]
def zQ4 : Vec F S1x128 .f32 := View.canon [⟨rSC, k4_pay4 (F := F)⟩]
/-- Window 4's staging buffer after the last point's body: the mean, from the final sum. -/
def out4_4 (s : Vec F S1x128 .f32) : Vec F S1x128 .f32 :=
  View.canon [⟨rSC, k4_pay1 (View.ld s rSC)⟩]
/-- Window 5's staging buffer after the last point's body: the variance, from the final sum and sum of squares. -/
def out4_5 (s q : Vec F S1x128 .f32) : Vec F S1x128 .f32 :=
  View.canon [⟨rSC, k4_pay2 (View.ld s rSC) (View.ld q rSC)⟩]

set_option maxHeartbeats 1000000 in
theorem sound_kernel4A (c : Dev nD) (E : Set ℕ) (i : grid4.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S1x128 .f32) (harg8 : arg8.IsWhole)
    (hc0 : cond4_0 i) (hc1 : ¬cond4_1 i)
    (x0 : Vec F S5000x128 .f32) (x1 : Vec F S5000x128 .f32) (x2 : Vec F S5000x1 .f32) (x3 : Vec F S1x128 .f32)
    (y4 y5 s q : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare y4 ∗ owns (c : Thread nD τ) arg6 fullShare y5
        ∗ owns (c : Thread nD τ) arg7 fullShare s ∗ owns (c : Thread nD τ) arg8 fullShare q
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare y4 ∗ owns (c : Thread nD τ) arg6 fullShare y5
            ∗ owns (c : Thread nD τ) arg7 fullShare (accS4 x0 x1 x2 x3 (zS4 (F := F))) ∗ owns (c : Thread nD τ) arg8 fullShare (accQ4 x0 x1 x2 x3 (zQ4 (F := F)))) -∗ K ⟨⟩))
      ⊢ wp frame (wpE (defs₀ (F := F)) Variants.none c none) E (cc4__stats_kernel i arg1 harg1 arg2 harg2 arg3 harg3 arg4 harg4 arg5 harg5 arg6 harg6 arg7 harg7 arg8 harg8) K := by
  simp only [cc4__stats_kernel_eq_skeleton]; unfold cc4__stats_kernel_skel
  simp only [k4_part1_eq_skeleton]; unfold k4_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf1 hf2 hf3 hf4 hf5 hf6 hf7 hf8
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    sl_unfold_run_names
    rw [View.readCov_eq_canon']
    exact (View.read_writes_eq_canon _ _ _ (coverSC2 _ _)).trans (canon_wholeSC _ _)
  iexists _; isplitr
  swap; · iexact H8
  ipureintro
  sl_unfold_run_names
  rw [View.readCov_eq_canon']
  exact (View.read_writes_eq_canon _ _ _ (coverSC2 _ _)).trans (canon_wholeSC _ _)

set_option maxHeartbeats 1000000 in
theorem sound_kernel4B (c : Dev nD) (E : Set ℕ) (i : grid4.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S1x128 .f32) (harg8 : arg8.IsWhole)
    (hc0 : ¬cond4_0 i) (hc1 : ¬cond4_1 i)
    (x0 : Vec F S5000x128 .f32) (x1 : Vec F S5000x128 .f32) (x2 : Vec F S5000x1 .f32) (x3 : Vec F S1x128 .f32)
    (y4 y5 s q : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare y4 ∗ owns (c : Thread nD τ) arg6 fullShare y5
        ∗ owns (c : Thread nD τ) arg7 fullShare s ∗ owns (c : Thread nD τ) arg8 fullShare q
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare y4 ∗ owns (c : Thread nD τ) arg6 fullShare y5
            ∗ owns (c : Thread nD τ) arg7 fullShare (accS4 x0 x1 x2 x3 s) ∗ owns (c : Thread nD τ) arg8 fullShare (accQ4 x0 x1 x2 x3 q)) -∗ K ⟨⟩))
      ⊢ wp frame (wpE (defs₀ (F := F)) Variants.none c none) E (cc4__stats_kernel i arg1 harg1 arg2 harg2 arg3 harg3 arg4 harg4 arg5 harg5 arg6 harg6 arg7 harg7 arg8 harg8) K := by
  simp only [cc4__stats_kernel_eq_skeleton]; unfold cc4__stats_kernel_skel
  simp only [k4_part1_eq_skeleton]; unfold k4_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf1 hf2 hf3 hf4 hf5 hf6 hf7 hf8
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (coverSC _)
  iexists _; isplitr
  swap; · iexact H8
  ipureintro
  exact View.read_writes_eq_canon _ _ _ (coverSC _)

set_option maxHeartbeats 1000000 in
theorem sound_kernel4C (c : Dev nD) (E : Set ℕ) (i : grid4.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S1x128 .f32) (harg8 : arg8.IsWhole)
    (hc0 : ¬cond4_0 i) (hc1 : cond4_1 i)
    (x0 : Vec F S5000x128 .f32) (x1 : Vec F S5000x128 .f32) (x2 : Vec F S5000x1 .f32) (x3 : Vec F S1x128 .f32)
    (y4 y5 s q : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare y4 ∗ owns (c : Thread nD τ) arg6 fullShare y5
        ∗ owns (c : Thread nD τ) arg7 fullShare s ∗ owns (c : Thread nD τ) arg8 fullShare q
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out4_4 (accS4 x0 x1 x2 x3 s)) ∗ owns (c : Thread nD τ) arg6 fullShare (out4_5 (accS4 x0 x1 x2 x3 s) (accQ4 x0 x1 x2 x3 q))
            ∗ owns (c : Thread nD τ) arg7 fullShare (accS4 x0 x1 x2 x3 s) ∗ owns (c : Thread nD τ) arg8 fullShare (accQ4 x0 x1 x2 x3 q)) -∗ K ⟨⟩))
      ⊢ wp frame (wpE (defs₀ (F := F)) Variants.none c none) E (cc4__stats_kernel i arg1 harg1 arg2 harg2 arg3 harg3 arg4 harg4 arg5 harg5 arg6 harg6 arg7 harg7 arg8 harg8) K := by
  simp only [cc4__stats_kernel_eq_skeleton]; unfold cc4__stats_kernel_skel
  simp only [k4_part1_eq_skeleton]; unfold k4_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf1 hf2 hf3 hf4 hf5 hf6 hf7 hf8
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    sl_unfold_run_names
    rw [View.readCov_eq_canon']
    exact View.read_writes_eq_canon _ _ _ (coverSC _)
  isplitl [H6]
  · iexists _; isplitr
    swap; · iexact H6
    ipureintro
    sl_unfold_run_names
    rw [View.readCov_eq_canon', View.readCov_eq_canon']
    exact View.read_writes_eq_canon _ _ _ (coverSC _)
  isplitl [H7]
  · iexists _; isplitr
    swap; · iexact H7
    ipureintro
    sl_unfold_run_names
    exact View.read_writes_eq_canon _ _ _ (coverSC _)
  iexists _; isplitr
  swap; · iexact H8
  ipureintro
  sl_unfold_run_names
  exact View.read_writes_eq_canon _ _ _ (coverSC _)

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for ANY proof
    data whose array is `V`'s (`hA`) and whose body leaves the block in place (`hafter`): the window is uncut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not, for ANY proof
    data whose array is `V`'s (`hA`) and whose body leaves the block in place (`hafter`): the window is uncut and never idle. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not, for ANY proof
    data whose array is `V`'s (`hA`) and whose body leaves the block in place (`hafter`): the window is uncut and never idle. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds its block at every point, fetched there or not, for ANY proof
    data whose array is `V`'s (`hA`) and whose body leaves the block in place (`hafter`): the window is uncut and never idle. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-! ## The accumulators, point by point -/

/-- THE ACCUMULATION. The two accumulators (sum, sum of squares) before point `n`, that is after point `n - 1`: zeroed
    before the first point's blocks are added; after point `n`, the body's two stores over the blocks at `n` and the
    accumulators before it. -/
def acc4 (c : Dev nD) : ℕ → Vec F S1x128 .f32 × Vec F S1x128 .f32
  | 0 => (zS4, zQ4)
  | n + 1 => if h : n < cfg4.N then
      (accS4 (iblk4 V c 0 ⟨n, h⟩) (iblk4 V c 1 ⟨n, h⟩) (iblk4 V c 2 ⟨n, h⟩) (iblk4 V c 3 ⟨n, h⟩) (acc4 c n).1,
       accQ4 (iblk4 V c 0 ⟨n, h⟩) (iblk4 V c 1 ⟨n, h⟩) (iblk4 V c 2 ⟨n, h⟩) (iblk4 V c 3 ⟨n, h⟩) (acc4 c n).2)
    else acc4 c n

theorem acc4_zero (c : Dev nD) : acc4 V c 0 = (zS4, zQ4) := rfl
/-- The recursion: the sum after point `t`. -/
theorem acc4_succ_fst (c : Dev nD) (t : Fin cfg4.N) :
    (acc4 V c (t.val + 1)).1 = accS4 (iblk4 V c 0 t) (iblk4 V c 1 t) (iblk4 V c 2 t) (iblk4 V c 3 t) (acc4 V c t.val).1 := by
  rw [acc4, dif_pos t.isLt]
/-- The recursion: the sum of squares after point `t`. -/
theorem acc4_succ_snd (c : Dev nD) (t : Fin cfg4.N) :
    (acc4 V c (t.val + 1)).2 = accQ4 (iblk4 V c 0 t) (iblk4 V c 1 t) (iblk4 V c 2 t) (iblk4 V c 3 t) (acc4 V c t.val).2 := by
  rw [acc4, dif_pos t.isLt]
/-- Before the first point the accumulators are the zeroed ones. -/
theorem acc4_first_fst (c : Dev nD) (t : Fin cfg4.N) (h0 : t.val = 0) : (acc4 V c t.val).1 = zS4 := by rw [h0]; rfl
theorem acc4_first_snd (c : Dev nD) (t : Fin cfg4.N) (h0 : t.val = 0) : (acc4 V c t.val).2 = zQ4 := by rw [h0]; rfl

/-! ## The region invariant: the two scratch accumulators carried between points -/

/-- The scratch operands: whole scoped buffers of the kernel's own, passed beside the windows. -/
abbrev sc4_0 : Memref sig .tc .vmem S1x128 .f32 := Memref.whole cc4_scratch0
abbrev sc4_1 : Memref sig .tc .vmem S1x128 .f32 := Memref.whole cc4_scratch1

/-- The invariant before position `n`: the two scratch buffers — at anything before the first point, afterwards at the
    accumulators the point before left (`acc4`) —, every other scoped buffer that is no staging buffer at some contents,
    and the generator register at some state. -/
def Phi4 (c : Dev nD) (n : ℕ) : sProp 𝕄 :=
  iprop((∃ s, ⌜n ≠ 0 → s = (acc4 V c n).1⌝ ∗ owns (c : Thread nD τ) sc4_0 fullShare s)
    ∗ (∃ q, ⌜n ≠ 0 → q = (acc4 V c n).2⌝ ∗ owns (c : Thread nD τ) sc4_1 fullShare q)
    ∗ Pipeline.scopedRestBut (Ix := Unit) (Name := ℕ) (U := UR sig nD τ) (Lvl := ℕ) (Val := Elt F) spec4 c [cc4_scratch0, cc4_scratch1]
    ∗ ∃ r, prngReg c r)

/-! ## The pipeline's proof data -/

/-- The proof data of pipeline 4 on core `c`: the arrays as the region finds them (`V`); after the body at point `t`
    each input's buffer at its block and the two outputs' at the mean and the variance of the accumulators after `t`
    (consulted at the last point only: elsewhere the outputs are idle and not written back); the invariant `Phi4`;
    nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4_4 (acc4 V c (t.val + 1)).1
    | ⟨5, _⟩ => out4_5 (acc4 V c (t.val + 1)).1 (acc4 V c (t.val + 1)).2
  Φ t := Phi4 V c t.val
  q _ := fullShare
  owed _ := 0

/-- The proof data's arrays are the region-entry contents (the proof data's definition projected, by `dsimp`). -/
theorem A_eq4 (c : Dev nD) (w : Fin cfg4.W) : (dat4 V c).A w = V c (Pipeline.arrRef spec4 w) := by
  dsimp only [dat4]

/-- What the body leaves, window by window (the proof data's `match` reduced by `dsimp`). -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
/-- Window 4 after the body at `t`: the mean of the sum after `t` (what the last point stores and writes back). -/
theorem after4_4 (c : Dev nD) (t : Fin cfg4.N) : (dat4 V c).after 4 t = out4_4 (acc4 V c (t.val + 1)).1 := by dsimp only [dat4]
/-- Window 5 after the body at `t`: the variance of the accumulators after `t`. -/
theorem after4_5 (c : Dev nD) (t : Fin cfg4.N) : (dat4 V c).after 5 t = out4_5 (acc4 V c (t.val + 1)).1 (acc4 V c (t.val + 1)).2 := by dsimp only [dat4]

/-- Each input's current staging buffer holds its block at every point, fetched there or not (`before4_W_of`). -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

/-- The invariant at a point's start and end, restated at the position. -/
theorem Phi4_castSucc (c : Dev nD) (t : Fin cfg4.N) : (dat4 V c).Φ t.castSucc = Phi4 V c t.val := rfl
theorem Phi4_succ (c : Dev nD) (t : Fin cfg4.N) : (dat4 V c).Φ t.succ = Phi4 V c (t.val + 1) := rfl

/-! ## Where the windows are idle (the printed configuration's table `Cfg.idle`) -/

/-- The inputs are never idle. -/
theorem live4_0 : ∀ t : Fin cfg4.N, cfg4.idle 0 (grid4.coords t) = false := fun _ => rfl
theorem live4_1 : ∀ t : Fin cfg4.N, cfg4.idle 1 (grid4.coords t) = false := fun _ => rfl
theorem live4_2 : ∀ t : Fin cfg4.N, cfg4.idle 2 (grid4.coords t) = false := fun _ => rfl
theorem live4_3 : ∀ t : Fin cfg4.N, cfg4.idle 3 (grid4.coords t) = false := fun _ => rfl
/-- Before the last point the two outputs are idle (the body stores nothing into them) and not written back. -/
theorem idle4_4 : ∀ t : Fin cfg4.N, ¬t.val = 9 → cfg4.idle 4 (grid4.coords t) = true := by decide +kernel
theorem idle4_5 : ∀ t : Fin cfg4.N, ¬t.val = 9 → cfg4.idle 5 (grid4.coords t) = true := by decide +kernel
theorem noFlush4_4 : ∀ t : Fin cfg4.N, ¬t.val = 9 → (cfg4.win 4).flush t = false := by decide +kernel
theorem noFlush4_5 : ∀ t : Fin cfg4.N, ¬t.val = 9 → (cfg4.win 5).flush t = false := by decide +kernel
/-- At the last point they are live. -/
theorem live4_4 : ∀ t : Fin cfg4.N, t.val = 9 → cfg4.idle 4 (grid4.coords t) = false := by decide +kernel
theorem live4_5 : ∀ t : Fin cfg4.N, t.val = 9 → cfg4.idle 5 (grid4.coords t) = false := by decide +kernel

/-- What the body obligation asks of each input's buffer after the body: its block, as found. -/
theorem leaves4_0 (c : Dev nD) (t : Fin cfg4.N) : (dat4 V c).leavesExact 0 t = owns (c : Thread nD τ) (st4_0 t) fullShare (iblk4 V c 0 t) := by
  rw [show (dat4 V c).leavesExact 0 t = owns (c : Thread nD τ) (st4_0 t) fullShare ((dat4 V c).after 0 t) from by
    unfold Dat.leavesExact; rw [live4_0 t], after4_0]
theorem leaves4_1 (c : Dev nD) (t : Fin cfg4.N) : (dat4 V c).leavesExact 1 t = owns (c : Thread nD τ) (st4_1 t) fullShare (iblk4 V c 1 t) := by
  rw [show (dat4 V c).leavesExact 1 t = owns (c : Thread nD τ) (st4_1 t) fullShare ((dat4 V c).after 1 t) from by
    unfold Dat.leavesExact; rw [live4_1 t], after4_1]
theorem leaves4_2 (c : Dev nD) (t : Fin cfg4.N) : (dat4 V c).leavesExact 2 t = owns (c : Thread nD τ) (st4_2 t) fullShare (iblk4 V c 2 t) := by
  rw [show (dat4 V c).leavesExact 2 t = owns (c : Thread nD τ) (st4_2 t) fullShare ((dat4 V c).after 2 t) from by
    unfold Dat.leavesExact; rw [live4_2 t], after4_2]
theorem leaves4_3 (c : Dev nD) (t : Fin cfg4.N) : (dat4 V c).leavesExact 3 t = owns (c : Thread nD τ) (st4_3 t) fullShare (iblk4 V c 3 t) := by
  rw [show (dat4 V c).leavesExact 3 t = owns (c : Thread nD τ) (st4_3 t) fullShare ((dat4 V c).after 3 t) from by
    unfold Dat.leavesExact; rw [live4_3 t], after4_3]

/-! ## The body obligation, at a generic point -/

/-- What the body is called with at point `t` (the body obligation's precondition, the windows one by one), -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t)

set_option maxHeartbeats 4000000 in
/-- The body at any point: the inputs' memrefs hold their blocks (`before4_W`); the point's position says which
    case it is in (first, middle, last); the invariant hands the body the two scratch accumulators — at anything at the
    first point, where the body zeroes them, else at what the point before left — and takes them back at this point's
    (`acc4_succ_*`); before the last point the outputs' buffers pass through untouched, at the last point they are
    stored; the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).owesAt () t.succ = (dat4 V c).owesAt () t.castSucc from rfl,
    Phi4_castSucc, Phi4_succ, leaves4_0, leaves4_1, leaves4_2, leaves4_3]
  unfold Phi4
  rw [acc4_succ_fst V c t, acc4_succ_snd V c t]
  have hN : t.val < 10 := lt_of_lt_of_eq t.isLt (show cfg4.N = 10 from N_4)
  by_cases h0 : t.val = 0
  · have h9 : ¬t.val = 9 := by omega
    rw [Dat.leavesExact_idle (dat4 V c) 4 t (idle4_4 t h9) (noFlush4_4 t h9),
      Dat.leavesExact_idle (dat4 V c) 5 t (idle4_5 t h9) (noFlush4_5 t h9),
      acc4_first_fst V c t h0, acc4_first_snd V c t h0]
    iintro ⟨⟨⟨%s, -, HS⟩, ⟨%q, -, HQ⟩, Hrest, Hg⟩, Ho, ⟨%d0, H0⟩, ⟨%d1, H1⟩, ⟨%d2, H2⟩, ⟨%d3, H3⟩, ⟨%d4, H4⟩, ⟨%d5, H5⟩⟩
    iapply (sound_kernel4A c Set.univ (grid4.coords t) _ _ _ _ _ _ _ _ _ _ _ _ _ _ _ _ ((hcond4_0 t).mpr h0) (fun h => h9 ((hcond4_1 t).mp h))
      (iblk4 V c 0 t) (iblk4 V c 1 t) (iblk4 V c 2 t) (iblk4 V c 3 t) _ _ s q _)
    isplitl [H0]; · iexact H0
    isplitl [H1]; · iexact H1
    isplitl [H2]; · iexact H2
    isplitl [H3]; · iexact H3
    isplitl [H4]; · iexact H4
    isplitl [H5]; · iexact H5
    isplitl [HS]; · iexact HS
    isplitl [HQ]; · iexact HQ
    iintro ⟨H0, H1, H2, H3, H4, H5, HS, HQ⟩
    isplitl [HS HQ Hrest Hg]
    · isplitl [HS]
      · iexists _; isplitr
        swap; · iexact HS
        ipureintro; exact fun _ => rfl
      isplitl [HQ]
      · iexists _; isplitr
        swap; · iexact HQ
        ipureintro; exact fun _ => rfl
      isplitl [Hrest]; · iexact Hrest
      iexact Hg
    isplitl [Ho]; · iexact Ho
    isplitl [H0]; · iexact H0
    isplitl [H1]; · iexact H1
    isplitl [H2]; · iexact H2
    isplitl [H3]; · iexact H3
    isplitl [H4]; · iexists _; iexact H4
    iexists _; iexact H5
  · by_cases h9 : t.val = 9
    · rw [show (dat4 V c).leavesExact 4 t = owns (c : Thread nD τ) (st4_4 t) fullShare ((dat4 V c).after 4 t) from by
        unfold Dat.leavesExact; rw [live4_4 t h9], after4_4,
        show (dat4 V c).leavesExact 5 t = owns (c : Thread nD τ) (st4_5 t) fullShare ((dat4 V c).after 5 t) from by
        unfold Dat.leavesExact; rw [live4_5 t h9], after4_5,
        acc4_succ_fst V c t, acc4_succ_snd V c t]
      iintro ⟨⟨⟨%s, %hs, HS⟩, ⟨%q, %hq, HQ⟩, Hrest, Hg⟩, Ho, ⟨%d0, H0⟩, ⟨%d1, H1⟩, ⟨%d2, H2⟩, ⟨%d3, H3⟩, ⟨%d4, H4⟩, ⟨%d5, H5⟩⟩
      obtain rfl := hs h0; obtain rfl := hq h0
      iapply (sound_kernel4C c Set.univ (grid4.coords t) _ _ _ _ _ _ _ _ _ _ _ _ _ _ _ _ (fun h => h0 ((hcond4_0 t).mp h)) ((hcond4_1 t).mpr h9)
        (iblk4 V c 0 t) (iblk4 V c 1 t) (iblk4 V c 2 t) (iblk4 V c 3 t) _ _ _ _ _)
      isplitl [H0]; · iexact H0
      isplitl [H1]; · iexact H1
      isplitl [H2]; · iexact H2
      isplitl [H3]; · iexact H3
      isplitl [H4]; · iexact H4
      isplitl [H5]; · iexact H5
      isplitl [HS]; · iexact HS
      isplitl [HQ]; · iexact HQ
      iintro ⟨H0, H1, H2, H3, H4, H5, HS, HQ⟩
      isplitl [HS HQ Hrest Hg]
      · isplitl [HS]
        · iexists _; isplitr
          swap; · iexact HS
          ipureintro; exact fun _ => rfl
        isplitl [HQ]
        · iexists _; isplitr
          swap; · iexact HQ
          ipureintro; exact fun _ => rfl
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [Dat.leavesExact_idle (dat4 V c) 4 t (idle4_4 t h9) (noFlush4_4 t h9),
        Dat.leavesExact_idle (dat4 V c) 5 t (idle4_5 t h9) (noFlush4_5 t h9)]
      iintro ⟨⟨⟨%s, %hs, HS⟩, ⟨%q, %hq, HQ⟩, Hrest, Hg⟩, Ho, ⟨%d0, H0⟩, ⟨%d1, H1⟩, ⟨%d2, H2⟩, ⟨%d3, H3⟩, ⟨%d4, H4⟩, ⟨%d5, H5⟩⟩
      obtain rfl := hs h0; obtain rfl := hq h0
      iapply (sound_kernel4B c Set.univ (grid4.coords t) _ _ _ _ _ _ _ _ _ _ _ _ _ _ _ _ (fun h => h0 ((hcond4_0 t).mp h)) (fun h => h9 ((hcond4_1 t).mp h))
        (iblk4 V c 0 t) (iblk4 V c 1 t) (iblk4 V c 2 t) (iblk4 V c 3 t) _ _ _ _ _)
      isplitl [H0]; · iexact H0
      isplitl [H1]; · iexact H1
      isplitl [H2]; · iexact H2
      isplitl [H3]; · iexact H3
      isplitl [H4]; · iexact H4
      isplitl [H5]; · iexact H5
      isplitl [HS]; · iexact HS
      isplitl [HQ]; · iexact HQ
      iintro ⟨H0, H1, H2, H3, H4, H5, HS, HQ⟩
      isplitl [HS HQ Hrest Hg]
      · isplitl [HS]
        · iexists _; isplitr
          swap; · iexact HS
          ipureintro; exact fun _ => rfl
        isplitl [HQ]
        · iexists _; isplitr
          swap; · iexact HQ
          ipureintro; exact fun _ => rfl
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The library's body obligation, at every point. -/
theorem body_obligation4 (c : Dev nD) : BodyObligation (dat4 (F := F) V c) (defs₀ (F := F)) Variants.none () Set.univ := fun t => by
  rw [bigSep_W4, bigSep_W4]
  exact sound_body4 V c t

/-! ## The invariant at the region's ends -/

/-- What the region is entered with — the generator register, the scoped buffers no window stages (the prefetched
    tables, none here, beside them as any `P`) — is the invariant before the first point: the two scratch buffers
    split out at some contents. -/
theorem hin4 (c : Dev nD) (P : sProp 𝕄) :
    iprop((∃ r, prngReg c r) ∗ P ∗ Pipeline.scopedRest (Ix := Unit) (Name := ℕ) (U := UR sig nD τ) (Lvl := ℕ) (Val := Elt F) spec4 c) ⊢ (dat4 V c).Φ 0 := by
  rw [show (dat4 V c).Φ 0 = Phi4 V c 0 from rfl, scopedRest4_split]; unfold Phi4
  simp only [sc4_0, sc4_1, owns_whole]
  iintro ⟨Hg, -, ⟨⟨%f0, H0⟩, ⟨%f1, H1⟩⟩, Hrest⟩
  isplitl [H0]
  · iexists f0; isplitr; · ipureintro; exact fun h => absurd rfl h
    iexact H0
  isplitl [H1]
  · iexists f1; isplitr; · ipureintro; exact fun h => absurd rfl h
    iexact H1
  isplitl [Hrest]; · iexact Hrest
  iexact Hg

/-- After the last point the invariant gives the generator register and the scoped rest back: the accumulators' named
    contents are forgotten. -/
theorem hout4 (c : Dev nD) :
    (dat4 V c).Φ (Fin.last cfg4.N) ⊢ iprop((∃ r, prngReg c r) ∗ Pipeline.scopedRest (Ix := Unit) (Name := ℕ) (U := UR sig nD τ) (Lvl := ℕ) (Val := Elt F) spec4 c) := by
  rw [show (dat4 V c).Φ (Fin.last cfg4.N) = Phi4 V c (Fin.last cfg4.N).val from rfl, scopedRest4_split]; unfold Phi4
  simp only [sc4_0, sc4_1, owns_whole]
  iintro ⟨⟨%s, -, H0⟩, ⟨%q, -, H1⟩, Hrest, Hg⟩
  isplitl [Hg]; · iexact Hg
  isplitl [H0 H1]
  · isplitl [H0]
    · iexists s; iexact H0
    iexists q; iexact H1
  iexact Hrest

/-! ## What the region writes back: the last point's mean and variance -/

/-- The last point. -/
def tl4 : Fin cfg4.N := ⟨9, by rw [show cfg4.N = 10 from N_4]; decide⟩
/-- Window 4 after the last point's body is the mean of the final sum (the accumulator after all 10 points). -/
theorem after4_4_last (c : Dev nD) : (dat4 V c).after 4 tl4 = out4_4 (acc4 V c 10).1 := after4_4 V c tl4
/-- Window 5 after the last point's body is the variance of the final accumulators. -/
theorem after4_5_last (c : Dev nD) : (dat4 V c).after 5 tl4 = out4_5 (acc4 V c 10).1 (acc4 V c 10).2 := after4_5 V c tl4

/-! # REGION 7 of @main: custom_call 7, `cc7__stats_kernel` (pipeline 7), at the entry contents `V` -/

/-! ## The body's branch conditions -/

/-- The condition of the body's first `scf.if` (the accumulators are zeroed), from the grid coordinates. -/
abbrev cond7_0 (i : grid7.Coords) : Prop := (Scalar.cmpi .ne (Scalar.extui (Scalar.cmpi .eq (BitVec.ofNat 32 (i 0).val) 0#32)) 0#32) = 1#1
/-- It holds at the first point only — decided over the grid. -/
theorem hcond7_0 : ∀ t : Fin cfg7.N, cond7_0 (grid7.coords t) ↔ t.val = 0 :=
  (by decide +kernel : ∀ t : Fin grid7.N, cond7_0 (grid7.coords t) ↔ t.val = 0)
/-- The condition of the body's second `scf.if` (the statistics are stored). -/
abbrev cond7_1 (i : grid7.Coords) : Prop := k7_cond2 i = 1#1
/-- It holds at the last point only — decided over the grid. -/
theorem hcond7_1 : ∀ t : Fin cfg7.N, cond7_1 (grid7.coords t) ↔ t.val = 9 :=
  (by decide +kernel : ∀ t : Fin grid7.N, cond7_1 (grid7.coords t) ↔ t.val = 9)

/-! ## What the body leaves in the accumulators and in the output windows' buffers -/

/-- The sum accumulator after a point, from the point's four input blocks and the accumulator before it: its one
    covering store (Lib/Pipeline/FrameBody.lean `View.canon`; the payload is the skeleton's). -/
def accS7 (x0 x1 : Vec F S5000x128 .f32) (x2 : Vec F S5000x1 .f32) (x3 s : Vec F S1x128 .f32) : Vec F S1x128 .f32 :=
  View.canon [⟨rSC, k7_pay6 (View.ld x0 rSA) (View.ld x2 rSB) (View.ld x1 rSA) (View.ld x3 rSC) (View.ld s rSC)⟩]
/-- The sum-of-squares accumulator after a point, likewise. -/
def accQ7 (x0 x1 : Vec F S5000x128 .f32) (x2 : Vec F S5000x1 .f32) (x3 q : Vec F S1x128 .f32) : Vec F S1x128 .f32 :=
  View.canon [⟨rSC, k7_pay7 (View.ld x0 rSA) (View.ld x2 rSB) (View.ld x1 rSA) (View.ld x3 rSC) (View.ld q rSC)⟩]
/-- The accumulators as the first point zeroes them. -/
def zS7 : Vec F S1x128 .f32 := View.canon [⟨rSC, k7_pay3 (F := F)⟩]
def zQ7 : Vec F S1x128 .f32 := View.canon [⟨rSC, k7_pay4 (F := F)⟩]
/-- Window 4's staging buffer after the last point's body: the mean, from the final sum. -/
def out7_4 (s : Vec F S1x128 .f32) : Vec F S1x128 .f32 :=
  View.canon [⟨rSC, k7_pay1 (View.ld s rSC)⟩]
/-- Window 5's staging buffer after the last point's body: the variance, from the final sum and sum of squares. -/
def out7_5 (s q : Vec F S1x128 .f32) : Vec F S1x128 .f32 :=
  View.canon [⟨rSC, k7_pay2 (View.ld s rSC) (View.ld q rSC)⟩]

set_option maxHeartbeats 1000000 in
theorem sound_kernel7A (c : Dev nD) (E : Set ℕ) (i : grid7.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S1x128 .f32) (harg8 : arg8.IsWhole)
    (hc0 : cond7_0 i) (hc1 : ¬cond7_1 i)
    (x0 : Vec F S5000x128 .f32) (x1 : Vec F S5000x128 .f32) (x2 : Vec F S5000x1 .f32) (x3 : Vec F S1x128 .f32)
    (y4 y5 s q : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare y4 ∗ owns (c : Thread nD τ) arg6 fullShare y5
        ∗ owns (c : Thread nD τ) arg7 fullShare s ∗ owns (c : Thread nD τ) arg8 fullShare q
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare y4 ∗ owns (c : Thread nD τ) arg6 fullShare y5
            ∗ owns (c : Thread nD τ) arg7 fullShare (accS7 x0 x1 x2 x3 (zS7 (F := F))) ∗ owns (c : Thread nD τ) arg8 fullShare (accQ7 x0 x1 x2 x3 (zQ7 (F := F)))) -∗ K ⟨⟩))
      ⊢ wp frame (wpE (defs₀ (F := F)) Variants.none c none) E (cc7__stats_kernel i arg1 harg1 arg2 harg2 arg3 harg3 arg4 harg4 arg5 harg5 arg6 harg6 arg7 harg7 arg8 harg8) K := by
  simp only [cc7__stats_kernel_eq_skeleton]; unfold cc7__stats_kernel_skel
  simp only [k7_part1_eq_skeleton]; unfold k7_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf1 hf2 hf3 hf4 hf5 hf6 hf7 hf8
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    sl_unfold_run_names
    rw [View.readCov_eq_canon']
    exact (View.read_writes_eq_canon _ _ _ (coverSC2 _ _)).trans (canon_wholeSC _ _)
  iexists _; isplitr
  swap; · iexact H8
  ipureintro
  sl_unfold_run_names
  rw [View.readCov_eq_canon']
  exact (View.read_writes_eq_canon _ _ _ (coverSC2 _ _)).trans (canon_wholeSC _ _)

set_option maxHeartbeats 1000000 in
theorem sound_kernel7B (c : Dev nD) (E : Set ℕ) (i : grid7.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S1x128 .f32) (harg8 : arg8.IsWhole)
    (hc0 : ¬cond7_0 i) (hc1 : ¬cond7_1 i)
    (x0 : Vec F S5000x128 .f32) (x1 : Vec F S5000x128 .f32) (x2 : Vec F S5000x1 .f32) (x3 : Vec F S1x128 .f32)
    (y4 y5 s q : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare y4 ∗ owns (c : Thread nD τ) arg6 fullShare y5
        ∗ owns (c : Thread nD τ) arg7 fullShare s ∗ owns (c : Thread nD τ) arg8 fullShare q
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare y4 ∗ owns (c : Thread nD τ) arg6 fullShare y5
            ∗ owns (c : Thread nD τ) arg7 fullShare (accS7 x0 x1 x2 x3 s) ∗ owns (c : Thread nD τ) arg8 fullShare (accQ7 x0 x1 x2 x3 q)) -∗ K ⟨⟩))
      ⊢ wp frame (wpE (defs₀ (F := F)) Variants.none c none) E (cc7__stats_kernel i arg1 harg1 arg2 harg2 arg3 harg3 arg4 harg4 arg5 harg5 arg6 harg6 arg7 harg7 arg8 harg8) K := by
  simp only [cc7__stats_kernel_eq_skeleton]; unfold cc7__stats_kernel_skel
  simp only [k7_part1_eq_skeleton]; unfold k7_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf1 hf2 hf3 hf4 hf5 hf6 hf7 hf8
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (coverSC _)
  iexists _; isplitr
  swap; · iexact H8
  ipureintro
  exact View.read_writes_eq_canon _ _ _ (coverSC _)

set_option maxHeartbeats 1000000 in
theorem sound_kernel7C (c : Dev nD) (E : Set ℕ) (i : grid7.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S1x128 .f32) (harg8 : arg8.IsWhole)
    (hc0 : ¬cond7_0 i) (hc1 : cond7_1 i)
    (x0 : Vec F S5000x128 .f32) (x1 : Vec F S5000x128 .f32) (x2 : Vec F S5000x1 .f32) (x3 : Vec F S1x128 .f32)
    (y4 y5 s q : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare y4 ∗ owns (c : Thread nD τ) arg6 fullShare y5
        ∗ owns (c : Thread nD τ) arg7 fullShare s ∗ owns (c : Thread nD τ) arg8 fullShare q
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out7_4 (accS7 x0 x1 x2 x3 s)) ∗ owns (c : Thread nD τ) arg6 fullShare (out7_5 (accS7 x0 x1 x2 x3 s) (accQ7 x0 x1 x2 x3 q))
            ∗ owns (c : Thread nD τ) arg7 fullShare (accS7 x0 x1 x2 x3 s) ∗ owns (c : Thread nD τ) arg8 fullShare (accQ7 x0 x1 x2 x3 q)) -∗ K ⟨⟩))
      ⊢ wp frame (wpE (defs₀ (F := F)) Variants.none c none) E (cc7__stats_kernel i arg1 harg1 arg2 harg2 arg3 harg3 arg4 harg4 arg5 harg5 arg6 harg6 arg7 harg7 arg8 harg8) K := by
  simp only [cc7__stats_kernel_eq_skeleton]; unfold cc7__stats_kernel_skel
  simp only [k7_part1_eq_skeleton]; unfold k7_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf1 hf2 hf3 hf4 hf5 hf6 hf7 hf8
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    sl_unfold_run_names
    rw [View.readCov_eq_canon']
    exact View.read_writes_eq_canon _ _ _ (coverSC _)
  isplitl [H6]
  · iexists _; isplitr
    swap; · iexact H6
    ipureintro
    sl_unfold_run_names
    rw [View.readCov_eq_canon', View.readCov_eq_canon']
    exact View.read_writes_eq_canon _ _ _ (coverSC _)
  isplitl [H7]
  · iexists _; isplitr
    swap; · iexact H7
    ipureintro
    sl_unfold_run_names
    exact View.read_writes_eq_canon _ _ _ (coverSC _)
  iexists _; isplitr
  swap; · iexact H8
  ipureintro
  sl_unfold_run_names
  exact View.read_writes_eq_canon _ _ _ (coverSC _)

/-! ## The windows' blocks -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, fetched there or not, for ANY proof
    data whose array is `V`'s (`hA`) and whose body leaves the block in place (`hafter`): the window is uncut and never idle. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's current staging buffer holds its block at every point, fetched there or not, for ANY proof
    data whose array is `V`'s (`hA`) and whose body leaves the block in place (`hafter`): the window is uncut and never idle. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's current staging buffer holds its block at every point, fetched there or not, for ANY proof
    data whose array is `V`'s (`hA`) and whose body leaves the block in place (`hafter`): the window is uncut and never idle. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- Input window 3's current staging buffer holds its block at every point, fetched there or not, for ANY proof
    data whose array is `V`'s (`hA`) and whose body leaves the block in place (`hafter`): the window is uncut and never idle. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-! ## The accumulators, point by point -/

/-- THE ACCUMULATION. The two accumulators (sum, sum of squares) before point `n`, that is after point `n - 1`: zeroed
    before the first point's blocks are added; after point `n`, the body's two stores over the blocks at `n` and the
    accumulators before it. -/
def acc7 (c : Dev nD) : ℕ → Vec F S1x128 .f32 × Vec F S1x128 .f32
  | 0 => (zS7, zQ7)
  | n + 1 => if h : n < cfg7.N then
      (accS7 (iblk7 V c 0 ⟨n, h⟩) (iblk7 V c 1 ⟨n, h⟩) (iblk7 V c 2 ⟨n, h⟩) (iblk7 V c 3 ⟨n, h⟩) (acc7 c n).1,
       accQ7 (iblk7 V c 0 ⟨n, h⟩) (iblk7 V c 1 ⟨n, h⟩) (iblk7 V c 2 ⟨n, h⟩) (iblk7 V c 3 ⟨n, h⟩) (acc7 c n).2)
    else acc7 c n

theorem acc7_zero (c : Dev nD) : acc7 V c 0 = (zS7, zQ7) := rfl
/-- The recursion: the sum after point `t`. -/
theorem acc7_succ_fst (c : Dev nD) (t : Fin cfg7.N) :
    (acc7 V c (t.val + 1)).1 = accS7 (iblk7 V c 0 t) (iblk7 V c 1 t) (iblk7 V c 2 t) (iblk7 V c 3 t) (acc7 V c t.val).1 := by
  rw [acc7, dif_pos t.isLt]
/-- The recursion: the sum of squares after point `t`. -/
theorem acc7_succ_snd (c : Dev nD) (t : Fin cfg7.N) :
    (acc7 V c (t.val + 1)).2 = accQ7 (iblk7 V c 0 t) (iblk7 V c 1 t) (iblk7 V c 2 t) (iblk7 V c 3 t) (acc7 V c t.val).2 := by
  rw [acc7, dif_pos t.isLt]
/-- Before the first point the accumulators are the zeroed ones. -/
theorem acc7_first_fst (c : Dev nD) (t : Fin cfg7.N) (h0 : t.val = 0) : (acc7 V c t.val).1 = zS7 := by rw [h0]; rfl
theorem acc7_first_snd (c : Dev nD) (t : Fin cfg7.N) (h0 : t.val = 0) : (acc7 V c t.val).2 = zQ7 := by rw [h0]; rfl

/-! ## The region invariant: the two scratch accumulators carried between points -/

/-- The scratch operands: whole scoped buffers of the kernel's own, passed beside the windows. -/
abbrev sc7_0 : Memref sig .tc .vmem S1x128 .f32 := Memref.whole cc7_scratch0
abbrev sc7_1 : Memref sig .tc .vmem S1x128 .f32 := Memref.whole cc7_scratch1

/-- The invariant before position `n`: the two scratch buffers — at anything before the first point, afterwards at the
    accumulators the point before left (`acc7`) —, every other scoped buffer that is no staging buffer at some contents,
    and the generator register at some state. -/
def Phi7 (c : Dev nD) (n : ℕ) : sProp 𝕄 :=
  iprop((∃ s, ⌜n ≠ 0 → s = (acc7 V c n).1⌝ ∗ owns (c : Thread nD τ) sc7_0 fullShare s)
    ∗ (∃ q, ⌜n ≠ 0 → q = (acc7 V c n).2⌝ ∗ owns (c : Thread nD τ) sc7_1 fullShare q)
    ∗ Pipeline.scopedRestBut (Ix := Unit) (Name := ℕ) (U := UR sig nD τ) (Lvl := ℕ) (Val := Elt F) spec7 c [cc7_scratch0, cc7_scratch1]
    ∗ ∃ r, prngReg c r)

/-! ## The pipeline's proof data -/

/-- The proof data of pipeline 7 on core `c`: the arrays as the region finds them (`V`); after the body at point `t`
    each input's buffer at its block and the two outputs' at the mean and the variance of the accumulators after `t`
    (consulted at the last point only: elsewhere the outputs are idle and not written back); the invariant `Phi7`;
    nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => out7_4 (acc7 V c (t.val + 1)).1
    | ⟨5, _⟩ => out7_5 (acc7 V c (t.val + 1)).1 (acc7 V c (t.val + 1)).2
  Φ t := Phi7 V c t.val
  q _ := fullShare
  owed _ := 0

/-- The proof data's arrays are the region-entry contents (the proof data's definition projected, by `dsimp`). -/
theorem A_eq7 (c : Dev nD) (w : Fin cfg7.W) : (dat7 V c).A w = V c (Pipeline.arrRef spec7 w) := by
  dsimp only [dat7]

/-- What the body leaves, window by window (the proof data's `match` reduced by `dsimp`). -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
/-- Window 4 after the body at `t`: the mean of the sum after `t` (what the last point stores and writes back). -/
theorem after7_4 (c : Dev nD) (t : Fin cfg7.N) : (dat7 V c).after 4 t = out7_4 (acc7 V c (t.val + 1)).1 := by dsimp only [dat7]
/-- Window 5 after the body at `t`: the variance of the accumulators after `t`. -/
theorem after7_5 (c : Dev nD) (t : Fin cfg7.N) : (dat7 V c).after 5 t = out7_5 (acc7 V c (t.val + 1)).1 (acc7 V c (t.val + 1)).2 := by dsimp only [dat7]

/-- Each input's current staging buffer holds its block at every point, fetched there or not (`before7_W_of`). -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d

/-- The invariant at a point's start and end, restated at the position. -/
theorem Phi7_castSucc (c : Dev nD) (t : Fin cfg7.N) : (dat7 V c).Φ t.castSucc = Phi7 V c t.val := rfl
theorem Phi7_succ (c : Dev nD) (t : Fin cfg7.N) : (dat7 V c).Φ t.succ = Phi7 V c (t.val + 1) := rfl

/-! ## Where the windows are idle (the printed configuration's table `Cfg.idle`) -/

/-- The inputs are never idle. -/
theorem live7_0 : ∀ t : Fin cfg7.N, cfg7.idle 0 (grid7.coords t) = false := fun _ => rfl
theorem live7_1 : ∀ t : Fin cfg7.N, cfg7.idle 1 (grid7.coords t) = false := fun _ => rfl
theorem live7_2 : ∀ t : Fin cfg7.N, cfg7.idle 2 (grid7.coords t) = false := fun _ => rfl
theorem live7_3 : ∀ t : Fin cfg7.N, cfg7.idle 3 (grid7.coords t) = false := fun _ => rfl
/-- Before the last point the two outputs are idle (the body stores nothing into them) and not written back. -/
theorem idle7_4 : ∀ t : Fin cfg7.N, ¬t.val = 9 → cfg7.idle 4 (grid7.coords t) = true := by decide +kernel
theorem idle7_5 : ∀ t : Fin cfg7.N, ¬t.val = 9 → cfg7.idle 5 (grid7.coords t) = true := by decide +kernel
theorem noFlush7_4 : ∀ t : Fin cfg7.N, ¬t.val = 9 → (cfg7.win 4).flush t = false := by decide +kernel
theorem noFlush7_5 : ∀ t : Fin cfg7.N, ¬t.val = 9 → (cfg7.win 5).flush t = false := by decide +kernel
/-- At the last point they are live. -/
theorem live7_4 : ∀ t : Fin cfg7.N, t.val = 9 → cfg7.idle 4 (grid7.coords t) = false := by decide +kernel
theorem live7_5 : ∀ t : Fin cfg7.N, t.val = 9 → cfg7.idle 5 (grid7.coords t) = false := by decide +kernel

/-- What the body obligation asks of each input's buffer after the body: its block, as found. -/
theorem leaves7_0 (c : Dev nD) (t : Fin cfg7.N) : (dat7 V c).leavesExact 0 t = owns (c : Thread nD τ) (st7_0 t) fullShare (iblk7 V c 0 t) := by
  rw [show (dat7 V c).leavesExact 0 t = owns (c : Thread nD τ) (st7_0 t) fullShare ((dat7 V c).after 0 t) from by
    unfold Dat.leavesExact; rw [live7_0 t], after7_0]
theorem leaves7_1 (c : Dev nD) (t : Fin cfg7.N) : (dat7 V c).leavesExact 1 t = owns (c : Thread nD τ) (st7_1 t) fullShare (iblk7 V c 1 t) := by
  rw [show (dat7 V c).leavesExact 1 t = owns (c : Thread nD τ) (st7_1 t) fullShare ((dat7 V c).after 1 t) from by
    unfold Dat.leavesExact; rw [live7_1 t], after7_1]
theorem leaves7_2 (c : Dev nD) (t : Fin cfg7.N) : (dat7 V c).leavesExact 2 t = owns (c : Thread nD τ) (st7_2 t) fullShare (iblk7 V c 2 t) := by
  rw [show (dat7 V c).leavesExact 2 t = owns (c : Thread nD τ) (st7_2 t) fullShare ((dat7 V c).after 2 t) from by
    unfold Dat.leavesExact; rw [live7_2 t], after7_2]
theorem leaves7_3 (c : Dev nD) (t : Fin cfg7.N) : (dat7 V c).leavesExact 3 t = owns (c : Thread nD τ) (st7_3 t) fullShare (iblk7 V c 3 t) := by
  rw [show (dat7 V c).leavesExact 3 t = owns (c : Thread nD τ) (st7_3 t) fullShare ((dat7 V c).after 3 t) from by
    unfold Dat.leavesExact; rw [live7_3 t], after7_3]

/-! ## The body obligation, at a generic point -/

/-- What the body is called with at point `t` (the body obligation's precondition, the windows one by one), -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d)))

/-- and what it returns. -/
def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t
    ∗ (dat7 V c).leavesExact 3 t
    ∗ (dat7 V c).leavesExact 4 t
    ∗ (dat7 V c).leavesExact 5 t)

set_option maxHeartbeats 4000000 in
/-- The body at any point: the inputs' memrefs hold their blocks (`before7_W`); the point's position says which
    case it is in (first, middle, last); the invariant hands the body the two scratch accumulators — at anything at the
    first point, where the body zeroes them, else at what the point before left — and takes them back at this point's
    (`acc7_succ_*`); before the last point the outputs' buffers pass through untouched, at the last point they are
    stored; the core owes nothing throughout. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3]
  rw [show (dat7 V c).owesAt () t.succ = (dat7 V c).owesAt () t.castSucc from rfl,
    Phi7_castSucc, Phi7_succ, leaves7_0, leaves7_1, leaves7_2, leaves7_3]
  unfold Phi7
  rw [acc7_succ_fst V c t, acc7_succ_snd V c t]
  have hN : t.val < 10 := lt_of_lt_of_eq t.isLt (show cfg7.N = 10 from N_7)
  by_cases h0 : t.val = 0
  · have h9 : ¬t.val = 9 := by omega
    rw [Dat.leavesExact_idle (dat7 V c) 4 t (idle7_4 t h9) (noFlush7_4 t h9),
      Dat.leavesExact_idle (dat7 V c) 5 t (idle7_5 t h9) (noFlush7_5 t h9),
      acc7_first_fst V c t h0, acc7_first_snd V c t h0]
    iintro ⟨⟨⟨%s, -, HS⟩, ⟨%q, -, HQ⟩, Hrest, Hg⟩, Ho, ⟨%d0, H0⟩, ⟨%d1, H1⟩, ⟨%d2, H2⟩, ⟨%d3, H3⟩, ⟨%d4, H4⟩, ⟨%d5, H5⟩⟩
    iapply (sound_kernel7A c Set.univ (grid7.coords t) _ _ _ _ _ _ _ _ _ _ _ _ _ _ _ _ ((hcond7_0 t).mpr h0) (fun h => h9 ((hcond7_1 t).mp h))
      (iblk7 V c 0 t) (iblk7 V c 1 t) (iblk7 V c 2 t) (iblk7 V c 3 t) _ _ s q _)
    isplitl [H0]; · iexact H0
    isplitl [H1]; · iexact H1
    isplitl [H2]; · iexact H2
    isplitl [H3]; · iexact H3
    isplitl [H4]; · iexact H4
    isplitl [H5]; · iexact H5
    isplitl [HS]; · iexact HS
    isplitl [HQ]; · iexact HQ
    iintro ⟨H0, H1, H2, H3, H4, H5, HS, HQ⟩
    isplitl [HS HQ Hrest Hg]
    · isplitl [HS]
      · iexists _; isplitr
        swap; · iexact HS
        ipureintro; exact fun _ => rfl
      isplitl [HQ]
      · iexists _; isplitr
        swap; · iexact HQ
        ipureintro; exact fun _ => rfl
      isplitl [Hrest]; · iexact Hrest
      iexact Hg
    isplitl [Ho]; · iexact Ho
    isplitl [H0]; · iexact H0
    isplitl [H1]; · iexact H1
    isplitl [H2]; · iexact H2
    isplitl [H3]; · iexact H3
    isplitl [H4]; · iexists _; iexact H4
    iexists _; iexact H5
  · by_cases h9 : t.val = 9
    · rw [show (dat7 V c).leavesExact 4 t = owns (c : Thread nD τ) (st7_4 t) fullShare ((dat7 V c).after 4 t) from by
        unfold Dat.leavesExact; rw [live7_4 t h9], after7_4,
        show (dat7 V c).leavesExact 5 t = owns (c : Thread nD τ) (st7_5 t) fullShare ((dat7 V c).after 5 t) from by
        unfold Dat.leavesExact; rw [live7_5 t h9], after7_5,
        acc7_succ_fst V c t, acc7_succ_snd V c t]
      iintro ⟨⟨⟨%s, %hs, HS⟩, ⟨%q, %hq, HQ⟩, Hrest, Hg⟩, Ho, ⟨%d0, H0⟩, ⟨%d1, H1⟩, ⟨%d2, H2⟩, ⟨%d3, H3⟩, ⟨%d4, H4⟩, ⟨%d5, H5⟩⟩
      obtain rfl := hs h0; obtain rfl := hq h0
      iapply (sound_kernel7C c Set.univ (grid7.coords t) _ _ _ _ _ _ _ _ _ _ _ _ _ _ _ _ (fun h => h0 ((hcond7_0 t).mp h)) ((hcond7_1 t).mpr h9)
        (iblk7 V c 0 t) (iblk7 V c 1 t) (iblk7 V c 2 t) (iblk7 V c 3 t) _ _ _ _ _)
      isplitl [H0]; · iexact H0
      isplitl [H1]; · iexact H1
      isplitl [H2]; · iexact H2
      isplitl [H3]; · iexact H3
      isplitl [H4]; · iexact H4
      isplitl [H5]; · iexact H5
      isplitl [HS]; · iexact HS
      isplitl [HQ]; · iexact HQ
      iintro ⟨H0, H1, H2, H3, H4, H5, HS, HQ⟩
      isplitl [HS HQ Hrest Hg]
      · isplitl [HS]
        · iexists _; isplitr
          swap; · iexact HS
          ipureintro; exact fun _ => rfl
        isplitl [HQ]
        · iexists _; isplitr
          swap; · iexact HQ
          ipureintro; exact fun _ => rfl
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [Dat.leavesExact_idle (dat7 V c) 4 t (idle7_4 t h9) (noFlush7_4 t h9),
        Dat.leavesExact_idle (dat7 V c) 5 t (idle7_5 t h9) (noFlush7_5 t h9)]
      iintro ⟨⟨⟨%s, %hs, HS⟩, ⟨%q, %hq, HQ⟩, Hrest, Hg⟩, Ho, ⟨%d0, H0⟩, ⟨%d1, H1⟩, ⟨%d2, H2⟩, ⟨%d3, H3⟩, ⟨%d4, H4⟩, ⟨%d5, H5⟩⟩
      obtain rfl := hs h0; obtain rfl := hq h0
      iapply (sound_kernel7B c Set.univ (grid7.coords t) _ _ _ _ _ _ _ _ _ _ _ _ _ _ _ _ (fun h => h0 ((hcond7_0 t).mp h)) (fun h => h9 ((hcond7_1 t).mp h))
        (iblk7 V c 0 t) (iblk7 V c 1 t) (iblk7 V c 2 t) (iblk7 V c 3 t) _ _ _ _ _)
      isplitl [H0]; · iexact H0
      isplitl [H1]; · iexact H1
      isplitl [H2]; · iexact H2
      isplitl [H3]; · iexact H3
      isplitl [H4]; · iexact H4
      isplitl [H5]; · iexact H5
      isplitl [HS]; · iexact HS
      isplitl [HQ]; · iexact HQ
      iintro ⟨H0, H1, H2, H3, H4, H5, HS, HQ⟩
      isplitl [HS HQ Hrest Hg]
      · isplitl [HS]
        · iexists _; isplitr
          swap; · iexact HS
          ipureintro; exact fun _ => rfl
        isplitl [HQ]
        · iexists _; isplitr
          swap; · iexact HQ
          ipureintro; exact fun _ => rfl
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The library's body obligation, at every point. -/
theorem body_obligation7 (c : Dev nD) : BodyObligation (dat7 (F := F) V c) (defs₀ (F := F)) Variants.none () Set.univ := fun t => by
  rw [bigSep_W7, bigSep_W7]
  exact sound_body7 V c t

/-! ## The invariant at the region's ends -/

/-- What the region is entered with — the generator register, the scoped buffers no window stages (the prefetched
    tables, none here, beside them as any `P`) — is the invariant before the first point: the two scratch buffers
    split out at some contents. -/
theorem hin7 (c : Dev nD) (P : sProp 𝕄) :
    iprop((∃ r, prngReg c r) ∗ P ∗ Pipeline.scopedRest (Ix := Unit) (Name := ℕ) (U := UR sig nD τ) (Lvl := ℕ) (Val := Elt F) spec7 c) ⊢ (dat7 V c).Φ 0 := by
  rw [show (dat7 V c).Φ 0 = Phi7 V c 0 from rfl, scopedRest7_split]; unfold Phi7
  simp only [sc7_0, sc7_1, owns_whole]
  iintro ⟨Hg, -, ⟨⟨%f0, H0⟩, ⟨%f1, H1⟩⟩, Hrest⟩
  isplitl [H0]
  · iexists f0; isplitr; · ipureintro; exact fun h => absurd rfl h
    iexact H0
  isplitl [H1]
  · iexists f1; isplitr; · ipureintro; exact fun h => absurd rfl h
    iexact H1
  isplitl [Hrest]; · iexact Hrest
  iexact Hg

/-- After the last point the invariant gives the generator register and the scoped rest back: the accumulators' named
    contents are forgotten. -/
theorem hout7 (c : Dev nD) :
    (dat7 V c).Φ (Fin.last cfg7.N) ⊢ iprop((∃ r, prngReg c r) ∗ Pipeline.scopedRest (Ix := Unit) (Name := ℕ) (U := UR sig nD τ) (Lvl := ℕ) (Val := Elt F) spec7 c) := by
  rw [show (dat7 V c).Φ (Fin.last cfg7.N) = Phi7 V c (Fin.last cfg7.N).val from rfl, scopedRest7_split]; unfold Phi7
  simp only [sc7_0, sc7_1, owns_whole]
  iintro ⟨⟨%s, -, H0⟩, ⟨%q, -, H1⟩, Hrest, Hg⟩
  isplitl [Hg]; · iexact Hg
  isplitl [H0 H1]
  · isplitl [H0]
    · iexists s; iexact H0
    iexists q; iexact H1
  iexact Hrest

/-! ## What the region writes back: the last point's mean and variance -/

/-- The last point. -/
def tl7 : Fin cfg7.N := ⟨9, by rw [show cfg7.N = 10 from N_7]; decide⟩
/-- Window 4 after the last point's body is the mean of the final sum (the accumulator after all 10 points). -/
theorem after7_4_last (c : Dev nD) : (dat7 V c).after 4 tl7 = out7_4 (acc7 V c 10).1 := after7_4 V c tl7
/-- Window 5 after the last point's body is the variance of the final accumulators. -/
theorem after7_5_last (c : Dev nD) : (dat7 V c).after 5 tl7 = out7_5 (acc7 V c 10).1 (acc7 V c 10).2 := after7_5 V c tl7

end Regions

end Cert.Kernel.Fr

end
-- ==== Proof.KFrRun.lean ====
/- The run of the whole program as a chain of host stretches and kernel regions: the contents of every buffer at each
   boundary, as a fold from the launch memory (a host stretch applies its operations; a region leaves its arrays at what
   its write-backs leave and every other buffer as it was); every pipeline's proof data at its region's entry contents; each
   region as a record over the state "every unscoped buffer at the boundary's contents, the generator register at some
   state, nothing owed"; and the run itself: every weakly fair execution terminates and the final memory holds, at
   every unscoped buffer, the last boundary's contents. -/
import proofs.«135670_j59253368815959_1_alg».proof.Proof.KFrMat
import proofs.«135670_j59253368815959_1_alg».proof.Proof.KFrNorm
import proofs.«135670_j59253368815959_1_alg».proof.Proof.KFrStats
import proofs.«135670_j59253368815959_1_alg».proof.Proof.Gen.Kernel.Regions

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)

/-- After host stretch 0 (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
theorem W1_keep (c : Dev nD) (b : Ref sig .tc) (h : b ∉ hostOps0_W) :
    W1 m ρ c (Proc.devRef .tc b) = W0 m ρ c (Proc.devRef .tc b) :=
  StableHlo.after_of_writes_sub hostOps0 _ hostOps0_writes h
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- A buffer that is not an output array of region 0 leaves the region as it entered: an input window's array is never
    written, and a buffer no window stages is bypassed. -/
theorem W2_keep (c : Dev nD) (b : Ref sig .tc) (hb : b ∉ ([main_v30] : List (Ref sig .tc))) :
    W2 m ρ c (Proc.devRef .tc b) = W1 m ρ c (Proc.devRef .tc b) := by
  by_cases h : ∃ w, Pipeline.arrRef spec0 w = b
  · obtain ⟨w, rfl⟩ := h
    have key : ∀ w : Fin cfg0.W, Pipeline.arrRef spec0 w ∉ ([main_v30] : List (Ref sig .tc)) → (cfg0.win w).isOut = false := by
      decide
    rw [W2_arr]
    exact ((dat0 (V1 m ρ) c).arrAt_in w (key w hb) _).trans (A_eq0 (V1 m ρ) c w)
  · exact W2_of_ne m ρ c b fun w e => h ⟨w, e⟩

/-- After host stretch 1 (region 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
theorem W3_keep (c : Dev nD) (b : Ref sig .tc) (h : b ∉ hostOps1_W) :
    W3 m ρ c (Proc.devRef .tc b) = W2 m ρ c (Proc.devRef .tc b) :=
  StableHlo.after_of_writes_sub hostOps1 _ hostOps1_writes h
/-- At region 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- A buffer that is not an output array of region 1 leaves the region as it entered: an input window's array is never
    written, and a buffer no window stages is bypassed. -/
theorem W4_keep (c : Dev nD) (b : Ref sig .tc) (hb : b ∉ ([main_v47_0, main_v47_1] : List (Ref sig .tc))) :
    W4 m ρ c (Proc.devRef .tc b) = W3 m ρ c (Proc.devRef .tc b) := by
  by_cases h : ∃ w, Pipeline.arrRef spec1 w = b
  · obtain ⟨w, rfl⟩ := h
    have key : ∀ w : Fin cfg1.W, Pipeline.arrRef spec1 w ∉ ([main_v47_0, main_v47_1] : List (Ref sig .tc)) → (cfg1.win w).isOut = false := by
      decide
    rw [W4_arr]
    exact ((dat1 (V3 m ρ) c).arrAt_in w (key w hb) _).trans (A_eq1 (V3 m ρ) c w)
  · exact W4_of_ne m ρ c b fun w e => h ⟨w, e⟩

/-- After host stretch 2 (region 2's entry). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
theorem W5_keep (c : Dev nD) (b : Ref sig .tc) (h : b ∉ hostOps2_W) :
    W5 m ρ c (Proc.devRef .tc b) = W4 m ρ c (Proc.devRef .tc b) :=
  StableHlo.after_of_writes_sub hostOps2 _ hostOps2_writes h
/-- At region 2's exit: its arrays at what the pipeline leaves, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- A buffer that is not an output array of region 2 leaves the region as it entered: an input window's array is never
    written, and a buffer no window stages is bypassed. -/
theorem W6_keep (c : Dev nD) (b : Ref sig .tc) (hb : b ∉ ([main_v54] : List (Ref sig .tc))) :
    W6 m ρ c (Proc.devRef .tc b) = W5 m ρ c (Proc.devRef .tc b) := by
  by_cases h : ∃ w, Pipeline.arrRef spec2 w = b
  · obtain ⟨w, rfl⟩ := h
    have key : ∀ w : Fin cfg2.W, Pipeline.arrRef spec2 w ∉ ([main_v54] : List (Ref sig .tc)) → (cfg2.win w).isOut = false := by
      decide
    rw [W6_arr]
    exact ((dat2 (V5 m ρ) c).arrAt_in w (key w hb) _).trans (A_eq2 (V5 m ρ) c w)
  · exact W6_of_ne m ρ c b fun w e => h ⟨w, e⟩

/-- After host stretch 3 (region 3's entry). -/
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b
theorem W7_keep (c : Dev nD) (b : Ref sig .tc) (h : b ∉ hostOps3_W) :
    W7 m ρ c (Proc.devRef .tc b) = W6 m ρ c (Proc.devRef .tc b) :=
  StableHlo.after_of_writes_sub hostOps3 _ hostOps3_writes h
/-- At region 3's exit: its arrays at what the pipeline leaves, every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)
/-- A buffer that is not an output array of region 3 leaves the region as it entered: an input window's array is never
    written, and a buffer no window stages is bypassed. -/
theorem W8_keep (c : Dev nD) (b : Ref sig .tc) (hb : b ∉ ([main_v57] : List (Ref sig .tc))) :
    W8 m ρ c (Proc.devRef .tc b) = W7 m ρ c (Proc.devRef .tc b) := by
  by_cases h : ∃ w, Pipeline.arrRef spec3 w = b
  · obtain ⟨w, rfl⟩ := h
    have key : ∀ w : Fin cfg3.W, Pipeline.arrRef spec3 w ∉ ([main_v57] : List (Ref sig .tc)) → (cfg3.win w).isOut = false := by
      decide
    rw [W8_arr]
    exact ((dat3 (V7 m ρ) c).arrAt_in w (key w hb) _).trans (A_eq3 (V7 m ρ) c w)
  · exact W8_of_ne m ρ c b fun w e => h ⟨w, e⟩

/-- After host stretch 4 (region 4's entry). -/
abbrev W9 : Dev nD → Valuation τ sig (Elt F) := fun c => StableHlo.after hostOps4 (W8 m ρ c)
abbrev V9 : (c : Dev nD) → (b : Ref sig .tc) → Buf (Elt F) ((c : Thread nD τ).loc b) := fun c b => W9 m ρ c b
theorem W9_keep (c : Dev nD) (b : Ref sig .tc) (h : b ∉ hostOps4_W) :
    W9 m ρ c (Proc.devRef .tc b) = W8 m ρ c (Proc.devRef .tc b) :=
  StableHlo.after_of_writes_sub hostOps4 _ hostOps4_writes h
/-- At region 4's exit: its arrays at what the pipeline leaves, every other buffer as entered. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
abbrev V10 : (c : Dev nD) → (b : Ref sig .tc) → Buf (Elt F) ((c : Thread nD τ).loc b) := fun c b => W10 m ρ c b
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)
/-- A buffer that is not an output array of region 4 leaves the region as it entered: an input window's array is never
    written, and a buffer no window stages is bypassed. -/
theorem W10_keep (c : Dev nD) (b : Ref sig .tc) (hb : b ∉ ([main_v74_0, main_v74_1] : List (Ref sig .tc))) :
    W10 m ρ c (Proc.devRef .tc b) = W9 m ρ c (Proc.devRef .tc b) := by
  by_cases h : ∃ w, Pipeline.arrRef spec4 w = b
  · obtain ⟨w, rfl⟩ := h
    have key : ∀ w : Fin cfg4.W, Pipeline.arrRef spec4 w ∉ ([main_v74_0, main_v74_1] : List (Ref sig .tc)) → (cfg4.win w).isOut = false := by
      decide
    rw [W10_arr]
    exact ((dat4 (V9 m ρ) c).arrAt_in w (key w hb) _).trans (A_eq4 (V9 m ρ) c w)
  · exact W10_of_ne m ρ c b fun w e => h ⟨w, e⟩

/-- After host stretch 5 (region 5's entry). -/
abbrev W11 : Dev nD → Valuation τ sig (Elt F) := fun c => StableHlo.after hostOps5 (W10 m ρ c)
abbrev V11 : (c : Dev nD) → (b : Ref sig .tc) → Buf (Elt F) ((c : Thread nD τ).loc b) := fun c b => W11 m ρ c b
theorem W11_keep (c : Dev nD) (b : Ref sig .tc) (h : b ∉ hostOps5_W) :
    W11 m ρ c (Proc.devRef .tc b) = W10 m ρ c (Proc.devRef .tc b) :=
  StableHlo.after_of_writes_sub hostOps5 _ hostOps5_writes h
/-- At region 5's exit: its arrays at what the pipeline leaves, every other buffer as entered. -/
def W12 (c : Dev nD) : Valuation τ sig (Elt F) :=
  Pipeline.withArrays spec5 c (W11 m ρ c) fun w => (dat5 (V11 m ρ) c).arrAt w cfg5.N
theorem W12_arr (c : Dev nD) (w : Fin cfg5.W) :
    W12 m ρ c (Proc.devRef .tc (Pipeline.arrRef spec5 w)) = (dat5 (V11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
abbrev V12 : (c : Dev nD) → (b : Ref sig .tc) → Buf (Elt F) ((c : Thread nD τ).loc b) := fun c b => W12 m ρ c b
theorem hF5 (c : Dev nD) (w : Fin cfg5.W) : (dat5 (V11 m ρ) c).arrAt w cfg5.N = V12 m ρ c (Pipeline.arrRef spec5 w) :=
  (W12_arr m ρ c w).symm
theorem hrest5 (c : Dev nD) : ∀ b, b ∉ Finset.univ.image (Pipeline.arrRef spec5) → V12 m ρ c b = V11 m ρ c b :=
  fun b hb => W12_of_ne m ρ c b fun w e => hb (Finset.mem_image.mpr ⟨w, Finset.mem_univ _, e⟩)
/-- A buffer that is not an output array of region 5 leaves the region as it entered: an input window's array is never
    written, and a buffer no window stages is bypassed. -/
theorem W12_keep (c : Dev nD) (b : Ref sig .tc) (hb : b ∉ ([main_v81] : List (Ref sig .tc))) :
    W12 m ρ c (Proc.devRef .tc b) = W11 m ρ c (Proc.devRef .tc b) := by
  by_cases h : ∃ w, Pipeline.arrRef spec5 w = b
  · obtain ⟨w, rfl⟩ := h
    have key : ∀ w : Fin cfg5.W, Pipeline.arrRef spec5 w ∉ ([main_v81] : List (Ref sig .tc)) → (cfg5.win w).isOut = false := by
      decide
    rw [W12_arr]
    exact ((dat5 (V11 m ρ) c).arrAt_in w (key w hb) _).trans (A_eq5 (V11 m ρ) c w)
  · exact W12_of_ne m ρ c b fun w e => h ⟨w, e⟩

/-- After host stretch 6 (region 6's entry). -/
abbrev W13 : Dev nD → Valuation τ sig (Elt F) := fun c => StableHlo.after hostOps6 (W12 m ρ c)
abbrev V13 : (c : Dev nD) → (b : Ref sig .tc) → Buf (Elt F) ((c : Thread nD τ).loc b) := fun c b => W13 m ρ c b
theorem W13_keep (c : Dev nD) (b : Ref sig .tc) (h : b ∉ hostOps6_W) :
    W13 m ρ c (Proc.devRef .tc b) = W12 m ρ c (Proc.devRef .tc b) :=
  StableHlo.after_of_writes_sub hostOps6 _ hostOps6_writes h
/-- At region 6's exit: its arrays at what the pipeline leaves, every other buffer as entered. -/
def W14 (c : Dev nD) : Valuation τ sig (Elt F) :=
  Pipeline.withArrays spec6 c (W13 m ρ c) fun w => (dat6 (V13 m ρ) c).arrAt w cfg6.N
theorem W14_arr (c : Dev nD) (w : Fin cfg6.W) :
    W14 m ρ c (Proc.devRef .tc (Pipeline.arrRef spec6 w)) = (dat6 (V13 m ρ) c).arrAt w cfg6.N := by
  unfold W14; exact Pipeline.withArrays_arr spec6 launch6.win.arr_inj c _ _ w
theorem W14_of_ne (c : Dev nD) (b : Ref sig .tc) (hb : ∀ w, Pipeline.arrRef spec6 w ≠ b) :
    W14 m ρ c (Proc.devRef .tc b) = W13 m ρ c (Proc.devRef .tc b) := by
  unfold W14; exact Pipeline.withArrays_of_ne spec6 c _ _ b hb
abbrev V14 : (c : Dev nD) → (b : Ref sig .tc) → Buf (Elt F) ((c : Thread nD τ).loc b) := fun c b => W14 m ρ c b
theorem hF6 (c : Dev nD) (w : Fin cfg6.W) : (dat6 (V13 m ρ) c).arrAt w cfg6.N = V14 m ρ c (Pipeline.arrRef spec6 w) :=
  (W14_arr m ρ c w).symm
theorem hrest6 (c : Dev nD) : ∀ b, b ∉ Finset.univ.image (Pipeline.arrRef spec6) → V14 m ρ c b = V13 m ρ c b :=
  fun b hb => W14_of_ne m ρ c b fun w e => hb (Finset.mem_image.mpr ⟨w, Finset.mem_univ _, e⟩)
/-- A buffer that is not an output array of region 6 leaves the region as it entered: an input window's array is never
    written, and a buffer no window stages is bypassed. -/
theorem W14_keep (c : Dev nD) (b : Ref sig .tc) (hb : b ∉ ([main_v84] : List (Ref sig .tc))) :
    W14 m ρ c (Proc.devRef .tc b) = W13 m ρ c (Proc.devRef .tc b) := by
  by_cases h : ∃ w, Pipeline.arrRef spec6 w = b
  · obtain ⟨w, rfl⟩ := h
    have key : ∀ w : Fin cfg6.W, Pipeline.arrRef spec6 w ∉ ([main_v84] : List (Ref sig .tc)) → (cfg6.win w).isOut = false := by
      decide
    rw [W14_arr]
    exact ((dat6 (V13 m ρ) c).arrAt_in w (key w hb) _).trans (A_eq6 (V13 m ρ) c w)
  · exact W14_of_ne m ρ c b fun w e => h ⟨w, e⟩

/-- After host stretch 7 (region 7's entry). -/
abbrev W15 : Dev nD → Valuation τ sig (Elt F) := fun c => StableHlo.after hostOps7 (W14 m ρ c)
abbrev V15 : (c : Dev nD) → (b : Ref sig .tc) → Buf (Elt F) ((c : Thread nD τ).loc b) := fun c b => W15 m ρ c b
theorem W15_keep (c : Dev nD) (b : Ref sig .tc) (h : b ∉ hostOps7_W) :
    W15 m ρ c (Proc.devRef .tc b) = W14 m ρ c (Proc.devRef .tc b) :=
  StableHlo.after_of_writes_sub hostOps7 _ hostOps7_writes h
/-- At region 7's exit: its arrays at what the pipeline leaves, every other buffer as entered. -/
def W16 (c : Dev nD) : Valuation τ sig (Elt F) :=
  Pipeline.withArrays spec7 c (W15 m ρ c) fun w => (dat7 (V15 m ρ) c).arrAt w cfg7.N
theorem W16_arr (c : Dev nD) (w : Fin cfg7.W) :
    W16 m ρ c (Proc.devRef .tc (Pipeline.arrRef spec7 w)) = (dat7 (V15 m ρ) c).arrAt w cfg7.N := by
  unfold W16; exact Pipeline.withArrays_arr spec7 launch7.win.arr_inj c _ _ w
theorem W16_of_ne (c : Dev nD) (b : Ref sig .tc) (hb : ∀ w, Pipeline.arrRef spec7 w ≠ b) :
    W16 m ρ c (Proc.devRef .tc b) = W15 m ρ c (Proc.devRef .tc b) := by
  unfold W16; exact Pipeline.withArrays_of_ne spec7 c _ _ b hb
abbrev V16 : (c : Dev nD) → (b : Ref sig .tc) → Buf (Elt F) ((c : Thread nD τ).loc b) := fun c b => W16 m ρ c b
theorem hF7 (c : Dev nD) (w : Fin cfg7.W) : (dat7 (V15 m ρ) c).arrAt w cfg7.N = V16 m ρ c (Pipeline.arrRef spec7 w) :=
  (W16_arr m ρ c w).symm
theorem hrest7 (c : Dev nD) : ∀ b, b ∉ Finset.univ.image (Pipeline.arrRef spec7) → V16 m ρ c b = V15 m ρ c b :=
  fun b hb => W16_of_ne m ρ c b fun w e => hb (Finset.mem_image.mpr ⟨w, Finset.mem_univ _, e⟩)
/-- A buffer that is not an output array of region 7 leaves the region as it entered: an input window's array is never
    written, and a buffer no window stages is bypassed. -/
theorem W16_keep (c : Dev nD) (b : Ref sig .tc) (hb : b ∉ ([main_v101_0, main_v101_1] : List (Ref sig .tc))) :
    W16 m ρ c (Proc.devRef .tc b) = W15 m ρ c (Proc.devRef .tc b) := by
  by_cases h : ∃ w, Pipeline.arrRef spec7 w = b
  · obtain ⟨w, rfl⟩ := h
    have key : ∀ w : Fin cfg7.W, Pipeline.arrRef spec7 w ∉ ([main_v101_0, main_v101_1] : List (Ref sig .tc)) → (cfg7.win w).isOut = false := by
      decide
    rw [W16_arr]
    exact ((dat7 (V15 m ρ) c).arrAt_in w (key w hb) _).trans (A_eq7 (V15 m ρ) c w)
  · exact W16_of_ne m ρ c b fun w e => h ⟨w, e⟩

/-- After host stretch 8 (region 8's entry). -/
abbrev W17 : Dev nD → Valuation τ sig (Elt F) := fun c => StableHlo.after hostOps8 (W16 m ρ c)
abbrev V17 : (c : Dev nD) → (b : Ref sig .tc) → Buf (Elt F) ((c : Thread nD τ).loc b) := fun c b => W17 m ρ c b
theorem W17_keep (c : Dev nD) (b : Ref sig .tc) (h : b ∉ hostOps8_W) :
    W17 m ρ c (Proc.devRef .tc b) = W16 m ρ c (Proc.devRef .tc b) :=
  StableHlo.after_of_writes_sub hostOps8 _ hostOps8_writes h
/-- At region 8's exit: its arrays at what the pipeline leaves, every other buffer as entered. -/
def W18 (c : Dev nD) : Valuation τ sig (Elt F) :=
  Pipeline.withArrays spec8 c (W17 m ρ c) fun w => (dat8 (V17 m ρ) c).arrAt w cfg8.N
theorem W18_arr (c : Dev nD) (w : Fin cfg8.W) :
    W18 m ρ c (Proc.devRef .tc (Pipeline.arrRef spec8 w)) = (dat8 (V17 m ρ) c).arrAt w cfg8.N := by
  unfold W18; exact Pipeline.withArrays_arr spec8 launch8.win.arr_inj c _ _ w
theorem W18_of_ne (c : Dev nD) (b : Ref sig .tc) (hb : ∀ w, Pipeline.arrRef spec8 w ≠ b) :
    W18 m ρ c (Proc.devRef .tc b) = W17 m ρ c (Proc.devRef .tc b) := by
  unfold W18; exact Pipeline.withArrays_of_ne spec8 c _ _ b hb
abbrev V18 : (c : Dev nD) → (b : Ref sig .tc) → Buf (Elt F) ((c : Thread nD τ).loc b) := fun c b => W18 m ρ c b
theorem hF8 (c : Dev nD) (w : Fin cfg8.W) : (dat8 (V17 m ρ) c).arrAt w cfg8.N = V18 m ρ c (Pipeline.arrRef spec8 w) :=
  (W18_arr m ρ c w).symm
theorem hrest8 (c : Dev nD) : ∀ b, b ∉ Finset.univ.image (Pipeline.arrRef spec8) → V18 m ρ c b = V17 m ρ c b :=
  fun b hb => W18_of_ne m ρ c b fun w e => hb (Finset.mem_image.mpr ⟨w, Finset.mem_univ _, e⟩)
/-- A buffer that is not an output array of region 8 leaves the region as it entered: an input window's array is never
    written, and a buffer no window stages is bypassed. -/
theorem W18_keep (c : Dev nD) (b : Ref sig .tc) (hb : b ∉ ([main_v108] : List (Ref sig .tc))) :
    W18 m ρ c (Proc.devRef .tc b) = W17 m ρ c (Proc.devRef .tc b) := by
  by_cases h : ∃ w, Pipeline.arrRef spec8 w = b
  · obtain ⟨w, rfl⟩ := h
    have key : ∀ w : Fin cfg8.W, Pipeline.arrRef spec8 w ∉ ([main_v108] : List (Ref sig .tc)) → (cfg8.win w).isOut = false := by
      decide
    rw [W18_arr]
    exact ((dat8 (V17 m ρ) c).arrAt_in w (key w hb) _).trans (A_eq8 (V17 m ρ) c w)
  · exact W18_of_ne m ρ c b fun w e => h ⟨w, e⟩

/-! ## The arguments end as launched: no host operation writes one and no region has one as an output -/

theorem W18_main_arg0 (c : Dev nD) : W18 m ρ c (Proc.devRef .tc main_arg0) = m ((c : Thread nD τ).loc main_arg0) :=
  (W18_keep m ρ c main_arg0 (by decide)).trans <| (W17_keep m ρ c main_arg0 (by decide)).trans <| (W16_keep m ρ c main_arg0 (by decide)).trans <| (W15_keep m ρ c main_arg0 (by decide)).trans <| (W14_keep m ρ c main_arg0 (by decide)).trans <| (W13_keep m ρ c main_arg0 (by decide)).trans <| (W12_keep m ρ c main_arg0 (by decide)).trans <| (W11_keep m ρ c main_arg0 (by decide)).trans <| (W10_keep m ρ c main_arg0 (by decide)).trans <| (W9_keep m ρ c main_arg0 (by decide)).trans <| (W8_keep m ρ c main_arg0 (by decide)).trans <| (W7_keep m ρ c main_arg0 (by decide)).trans <| (W6_keep m ρ c main_arg0 (by decide)).trans <| (W5_keep m ρ c main_arg0 (by decide)).trans <| (W4_keep m ρ c main_arg0 (by decide)).trans <| (W3_keep m ρ c main_arg0 (by decide)).trans <| (W2_keep m ρ c main_arg0 (by decide)).trans <| (W1_keep m ρ c main_arg0 (by decide)).trans <| rfl

theorem W18_main_arg1 (c : Dev nD) : W18 m ρ c (Proc.devRef .tc main_arg1) = m ((c : Thread nD τ).loc main_arg1) :=
  (W18_keep m ρ c main_arg1 (by decide)).trans <| (W17_keep m ρ c main_arg1 (by decide)).trans <| (W16_keep m ρ c main_arg1 (by decide)).trans <| (W15_keep m ρ c main_arg1 (by decide)).trans <| (W14_keep m ρ c main_arg1 (by decide)).trans <| (W13_keep m ρ c main_arg1 (by decide)).trans <| (W12_keep m ρ c main_arg1 (by decide)).trans <| (W11_keep m ρ c main_arg1 (by decide)).trans <| (W10_keep m ρ c main_arg1 (by decide)).trans <| (W9_keep m ρ c main_arg1 (by decide)).trans <| (W8_keep m ρ c main_arg1 (by decide)).trans <| (W7_keep m ρ c main_arg1 (by decide)).trans <| (W6_keep m ρ c main_arg1 (by decide)).trans <| (W5_keep m ρ c main_arg1 (by decide)).trans <| (W4_keep m ρ c main_arg1 (by decide)).trans <| (W3_keep m ρ c main_arg1 (by decide)).trans <| (W2_keep m ρ c main_arg1 (by decide)).trans <| (W1_keep m ρ c main_arg1 (by decide)).trans <| rfl

theorem W18_main_arg2 (c : Dev nD) : W18 m ρ c (Proc.devRef .tc main_arg2) = m ((c : Thread nD τ).loc main_arg2) :=
  (W18_keep m ρ c main_arg2 (by decide)).trans <| (W17_keep m ρ c main_arg2 (by decide)).trans <| (W16_keep m ρ c main_arg2 (by decide)).trans <| (W15_keep m ρ c main_arg2 (by decide)).trans <| (W14_keep m ρ c main_arg2 (by decide)).trans <| (W13_keep m ρ c main_arg2 (by decide)).trans <| (W12_keep m ρ c main_arg2 (by decide)).trans <| (W11_keep m ρ c main_arg2 (by decide)).trans <| (W10_keep m ρ c main_arg2 (by decide)).trans <| (W9_keep m ρ c main_arg2 (by decide)).trans <| (W8_keep m ρ c main_arg2 (by decide)).trans <| (W7_keep m ρ c main_arg2 (by decide)).trans <| (W6_keep m ρ c main_arg2 (by decide)).trans <| (W5_keep m ρ c main_arg2 (by decide)).trans <| (W4_keep m ρ c main_arg2 (by decide)).trans <| (W3_keep m ρ c main_arg2 (by decide)).trans <| (W2_keep m ρ c main_arg2 (by decide)).trans <| (W1_keep m ρ c main_arg2 (by decide)).trans <| rfl

theorem W18_main_arg3 (c : Dev nD) : W18 m ρ c (Proc.devRef .tc main_arg3) = m ((c : Thread nD τ).loc main_arg3) :=
  (W18_keep m ρ c main_arg3 (by decide)).trans <| (W17_keep m ρ c main_arg3 (by decide)).trans <| (W16_keep m ρ c main_arg3 (by decide)).trans <| (W15_keep m ρ c main_arg3 (by decide)).trans <| (W14_keep m ρ c main_arg3 (by decide)).trans <| (W13_keep m ρ c main_arg3 (by decide)).trans <| (W12_keep m ρ c main_arg3 (by decide)).trans <| (W11_keep m ρ c main_arg3 (by decide)).trans <| (W10_keep m ρ c main_arg3 (by decide)).trans <| (W9_keep m ρ c main_arg3 (by decide)).trans <| (W8_keep m ρ c main_arg3 (by decide)).trans <| (W7_keep m ρ c main_arg3 (by decide)).trans <| (W6_keep m ρ c main_arg3 (by decide)).trans <| (W5_keep m ρ c main_arg3 (by decide)).trans <| (W4_keep m ρ c main_arg3 (by decide)).trans <| (W3_keep m ρ c main_arg3 (by decide)).trans <| (W2_keep m ρ c main_arg3 (by decide)).trans <| (W1_keep m ρ c main_arg3 (by decide)).trans <| rfl

theorem W18_main_arg4 (c : Dev nD) : W18 m ρ c (Proc.devRef .tc main_arg4) = m ((c : Thread nD τ).loc main_arg4) :=
  (W18_keep m ρ c main_arg4 (by decide)).trans <| (W17_keep m ρ c main_arg4 (by decide)).trans <| (W16_keep m ρ c main_arg4 (by decide)).trans <| (W15_keep m ρ c main_arg4 (by decide)).trans <| (W14_keep m ρ c main_arg4 (by decide)).trans <| (W13_keep m ρ c main_arg4 (by decide)).trans <| (W12_keep m ρ c main_arg4 (by decide)).trans <| (W11_keep m ρ c main_arg4 (by decide)).trans <| (W10_keep m ρ c main_arg4 (by decide)).trans <| (W9_keep m ρ c main_arg4 (by decide)).trans <| (W8_keep m ρ c main_arg4 (by decide)).trans <| (W7_keep m ρ c main_arg4 (by decide)).trans <| (W6_keep m ρ c main_arg4 (by decide)).trans <| (W5_keep m ρ c main_arg4 (by decide)).trans <| (W4_keep m ρ c main_arg4 (by decide)).trans <| (W3_keep m ρ c main_arg4 (by decide)).trans <| (W2_keep m ρ c main_arg4 (by decide)).trans <| (W1_keep m ρ c main_arg4 (by decide)).trans <| rfl

theorem W18_main_arg5 (c : Dev nD) : W18 m ρ c (Proc.devRef .tc main_arg5) = m ((c : Thread nD τ).loc main_arg5) :=
  (W18_keep m ρ c main_arg5 (by decide)).trans <| (W17_keep m ρ c main_arg5 (by decide)).trans <| (W16_keep m ρ c main_arg5 (by decide)).trans <| (W15_keep m ρ c main_arg5 (by decide)).trans <| (W14_keep m ρ c main_arg5 (by decide)).trans <| (W13_keep m ρ c main_arg5 (by decide)).trans <| (W12_keep m ρ c main_arg5 (by decide)).trans <| (W11_keep m ρ c main_arg5 (by decide)).trans <| (W10_keep m ρ c main_arg5 (by decide)).trans <| (W9_keep m ρ c main_arg5 (by decide)).trans <| (W8_keep m ρ c main_arg5 (by decide)).trans <| (W7_keep m ρ c main_arg5 (by decide)).trans <| (W6_keep m ρ c main_arg5 (by decide)).trans <| (W5_keep m ρ c main_arg5 (by decide)).trans <| (W4_keep m ρ c main_arg5 (by decide)).trans <| (W3_keep m ρ c main_arg5 (by decide)).trans <| (W2_keep m ρ c main_arg5 (by decide)).trans <| (W1_keep m ρ c main_arg5 (by decide)).trans <| rfl

/-! ## The proof data family and the thread state -/

/-- No pipeline has a prefetched table. -/
abbrev adm : (p : Fin 9) → (pcfgs (F := F) p).Adm := fun p => (cfgs p).toPCfg_adm
/-- Every pipeline's proof data, each at its region's entry contents. -/
def pdats : (p : Fin 9) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V11 m ρ) c
  | ⟨6, _⟩ => fun c => dat6 (V13 m ρ) c
  | ⟨7, _⟩ => fun c => dat7 (V15 m ρ) c
  | ⟨8, _⟩ => fun c => dat8 (V17 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register at some state. -/
abbrev Tₙ (c : Dev nD) : sProp 𝕄 := iprop(StableHlo.held (c : Thread nD τ) (Pipeline.ucRefs τ sig) (W18 m ρ c) ∗ ∃ r, prngReg c r)

/-! ## The regions as segments -/

set_option backward.isDefEq.respectTransparency.types false in
/-- Region 0 over the thread state: entered from every unscoped buffer at `W1`, left at `W2`. Its arrays are split out
    of the unscoped buffers and put back at the exit contents; the generator register goes into the invariant and comes
    back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are split out
    of the unscoped buffers and put back at the exit contents; the generator register goes into the invariant and comes
    back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin1 (V3 m ρ) c _
  hout c := by
    rw [Pipeline.ownSems0_none]
    exact (hout1 (V3 m ρ) c).trans (by
      iintro ⟨Hp, Hr⟩
      isplitl [Hp]; · iexact Hp
      isplitr; · iempintro
      iexact Hr)
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. Its arrays are split out
    of the unscoped buffers and put back at the exit contents; the generator register goes into the invariant and comes
    back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W7`, left at `W8`. Its arrays are split out
    of the unscoped buffers and put back at the exit contents; the generator register goes into the invariant and comes
    back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `W9`, left at `W10`. Its arrays are split out
    of the unscoped buffers and put back at the exit contents; the generator register goes into the invariant and comes
    back; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin4 (V9 m ρ) c _
  hout c := by
    rw [Pipeline.ownSems0_none]
    exact (hout4 (V9 m ρ) c).trans (by
      iintro ⟨Hp, Hr⟩
      isplitl [Hp]; · iexact Hp
      isplitr; · iempintro
      iexact Hr)
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at `W11`, left at `W12`. Its arrays are split out
    of the unscoped buffers and put back at the exit contents; the generator register goes into the invariant and comes
    back; nothing is owed; the kernel has no semaphore of its own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V11 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec5 c (V11 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V11 m ρ c) (V12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 over the thread state: entered from every unscoped buffer at `W13`, left at `W14`. Its arrays are split out
    of the unscoped buffers and put back at the exit contents; the generator register goes into the invariant and comes
    back; nothing is owed; the kernel has no semaphore of its own. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V13 m ρ) c).loose
  hwaits := Pipeline.hwaits_of_owed_zero _ _ _ _ L lv 6 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec6 c (V13 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V13 m ρ c) (V14 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7 over the thread state: entered from every unscoped buffer at `W15`, left at `W16`. Its arrays are split out
    of the unscoped buffers and put back at the exit contents; the generator register goes into the invariant and comes
    back; nothing is owed; the kernel has no semaphore of its own. -/
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V15 m ρ) c).loose
  hwaits := Pipeline.hwaits_of_owed_zero _ _ _ _ L lv 7 fun _ _ => rfl
  pre c := iprop(StableHlo.held (c : Thread nD τ) (Pipeline.ucRefs τ sig) (W15 m ρ c) ∗ R c)
  post c := iprop(StableHlo.held (c : Thread nD τ) (Pipeline.ucRefs τ sig) (W16 m ρ c) ∗ R c)
  X c := iprop(∃ r, prngReg c r)
  Y c := iprop(∃ r, prngReg c r)
  Z c := Pipeline.unscopedRest (Ix := Unit) (Name := ℕ) (U := UR sig nD τ) (Lvl := ℕ) spec7 c (V15 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin7 (V15 m ρ) c _
  hout c := by
    rw [Pipeline.ownSems0_none]
    exact (hout7 (V15 m ρ) c).trans (by
      iintro ⟨Hp, Hr⟩
      isplitl [Hp]; · iexact Hp
      isplitr; · iempintro
      iexact Hr)
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (V15 m ρ c) (V16 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 8 over the thread state: entered from every unscoped buffer at `W17`, left at `W18`. Its arrays are split out
    of the unscoped buffers and put back at the exit contents; the generator register goes into the invariant and comes
    back; nothing is owed; the kernel has no semaphore of its own. -/
def reg8 : Pipeline.RegionSeg (pcfgs (F := F)) adm (pdats m ρ) () defs₀ 𝒱₀ L lv 8 where
  win := launch8.win.to₀
  block_pos := launch8.block_pos
  stage_whole := launch8.stage_whole
  K := PEmpty
  osem k := k.elim
  ho := Pipeline.OwnSemFacts.none _
  hbody c := (body_obligation8 (V17 m ρ) c).loose
  hwaits := Pipeline.hwaits_of_owed_zero _ _ _ _ L lv 8 fun _ _ => rfl
  pre c := iprop(StableHlo.held (c : Thread nD τ) (Pipeline.ucRefs τ sig) (W17 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec8 c (V17 m ρ c)
  hentry c := by
    rw [Pipeline.ownSems0_none]
    have hsplit := Pipeline.arrays_of_unscopedBufs (p := 8) (pcfgs (F := F)) adm (pdats m ρ) launch8.win launch8.arr_whole c
      ((pdats m ρ 8 c).share_full fun _ => rfl) (V17 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m ρ 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m ρ) ((pdats m ρ 8 c).share_full fun _ => rfl)
      (V17 m ρ c) (V18 m ρ c) ((pdats m ρ 8 c).arrAt · cfg8.N) (hF8 m ρ c) (hrest8 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ),
    .host (hseg hostOps6 hostOps6_sub hostOps6_fresh (W12 m ρ)),
    .region (reg6 m ρ),
    .host (hseg hostOps7 hostOps7_sub hostOps7_fresh (W14 m ρ)),
    .region (reg7 m ρ),
    .host (hseg hostOps8 hostOps8_sub hostOps8_fresh (W16 m ρ)),
    .region (reg8 m ρ) ]
theorem main_run (c : Dev nD) : main (F := F) c = Pipeline.Seg.run (segs m ρ) := (main_chain c).trans (by chain_rfl)

set_option backward.isDefEq.respectTransparency.types false in
/-- THE RUN. From any memory with zero counters every weakly fair execution of the program terminates, nothing faulting,
    and the final memory holds at every unscoped buffer the last boundary's contents. -/
theorem run_all : θ_run defs (onTc (τ := τ) (main (F := F))) ⟨m, fun _ => 0, ρ⟩ (fun r => ∀ c : Dev nD, ∀ b : Ref sig .tc,
      ¬ (Proc.devRef .tc b : DevRef τ sig).isScoped → r.2.mem ((c.tc : Thread nD τ).loc b) = W18 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h c b hb => h c _ (mem_uc b hb))

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c main_arg0 (by decide)).trans (W18_main_arg0 m ρ c),
     (h c main_arg1 (by decide)).trans (W18_main_arg1 m ρ c),
     (h c main_arg2 (by decide)).trans (W18_main_arg2 m ρ c),
     (h c main_arg3 (by decide)).trans (W18_main_arg3 m ρ c),
     (h c main_arg4 (by decide)).trans (W18_main_arg4 m ρ c),
     (h c main_arg5 (by decide)).trans (W18_main_arg5 m ρ c)⟩)
    (run_all m ρ)

end Cert.Kernel.Fr

end
-- ==== Proof.LibRealEntries.lean ====
/-
  Real entries on the extended reals: what a proof needs when the law joining two programs holds on the reals but fails at
  the infinities (distributivity, cancelling, moving a factor across a sum).

  * `AllReal f`: every value of f is a real number.
  * `coe_sum`: the coercion of a finite sum of reals is the sum of the coercions.
  * `sum_mul_real`: a finite sum of products of real entries is a real.
  * `add_mul_real`: (a + b) * c = a * c + b * c for real a, b, c.
  * `allReal_of_reduce`, generic in the array's shape: if the "and" over all axes of the comparisons |v i| < +infinity is 1,
    every entry of v is a real — one array's part of the precondition "every float input is finite". An extended real whose
    absolute value max z (-z) is strictly below the top is neither infinity (both have absolute value top), hence a real.
-/
import Idealize.ShloMosaic.PureOps.Ideal
import Idealize.ShloMosaic.PureOps.Ideal.Laws
import Idealize.ShloMosaic.Lib.ValueIdx
import Idealize.ShloMosaic.Lib.ReduceAll

noncomputable section

namespace Cert.RealEntries

open Idealize.ShloMosaic
open scoped BigOperators

/-! ## Real entries and their arithmetic -/

/-- Every value of `f` is a real number (neither infinity). -/
def AllReal {ι : Type} (f : ι → EReal) : Prop := ∀ i, ∃ r : ℝ, f i = (r : EReal)

/-- The coercion of a finite sum of reals is the sum of the coercions. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A finite sum of products of real entries is a real. -/
theorem sum_mul_real {ι : Type} (s : Finset ι) (f g : ι → EReal) (hf : AllReal f) (hg : AllReal g) :
    ∃ r : ℝ, ∑ k ∈ s, f k * g k = (r : EReal) := by
  choose f' hf' using hf
  choose g' hg' using hg
  refine ⟨∑ k ∈ s, f' k * g' k, ?_⟩
  rw [coe_sum]
  exact Finset.sum_congr rfl fun k _ => by rw [hf', hg', EReal.coe_mul]

/-- The distributive law on real entries: it is the reals' own. (On the extended reals it fails at the infinities: for a
    negative real x, (top + bot) * x = top while top * x + bot * x = bot.) -/
theorem add_mul_real {a b c : EReal} (ha : ∃ r : ℝ, a = (r : EReal)) (hb : ∃ r : ℝ, b = (r : EReal))
    (hc : ∃ r : ℝ, c = (r : EReal)) : (a + b) * c = a * c + b * c := by
  obtain ⟨a, rfl⟩ := ha
  obtain ⟨b, rfl⟩ := hb
  obtain ⟨c, rfl⟩ := hc
  rw [← EReal.coe_add, ← EReal.coe_mul, ← EReal.coe_mul, ← EReal.coe_mul, ← EReal.coe_add, add_mul]

/-! ## From "every entry is finite" to "every entry is a real" -/

/-- The single-precision pattern `0x7F800000` denotes +infinity. -/
theorem ofBits_inf : Ideal.ofBits .f32 0x7F800000#32 = (⊤ : EReal) := by
  simp [Ideal.ofBits, Ideal.ieee]

/-- An extended real whose absolute value `max z (-z)` compares strictly below +infinity is a real:
    both infinities have absolute value `⊤`. -/
theorem real_of_abs_lt_inf (z : EReal)
    (h : Ideal.cmp .olt (max z (-z)) (Ideal.ofBits .f32 0x7F800000#32) = 1#1) : ∃ r : ℝ, z = (r : EReal) := by
  rw [ofBits_inf] at h
  induction z using EReal.rec with
  | bot => simp [Ideal.cmp] at h
  | coe r => exact ⟨r, rfl⟩
  | top => simp [Ideal.cmp] at h

/-- The scalar shape has exactly one index. -/
instance scalarIdx_subsingleton : Subsingleton (⟨0, ![]⟩ : Shape).Idx :=
  ⟨fun a b => funext fun d => d.elim0⟩

/-- One array's part of the predicate, for any shape: if the "and" over all axes of the comparisons
    `|v i| < +inf` is 1, every entry of `v` is a real. -/
theorem allReal_of_reduce {S T U C : Shape} [Subsingleton T.Idx] {axes : List (Fin S.rank)}
    (hr : S.ReducesTo axes T) (hu : 0 < U.numel) (dims : Fin C.rank → Fin S.rank) (hb : C.BroadcastsInDim S dims)
    (v : FVec Ideal S .f32) (init : IVec U 1) (j : T.Idx)
    (e : Host.reduce IntOp.andi
          (cmpf .olt (Host.absf v) (broadcastInDim S dims hb (constant C .f32 0x7F800000#32))) init hr hu j = 1#1) :
    ∀ i, ∃ r : ℝ, v i = (r : EReal) := by
  intro i
  have h1 : Ideal.cmp .olt (max (v i) (-(v i))) (Ideal.ofBits .f32 0x7F800000#32) = 1#1 :=
    Host.reduce_andi_all _ init hr hu j e i
  exact real_of_abs_lt_inf (v i) h1

end Cert.RealEntries

end
-- ==== Proof.PreReal.lean ====
/-
  From the precondition "every float argument is finite" to "every entry of every float argument is a real".

  The precondition is the conjunction, over the five float arguments, of the conjunction over all entries of |v| < +∞; it is
  stated as "the result is 1". A conjunction is 1 exactly when both parts are, and an entry whose absolute value is strictly
  below +∞ is neither infinity.
-/
import proofs.«135670_j59253368815959_1_alg».proof.Pre_finite_inputs
import proofs.«135670_j59253368815959_1_alg».proof.Proof.LibRealEntries
import Idealize.ShloMosaic.PureOps.Ideal
import Idealize.ShloMosaic.Lib.ValueIdx
import Idealize.ShloMosaic.Lib.Affine

noncomputable section

namespace Cert.PreReal

open Idealize.ShloMosaic Cert.Pre_finite_inputs Cert.RealEntries

/-- Under the precondition every entry of the five float arguments is real. -/
theorem args_real [Cert.Pre_finite_inputs.Facts] (a0 : FVec Ideal S50000x128 .f32) (a1 : IVec S2x800000 32) (a2 : FVec Ideal S3x128x128 .f32)
    (a3 a4 a5 : FVec Ideal S3x128 .f32)
    (h : Cert.Pre_finite_inputs.fn (F := Ideal) a0 a1 a2 a3 a4 a5 = fun _ => 1#1) :
    (∀ i, ∃ r : ℝ, a0 i = (r : EReal)) ∧ (∀ i, ∃ r : ℝ, a2 i = (r : EReal)) ∧ (∀ i, ∃ r : ℝ, a3 i = (r : EReal))
      ∧ (∀ i, ∃ r : ℝ, a4 i = (r : EReal)) ∧ (∀ i, ∃ r : ℝ, a5 i = (r : EReal)) := by
  have h0 := congrFun h ValueIdx.ix0
  dsimp only [Cert.Pre_finite_inputs.fn, Cert.Pre_finite_inputs.fn_part1] at h0
  obtain ⟨h0123, e5⟩ := IntOp.andi_eq_one.mp h0
  obtain ⟨h012, e4⟩ := IntOp.andi_eq_one.mp h0123
  obtain ⟨h01, e3⟩ := IntOp.andi_eq_one.mp h012
  obtain ⟨e0, e2⟩ := IntOp.andi_eq_one.mp h01
  exact ⟨allReal_of_reduce _ _ _ _ a0 _ _ e0, allReal_of_reduce _ _ _ _ a2 _ _ e2, allReal_of_reduce _ _ _ _ a3 _ _ e3,
    allReal_of_reduce _ _ _ _ a4 _ _ e4, allReal_of_reduce _ _ _ _ a5 _ _ e5⟩

end Cert.PreReal

end
-- ==== Proof.ValHost.lean ====
/-
  The kernel program's host stretches, read against the reference's stages.

  Between the kernel regions the program applies the same host operations, in the same order, as the reference does:
  the edge lists and the degree normalisation from the edge array, the neighbour aggregation of a transformed feature
  array (a gather of rows, a scaling, an accumulating scatter of rows), and the slices of the stacked parameters.  So a
  buffer a stretch writes is, as a whole array, the reference's stage at the same operands; a parameter row reaches a
  region as a 1×128 array whose entry (0, j) is the stacked parameter's entry (ℓ, j).
-/
import proofs.«135670_j59253368815959_1_alg».proof.Proof.Gen.KernelIdeal.Launch
import proofs.«135670_j59253368815959_1_alg».proof.Proof.RefRead
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Val

open Idealize.ShloMosaic Idealize.ShloMosaic.TcCoe Idealize.SL.Sem Idealize.ShloMosaic.StableHlo Idealize.ShloMosaic.ValueIdx
open Cert.KernelIdeal Cert.KernelIdeal.Gen

variable {F : FTy → Type} [FloatOps F]
variable (Vin : Valuation τ sig (Elt F))

/-! ## Stretch 0: the edge lists, the normalisation, the first weight matrix -/

set_option maxHeartbeats 4000000 in
/-- The source list. -/
theorem h0_v1 : StableHlo.after (hostOps0 (F := F)) Vin (Proc.devRef .tc main_v1) = Cert.ReferenceIdeal.Read.val_main_v1 (F := F) (Vin (Proc.devRef .tc main_arg1)) := by
  after_results_simp <;> rfl
set_option maxHeartbeats 4000000 in
/-- The target list. -/
theorem h0_v3 : StableHlo.after (hostOps0 (F := F)) Vin (Proc.devRef .tc main_v3) = Cert.ReferenceIdeal.Read.val_main_v3 (F := F) (Vin (Proc.devRef .tc main_arg1)) := by
  after_results_simp <;> rfl
set_option maxHeartbeats 4000000 in
/-- The edge weights. -/
theorem h0_v25 : StableHlo.after (hostOps0 (F := F)) Vin (Proc.devRef .tc main_v25) = Cert.ReferenceIdeal.Read.val_main_v25 (F := F) (Vin (Proc.devRef .tc main_arg1)) := by
  after_results_simp <;> rfl
set_option maxHeartbeats 4000000 in
/-- The self-loop weights, as a column. -/
theorem h0_v27 : StableHlo.after (hostOps0 (F := F)) Vin (Proc.devRef .tc main_v27)
    = shapeCast _ (Cert.ReferenceIdeal.Read.val_main_v26 (F := F) (Vin (Proc.devRef .tc main_arg1))) shapeCasts_S50000_S50000x1 := by
  after_results_simp <;> rfl
set_option maxHeartbeats 4000000 in
/-- The first layer's weight matrix. -/
theorem h0_v29 : StableHlo.after (hostOps0 (F := F)) Vin (Proc.devRef .tc main_v29) = Cert.ReferenceIdeal.Read.val_main_v28 (F := F) (Vin (Proc.devRef .tc main_arg2)) := by
  after_results_simp <;> rfl

/-! ## The later stretches -/

set_option maxHeartbeats 4000000 in
/-- The neighbour aggregate of a transformed feature array: the same gather, scaling and accumulating scatter the reference applies. -/
theorem h1_v43 (x0 : (⟨S50000x128, .f32⟩ : BufTy).Contents (Elt F)) (x1 : (⟨S2x800000, .i32⟩ : BufTy).Contents (Elt F)) (x2 : (⟨S3x128x128, .f32⟩ : BufTy).Contents (Elt F))
    (e1 : Vin (Proc.devRef .tc main_v1) = Cert.ReferenceIdeal.Read.val_main_v1 (F := F) x1) (e3 : Vin (Proc.devRef .tc main_v3) = Cert.ReferenceIdeal.Read.val_main_v3 (F := F) x1)
    (e25 : Vin (Proc.devRef .tc main_v25) = Cert.ReferenceIdeal.Read.val_main_v25 (F := F) x1)
    (eh : Vin (Proc.devRef .tc main_v30) = Cert.ReferenceIdeal.Read.val_main_v29 (F := F) x0 x2) :
    StableHlo.after (hostOps1 (F := F)) Vin (Proc.devRef .tc main_v43) = Cert.ReferenceIdeal.Read.val_main_v42 (F := F) x0 x1 x2 := by
  after_results_simp <;> (try rw [e1, e3, e25, eh]) <;> rfl

set_option maxHeartbeats 4000000 in
/-- A parameter row as the region finds it: row 0 of the stacked parameter, sliced, flattened and laid out as 1×128. -/
theorem h1_v46 : StableHlo.after (hostOps1 (F := F)) Vin (Proc.devRef .tc main_v46)
    = shapeCast _ (shapeCast _ (extractStridedSlice S1x128 ![0, 0] (Vin (Proc.devRef .tc main_arg3)) slices_S3x128_S1x128_0_0) shapeCasts_S1x128_S128) shapeCasts_S128_S1x128 := by
  after_results_simp <;> rfl

set_option maxHeartbeats 4000000 in
/-- A parameter row as the region finds it: row 0 of the stacked parameter, sliced, flattened and laid out as 1×128. -/
theorem h2_v50 : StableHlo.after (hostOps2 (F := F)) Vin (Proc.devRef .tc main_v50)
    = shapeCast _ (shapeCast _ (extractStridedSlice S1x128 ![0, 0] (Vin (Proc.devRef .tc main_arg4)) slices_S3x128_S1x128_0_0) shapeCasts_S1x128_S128) shapeCasts_S128_S1x128 := by
  after_results_simp <;> rfl

set_option maxHeartbeats 4000000 in
/-- A parameter row as the region finds it: row 0 of the stacked parameter, sliced, flattened and laid out as 1×128. -/
theorem h2_v53 : StableHlo.after (hostOps2 (F := F)) Vin (Proc.devRef .tc main_v53)
    = shapeCast _ (shapeCast _ (extractStridedSlice S1x128 ![0, 0] (Vin (Proc.devRef .tc main_arg5)) slices_S3x128_S1x128_0_0) shapeCasts_S1x128_S128) shapeCasts_S128_S1x128 := by
  after_results_simp <;> rfl

set_option maxHeartbeats 4000000 in
/-- The layer's weight matrix. -/
theorem h3_v56 : StableHlo.after (hostOps3 (F := F)) Vin (Proc.devRef .tc main_v56) = Cert.ReferenceIdeal.Read.val_main_v83 (F := F) (Vin (Proc.devRef .tc main_arg2)) := by
  after_results_simp <;> rfl

set_option maxHeartbeats 4000000 in
/-- The neighbour aggregate of a transformed feature array: the same gather, scaling and accumulating scatter the reference applies. -/
theorem h4_v70 (x0 : (⟨S50000x128, .f32⟩ : BufTy).Contents (Elt F)) (x1 : (⟨S2x800000, .i32⟩ : BufTy).Contents (Elt F)) (x2 : (⟨S3x128x128, .f32⟩ : BufTy).Contents (Elt F)) (x3 x4 x5 : (⟨S3x128, .f32⟩ : BufTy).Contents (Elt F))
    (e1 : Vin (Proc.devRef .tc main_v1) = Cert.ReferenceIdeal.Read.val_main_v1 (F := F) x1) (e3 : Vin (Proc.devRef .tc main_v3) = Cert.ReferenceIdeal.Read.val_main_v3 (F := F) x1)
    (e25 : Vin (Proc.devRef .tc main_v25) = Cert.ReferenceIdeal.Read.val_main_v25 (F := F) x1)
    (eh : Vin (Proc.devRef .tc main_v57) = Cert.ReferenceIdeal.Read.val_main_v84 (F := F) x0 x1 x2 x3 x4 x5) :
    StableHlo.after (hostOps4 (F := F)) Vin (Proc.devRef .tc main_v70) = Cert.ReferenceIdeal.Read.val_main_v97 (F := F) x0 x1 x2 x3 x4 x5 := by
  after_results_simp <;> (try rw [e1, e3, e25, eh]) <;> rfl

set_option maxHeartbeats 4000000 in
/-- A parameter row as the region finds it: row 1 of the stacked parameter, sliced, flattened and laid out as 1×128. -/
theorem h4_v73 : StableHlo.after (hostOps4 (F := F)) Vin (Proc.devRef .tc main_v73)
    = shapeCast _ (shapeCast _ (extractStridedSlice S1x128 ![1, 0] (Vin (Proc.devRef .tc main_arg3)) slices_S3x128_S1x128_1_0) shapeCasts_S1x128_S128) shapeCasts_S128_S1x128 := by
  after_results_simp <;> rfl

set_option maxHeartbeats 4000000 in
/-- A parameter row as the region finds it: row 1 of the stacked parameter, sliced, flattened and laid out as 1×128. -/
theorem h5_v77 : StableHlo.after (hostOps5 (F := F)) Vin (Proc.devRef .tc main_v77)
    = shapeCast _ (shapeCast _ (extractStridedSlice S1x128 ![1, 0] (Vin (Proc.devRef .tc main_arg4)) slices_S3x128_S1x128_1_0) shapeCasts_S1x128_S128) shapeCasts_S128_S1x128 := by
  after_results_simp <;> rfl

set_option maxHeartbeats 4000000 in
/-- A parameter row as the region finds it: row 1 of the stacked parameter, sliced, flattened and laid out as 1×128. -/
theorem h5_v80 : StableHlo.after (hostOps5 (F := F)) Vin (Proc.devRef .tc main_v80)
    = shapeCast _ (shapeCast _ (extractStridedSlice S1x128 ![1, 0] (Vin (Proc.devRef .tc main_arg5)) slices_S3x128_S1x128_1_0) shapeCasts_S1x128_S128) shapeCasts_S128_S1x128 := by
  after_results_simp <;> rfl

set_option maxHeartbeats 4000000 in
/-- The layer's weight matrix. -/
theorem h6_v83 : StableHlo.after (hostOps6 (F := F)) Vin (Proc.devRef .tc main_v83) = Cert.ReferenceIdeal.Read.val_main_v139 (F := F) (Vin (Proc.devRef .tc main_arg2)) := by
  after_results_simp <;> rfl

set_option maxHeartbeats 4000000 in
/-- The neighbour aggregate of a transformed feature array: the same gather, scaling and accumulating scatter the reference applies. -/
theorem h7_v97 (x0 : (⟨S50000x128, .f32⟩ : BufTy).Contents (Elt F)) (x1 : (⟨S2x800000, .i32⟩ : BufTy).Contents (Elt F)) (x2 : (⟨S3x128x128, .f32⟩ : BufTy).Contents (Elt F)) (x3 x4 x5 : (⟨S3x128, .f32⟩ : BufTy).Contents (Elt F))
    (e1 : Vin (Proc.devRef .tc main_v1) = Cert.ReferenceIdeal.Read.val_main_v1 (F := F) x1) (e3 : Vin (Proc.devRef .tc main_v3) = Cert.ReferenceIdeal.Read.val_main_v3 (F := F) x1)
    (e25 : Vin (Proc.devRef .tc main_v25) = Cert.ReferenceIdeal.Read.val_main_v25 (F := F) x1)
    (eh : Vin (Proc.devRef .tc main_v84) = Cert.ReferenceIdeal.Read.val_main_v140 (F := F) x0 x1 x2 x3 x4 x5) :
    StableHlo.after (hostOps7 (F := F)) Vin (Proc.devRef .tc main_v97) = Cert.ReferenceIdeal.Read.val_main_v153 (F := F) x0 x1 x2 x3 x4 x5 := by
  after_results_simp <;> (try rw [e1, e3, e25, eh]) <;> rfl

set_option maxHeartbeats 4000000 in
/-- A parameter row as the region finds it: row 2 of the stacked parameter, sliced, flattened and laid out as 1×128. -/
theorem h7_v100 : StableHlo.after (hostOps7 (F := F)) Vin (Proc.devRef .tc main_v100)
    = shapeCast _ (shapeCast _ (extractStridedSlice S1x128 ![2, 0] (Vin (Proc.devRef .tc main_arg3)) slices_S3x128_S1x128_2_0) shapeCasts_S1x128_S128) shapeCasts_S128_S1x128 := by
  after_results_simp <;> rfl

set_option maxHeartbeats 4000000 in
/-- A parameter row as the region finds it: row 2 of the stacked parameter, sliced, flattened and laid out as 1×128. -/
theorem h8_v104 : StableHlo.after (hostOps8 (F := F)) Vin (Proc.devRef .tc main_v104)
    = shapeCast _ (shapeCast _ (extractStridedSlice S1x128 ![2, 0] (Vin (Proc.devRef .tc main_arg4)) slices_S3x128_S1x128_2_0) shapeCasts_S1x128_S128) shapeCasts_S128_S1x128 := by
  after_results_simp <;> rfl

set_option maxHeartbeats 4000000 in
/-- A parameter row as the region finds it: row 2 of the stacked parameter, sliced, flattened and laid out as 1×128. -/
theorem h8_v107 : StableHlo.after (hostOps8 (F := F)) Vin (Proc.devRef .tc main_v107)
    = shapeCast _ (shapeCast _ (extractStridedSlice S1x128 ![2, 0] (Vin (Proc.devRef .tc main_arg5)) slices_S3x128_S1x128_2_0) shapeCasts_S1x128_S128) shapeCasts_S128_S1x128 := by
  after_results_simp <;> rfl

/-! ## Reading the laid-out arrays -/

/-- Entry (0, j) of a row cut out of a stack of three and laid out as 1×128 is the stack's entry (ℓ, j). -/
theorem row_apply {α : Type} (x : S3x128.Idx → α) (ℓ : Fin 3) (hs : S3x128.Slices ![ℓ.val, 0] S1x128) (j : Fin 128) :
    shapeCast S1x128 (shapeCast S128 (extractStridedSlice S1x128 ![ℓ.val, 0] x hs) shapeCasts_S1x128_S128) shapeCasts_S128_S1x128 (ix2 (0 : Fin 1) j)
      = x (ix2 ℓ j) := by
  rw [shapeCast_apply _ shapeCasts_S128_S1x128 (ix2 (0 : Fin 1) j) (ix1 j) (by
        rewrite [Shape.rowMajor_val_two, Shape.rowMajor_val_one]; show j.val = 0 * 128 + j.val; omega),
    shapeCast_apply _ shapeCasts_S1x128_S128 (ix1 j) (ix2 (0 : Fin 1) j) (by
        rewrite [Shape.rowMajor_val_two, Shape.rowMajor_val_one]; show 0 * 128 + j.val = j.val; omega),
    extractStridedSlice_apply ![ℓ.val, 0] x hs (ix2 (0 : Fin 1) j) (ix2 ℓ j) (fun a => match a with
      | ⟨0, _⟩ => by show ℓ.val = ℓ.val + 0; omega
      | ⟨1, _⟩ => by show j.val = 0 + j.val; omega)]

/-- Entry (r, 0) of a vector laid out as a column is the vector's entry r. -/
theorem col_apply {α : Type} (x : S50000.Idx → α) (r : Fin 50000) :
    shapeCast S50000x1 x shapeCasts_S50000_S50000x1 (ix2 r (0 : Fin 1)) = x (ix1 r) := by
  rw [shapeCast_apply _ shapeCasts_S50000_S50000x1 (ix2 r (0 : Fin 1)) (ix1 r) (by
        rewrite [Shape.rowMajor_val_two, Shape.rowMajor_val_one]; show r.val = r.val * 1 + 0; omega)]

end Cert.KernelIdeal.Val

end
-- ==== Proof.LibDotSum.lean ====
/-
  A matrix product's contraction as a plain sum over the shared axis, for any record of dimension numbers whose operand
  indices are known coordinate by coordinate (at a printed program's literal records those coordinate facts hold by
  computation). Two forms: rows × columns (rank 2 by rank 2), and the same with one leading batch axis shared by both
  operands and the result (rank 3 by rank 3).
-/
import Idealize.ShloMosaic.Lib.ValueIdx

noncomputable section

open scoped BigOperators

namespace Cert.LibDotSum

open Idealize.ShloMosaic Idealize.ShloMosaic.ValueIdx

/-- `M × K` by `K × N`: the sum over the record's contraction index of a function of the two operand indices is the sum
    over `k : Fin K` of it at `(row, k)` and `(k, column)`. -/
theorem plain {M K N : Nat} (d : DotDims ⟨2, ![M, K]⟩ ⟨2, ![K, N]⟩ ⟨2, ![M, N]⟩)
    (hr : d.contr.rank = 1) (hs : d.contr.size ⟨0, by omega⟩ = K)
    (hl0 : ∀ j k, (d.lhsIdx j k 0).val = (j 0).val)
    (hl1 : ∀ j k, (d.lhsIdx j k 1).val = (k ⟨0, by omega⟩).val)
    (hr0 : ∀ j k, (d.rhsIdx j k 0).val = (k ⟨0, by omega⟩).val)
    (hr1 : ∀ j k, (d.rhsIdx j k 1).val = (j 1).val)
    {α : Type} [AddCommMonoid α] (f : (⟨2, ![M, K]⟩ : Shape).Idx → (⟨2, ![K, N]⟩ : Shape).Idx → α)
    (j : (⟨2, ![M, N]⟩ : Shape).Idx) :
    ∑ k : d.contr.Idx, f (d.lhsIdx j k) (d.rhsIdx j k) = ∑ k : Fin K, f (ix2 (j 0) k) (ix2 k (j 1)) := by
  rw [← Equiv.sum_comp (contrEquiv1 d K hr hs).symm]
  refine Finset.sum_congr rfl fun k _ => ?_
  have e1 : d.lhsIdx j ((contrEquiv1 d K hr hs).symm k) = ix2 (j 0) k := by
    funext a; apply Fin.ext
    match a with
    | ⟨0, _⟩ => exact hl0 j _
    | ⟨1, _⟩ => exact (hl1 j _).trans (contrEquiv1_symm_val d K hr hs k)
  have e2 : d.rhsIdx j ((contrEquiv1 d K hr hs).symm k) = ix2 k (j 1) := by
    funext a; apply Fin.ext
    match a with
    | ⟨0, _⟩ => exact (hr0 j _).trans (contrEquiv1_symm_val d K hr hs k)
    | ⟨1, _⟩ => exact hr1 j _
  exact congrArg₂ f e1 e2

/-- `B × M × K` by `B × K × N` with the leading axis a batch axis: at result index `(b, row, column)` the sum over `k : Fin K`
    of the function at `(b, row, k)` and `(b, k, column)`. -/
theorem batched {B M K N : Nat} (d : DotDims ⟨3, ![B, M, K]⟩ ⟨3, ![B, K, N]⟩ ⟨3, ![B, M, N]⟩)
    (hr : d.contr.rank = 1) (hs : d.contr.size ⟨0, by omega⟩ = K)
    (hl0 : ∀ j k, (d.lhsIdx j k 0).val = (j 0).val)
    (hl1 : ∀ j k, (d.lhsIdx j k 1).val = (j 1).val)
    (hl2 : ∀ j k, (d.lhsIdx j k 2).val = (k ⟨0, by omega⟩).val)
    (hr0 : ∀ j k, (d.rhsIdx j k 0).val = (j 0).val)
    (hr1 : ∀ j k, (d.rhsIdx j k 1).val = (k ⟨0, by omega⟩).val)
    (hr2 : ∀ j k, (d.rhsIdx j k 2).val = (j 2).val)
    {α : Type} [AddCommMonoid α] (f : (⟨3, ![B, M, K]⟩ : Shape).Idx → (⟨3, ![B, K, N]⟩ : Shape).Idx → α)
    (j : (⟨3, ![B, M, N]⟩ : Shape).Idx) :
    ∑ k : d.contr.Idx, f (d.lhsIdx j k) (d.rhsIdx j k) = ∑ k : Fin K, f (ix3 (j 0) (j 1) k) (ix3 (j 0) k (j 2)) := by
  rw [← Equiv.sum_comp (contrEquiv1 d K hr hs).symm]
  refine Finset.sum_congr rfl fun k _ => ?_
  have e1 : d.lhsIdx j ((contrEquiv1 d K hr hs).symm k) = ix3 (j 0) (j 1) k := by
    funext a; apply Fin.ext
    match a with
    | ⟨0, _⟩ => exact hl0 j _
    | ⟨1, _⟩ => exact hl1 j _
    | ⟨2, _⟩ => exact (hl2 j _).trans (contrEquiv1_symm_val d K hr hs k)
  have e2 : d.rhsIdx j ((contrEquiv1 d K hr hs).symm k) = ix3 (j 0) k (j 2) := by
    funext a; apply Fin.ext
    match a with
    | ⟨0, _⟩ => exact hr0 j _
    | ⟨1, _⟩ => exact (hr1 j _).trans (contrEquiv1_symm_val d K hr hs k)
    | ⟨2, _⟩ => exact hr2 j _
  exact congrArg₂ f e1 e2

end Cert.LibDotSum

end
-- ==== Proof.LibMatProd.lean ====
/-
  Matrix products at the exact (extended-real) reading, element by element. A rows-by-columns product, whether the host's
  `dot_general` or a kernel's matmul into a zero accumulator whose operands were first narrowed to a shorter float format
  (a change of format is the identity on exact values), is at (r, c) the sum over the shared axis of A(r, k) · B(k, c).
  Both are stated for any record of dimension numbers whose operand indices are known coordinate by coordinate.
-/
import Idealize.ShloMosaic.PureOps.Ideal.Laws
import Idealize.ShloMosaic.Lib.ValueIdx
import proofs.«135670_j59253368815959_1_alg».proof.Proof.LibDotSum

noncomputable section

open scoped BigOperators

namespace Cert.Spec

open Idealize.ShloMosaic Idealize.ShloMosaic.ValueIdx

/-- The product of an `M × K` array by a `K × N` array: at (r, c) the sum over k of A(r, k) · B(k, c). -/
def rowsByCols {M K N : Nat} (A : (⟨2, ![M, K]⟩ : Shape).Idx → EReal) (B : (⟨2, ![K, N]⟩ : Shape).Idx → EReal) :
    (⟨2, ![M, N]⟩ : Shape).Idx → EReal :=
  fun j => ∑ k : Fin K, A (ix2 (j 0) k) * B (ix2 k (j 1))

/-- Two `M × N` arrays added, then one row `b` added to every row, then the maximum with a fixed value `z`
    (with `z` zero: bias, then the rectifier). -/
def addRowMax {M N : Nat} (P Q : (⟨2, ![M, N]⟩ : Shape).Idx → EReal) (b : (⟨2, ![1, N]⟩ : Shape).Idx → EReal) (z : EReal) :
    (⟨2, ![M, N]⟩ : Shape).Idx → EReal :=
  fun j => max ((P j + Q j) + b (ix2 (0 : Fin 1) (j 1))) z

/-- One row `b` added to every row of an `M × N` array. -/
def addRow {M N : Nat} (P : (⟨2, ![M, N]⟩ : Shape).Idx → EReal) (b : (⟨2, ![1, N]⟩ : Shape).Idx → EReal) :
    (⟨2, ![M, N]⟩ : Shape).Idx → EReal :=
  fun j => P j + b (ix2 (0 : Fin 1) (j 1))

end Cert.Spec

namespace Cert.MatProd

open Idealize.ShloMosaic Idealize.ShloMosaic.ValueIdx

/-- The host's product of an `M × K` by a `K × N` array, at (r, c): `∑ k, A (r, k) · B (k, c)`. -/
theorem hostDot_apply {M K N : Nat} (d : DotDims ⟨2, ![M, K]⟩ ⟨2, ![K, N]⟩ ⟨2, ![M, N]⟩)
    (hr : d.contr.rank = 1) (hs : d.contr.size ⟨0, by omega⟩ = K)
    (hl0 : ∀ j k, (d.lhsIdx j k 0).val = (j 0).val)
    (hl1 : ∀ j k, (d.lhsIdx j k 1).val = (k ⟨0, by omega⟩).val)
    (hr0 : ∀ j k, (d.rhsIdx j k 0).val = (k ⟨0, by omega⟩).val)
    (hr1 : ∀ j k, (d.rhsIdx j k 1).val = (j 1).val)
    (A : FVec Ideal ⟨2, ![M, K]⟩ .f32) (B : FVec Ideal ⟨2, ![K, N]⟩ .f32) (j : (⟨2, ![M, N]⟩ : Shape).Idx) :
    Host.dotGeneral (F := Ideal) d none A B j = Cert.Spec.rowsByCols A B j := by
  unfold Cert.Spec.rowsByCols
  simp only [Host.dotGeneral]
  rw [Ideal.dotGeneral_apply]
  exact Cert.LibDotSum.plain d hr hs hl0 hl1 hr0 hr1 (fun a b => A a * B b) j

/-- A kernel's matmul of two blocks narrowed to bf16, into the zero accumulator, at (r, c): the same sum of the
    un-narrowed blocks' products. -/
theorem tileDot_apply {M K N : Nat} (d : DotDims ⟨2, ![M, K]⟩ ⟨2, ![K, N]⟩ ⟨2, ![M, N]⟩)
    (hr : d.contr.rank = 1) (hs : d.contr.size ⟨0, by omega⟩ = K)
    (hl0 : ∀ j k, (d.lhsIdx j k 0).val = (j 0).val)
    (hl1 : ∀ j k, (d.lhsIdx j k 1).val = (k ⟨0, by omega⟩).val)
    (hr0 : ∀ j k, (d.rhsIdx j k 0).val = (k ⟨0, by omega⟩).val)
    (hr1 : ∀ j k, (d.rhsIdx j k 1).val = (j 1).val)
    (A : FVec Ideal ⟨2, ![M, K]⟩ .f32) (B : FVec Ideal ⟨2, ![K, N]⟩ .f32)
    (hb : (FTy.bf16).bits < (FTy.f32).bits) (j : (⟨2, ![M, N]⟩ : Shape).Idx) :
    matmul (F := Ideal) d none (truncf .bf16 A hb) (truncf .bf16 B hb) (constant ⟨2, ![M, N]⟩ .f32 0x00000000#32) j
      = Cert.Spec.rowsByCols A B j := by
  unfold Cert.Spec.rowsByCols
  simp only [matmul]
  rw [Ideal.matmul_constant_zero_apply]
  exact Cert.LibDotSum.plain d hr hs hl0 hl1 hr0 hr1 (fun a b => A a * B b) j

end Cert.MatProd

end
-- ==== Proof.ValMat.lean ====
/- The value of the three matrix-product regions over the extended reals: each region's output array after the
   region is, index by index, the product of the two input arrays as the region finds them — at (r, j) the sum over k
   of `A (r, k) · B (k, j)`. Per region: the stored tile at an index, the block each grid point writes back as a
   block of the whole-array product, the cover of the array by the ten row blocks, and the array after the region. -/
import proofs.«135670_j59253368815959_1_alg».proof.Proof.FrMat
import proofs.«135670_j59253368815959_1_alg».proof.Proof.LibMatProd
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The product of a 50000 × 128 array by a 128 × 128 array: at (r, c) the sum over k of `A (r, k) · B (k, c)`. -/
def matProd (A : S50000x128.Idx → EReal) (B : S128x128.Idx → EReal) : S50000x128.Idx → EReal :=
  fun i => ∑ k : Fin 128, A (ix2 (i 0) k) * B (ix2 k (i 1))

theorem matProd_apply (A : S50000x128.Idx → EReal) (B : S128x128.Idx → EReal) (r : Fin 50000) (j : Fin 128) :
    matProd A B (ix2 r j) = ∑ k : Fin 128, A (ix2 r k) * B (ix2 k j) := rfl

/-- A kernel tile's matrix product at (r, c): the row block and the weight matrix narrowed to bf16, multiplied into a
    zero f32 accumulator — over the extended reals, the plain sum over k of the products. -/
theorem tile_apply (x0 : Vec Ideal S5000x128 .f32) (x1 : Vec Ideal S128x128 .f32) (r : Fin 5000) (j : Fin 128) :
    matmul (F := Ideal) dot_S5000x128_S128x128_S5000x128_1_0_0_1_n_n none (truncf .bf16 x0 bitsLt_bf16_f32)
        (truncf .bf16 x1 bitsLt_bf16_f32) (constant S5000x128 .f32 0x00000000#32) (ix2 r j)
      = ∑ k : Fin 128, x0 (ix2 r k) * x1 (ix2 k j) :=
  Cert.MatProd.tileDot_apply dot_S5000x128_S128x128_S5000x128_1_0_0_1_n_n rfl rfl
    (fun i q => by
      unfold DotDims.lhsIdx
      rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
      rfl)
    (fun i q => dot_S5000x128_S128x128_S5000x128_1_0_0_1_n_n.lhsIdx_val_of_single rfl i q)
    (fun i q => dot_S5000x128_S128x128_S5000x128_1_0_0_1_n_n.rhsIdx_val_of_single rfl i q)
    (fun i q => by
      unfold DotDims.rhsIdx
      rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
      rfl)
    x0 x1 bitsLt_bf16_f32 (ix2 r j)

/-! # Region 0: the output array is the product of the entry contents of `main_arg0` and `main_v29` -/

/-- The stored tile at (r, c): the sum over k of the row block's (r, k) times the weight matrix's (k, c). -/
theorem pay0_apply (x0 : Vec Ideal S5000x128 .f32) (x1 : Vec Ideal S128x128 .f32) (r : Fin 5000) (j : Fin 128) :
    k0_pay1 x0 x1 (ix2 r j) = ∑ k : Fin 128, x0 (ix2 r k) * x1 (ix2 k j) := by
  unfold k0_pay1
  simp only [shapeCast_self]
  exact tile_apply x0 x1 r j

/-- The block index maps over the grid: the row block and the output block sit at block row `t`, column block 0; the
    weight matrix at block (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 ∧ t.val < 10 :=
  (by decide +kernel : ∀ t : Fin grid0.N, _)

/-- What point `t` writes back is block `t` of the product of the arrays as the region finds them. -/
theorem flushed0_eq (c : Dev nD) (t : Fin cfg0.N) :
    (Fr.dat0 V c).flushed 2 t = ((cfg0.win 2).blk t).view.read (Elt Ideal) (matProd (V c main_arg0) (V c main_v29)) := by
  show (cfg0.win 2).cut (grid0.coords t) ((Fr.dat0 V c).after 2 t) = _
  rw [Fr.after0_2]
  unfold Fr.out0_2 Fr.r0_0 Fr.r0_1
  rw [View.canon_unit_zero hz]
  simp only [View.ld_unit_zero (S := S5000x128) hz, View.ld_unit_zero (S := S128x128) hz]
  obtain ⟨e0, e1, e2, e3, e4, e5, e6⟩ := idx_facts0 t
  funext y
  obtain ⟨p, q, rfl⟩ : ∃ (p : Fin 5000) (q : Fin 128), y = ix2 p q := ⟨y 0, y 1, eq_ix2 y⟩
  show k0_pay1 (Fr.iblk0 V c 0 t) (Fr.iblk0 V c 1 t) (ix2 p q) = matProd (V c main_arg0) (V c main_v29) (((cfg0.win 2).blk t).view.emb (ix2 p q))
  rw [pay0_apply]
  unfold matProd
  refine Finset.sum_congr rfl fun k _ => ?_
  have h0 : ((cfg0.win 0).blk t).view.emb (ix2 p k) = ix2 ((((cfg0.win 2).blk t).view.emb (ix2 p q)) 0) k := by
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 128 + 1 * k.val = k.val; omega
  have h1 : ((cfg0.win 1).blk t).view.emb (ix2 k q) = ix2 k ((((cfg0.win 2).blk t).view.emb (ix2 p q)) 1) := by
    funext a; apply Fin.ext
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega
  have ha : Fr.iblk0 V c 0 t (ix2 p k) = (V c main_arg0 : S50000x128.Idx → EReal) (ix2 ((((cfg0.win 2).blk t).view.emb (ix2 p q)) 0) k) := by
    exact congrArg (V c main_arg0 : S50000x128.Idx → EReal) h0
  have hb : Fr.iblk0 V c 1 t (ix2 k q) = (V c main_v29 : S128x128.Idx → EReal) (ix2 k ((((cfg0.win 2).blk t).view.emb (ix2 p q)) 1)) := by
    exact congrArg (V c main_v29 : S128x128.Idx → EReal) h1
  exact congrArg₂ (fun a b : EReal => a * b) ha hb

/-- An index of the array is in point `t`'s block iff each coordinate is in the block's range on its axis. -/
theorem mem_blk0 (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- Every index of the array is in the block of the point its row's block index names. -/
theorem cover0 (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  let t : Fin cfg0.N := ⟨(i 0).val / 5000, by show (i 0).val / 5000 < grid0.N; rw [N_0]; omega⟩
  have ht : t.val = (i 0).val / 5000 := rfl
  obtain ⟨e0, e1, e2, e3, e4, e5, e6⟩ := idx_facts0 t
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The output array after the region: the product, everywhere. -/
theorem final0 (c : Dev nD) : (Fr.dat0 V c).arrAt 2 cfg0.N = matProd (V c main_arg0) (V c main_v29) :=
  (Fr.dat0 V c).arrAt_eq_of_cover 2 (matProd (V c main_arg0) (V c main_v29)) (fun t _ => flushed0_eq V c t) (cover0)

/-- The output array after the region, at (r, j): the sum over k of `main_arg0 (r, k) · main_v29 (k, j)` (`matProd_apply`). -/
theorem mat0_apply (c : Dev nD) (r : Fin 50000) (j : Fin 128) :
    (Fr.dat0 V c).arrAt 2 cfg0.N (ix2 r j) = matProd (V c main_arg0) (V c main_v29) (ix2 r j) := by
  rw [final0]

/-! # Region 3: the output array is the product of the entry contents of `main_v54` and `main_v56` -/

/-- The stored tile at (r, c): the sum over k of the row block's (r, k) times the weight matrix's (k, c). -/
theorem pay3_apply (x0 : Vec Ideal S5000x128 .f32) (x1 : Vec Ideal S128x128 .f32) (r : Fin 5000) (j : Fin 128) :
    k3_pay1 x0 x1 (ix2 r j) = ∑ k : Fin 128, x0 (ix2 r k) * x1 (ix2 k j) := by
  unfold k3_pay1
  simp only [shapeCast_self]
  exact tile_apply x0 x1 r j

/-- The block index maps over the grid: the row block and the output block sit at block row `t`, column block 0; the
    weight matrix at block (0, 0). -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 ∧ t.val < 10 :=
  (by decide +kernel : ∀ t : Fin grid3.N, _)

/-- What point `t` writes back is block `t` of the product of the arrays as the region finds them. -/
theorem flushed3_eq (c : Dev nD) (t : Fin cfg3.N) :
    (Fr.dat3 V c).flushed 2 t = ((cfg3.win 2).blk t).view.read (Elt Ideal) (matProd (V c main_v54) (V c main_v56)) := by
  show (cfg3.win 2).cut (grid3.coords t) ((Fr.dat3 V c).after 2 t) = _
  rw [Fr.after3_2]
  unfold Fr.out3_2 Fr.r3_0 Fr.r3_1
  rw [View.canon_unit_zero hz]
  simp only [View.ld_unit_zero (S := S5000x128) hz, View.ld_unit_zero (S := S128x128) hz]
  obtain ⟨e0, e1, e2, e3, e4, e5, e6⟩ := idx_facts3 t
  funext y
  obtain ⟨p, q, rfl⟩ : ∃ (p : Fin 5000) (q : Fin 128), y = ix2 p q := ⟨y 0, y 1, eq_ix2 y⟩
  show k3_pay1 (Fr.iblk3 V c 0 t) (Fr.iblk3 V c 1 t) (ix2 p q) = matProd (V c main_v54) (V c main_v56) (((cfg3.win 2).blk t).view.emb (ix2 p q))
  rw [pay3_apply]
  unfold matProd
  refine Finset.sum_congr rfl fun k _ => ?_
  have h0 : ((cfg3.win 0).blk t).view.emb (ix2 p k) = ix2 ((((cfg3.win 2).blk t).view.emb (ix2 p q)) 0) k := by
    funext a; apply Fin.ext
    match a with
    | ⟨0, _⟩ => show win3_0.index t (0 : Fin 2) * 5000 + 1 * p.val = win3_2.index t (0 : Fin 2) * 5000 + 1 * p.val; omega
    | ⟨1, _⟩ => show win3_0.index t (1 : Fin 2) * 128 + 1 * k.val = k.val; omega
  have h1 : ((cfg3.win 1).blk t).view.emb (ix2 k q) = ix2 k ((((cfg3.win 2).blk t).view.emb (ix2 p q)) 1) := by
    funext a; apply Fin.ext
    match a with
    | ⟨0, _⟩ => show win3_1.index t (0 : Fin 2) * 128 + 1 * k.val = k.val; omega
    | ⟨1, _⟩ => show win3_1.index t (1 : Fin 2) * 128 + 1 * q.val = win3_2.index t (1 : Fin 2) * 128 + 1 * q.val; omega
  have ha : Fr.iblk3 V c 0 t (ix2 p k) = (V c main_v54 : S50000x128.Idx → EReal) (ix2 ((((cfg3.win 2).blk t).view.emb (ix2 p q)) 0) k) := by
    exact congrArg (V c main_v54 : S50000x128.Idx → EReal) h0
  have hb : Fr.iblk3 V c 1 t (ix2 k q) = (V c main_v56 : S128x128.Idx → EReal) (ix2 k ((((cfg3.win 2).blk t).view.emb (ix2 p q)) 1)) := by
    exact congrArg (V c main_v56 : S128x128.Idx → EReal) h1
  exact congrArg₂ (fun a b : EReal => a * b) ha hb

/-- An index of the array is in point `t`'s block iff each coordinate is in the block's range on its axis. -/
theorem mem_blk3 (t : Fin cfg3.N) (i : S50000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v57).slice (win3_2.rect t)).set ↔ _
  rw [View.set_slice_whole, Rect.mem_set_unit]
  exact Iff.rfl

/-- Every index of the array is in the block of the point its row's block index names. -/
theorem cover3 (i : S50000x128.Idx) : ∃ t : Fin cfg3.N, (cfg3.win 2).flush t = true ∧ i ∈ ((cfg3.win 2).blk t).view.set := by
  have hi0 : (i 0).val < 50000 := (i 0).isLt
  have hi1 : (i 1).val < 128 := (i 1).isLt
  let t : Fin cfg3.N := ⟨(i 0).val / 5000, by show (i 0).val / 5000 < grid3.N; rw [N_3]; omega⟩
  have ht : t.val = (i 0).val / 5000 := rfl
  obtain ⟨e0, e1, e2, e3, e4, e5, e6⟩ := idx_facts3 t
  refine ⟨t, flush3_2 t, ?_⟩
  rw [mem_blk3]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

/-- The output array after the region: the product, everywhere. -/
theorem final3 (c : Dev nD) : (Fr.dat3 V c).arrAt 2 cfg3.N = matProd (V c main_v54) (V c main_v56) :=
  (Fr.dat3 V c).arrAt_eq_of_cover 2 (matProd (V c main_v54) (V c main_v56)) (fun t _ => flushed3_eq V c t) (cover3)

/-- The output array after the region, at (r, j): the sum over k of `main_v54 (r, k) · main_v56 (k, j)` (`matProd_apply`). -/
theorem mat3_apply (c : Dev nD) (r : Fin 50000) (j : Fin 128) :
    (Fr.dat3 V c).arrAt 2 cfg3.N (ix2 r j) = matProd (V c main_v54) (V c main_v56) (ix2 r j) := by
  rw [final3]

/-! # Region 6: the output array is the product of the entry contents of `main_v81` and `main_v83` -/

/-- The stored tile at (r, c): the sum over k of the row block's (r, k) times the weight matrix's (k, c). -/
theorem pay6_apply (x0 : Vec Ideal S5000x128 .f32) (x1 : Vec Ideal S128x128 .f32) (r : Fin 5000) (j : Fin 128) :
    k6_pay1 x0 x1 (ix2 r j) = ∑ k : Fin 128, x0 (ix2 r k) * x1 (ix2 k j) := by
  unfold k6_pay1
  simp only [shapeCast_self]
  exact tile_apply x0 x1 r j

/-- The block index maps over the grid: the row block and the output block sit at block row `t`, column block 0; the
    weight matrix at block (0, 0). -/
theorem idx_facts6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 ∧ t.val < 10 :=
  (by decide +kernel : ∀ t : Fin grid6.N, _)

/-- What point `t` writes back is block `t` of the product of the arrays as the region finds them. -/
theorem flushed6_eq (c : Dev nD) (t : Fin cfg6.N) :
    (Fr.dat6 V c).flushed 2 t = ((cfg6.win 2).blk t).view.read (Elt Ideal) (matProd (V c main_v81) (V c main_v83)) := by
  show (cfg6.win 2).cut (grid6.coords t) ((Fr.dat6 V c).after 2 t) = _
  rw [Fr.after6_2]
  unfold Fr.out6_2 Fr.r6_0 Fr.r6_1
  rw [View.canon_unit_zero hz]
  simp only [View.ld_unit_zero (S := S5000x128) hz, View.ld_unit_zero (S := S128x128) hz]
  obtain ⟨e0, e1, e2, e3, e4, e5, e6⟩ := idx_facts6 t
  funext y
  obtain ⟨p, q, rfl⟩ : ∃ (p : Fin 5000) (q : Fin 128), y = ix2 p q := ⟨y 0, y 1, eq_ix2 y⟩
  show k6_pay1 (Fr.iblk6 V c 0 t) (Fr.iblk6 V c 1 t) (ix2 p q) = matProd (V c main_v81) (V c main_v83) (((cfg6.win 2).blk t).view.emb (ix2 p q))
  rw [pay6_apply]
  unfold matProd
  refine Finset.sum_congr rfl fun k _ => ?_
  have h0 : ((cfg6.win 0).blk t).view.emb (ix2 p k) = ix2 ((((cfg6.win 2).blk t).view.emb (ix2 p q)) 0) k := by
    funext a; apply Fin.ext
    match a with
    | ⟨0, _⟩ => show win6_0.index t (0 : Fin 2) * 5000 + 1 * p.val = win6_2.index t (0 : Fin 2) * 5000 + 1 * p.val; omega
    | ⟨1, _⟩ => show win6_0.index t (1 : Fin 2) * 128 + 1 * k.val = k.val; omega
  have h1 : ((cfg6.win 1).blk t).view.emb (ix2 k q) = ix2 k ((((cfg6.win 2).blk t).view.emb (ix2 p q)) 1) := by
    funext a; apply Fin.ext
    match a with
    | ⟨0, _⟩ => show win6_1.index t (0 : Fin 2) * 128 + 1 * k.val = k.val; omega
    | ⟨1, _⟩ => show win6_1.index t (1 : Fin 2) * 128 + 1 * q.val = win6_2.index t (1 : Fin 2) * 128 + 1 * q.val; omega
  have ha : Fr.iblk6 V c 0 t (ix2 p k) = (V c main_v81 : S50000x128.Idx → EReal) (ix2 ((((cfg6.win 2).blk t).view.emb (ix2 p q)) 0) k) := by
    exact congrArg (V c main_v81 : S50000x128.Idx → EReal) h0
  have hb : Fr.iblk6 V c 1 t (ix2 k q) = (V c main_v83 : S128x128.Idx → EReal) (ix2 k ((((cfg6.win 2).blk t).view.emb (ix2 p q)) 1)) := by
    exact congrArg (V c main_v83 : S128x128.Idx → EReal) h1
  exact congrArg₂ (fun a b : EReal => a * b) ha hb

/-- An index of the array is in point `t`'s block iff each coordinate is in the block's range on its axis. -/
theorem mem_blk6 (t : Fin cfg6.N) (i : S50000x128.Idx) :
    i ∈ ((cfg6.win 2).blk t).view.set ↔ ∀ a : Fin 2, win6_2.index t a * S5000x128.size a ≤ (i a).val ∧ (i a).val < win6_2.index t a * S5000x128.size a + S5000x128.size a := by
  show i ∈ ((View.whole main_v84).slice (win6_2.rect t)).set ↔ _
  rw [View.set_slice_whole, Rect.mem_set_unit]
  exact Iff.rfl

/-- Every index of the array is in the block of the point its row's block index names. -/
theorem cover6 (i : S50000x128.Idx) : ∃ t : Fin cfg6.N, (cfg6.win 2).flush t = true ∧ i ∈ ((cfg6.win 2).blk t).view.set := by
  have hi0 : (i 0).val < 50000 := (i 0).isLt
  have hi1 : (i 1).val < 128 := (i 1).isLt
  let t : Fin cfg6.N := ⟨(i 0).val / 5000, by show (i 0).val / 5000 < grid6.N; rw [N_6]; omega⟩
  have ht : t.val = (i 0).val / 5000 := rfl
  obtain ⟨e0, e1, e2, e3, e4, e5, e6⟩ := idx_facts6 t
  refine ⟨t, flush6_2 t, ?_⟩
  rw [mem_blk6]
  intro a
  match a with
  | ⟨0, _⟩ => show win6_2.index t (0 : Fin 2) * 5000 ≤ (i 0).val ∧ (i 0).val < win6_2.index t (0 : Fin 2) * 5000 + 5000; omega
  | ⟨1, _⟩ => show win6_2.index t (1 : Fin 2) * 128 ≤ (i 1).val ∧ (i 1).val < win6_2.index t (1 : Fin 2) * 128 + 128; omega

/-- The output array after the region: the product, everywhere. -/
theorem final6 (c : Dev nD) : (Fr.dat6 V c).arrAt 2 cfg6.N = matProd (V c main_v81) (V c main_v83) :=
  (Fr.dat6 V c).arrAt_eq_of_cover 2 (matProd (V c main_v81) (V c main_v83)) (fun t _ => flushed6_eq V c t) (cover6)

/-- The output array after the region, at (r, j): the sum over k of `main_v81 (r, k) · main_v83 (k, j)` (`matProd_apply`). -/
theorem mat6_apply (c : Dev nD) (r : Fin 50000) (j : Fin 128) :
    (Fr.dat6 V c).arrAt 2 cfg6.N (ix2 r j) = matProd (V c main_v81) (V c main_v83) (ix2 r j) := by
  rw [final6]

end Cert.KernelIdeal.Val
-- ==== Proof.LibBatchNormMoments.lean ====
/-
  Batch-normalisation moments on the extended reals.

  For a finite family of REAL numbers x (read as extended reals), and a real n ≠ 0 equal to the number of entries,
  the "one-pass" variance   (∑ xᵢ²)/n − ((∑ xᵢ)/n)²   and the "two-pass" variance   (∑ (xᵢ − μ)²)/n,  μ = (∑ xᵢ)/n,
  are the same extended real.  Over ℝ this is the expansion
      ∑ (xᵢ − μ)² = ∑ xᵢ² − 2 μ ∑ xᵢ + n μ²   with   ∑ xᵢ = n μ ;
  it uses distributivity, which fails at ±∞, so the entries must be real: with an infinite entry the two forms differ
  (⊤ − ⊤ = ⊥ on one side, a square on the other).  Division is the extended reals' division by a nonzero real,
  which is multiplication by the real reciprocal.
-/
import Mathlib
import Idealize.ShloMosaic.PureOps.Ideal

noncomputable section

namespace Cert.Lib.BatchNormMoments

open Idealize.ShloMosaic

/-- The coercion of reals into the extended reals commutes with a finite sum. -/
theorem coe_finset_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- Over the reals: the second moment minus the squared mean is the mean of the squared deviations from the mean. -/
theorem real_variance_two_forms {ι : Type*} [Fintype ι] (x : ι → ℝ) (n : ℝ) (hn : n ≠ 0)
    (hcard : (Fintype.card ι : ℝ) = n) :
    (∑ i, x i * x i) * (1 / n) - ((∑ i, x i) * (1 / n)) * ((∑ i, x i) * (1 / n))
      = (∑ i, (x i - (∑ j, x j) * (1 / n)) * (x i - (∑ j, x j) * (1 / n))) * (1 / n) := by
  generalize hS : (∑ i, x i) = S
  have hexp : ∀ i, (x i - S * (1 / n)) * (x i - S * (1 / n))
      = x i * x i - (2 * (S * (1 / n))) * x i + (S * (1 / n)) * (S * (1 / n)) := fun i => by ring
  have hsum : (∑ i, (x i - S * (1 / n)) * (x i - S * (1 / n)))
      = (∑ i, x i * x i) - (2 * (S * (1 / n))) * S + n * ((S * (1 / n)) * (S * (1 / n))) := by
    simp only [hexp, Finset.sum_add_distrib, Finset.sum_sub_distrib, ← Finset.mul_sum, hS, Finset.sum_const,
      Finset.card_univ, nsmul_eq_mul, hcard]
    ring
  rw [hsum]
  field_simp
  ring

/-- On the extended reals, for REAL entries: the one-pass variance (second moment minus squared mean) is the two-pass
    variance (mean of squared deviations), every quotient the division by the real n ≠ 0 that counts the entries. -/
theorem variance_two_forms {ι : Type*} [Fintype ι] (x : ι → ℝ) (n : ℝ) (hn : n ≠ 0)
    (hcard : (Fintype.card ι : ℝ) = n) :
    Ideal.div (∑ i, ((x i : ℝ) : EReal) * ((x i : ℝ) : EReal)) (n : EReal)
        - Ideal.div (∑ i, ((x i : ℝ) : EReal)) (n : EReal) * Ideal.div (∑ i, ((x i : ℝ) : EReal)) (n : EReal)
      = Ideal.div (∑ i, (((x i : ℝ) : EReal) - Ideal.div (∑ j, ((x j : ℝ) : EReal)) (n : EReal))
          * (((x i : ℝ) : EReal) - Ideal.div (∑ j, ((x j : ℝ) : EReal)) (n : EReal))) (n : EReal) := by
  simp only [Ideal.div_coe hn, ← coe_finset_sum, ← EReal.coe_mul, ← EReal.coe_sub]
  exact congrArg _ (real_variance_two_forms x n hn hcard)

/-- The mean of real entries is real: the quotient of their sum by a nonzero real. -/
theorem mean_coe {ι : Type*} [Fintype ι] (x : ι → ℝ) (n : ℝ) (hn : n ≠ 0) :
    Ideal.div (∑ i, ((x i : ℝ) : EReal)) (n : EReal) = (((∑ i, x i) * (1 / n) : ℝ) : EReal) := by
  rw [Ideal.div_coe hn, ← coe_finset_sum, ← EReal.coe_mul]

/-- The two-pass variance of real entries is a NONNEGATIVE real: a sum of squares over a positive count. -/
theorem variance_coe_nonneg {ι : Type*} [Fintype ι] (x : ι → ℝ) (n : ℝ) (hn : 0 < n) :
    ∃ v : ℝ, 0 ≤ v ∧
      Ideal.div (∑ i, (((x i : ℝ) : EReal) - Ideal.div (∑ j, ((x j : ℝ) : EReal)) (n : EReal))
          * (((x i : ℝ) : EReal) - Ideal.div (∑ j, ((x j : ℝ) : EReal)) (n : EReal))) (n : EReal) = ((v : ℝ) : EReal) := by
  refine ⟨(∑ i, (x i - (∑ j, x j) * (1 / n)) * (x i - (∑ j, x j) * (1 / n))) * (1 / n), ?_, ?_⟩
  · exact mul_nonneg (Finset.sum_nonneg fun i _ => mul_self_nonneg _) (by positivity)
  · simp only [Ideal.div_coe hn.ne', ← coe_finset_sum, ← EReal.coe_mul, ← EReal.coe_sub]

end Cert.Lib.BatchNormMoments

end
-- ==== Proof.Spec.lean ====
/-
  One graph-convolution layer with batch normalisation, written element by element on the extended reals.

  For a node r and a feature j the layer first forms  f r j = agg r j + s r · h r j + b j  (the neighbours' aggregate,
  the node's own transformed features weighted by its self-loop weight, the bias), then normalises every feature over
  the 50000 nodes: the mean  μ j = (∑ r, f r j) / n,  a variance, and
  y r j = γ j · (f r j − μ j) · (v j + ε)^(−1/2) + β j.  Two spellings of the variance occur: the mean of the squared
  deviations ("two-pass") and the second moment minus the squared mean ("one-pass"); two groupings of the product
  occur as well.  For REAL entries the two spellings agree, so the two normalised values are one extended real.
  The count n and the stabiliser ε are kept as the binary words both programs carry.
-/
import Mathlib
import Idealize.ShloMosaic.PureOps.Ideal
import proofs.«135670_j59253368815959_1_alg».proof.Proof.LibBatchNormMoments

noncomputable section

namespace Cert.Spec

open Idealize.ShloMosaic

/-- The node count, as the word both programs divide by. -/
def nW : EReal := Ideal.ofBits .f32 0x47435000#32
/-- The stabiliser added to the variance, as the word both programs add. -/
def epsW : EReal := Ideal.ofBits .f32 0x3727C5AC#32

/-- The value a layer normalises: aggregate + self-loop weight · transformed features + bias. -/
def full (agg h : Fin 50000 → Fin 128 → EReal) (s : Fin 50000 → EReal) (b : Fin 128 → EReal)
    (r : Fin 50000) (j : Fin 128) : EReal := agg r j + s r * h r j + b j

/-- A feature's mean over the nodes. -/
def mean (f : Fin 50000 → Fin 128 → EReal) (j : Fin 128) : EReal := Ideal.div (∑ r, f r j) nW

/-- The mean of the squared deviations from the mean. -/
def varTwoPass (f : Fin 50000 → Fin 128 → EReal) (j : Fin 128) : EReal :=
  Ideal.div (∑ r, (f r j - mean f j) * (f r j - mean f j)) nW

/-- The second moment minus the squared mean. -/
def varOnePass (f : Fin 50000 → Fin 128 → EReal) (j : Fin 128) : EReal :=
  Ideal.div (∑ r, f r j * f r j) nW - mean f j * mean f j

/-- The normalised value with the two-pass variance, the scale applied to the deviation first. -/
def normTwoPass (f : Fin 50000 → Fin 128 → EReal) (g b : Fin 128 → EReal) (r : Fin 50000) (j : Fin 128) : EReal :=
  (g j * (f r j - mean f j)) * Ideal.rsqrt (varTwoPass f j + epsW) + b j

/-- The normalised value with the one-pass variance, the deviation scaled by the inverse deviation first. -/
def normOnePass (f : Fin 50000 → Fin 128 → EReal) (g b : Fin 128 → EReal) (r : Fin 50000) (j : Fin 128) : EReal :=
  g j * ((f r j - mean f j) * Ideal.rsqrt (varOnePass f j + epsW)) + b j

end Cert.Spec

end
-- ==== Proof.LibColSum.lean ====
/-
  Columns of a matrix summed over the rows, and the small layout facts that go with them.

  A reduction of an [a, b] array along its first axis is read at a lane as the sum of that lane's a entries; a single entry
  [1, 1] spread over an [a, b] array reads that entry everywhere; a sum over the a·b rows of a tall array cut into a
  blocks of b rows is the sum over the blocks of each block's sum.  Every lemma is over arbitrary extents and mentions no
  program.
-/
import Mathlib.Algebra.BigOperators.Fin
import Mathlib.Data.Fintype.BigOperators
import Mathlib.Tactic.Ring
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibColSum

open Idealize.ShloMosaic Idealize.ShloMosaic.ValueIdx

variable {α : Type}

/-- The source index a row reduction reads for lane j and row r is (r, j). -/
theorem lift_row {a b : ℕ} (h : (⟨2, ![a, b]⟩ : Shape).Reduces [0] ⟨1, ![b]⟩) (j : Fin b) (r : Fin a) :
    h.lift (ix1 j) r = ix2 r j := by
  funext c
  apply Fin.ext
  match c with
  | ⟨0, _⟩ => rfl
  | ⟨1, _⟩ => rfl

/-- A vector unit's add reduction of an [a, b] array over the rows, read at lane j at the ideal values, is the sum of the
    lane's entries.  The accumulator's word is any word that is the sum's neutral one. -/
theorem multiReduction_row_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (j : Fin b) :
    multiReduction .add [0] ⟨1, ![b]⟩ src acc h hφ hacc (ix1 j) = ∑ r : Fin a, src (ix2 r j) := by
  refine (Ideal.multiReduction_add_single src acc h hφ hacc (ix1 j)).trans ?_
  exact Finset.sum_congr rfl fun r _ => congrArg src (lift_row h j r)

/-- A single entry [1, 1] spread over an [a, b] array reads that entry at every index. -/
theorem broadcastTo_11_ab_apply {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- A sum over the n·m rows of a tall array is the sum over its n blocks of m rows of each block's sum: only the order
    and grouping of the terms change. -/
theorem sum_blocks {M : Type*} [AddCommMonoid M] (n m : ℕ) (f : Fin (n * m) → M) :
    ∑ i : Fin (n * m), f i
      = ∑ t : Fin n, ∑ y : Fin m, f ⟨m * t.val + y.val, by
          have ht := t.isLt; have hy := y.isLt
          calc m * t.val + y.val < m * t.val + m := by omega
            _ = m * (t.val + 1) := by ring
            _ ≤ m * n := Nat.mul_le_mul_left m ht
            _ = n * m := Nat.mul_comm m n⟩ := by
  rw [← Equiv.sum_comp finProdFinEquiv f, Fintype.sum_prod_type]
  refine Finset.sum_congr rfl fun t _ => Finset.sum_congr rfl fun y _ => congrArg f (Fin.ext ?_)
  show y.val + m * t.val = m * t.val + y.val
  omega

end Cert.LibColSum

end
-- ==== Proof.LibBlockSum.lean ====
/-
  A sum over a range cut into equal consecutive blocks, and a running total built one block at a time.

  The a·b indices below a·b are the pairs (block t below a, offset y below b) through t·b + y, so a sum over all of
  them is the sum over the blocks of the sums within each block; only the commutativity and associativity of the
  addition is used. A running total that starts at z plus the first term and adds one more term at every step ends at z
  plus the sum of all the terms.
-/
import Mathlib

open scoped BigOperators

namespace Cert.LibBlockSum

variable {M : Type*} [AddCommMonoid M]

/-- Offset y of block t lies below a·b. -/
theorem blk_lt {a b : ℕ} (t : Fin a) (y : Fin b) : t.val * b + y.val < a * b :=
  calc t.val * b + y.val < t.val * b + b := Nat.add_lt_add_left y.isLt _
    _ = (t.val + 1) * b := (Nat.succ_mul _ _).symm
    _ ≤ a * b := Nat.mul_le_mul_right b t.isLt

/-- The same with the product written the other way round. -/
theorem blk_lt' {a b : ℕ} (t : Fin a) (y : Fin b) : b * t.val + y.val < a * b := by
  rw [Nat.mul_comm b]; exact blk_lt t y

/-- A sum over the indices below a·b is the sum over the a blocks of the sums over the b offsets within a block, the index
    written t·b + y. -/
theorem sum_blocks (a b : ℕ) (f : Fin (a * b) → M) (h : ∀ (t : Fin a) (y : Fin b), t.val * b + y.val < a * b) :
    ∑ t : Fin a, ∑ y : Fin b, f ⟨t.val * b + y.val, h t y⟩ = ∑ r : Fin (a * b), f r := by
  rw [← Equiv.sum_comp finProdFinEquiv f, Fintype.sum_prod_type]
  refine Finset.sum_congr rfl fun t _ => Finset.sum_congr rfl fun y _ => congrArg f (Fin.ext ?_)
  show t.val * b + y.val = y.val + b * t.val
  rw [Nat.mul_comm, Nat.add_comm]

/-- The same with the index written b·t + y. -/
theorem sum_blocks' (a b : ℕ) (f : Fin (a * b) → M) (h : ∀ (t : Fin a) (y : Fin b), b * t.val + y.val < a * b) :
    ∑ t : Fin a, ∑ y : Fin b, f ⟨b * t.val + y.val, h t y⟩ = ∑ r : Fin (a * b), f r := by
  rw [← sum_blocks a b f fun t y => blk_lt t y]
  exact Finset.sum_congr rfl fun t _ => Finset.sum_congr rfl fun y _ => congrArg f (Fin.ext (by
    show b * t.val + y.val = t.val * b + y.val
    rw [Nat.mul_comm]))

/-- 50000 rows as 10 blocks of 5000, the row written t·5000 + y. -/
theorem sum_rows_10x5000 (f : Fin 50000 → M) (h : ∀ (t : Fin 10) (y : Fin 5000), t.val * 5000 + y.val < 50000) :
    ∑ t : Fin 10, ∑ y : Fin 5000, f ⟨t.val * 5000 + y.val, h t y⟩ = ∑ r : Fin 50000, f r :=
  sum_blocks 10 5000 f h

/-- 50000 rows as 10 blocks of 5000, the row written 5000·t + y. -/
theorem sum_rows_10x5000' (f : Fin 50000 → M) (h : ∀ (t : Fin 10) (y : Fin 5000), 5000 * t.val + y.val < 50000) :
    ∑ t : Fin 10, ∑ y : Fin 5000, f ⟨5000 * t.val + y.val, h t y⟩ = ∑ r : Fin 50000, f r :=
  sum_blocks' 10 5000 f h

/-- A running total over terms indexed by the naturals: from z plus term 0, one more term added at each of n steps, it
    ends at z plus the sum of the terms 0 … n. -/
theorem acc_range (n : ℕ) (g : ℕ → M) (z : M) (acc : ℕ → M) (h0 : acc 0 = z + g 0)
    (hs : ∀ t, t < n → acc (t + 1) = acc t + g (t + 1)) : acc n = z + ∑ t ∈ Finset.range (n + 1), g t := by
  induction n with
  | zero => rw [h0, Finset.sum_range_one]
  | succ k ih =>
    rw [hs k (Nat.lt_succ_self k), ih fun t ht => hs t (Nat.lt_succ_of_lt ht), Finset.sum_range_succ _ (k + 1), add_assoc]

/-- The same over n + 1 terms indexed below n + 1. -/
theorem acc_fin (n : ℕ) (g : Fin (n + 1) → M) (z : M) (acc : ℕ → M) (h0 : acc 0 = z + g 0)
    (hs : ∀ t (ht : t < n), acc (t + 1) = acc t + g ⟨t + 1, Nat.succ_lt_succ ht⟩) :
    acc n = z + ∑ t : Fin (n + 1), g t := by
  have key := acc_range n (fun t => if ht : t < n + 1 then g ⟨t, ht⟩ else 0) z acc
    (by rw [h0, dif_pos (Nat.succ_pos n)]; rfl)
    (fun t ht => by rw [hs t ht, dif_pos (Nat.succ_lt_succ ht)])
  rw [key, ← Fin.sum_univ_eq_sum_range (fun t => if ht : t < n + 1 then g ⟨t, ht⟩ else 0) (n + 1)]
  exact congrArg (z + ·) (Finset.sum_congr rfl fun t _ => by rw [dif_pos t.isLt])

/-- Ten terms: from z plus term 0, one more term added at each of nine steps, the total ends at z plus the sum of the ten. -/
theorem acc_fin_10 (g : Fin 10 → M) (z : M) (acc : ℕ → M) (h0 : acc 0 = z + g 0)
    (hs : ∀ t (ht : t < 9), acc (t + 1) = acc t + g ⟨t + 1, Nat.succ_lt_succ ht⟩) :
    acc 9 = z + ∑ t : Fin 10, g t :=
  acc_fin 9 g z acc h0 hs

end Cert.LibBlockSum
-- ==== Proof.LibRowBias.lean ====
/-
  One row added to every row of an array: a [1, b] block broadcast over a rows reads, at (p, c), the block's one row at c.
-/
import Idealize.ShloMosaic.Lib.ValueIdx
import Idealize.ShloMosaic.Lib.ValueLayout
import Idealize.ShloMosaic.Lib.Pipeline.Value

noncomputable section

namespace Cert.RowBias

open Idealize.ShloMosaic Idealize.ShloMosaic.ValueIdx

/-- A `[1, b]` array broadcast to `[a, b]`, read at any index `y`: the one row at `y`'s column. -/
theorem bcastRow_apply {a b : ℕ} {α : Type} (v : (⟨2, ![1, b]⟩ : Shape).Idx → α)
    (h : (⟨2, ![1, b]⟩ : Shape).Broadcasts ⟨2, ![a, b]⟩) (y : (⟨2, ![a, b]⟩ : Shape).Idx) :
    broadcastTo ⟨2, ![a, b]⟩ v h y = v (ix2 (0 : Fin 1) (y 1)) := by
  obtain ⟨p, q, rfl⟩ : ∃ (p : Fin a) (q : Fin b), y = ix2 p q := ⟨y 0, y 1, eq_ix2 y⟩
  exact broadcastTo_1b_ab_apply v h p q

/-- A vector of `b` entries reshaped to one row, read at `(0, c)`: the entry `c`. -/
theorem rowOf_apply {b : ℕ} {α : Type} (x : (⟨1, ![b]⟩ : Shape).Idx → α) (h : (⟨1, ![b]⟩ : Shape).ShapeCasts ⟨2, ![1, b]⟩)
    (c : Fin b) : shapeCast ⟨2, ![1, b]⟩ x h (ix2 (0 : Fin 1) c) = x (ix1 c) :=
  shapeCast_a_1a_apply x h 0 c

end Cert.RowBias

end
-- ==== Proof.LibRowSum.lean ====
/-
  Rows of a matrix summed along the lanes, and the column that sum is kept as.

  A reduction of an [a, b] array along its second axis is read at a row as the sum of that row's b entries, both
  when a vector unit does it (a multi-reduction with add) and when the host does it (a reduce with an add body from a zero
  initial value).  The result, a vector of a entries, is usually kept as a column [a, 1] and spread back over b lanes;
  the column forms of the layout operations are read here at an index given by coordinates: a vector [a] cast or
  broadcast to the column [a, 1], and the column [a, 1] broadcast to [a, b].  Every lemma is over arbitrary extents and
  mentions no program.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibRowSum

open Idealize.ShloMosaic Idealize.ShloMosaic.ValueIdx

variable {α : Type}

/-! ## The column forms of the layout operations -/

/-- A vector [a] cast to the column [a, 1] reads, at (i, u), the vector at i: the two row-major positions are
    i and i * 1 + 0. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] spread over b lanes reads, at (p, c), the column's entry of row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a vector [a] into the column [a, 1] along axis 0 reads, at (i, u), the vector at i. -/
theorem broadcastInDim_a_a1_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- The host's broadcast of a column [a, 1] to [a, b] along both axes reads, at (p, c), the column's entry of row p. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-! ## A row's sum -/

/-- The source index a lane reduction reads for row r and lane k is (r, k). -/
theorem lift_lane {a b : ℕ} (h : (⟨2, ![a, b]⟩ : Shape).Reduces [1] ⟨1, ![a]⟩) (r : Fin a) (k : Fin b) :
    h.lift (ix1 r) k = ix2 r k := by
  funext c
  apply Fin.ext
  match c with
  | ⟨0, _⟩ => rfl
  | ⟨1, _⟩ => rfl

/-- A vector unit's add reduction of an [a, b] array along the lanes, read at row r at the ideal values, is the sum of the
    row's entries.  The accumulator's word is any word that is the sum's neutral one. -/
theorem multiReduction_lane_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) := by
  refine (Ideal.multiReduction_add_single src acc h hφ hacc (ix1 r)).trans ?_
  exact Finset.sum_congr rfl fun k _ => congrArg src (lift_lane h r k)

/-- The host's reduce of an [a, b] array along the lanes with an add body, read at row r at the ideal values, is the
    initial value plus the sum of the row's entries. -/
theorem hostReduceAdd_lane_apply {a b : ℕ} {φ : FTy} {u : Shape} (x : FVec Ideal ⟨2, ![a, b]⟩ φ) (init : u.Idx → Ideal φ)
    (h' : (⟨2, ![a, b]⟩ : Shape).ReducesTo [1] ⟨1, ![a]⟩) (hu : 0 < u.numel)
    (h : (⟨2, ![a, b]⟩ : Shape).Reduces [1] ⟨1, ![a]⟩) (r : Fin a) :
    Host.reduceAdd x init h' hu (ix1 r) = init (Shape.Idx.first hu) + ∑ k : Fin b, x (ix2 r k) := by
  simp only [Host.reduceAdd, Ideal.hostReduceAdd_def]
  rw [Ideal.hostReduceAdd_single h' h]
  exact congrArg (_ + ·) (Finset.sum_congr rfl fun k _ => congrArg x (lift_lane h r k))

end Cert.LibRowSum

end
-- ==== Proof.ValNorm.lean ====
/- The value of the three normalising regions (custom_calls 2, 5, 8) at the ideal values: after a region its output array
   holds, at node r and feature j, the layer's value  f r j = agg r j + s r · h r j + b j  normalised with the mean and the
   variance the region reads from the statistics arrays,  γ j · ((f r j − μ j) · (v j + ε)^(−1/2)) + β j,  rectified at zero
   in the first two layers, and with the layer's input added (the residual) in the last two. Every grid point stores one
   block of 5000 rows, a pointwise function of the blocks it reads; the ten blocks tile the 50000 rows. -/
import proofs.«135670_j59253368815959_1_alg».proof.Proof.FrNorm
import proofs.«135670_j59253368815959_1_alg».proof.Proof.Spec
import proofs.«135670_j59253368815959_1_alg».proof.Proof.LibColSum
import proofs.«135670_j59253368815959_1_alg».proof.Proof.LibBlockSum
import proofs.«135670_j59253368815959_1_alg».proof.Proof.LibRowBias
import proofs.«135670_j59253368815959_1_alg».proof.Proof.LibRowSum
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

/-- The whole-buffer rectangles start at the origin. -/
theorem hzNm : (![0, 0] : Fin 2 → Nat) = fun _ => 0 := funext fun a => by fin_cases a <;> rfl

/-- The normalised value from the scale `g`, the value `f`, the mean `m`, the variance `v` and the shift `b`. -/
abbrev nrm (g f m v b : EReal) : EReal := g * ((f - m) * Ideal.rsqrt (v + Cert.Spec.epsW)) + b
/-- Rectified at the zero word. -/
abbrev relu0 (x : EReal) : EReal := max x (Ideal.ofBits .f32 0x00000000#32)
/-- The residual added. -/
abbrev addRes (x y : EReal) : EReal := x + y

/-! # Region 2: the normalising kernel's payload at an index, at the ideal values -/

/-- The stored value at row `y`, lane `j` of a block: the scale times the deviation from the mean times the inverse
    deviation, plus the shift, rectified. -/
theorem pay1_2 (x0 x1 : Vec Ideal S5000x128 .f32) (x2 : Vec Ideal S5000x1 .f32) (x3 x4 x5 x6 x7 : Vec Ideal S1x128 .f32) (y : Fin 5000) (j : Fin 128) :
    k2_pay1 (F := Ideal) x0 x2 x1 x3 x4 x5 x6 x7 (ix2 y j) = max (x6 (ix2 0 j) * ((x0 (ix2 y j) + x2 (ix2 y 0) * x1 (ix2 y j) + x3 (ix2 0 j) - x4 (ix2 0 j)) * Ideal.rsqrt (x5 (ix2 0 j) + Cert.Spec.epsW)) + x7 (ix2 0 j)) (Ideal.ofBits .f32 0x00000000#32) := by
  unfold k2_pay1
  simp only [shapeCast_self]
  exact congrArg₂ max (congrArg₂ (· + ·)
      (congrArg₂ (· * ·) (broadcastTo_1b_ab_apply x6 _ y j)
        (congrArg₂ (· * ·)
          (congrArg₂ (· - ·)
            (congrArg₂ (· + ·) (congrArg₂ (· + ·) rfl (congrArg₂ (· * ·) (Cert.LibRowSum.broadcastTo_a1_ab_apply x2 _ y j) rfl)) (broadcastTo_1b_ab_apply x3 _ y j))
            (broadcastTo_1b_ab_apply x4 _ y j))
          (broadcastTo_1b_ab_apply _ _ y j)))
      (broadcastTo_1b_ab_apply x7 _ y j)) rfl

/-- The same of the output window's buffer after the body. -/
theorem out2_9_apply (x0 x1 : Vec Ideal S5000x128 .f32) (x2 : Vec Ideal S5000x1 .f32) (x3 x4 x5 x6 x7 : Vec Ideal S1x128 .f32) (x8 : Vec Ideal S5000x128 .f32) (y : Fin 5000) (j : Fin 128) :
    Fr.out2_9 (F := Ideal) x0 x1 x2 x3 x4 x5 x6 x7 x8 (ix2 y j) = max (x6 (ix2 0 j) * ((x0 (ix2 y j) + x2 (ix2 y 0) * x1 (ix2 y j) + x3 (ix2 0 j) - x4 (ix2 0 j)) * Ideal.rsqrt (x5 (ix2 0 j) + Cert.Spec.epsW)) + x7 (ix2 0 j)) (Ideal.ofBits .f32 0x00000000#32) := by
  unfold Fr.out2_9
  rw [View.canon_unit_zero hzNm]
  simp only [View.ld_unit_zero (S := S5000x128) hzNm, View.ld_unit_zero (S := S5000x1) hzNm, View.ld_unit_zero (S := S1x128) hzNm]
  exact pay1_2 x0 x1 x2 x3 x4 x5 x6 x7 y j

/-! # Region 2: the output array, element by element -/

section Region2
variable (V : (c : Dev nD) → (b : Ref sig .tc) → Buf (Elt Ideal) ((c : Thread nD τ).loc b))

/-- The printed index maps, decided over the grid: the tall windows' blocks (0, 1, 2, 8, 9) move down with the point,
    the row windows (3 … 7) stay at block zero. -/
theorem idx2 : ∀ t : Fin cfg2.N, win2_0.index t (0 : Fin 2) = t.val
    ∧ win2_0.index t (1 : Fin 2) = 0
    ∧ win2_1.index t (0 : Fin 2) = t.val
    ∧ win2_1.index t (1 : Fin 2) = 0
    ∧ win2_2.index t (0 : Fin 2) = t.val
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = 0
    ∧ win2_5.index t (1 : Fin 2) = 0
    ∧ win2_6.index t (0 : Fin 2) = 0
    ∧ win2_6.index t (1 : Fin 2) = 0
    ∧ win2_7.index t (0 : Fin 2) = 0
    ∧ win2_7.index t (1 : Fin 2) = 0
    ∧ win2_8.index t (0 : Fin 2) = t.val
    ∧ win2_8.index t (1 : Fin 2) = 0
    ∧ win2_9.index t (0 : Fin 2) = t.val
    ∧ win2_9.index t (1 : Fin 2) = 0 :=
  (by decide +kernel : ∀ t : Fin grid2.N, _)

/-- Row `y` of block `t` is a row of the array. -/
theorem row_lt2 (t : Fin cfg2.N) (y : Fin 5000) : t.val * 5000 + y.val < 50000 := by
  have ht : t.val < 10 := lt_of_lt_of_eq t.isLt (show cfg2.N = 10 from N_2); have := y.isLt; omega

/-- Each input block's element is the array's element at the block's offset. -/
theorem iblk2_0_apply (c : Dev nD) (t : Fin cfg2.N) (y : Fin 5000) (j : Fin 128) :
    Fr.iblk2 V c 0 t (ix2 y j) = V c main_v43 (ix2 ⟨t.val * 5000 + y.val, row_lt2 t y⟩ j) := by
  obtain ⟨e0_0, e0_1, e1_0, e1_1, e2_0, e2_1, e3_0, e3_1, e4_0, e4_1, e5_0, e5_1, e6_0, e6_1, e7_0, e7_1, e8_0, e8_1, e9_0, e9_1⟩ := idx2 t
  show V c main_v43 (((cfg2.win 0).blk t).view.emb (ix2 y j)) = V c main_v43 _
  refine congrArg (V c main_v43) (funext fun a => Fin.ext ?_)
  match a with
  | ⟨0, _⟩ => show win2_0.index t (0 : Fin 2) * 5000 + 1 * y.val = t.val * 5000 + y.val; rw [e0_0]; omega
  | ⟨1, _⟩ => show win2_0.index t (1 : Fin 2) * 128 + 1 * j.val = j.val; rw [e0_1]; omega
theorem iblk2_1_apply (c : Dev nD) (t : Fin cfg2.N) (y : Fin 5000) (j : Fin 128) :
    Fr.iblk2 V c 1 t (ix2 y j) = V c main_v30 (ix2 ⟨t.val * 5000 + y.val, row_lt2 t y⟩ j) := by
  obtain ⟨e0_0, e0_1, e1_0, e1_1, e2_0, e2_1, e3_0, e3_1, e4_0, e4_1, e5_0, e5_1, e6_0, e6_1, e7_0, e7_1, e8_0, e8_1, e9_0, e9_1⟩ := idx2 t
  show V c main_v30 (((cfg2.win 1).blk t).view.emb (ix2 y j)) = V c main_v30 _
  refine congrArg (V c main_v30) (funext fun a => Fin.ext ?_)
  match a with
  | ⟨0, _⟩ => show win2_1.index t (0 : Fin 2) * 5000 + 1 * y.val = t.val * 5000 + y.val; rw [e1_0]; omega
  | ⟨1, _⟩ => show win2_1.index t (1 : Fin 2) * 128 + 1 * j.val = j.val; rw [e1_1]; omega
theorem iblk2_2_apply (c : Dev nD) (t : Fin cfg2.N) (y : Fin 5000) :
    Fr.iblk2 V c 2 t (ix2 y (0 : Fin 1)) = V c main_v27 (ix2 ⟨t.val * 5000 + y.val, row_lt2 t y⟩ (0 : Fin 1)) := by
  obtain ⟨e0_0, e0_1, e1_0, e1_1, e2_0, e2_1, e3_0, e3_1, e4_0, e4_1, e5_0, e5_1, e6_0, e6_1, e7_0, e7_1, e8_0, e8_1, e9_0, e9_1⟩ := idx2 t
  show V c main_v27 (((cfg2.win 2).blk t).view.emb (ix2 y (0 : Fin 1))) = V c main_v27 _
  refine congrArg (V c main_v27) (funext fun a => Fin.ext ?_)
  match a with
  | ⟨0, _⟩ => show win2_2.index t (0 : Fin 2) * 5000 + 1 * y.val = t.val * 5000 + y.val; rw [e2_0]; omega
  | ⟨1, _⟩ => show win2_2.index t (1 : Fin 2) * 1 + 1 * 0 = 0; rw [e2_1]
theorem iblk2_3_apply (c : Dev nD) (t : Fin cfg2.N) (j : Fin 128) :
    Fr.iblk2 V c 3 t (ix2 (0 : Fin 1) j) = V c main_v46 (ix2 (0 : Fin 1) j) := by
  obtain ⟨e0_0, e0_1, e1_0, e1_1, e2_0, e2_1, e3_0, e3_1, e4_0, e4_1, e5_0, e5_1, e6_0, e6_1, e7_0, e7_1, e8_0, e8_1, e9_0, e9_1⟩ := idx2 t
  show V c main_v46 (((cfg2.win 3).blk t).view.emb (ix2 (0 : Fin 1) j)) = V c main_v46 _
  refine congrArg (V c main_v46) (funext fun a => Fin.ext ?_)
  match a with
  | ⟨0, _⟩ => show win2_3.index t (0 : Fin 2) * 1 + 1 * 0 = 0; rw [e3_0]
  | ⟨1, _⟩ => show win2_3.index t (1 : Fin 2) * 128 + 1 * j.val = j.val; rw [e3_1]; omega
theorem iblk2_4_apply (c : Dev nD) (t : Fin cfg2.N) (j : Fin 128) :
    Fr.iblk2 V c 4 t (ix2 (0 : Fin 1) j) = V c main_v47_0 (ix2 (0 : Fin 1) j) := by
  obtain ⟨e0_0, e0_1, e1_0, e1_1, e2_0, e2_1, e3_0, e3_1, e4_0, e4_1, e5_0, e5_1, e6_0, e6_1, e7_0, e7_1, e8_0, e8_1, e9_0, e9_1⟩ := idx2 t
  show V c main_v47_0 (((cfg2.win 4).blk t).view.emb (ix2 (0 : Fin 1) j)) = V c main_v47_0 _
  refine congrArg (V c main_v47_0) (funext fun a => Fin.ext ?_)
  match a with
  | ⟨0, _⟩ => show win2_4.index t (0 : Fin 2) * 1 + 1 * 0 = 0; rw [e4_0]
  | ⟨1, _⟩ => show win2_4.index t (1 : Fin 2) * 128 + 1 * j.val = j.val; rw [e4_1]; omega
theorem iblk2_5_apply (c : Dev nD) (t : Fin cfg2.N) (j : Fin 128) :
    Fr.iblk2 V c 5 t (ix2 (0 : Fin 1) j) = V c main_v47_1 (ix2 (0 : Fin 1) j) := by
  obtain ⟨e0_0, e0_1, e1_0, e1_1, e2_0, e2_1, e3_0, e3_1, e4_0, e4_1, e5_0, e5_1, e6_0, e6_1, e7_0, e7_1, e8_0, e8_1, e9_0, e9_1⟩ := idx2 t
  show V c main_v47_1 (((cfg2.win 5).blk t).view.emb (ix2 (0 : Fin 1) j)) = V c main_v47_1 _
  refine congrArg (V c main_v47_1) (funext fun a => Fin.ext ?_)
  match a with
  | ⟨0, _⟩ => show win2_5.index t (0 : Fin 2) * 1 + 1 * 0 = 0; rw [e5_0]
  | ⟨1, _⟩ => show win2_5.index t (1 : Fin 2) * 128 + 1 * j.val = j.val; rw [e5_1]; omega
theorem iblk2_6_apply (c : Dev nD) (t : Fin cfg2.N) (j : Fin 128) :
    Fr.iblk2 V c 6 t (ix2 (0 : Fin 1) j) = V c main_v50 (ix2 (0 : Fin 1) j) := by
  obtain ⟨e0_0, e0_1, e1_0, e1_1, e2_0, e2_1, e3_0, e3_1, e4_0, e4_1, e5_0, e5_1, e6_0, e6_1, e7_0, e7_1, e8_0, e8_1, e9_0, e9_1⟩ := idx2 t
  show V c main_v50 (((cfg2.win 6).blk t).view.emb (ix2 (0 : Fin 1) j)) = V c main_v50 _
  refine congrArg (V c main_v50) (funext fun a => Fin.ext ?_)
  match a with
  | ⟨0, _⟩ => show win2_6.index t (0 : Fin 2) * 1 + 1 * 0 = 0; rw [e6_0]
  | ⟨1, _⟩ => show win2_6.index t (1 : Fin 2) * 128 + 1 * j.val = j.val; rw [e6_1]; omega
theorem iblk2_7_apply (c : Dev nD) (t : Fin cfg2.N) (j : Fin 128) :
    Fr.iblk2 V c 7 t (ix2 (0 : Fin 1) j) = V c main_v53 (ix2 (0 : Fin 1) j) := by
  obtain ⟨e0_0, e0_1, e1_0, e1_1, e2_0, e2_1, e3_0, e3_1, e4_0, e4_1, e5_0, e5_1, e6_0, e6_1, e7_0, e7_1, e8_0, e8_1, e9_0, e9_1⟩ := idx2 t
  show V c main_v53 (((cfg2.win 7).blk t).view.emb (ix2 (0 : Fin 1) j)) = V c main_v53 _
  refine congrArg (V c main_v53) (funext fun a => Fin.ext ?_)
  match a with
  | ⟨0, _⟩ => show win2_7.index t (0 : Fin 2) * 1 + 1 * 0 = 0; rw [e7_0]
  | ⟨1, _⟩ => show win2_7.index t (1 : Fin 2) * 128 + 1 * j.val = j.val; rw [e7_1]; omega
theorem iblk2_8_apply (c : Dev nD) (t : Fin cfg2.N) (y : Fin 5000) (j : Fin 128) :
    Fr.iblk2 V c 8 t (ix2 y j) = V c main_arg0 (ix2 ⟨t.val * 5000 + y.val, row_lt2 t y⟩ j) := by
  obtain ⟨e0_0, e0_1, e1_0, e1_1, e2_0, e2_1, e3_0, e3_1, e4_0, e4_1, e5_0, e5_1, e6_0, e6_1, e7_0, e7_1, e8_0, e8_1, e9_0, e9_1⟩ := idx2 t
  show V c main_arg0 (((cfg2.win 8).blk t).view.emb (ix2 y j)) = V c main_arg0 _
  refine congrArg (V c main_arg0) (funext fun a => Fin.ext ?_)
  match a with
  | ⟨0, _⟩ => show win2_8.index t (0 : Fin 2) * 5000 + 1 * y.val = t.val * 5000 + y.val; rw [e8_0]; omega
  | ⟨1, _⟩ => show win2_8.index t (1 : Fin 2) * 128 + 1 * j.val = j.val; rw [e8_1]; omega

/-- The layer's value before normalisation, from the four arrays the region reads as it finds them. -/
abbrev Fn2 (c : Dev nD) : Fin 50000 → Fin 128 → EReal :=
  Cert.Spec.full (fun r j => V c main_v43 (ix2 r j)) (fun r j => V c main_v30 (ix2 r j)) (fun r => V c main_v27 (ix2 r (0 : Fin 1))) (fun j => V c main_v46 (ix2 (0 : Fin 1) j))

/-- What the region leaves at row `r`, feature `j` of its output array. -/
def nv2 (c : Dev nD) (r : Fin 50000) (j : Fin 128) : EReal :=
  relu0 (nrm (V c main_v50 (ix2 (0 : Fin 1) j)) (Fn2 V c r j) (V c main_v47_0 (ix2 (0 : Fin 1) j)) (V c main_v47_1 (ix2 (0 : Fin 1) j)) (V c main_v53 (ix2 (0 : Fin 1) j)))

/-- The output array as one function of its index. -/
def Gn2 (c : Dev nD) : S50000x128.Idx → EReal := fun i => nv2 V c (i 0) (i 1)

/-- WHAT POINT `t` WRITES BACK is block `t` of that function. -/
theorem flushed2_9 (c : Dev nD) (t : Fin cfg2.N) :
    (Fr.dat2 V c).flushed 9 t = ((cfg2.win 9).blk t).view.read (Elt Ideal) (Gn2 V c) := by
  show (cfg2.win 9).cut (grid2.coords t) ((Fr.dat2 V c).after 9 t) = _
  rw [Fr.after2_9]
  funext y
  obtain ⟨p, q, rfl⟩ : ∃ (p : Fin 5000) (q : Fin 128), y = ix2 p q := ⟨y 0, y 1, eq_ix2 y⟩
  have hemb : ((cfg2.win 9).blk t).view.emb (ix2 p q) = ix2 ⟨t.val * 5000 + p.val, row_lt2 t p⟩ q := by
    obtain ⟨e0_0, e0_1, e1_0, e1_1, e2_0, e2_1, e3_0, e3_1, e4_0, e4_1, e5_0, e5_1, e6_0, e6_1, e7_0, e7_1, e8_0, e8_1, e9_0, e9_1⟩ := idx2 t
    funext a; apply Fin.ext
    match a with
    | ⟨0, _⟩ => show win2_9.index t (0 : Fin 2) * 5000 + 1 * p.val = t.val * 5000 + p.val; rw [e9_0]; omega
    | ⟨1, _⟩ => show win2_9.index t (1 : Fin 2) * 128 + 1 * q.val = q.val; rw [e9_1]; omega
  show Fr.out2_9 (Fr.iblk2 V c 0 t) (Fr.iblk2 V c 1 t) (Fr.iblk2 V c 2 t) (Fr.iblk2 V c 3 t) (Fr.iblk2 V c 4 t) (Fr.iblk2 V c 5 t) (Fr.iblk2 V c 6 t) (Fr.iblk2 V c 7 t) (Fr.iblk2 V c 8 t) (ix2 p q)
    = Gn2 V c (((cfg2.win 9).blk t).view.emb (ix2 p q))
  rw [hemb, out2_9_apply, iblk2_0_apply, iblk2_1_apply, iblk2_2_apply, iblk2_3_apply, iblk2_4_apply, iblk2_5_apply, iblk2_6_apply, iblk2_7_apply]
  rfl

/-- Every row lies in the block of the point its row number divided by 5000 names. -/
theorem cover2_9 (i : S50000x128.Idx) : ∃ t : Fin cfg2.N, (cfg2.win 9).flush t = true ∧ i ∈ ((cfg2.win 9).blk t).view.set := by
  have hi0 : (i 0).val < 50000 := idx2_lt0 i
  have hi1 : (i 1).val < 128 := idx2_lt1 i
  let t : Fin cfg2.N := ⟨(i 0).val / 5000, lt_of_lt_of_eq (by omega : (i 0).val / 5000 < 10) (show cfg2.N = 10 from N_2).symm⟩
  have htv : t.val = (i 0).val / 5000 := rfl
  refine ⟨t, flush2_9 t, ?_⟩
  obtain ⟨e0_0, e0_1, e1_0, e1_1, e2_0, e2_1, e3_0, e3_1, e4_0, e4_1, e5_0, e5_1, e6_0, e6_1, e7_0, e7_1, e8_0, e8_1, e9_0, e9_1⟩ := idx2 t
  show i ∈ ((View.whole main_v54).slice (win2_9.rect t)).set
  rw [View.set_slice_whole, Rect.mem_set_unit]
  intro a
  match a with
  | ⟨0, _⟩ => show win2_9.index t (0 : Fin 2) * 5000 ≤ (i 0).val ∧ (i 0).val < win2_9.index t (0 : Fin 2) * 5000 + 5000; rw [e9_0, htv]; omega
  | ⟨1, _⟩ => show win2_9.index t (1 : Fin 2) * 128 ≤ (i 1).val ∧ (i 1).val < win2_9.index t (1 : Fin 2) * 128 + 128; rw [e9_1]; omega

/-- The output array after the region. -/
theorem final2_9 (c : Dev nD) : (Fr.dat2 V c).arrAt 9 cfg2.N = Gn2 V c :=
  (Fr.dat2 V c).arrAt_eq_of_cover 9 _ (fun t _ => flushed2_9 V c t) cover2_9

/-- THE NORMALISED VALUE: after region 2 its output array holds, at row `r` and feature `j`, the layer's value minus the
    feature's mean, times the inverse deviation and the scale, plus the shift, rectified. -/
theorem norm2_apply (c : Dev nD) (r : Fin 50000) (j : Fin 128) :
    (Fr.dat2 V c).arrAt 9 cfg2.N (ix2 r j) = relu0 (nrm (V c main_v50 (ix2 (0 : Fin 1) j)) (Fn2 V c r j) (V c main_v47_0 (ix2 (0 : Fin 1) j)) (V c main_v47_1 (ix2 (0 : Fin 1) j)) (V c main_v53 (ix2 (0 : Fin 1) j))) := by
  rw [final2_9]; rfl

end Region2

/-! # Region 5: the normalising kernel's payload at an index, at the ideal values -/

/-- The stored value at row `y`, lane `j` of a block: the scale times the deviation from the mean times the inverse
    deviation, plus the shift, rectified, plus the residual. -/
theorem pay1_5 (x0 x1 : Vec Ideal S5000x128 .f32) (x2 : Vec Ideal S5000x1 .f32) (x3 x4 x5 x6 x7 : Vec Ideal S1x128 .f32) (x8 : Vec Ideal S5000x128 .f32) (y : Fin 5000) (j : Fin 128) :
    k5_pay1 (F := Ideal) x0 x2 x1 x3 x4 x5 x6 x7 x8 (ix2 y j) = max (x6 (ix2 0 j) * ((x0 (ix2 y j) + x2 (ix2 y 0) * x1 (ix2 y j) + x3 (ix2 0 j) - x4 (ix2 0 j)) * Ideal.rsqrt (x5 (ix2 0 j) + Cert.Spec.epsW)) + x7 (ix2 0 j)) (Ideal.ofBits .f32 0x00000000#32) + x8 (ix2 y j) := by
  unfold k5_pay1
  simp only [shapeCast_self]
  exact congrArg₂ (· + ·) (congrArg₂ max (congrArg₂ (· + ·)
      (congrArg₂ (· * ·) (broadcastTo_1b_ab_apply x6 _ y j)
        (congrArg₂ (· * ·)
          (congrArg₂ (· - ·)
            (congrArg₂ (· + ·) (congrArg₂ (· + ·) rfl (congrArg₂ (· * ·) (Cert.LibRowSum.broadcastTo_a1_ab_apply x2 _ y j) rfl)) (broadcastTo_1b_ab_apply x3 _ y j))
            (broadcastTo_1b_ab_apply x4 _ y j))
          (broadcastTo_1b_ab_apply _ _ y j)))
      (broadcastTo_1b_ab_apply x7 _ y j)) rfl) rfl

/-- The same of the output window's buffer after the body. -/
theorem out5_9_apply (x0 x1 : Vec Ideal S5000x128 .f32) (x2 : Vec Ideal S5000x1 .f32) (x3 x4 x5 x6 x7 : Vec Ideal S1x128 .f32) (x8 : Vec Ideal S5000x128 .f32) (y : Fin 5000) (j : Fin 128) :
    Fr.out5_9 (F := Ideal) x0 x1 x2 x3 x4 x5 x6 x7 x8 (ix2 y j) = max (x6 (ix2 0 j) * ((x0 (ix2 y j) + x2 (ix2 y 0) * x1 (ix2 y j) + x3 (ix2 0 j) - x4 (ix2 0 j)) * Ideal.rsqrt (x5 (ix2 0 j) + Cert.Spec.epsW)) + x7 (ix2 0 j)) (Ideal.ofBits .f32 0x00000000#32) + x8 (ix2 y j) := by
  unfold Fr.out5_9
  rw [View.canon_unit_zero hzNm]
  simp only [View.ld_unit_zero (S := S5000x128) hzNm, View.ld_unit_zero (S := S5000x1) hzNm, View.ld_unit_zero (S := S1x128) hzNm]
  exact pay1_5 x0 x1 x2 x3 x4 x5 x6 x7 x8 y j

/-! # Region 5: the output array, element by element -/

section Region5
variable (V : (c : Dev nD) → (b : Ref sig .tc) → Buf (Elt Ideal) ((c : Thread nD τ).loc b))

/-- The printed index maps, decided over the grid: the tall windows' blocks (0, 1, 2, 8, 9) move down with the point,
    the row windows (3 … 7) stay at block zero. -/
theorem idx5 : ∀ t : Fin cfg5.N, win5_0.index t (0 : Fin 2) = t.val
    ∧ win5_0.index t (1 : Fin 2) = 0
    ∧ win5_1.index t (0 : Fin 2) = t.val
    ∧ win5_1.index t (1 : Fin 2) = 0
    ∧ win5_2.index t (0 : Fin 2) = t.val
    ∧ win5_2.index t (1 : Fin 2) = 0
    ∧ win5_3.index t (0 : Fin 2) = 0
    ∧ win5_3.index t (1 : Fin 2) = 0
    ∧ win5_4.index t (0 : Fin 2) = 0
    ∧ win5_4.index t (1 : Fin 2) = 0
    ∧ win5_5.index t (0 : Fin 2) = 0
    ∧ win5_5.index t (1 : Fin 2) = 0
    ∧ win5_6.index t (0 : Fin 2) = 0
    ∧ win5_6.index t (1 : Fin 2) = 0
    ∧ win5_7.index t (0 : Fin 2) = 0
    ∧ win5_7.index t (1 : Fin 2) = 0
    ∧ win5_8.index t (0 : Fin 2) = t.val
    ∧ win5_8.index t (1 : Fin 2) = 0
    ∧ win5_9.index t (0 : Fin 2) = t.val
    ∧ win5_9.index t (1 : Fin 2) = 0 :=
  (by decide +kernel : ∀ t : Fin grid5.N, _)

/-- Row `y` of block `t` is a row of the array. -/
theorem row_lt5 (t : Fin cfg5.N) (y : Fin 5000) : t.val * 5000 + y.val < 50000 := by
  have ht : t.val < 10 := lt_of_lt_of_eq t.isLt (show cfg5.N = 10 from N_5); have := y.isLt; omega

/-- Each input block's element is the array's element at the block's offset. -/
theorem iblk5_0_apply (c : Dev nD) (t : Fin cfg5.N) (y : Fin 5000) (j : Fin 128) :
    Fr.iblk5 V c 0 t (ix2 y j) = V c main_v70 (ix2 ⟨t.val * 5000 + y.val, row_lt5 t y⟩ j) := by
  obtain ⟨e0_0, e0_1, e1_0, e1_1, e2_0, e2_1, e3_0, e3_1, e4_0, e4_1, e5_0, e5_1, e6_0, e6_1, e7_0, e7_1, e8_0, e8_1, e9_0, e9_1⟩ := idx5 t
  show V c main_v70 (((cfg5.win 0).blk t).view.emb (ix2 y j)) = V c main_v70 _
  refine congrArg (V c main_v70) (funext fun a => Fin.ext ?_)
  match a with
  | ⟨0, _⟩ => show win5_0.index t (0 : Fin 2) * 5000 + 1 * y.val = t.val * 5000 + y.val; rw [e0_0]; omega
  | ⟨1, _⟩ => show win5_0.index t (1 : Fin 2) * 128 + 1 * j.val = j.val; rw [e0_1]; omega
theorem iblk5_1_apply (c : Dev nD) (t : Fin cfg5.N) (y : Fin 5000) (j : Fin 128) :
    Fr.iblk5 V c 1 t (ix2 y j) = V c main_v57 (ix2 ⟨t.val * 5000 + y.val, row_lt5 t y⟩ j) := by
  obtain ⟨e0_0, e0_1, e1_0, e1_1, e2_0, e2_1, e3_0, e3_1, e4_0, e4_1, e5_0, e5_1, e6_0, e6_1, e7_0, e7_1, e8_0, e8_1, e9_0, e9_1⟩ := idx5 t
  show V c main_v57 (((cfg5.win 1).blk t).view.emb (ix2 y j)) = V c main_v57 _
  refine congrArg (V c main_v57) (funext fun a => Fin.ext ?_)
  match a with
  | ⟨0, _⟩ => show win5_1.index t (0 : Fin 2) * 5000 + 1 * y.val = t.val * 5000 + y.val; rw [e1_0]; omega
  | ⟨1, _⟩ => show win5_1.index t (1 : Fin 2) * 128 + 1 * j.val = j.val; rw [e1_1]; omega
theorem iblk5_2_apply (c : Dev nD) (t : Fin cfg5.N) (y : Fin 5000) :
    Fr.iblk5 V c 2 t (ix2 y (0 : Fin 1)) = V c main_v27 (ix2 ⟨t.val * 5000 + y.val, row_lt5 t y⟩ (0 : Fin 1)) := by
  obtain ⟨e0_0, e0_1, e1_0, e1_1, e2_0, e2_1, e3_0, e3_1, e4_0, e4_1, e5_0, e5_1, e6_0, e6_1, e7_0, e7_1, e8_0, e8_1, e9_0, e9_1⟩ := idx5 t
  show V c main_v27 (((cfg5.win 2).blk t).view.emb (ix2 y (0 : Fin 1))) = V c main_v27 _
  refine congrArg (V c main_v27) (funext fun a => Fin.ext ?_)
  match a with
  | ⟨0, _⟩ => show win5_2.index t (0 : Fin 2) * 5000 + 1 * y.val = t.val * 5000 + y.val; rw [e2_0]; omega
  | ⟨1, _⟩ => show win5_2.index t (1 : Fin 2) * 1 + 1 * 0 = 0; rw [e2_1]
theorem iblk5_3_apply (c : Dev nD) (t : Fin cfg5.N) (j : Fin 128) :
    Fr.iblk5 V c 3 t (ix2 (0 : Fin 1) j) = V c main_v73 (ix2 (0 : Fin 1) j) := by
  obtain ⟨e0_0, e0_1, e1_0, e1_1, e2_0, e2_1, e3_0, e3_1, e4_0, e4_1, e5_0, e5_1, e6_0, e6_1, e7_0, e7_1, e8_0, e8_1, e9_0, e9_1⟩ := idx5 t
  show V c main_v73 (((cfg5.win 3).blk t).view.emb (ix2 (0 : Fin 1) j)) = V c main_v73 _
  refine congrArg (V c main_v73) (funext fun a => Fin.ext ?_)
  match a with
  | ⟨0, _⟩ => show win5_3.index t (0 : Fin 2) * 1 + 1 * 0 = 0; rw [e3_0]
  | ⟨1, _⟩ => show win5_3.index t (1 : Fin 2) * 128 + 1 * j.val = j.val; rw [e3_1]; omega
theorem iblk5_4_apply (c : Dev nD) (t : Fin cfg5.N) (j : Fin 128) :
    Fr.iblk5 V c 4 t (ix2 (0 : Fin 1) j) = V c main_v74_0 (ix2 (0 : Fin 1) j) := by
  obtain ⟨e0_0, e0_1, e1_0, e1_1, e2_0, e2_1, e3_0, e3_1, e4_0, e4_1, e5_0, e5_1, e6_0, e6_1, e7_0, e7_1, e8_0, e8_1, e9_0, e9_1⟩ := idx5 t
  show V c main_v74_0 (((cfg5.win 4).blk t).view.emb (ix2 (0 : Fin 1) j)) = V c main_v74_0 _
  refine congrArg (V c main_v74_0) (funext fun a => Fin.ext ?_)
  match a with
  | ⟨0, _⟩ => show win5_4.index t (0 : Fin 2) * 1 + 1 * 0 = 0; rw [e4_0]
  | ⟨1, _⟩ => show win5_4.index t (1 : Fin 2) * 128 + 1 * j.val = j.val; rw [e4_1]; omega
theorem iblk5_5_apply (c : Dev nD) (t : Fin cfg5.N) (j : Fin 128) :
    Fr.iblk5 V c 5 t (ix2 (0 : Fin 1) j) = V c main_v74_1 (ix2 (0 : Fin 1) j) := by
  obtain ⟨e0_0, e0_1, e1_0, e1_1, e2_0, e2_1, e3_0, e3_1, e4_0, e4_1, e5_0, e5_1, e6_0, e6_1, e7_0, e7_1, e8_0, e8_1, e9_0, e9_1⟩ := idx5 t
  show V c main_v74_1 (((cfg5.win 5).blk t).view.emb (ix2 (0 : Fin 1) j)) = V c main_v74_1 _
  refine congrArg (V c main_v74_1) (funext fun a => Fin.ext ?_)
  match a with
  | ⟨0, _⟩ => show win5_5.index t (0 : Fin 2) * 1 + 1 * 0 = 0; rw [e5_0]
  | ⟨1, _⟩ => show win5_5.index t (1 : Fin 2) * 128 + 1 * j.val = j.val; rw [e5_1]; omega
theorem iblk5_6_apply (c : Dev nD) (t : Fin cfg5.N) (j : Fin 128) :
    Fr.iblk5 V c 6 t (ix2 (0 : Fin 1) j) = V c main_v77 (ix2 (0 : Fin 1) j) := by
  obtain ⟨e0_0, e0_1, e1_0, e1_1, e2_0, e2_1, e3_0, e3_1, e4_0, e4_1, e5_0, e5_1, e6_0, e6_1, e7_0, e7_1, e8_0, e8_1, e9_0, e9_1⟩ := idx5 t
  show V c main_v77 (((cfg5.win 6).blk t).view.emb (ix2 (0 : Fin 1) j)) = V c main_v77 _
  refine congrArg (V c main_v77) (funext fun a => Fin.ext ?_)
  match a with
  | ⟨0, _⟩ => show win5_6.index t (0 : Fin 2) * 1 + 1 * 0 = 0; rw [e6_0]
  | ⟨1, _⟩ => show win5_6.index t (1 : Fin 2) * 128 + 1 * j.val = j.val; rw [e6_1]; omega
theorem iblk5_7_apply (c : Dev nD) (t : Fin cfg5.N) (j : Fin 128) :
    Fr.iblk5 V c 7 t (ix2 (0 : Fin 1) j) = V c main_v80 (ix2 (0 : Fin 1) j) := by
  obtain ⟨e0_0, e0_1, e1_0, e1_1, e2_0, e2_1, e3_0, e3_1, e4_0, e4_1, e5_0, e5_1, e6_0, e6_1, e7_0, e7_1, e8_0, e8_1, e9_0, e9_1⟩ := idx5 t
  show V c main_v80 (((cfg5.win 7).blk t).view.emb (ix2 (0 : Fin 1) j)) = V c main_v80 _
  refine congrArg (V c main_v80) (funext fun a => Fin.ext ?_)
  match a with
  | ⟨0, _⟩ => show win5_7.index t (0 : Fin 2) * 1 + 1 * 0 = 0; rw [e7_0]
  | ⟨1, _⟩ => show win5_7.index t (1 : Fin 2) * 128 + 1 * j.val = j.val; rw [e7_1]; omega
theorem iblk5_8_apply (c : Dev nD) (t : Fin cfg5.N) (y : Fin 5000) (j : Fin 128) :
    Fr.iblk5 V c 8 t (ix2 y j) = V c main_v54 (ix2 ⟨t.val * 5000 + y.val, row_lt5 t y⟩ j) := by
  obtain ⟨e0_0, e0_1, e1_0, e1_1, e2_0, e2_1, e3_0, e3_1, e4_0, e4_1, e5_0, e5_1, e6_0, e6_1, e7_0, e7_1, e8_0, e8_1, e9_0, e9_1⟩ := idx5 t
  show V c main_v54 (((cfg5.win 8).blk t).view.emb (ix2 y j)) = V c main_v54 _
  refine congrArg (V c main_v54) (funext fun a => Fin.ext ?_)
  match a with
  | ⟨0, _⟩ => show win5_8.index t (0 : Fin 2) * 5000 + 1 * y.val = t.val * 5000 + y.val; rw [e8_0]; omega
  | ⟨1, _⟩ => show win5_8.index t (1 : Fin 2) * 128 + 1 * j.val = j.val; rw [e8_1]; omega

/-- The layer's value before normalisation, from the four arrays the region reads as it finds them. -/
abbrev Fn5 (c : Dev nD) : Fin 50000 → Fin 128 → EReal :=
  Cert.Spec.full (fun r j => V c main_v70 (ix2 r j)) (fun r j => V c main_v57 (ix2 r j)) (fun r => V c main_v27 (ix2 r (0 : Fin 1))) (fun j => V c main_v73 (ix2 (0 : Fin 1) j))

/-- What the region leaves at row `r`, feature `j` of its output array. -/
def nv5 (c : Dev nD) (r : Fin 50000) (j : Fin 128) : EReal :=
  addRes (relu0 (nrm (V c main_v77 (ix2 (0 : Fin 1) j)) (Fn5 V c r j) (V c main_v74_0 (ix2 (0 : Fin 1) j)) (V c main_v74_1 (ix2 (0 : Fin 1) j)) (V c main_v80 (ix2 (0 : Fin 1) j)))) (V c main_v54 (ix2 r j))

/-- The output array as one function of its index. -/
def Gn5 (c : Dev nD) : S50000x128.Idx → EReal := fun i => nv5 V c (i 0) (i 1)

/-- WHAT POINT `t` WRITES BACK is block `t` of that function. -/
theorem flushed5_9 (c : Dev nD) (t : Fin cfg5.N) :
    (Fr.dat5 V c).flushed 9 t = ((cfg5.win 9).blk t).view.read (Elt Ideal) (Gn5 V c) := by
  show (cfg5.win 9).cut (grid5.coords t) ((Fr.dat5 V c).after 9 t) = _
  rw [Fr.after5_9]
  funext y
  obtain ⟨p, q, rfl⟩ : ∃ (p : Fin 5000) (q : Fin 128), y = ix2 p q := ⟨y 0, y 1, eq_ix2 y⟩
  have hemb : ((cfg5.win 9).blk t).view.emb (ix2 p q) = ix2 ⟨t.val * 5000 + p.val, row_lt5 t p⟩ q := by
    obtain ⟨e0_0, e0_1, e1_0, e1_1, e2_0, e2_1, e3_0, e3_1, e4_0, e4_1, e5_0, e5_1, e6_0, e6_1, e7_0, e7_1, e8_0, e8_1, e9_0, e9_1⟩ := idx5 t
    funext a; apply Fin.ext
    match a with
    | ⟨0, _⟩ => show win5_9.index t (0 : Fin 2) * 5000 + 1 * p.val = t.val * 5000 + p.val; rw [e9_0]; omega
    | ⟨1, _⟩ => show win5_9.index t (1 : Fin 2) * 128 + 1 * q.val = q.val; rw [e9_1]; omega
  show Fr.out5_9 (Fr.iblk5 V c 0 t) (Fr.iblk5 V c 1 t) (Fr.iblk5 V c 2 t) (Fr.iblk5 V c 3 t) (Fr.iblk5 V c 4 t) (Fr.iblk5 V c 5 t) (Fr.iblk5 V c 6 t) (Fr.iblk5 V c 7 t) (Fr.iblk5 V c 8 t) (ix2 p q)
    = Gn5 V c (((cfg5.win 9).blk t).view.emb (ix2 p q))
  rw [hemb, out5_9_apply, iblk5_0_apply, iblk5_1_apply, iblk5_2_apply, iblk5_3_apply, iblk5_4_apply, iblk5_5_apply, iblk5_6_apply, iblk5_7_apply, iblk5_8_apply]
  rfl

/-- Every row lies in the block of the point its row number divided by 5000 names. -/
theorem cover5_9 (i : S50000x128.Idx) : ∃ t : Fin cfg5.N, (cfg5.win 9).flush t = true ∧ i ∈ ((cfg5.win 9).blk t).view.set := by
  have hi0 : (i 0).val < 50000 := idx2_lt0 i
  have hi1 : (i 1).val < 128 := idx2_lt1 i
  let t : Fin cfg5.N := ⟨(i 0).val / 5000, lt_of_lt_of_eq (by omega : (i 0).val / 5000 < 10) (show cfg5.N = 10 from N_5).symm⟩
  have htv : t.val = (i 0).val / 5000 := rfl
  refine ⟨t, flush5_9 t, ?_⟩
  obtain ⟨e0_0, e0_1, e1_0, e1_1, e2_0, e2_1, e3_0, e3_1, e4_0, e4_1, e5_0, e5_1, e6_0, e6_1, e7_0, e7_1, e8_0, e8_1, e9_0, e9_1⟩ := idx5 t
  show i ∈ ((View.whole main_v81).slice (win5_9.rect t)).set
  rw [View.set_slice_whole, Rect.mem_set_unit]
  intro a
  match a with
  | ⟨0, _⟩ => show win5_9.index t (0 : Fin 2) * 5000 ≤ (i 0).val ∧ (i 0).val < win5_9.index t (0 : Fin 2) * 5000 + 5000; rw [e9_0, htv]; omega
  | ⟨1, _⟩ => show win5_9.index t (1 : Fin 2) * 128 ≤ (i 1).val ∧ (i 1).val < win5_9.index t (1 : Fin 2) * 128 + 128; rw [e9_1]; omega

/-- The output array after the region. -/
theorem final5_9 (c : Dev nD) : (Fr.dat5 V c).arrAt 9 cfg5.N = Gn5 V c :=
  (Fr.dat5 V c).arrAt_eq_of_cover 9 _ (fun t _ => flushed5_9 V c t) cover5_9

/-- THE NORMALISED VALUE: after region 5 its output array holds, at row `r` and feature `j`, the layer's value minus the
    feature's mean, times the inverse deviation and the scale, plus the shift, rectified, plus the residual. -/
theorem norm5_apply (c : Dev nD) (r : Fin 50000) (j : Fin 128) :
    (Fr.dat5 V c).arrAt 9 cfg5.N (ix2 r j) = addRes (relu0 (nrm (V c main_v77 (ix2 (0 : Fin 1) j)) (Fn5 V c r j) (V c main_v74_0 (ix2 (0 : Fin 1) j)) (V c main_v74_1 (ix2 (0 : Fin 1) j)) (V c main_v80 (ix2 (0 : Fin 1) j)))) (V c main_v54 (ix2 r j)) := by
  rw [final5_9]; rfl

end Region5

/-! # Region 8: the normalising kernel's payload at an index, at the ideal values -/

/-- The stored value at row `y`, lane `j` of a block: the scale times the deviation from the mean times the inverse
    deviation, plus the shift, plus the residual. -/
theorem pay1_8 (x0 x1 : Vec Ideal S5000x128 .f32) (x2 : Vec Ideal S5000x1 .f32) (x3 x4 x5 x6 x7 : Vec Ideal S1x128 .f32) (x8 : Vec Ideal S5000x128 .f32) (y : Fin 5000) (j : Fin 128) :
    k8_pay1 (F := Ideal) x0 x2 x1 x3 x4 x5 x6 x7 x8 (ix2 y j) = x6 (ix2 0 j) * ((x0 (ix2 y j) + x2 (ix2 y 0) * x1 (ix2 y j) + x3 (ix2 0 j) - x4 (ix2 0 j)) * Ideal.rsqrt (x5 (ix2 0 j) + Cert.Spec.epsW)) + x7 (ix2 0 j) + x8 (ix2 y j) := by
  unfold k8_pay1
  simp only [shapeCast_self]
  exact congrArg₂ (· + ·) (congrArg₂ (· + ·)
      (congrArg₂ (· * ·) (broadcastTo_1b_ab_apply x6 _ y j)
        (congrArg₂ (· * ·)
          (congrArg₂ (· - ·)
            (congrArg₂ (· + ·) (congrArg₂ (· + ·) rfl (congrArg₂ (· * ·) (Cert.LibRowSum.broadcastTo_a1_ab_apply x2 _ y j) rfl)) (broadcastTo_1b_ab_apply x3 _ y j))
            (broadcastTo_1b_ab_apply x4 _ y j))
          (broadcastTo_1b_ab_apply _ _ y j)))
      (broadcastTo_1b_ab_apply x7 _ y j)) rfl

/-- The same of the output window's buffer after the body. -/
theorem out8_9_apply (x0 x1 : Vec Ideal S5000x128 .f32) (x2 : Vec Ideal S5000x1 .f32) (x3 x4 x5 x6 x7 : Vec Ideal S1x128 .f32) (x8 : Vec Ideal S5000x128 .f32) (y : Fin 5000) (j : Fin 128) :
    Fr.out8_9 (F := Ideal) x0 x1 x2 x3 x4 x5 x6 x7 x8 (ix2 y j) = x6 (ix2 0 j) * ((x0 (ix2 y j) + x2 (ix2 y 0) * x1 (ix2 y j) + x3 (ix2 0 j) - x4 (ix2 0 j)) * Ideal.rsqrt (x5 (ix2 0 j) + Cert.Spec.epsW)) + x7 (ix2 0 j) + x8 (ix2 y j) := by
  unfold Fr.out8_9
  rw [View.canon_unit_zero hzNm]
  simp only [View.ld_unit_zero (S := S5000x128) hzNm, View.ld_unit_zero (S := S5000x1) hzNm, View.ld_unit_zero (S := S1x128) hzNm]
  exact pay1_8 x0 x1 x2 x3 x4 x5 x6 x7 x8 y j

/-! # Region 8: the output array, element by element -/

section Region8
variable (V : (c : Dev nD) → (b : Ref sig .tc) → Buf (Elt Ideal) ((c : Thread nD τ).loc b))

/-- The printed index maps, decided over the grid: the tall windows' blocks (0, 1, 2, 8, 9) move down with the point,
    the row windows (3 … 7) stay at block zero. -/
theorem idx8 : ∀ t : Fin cfg8.N, win8_0.index t (0 : Fin 2) = t.val
    ∧ win8_0.index t (1 : Fin 2) = 0
    ∧ win8_1.index t (0 : Fin 2) = t.val
    ∧ win8_1.index t (1 : Fin 2) = 0
    ∧ win8_2.index t (0 : Fin 2) = t.val
    ∧ win8_2.index t (1 : Fin 2) = 0
    ∧ win8_3.index t (0 : Fin 2) = 0
    ∧ win8_3.index t (1 : Fin 2) = 0
    ∧ win8_4.index t (0 : Fin 2) = 0
    ∧ win8_4.index t (1 : Fin 2) = 0
    ∧ win8_5.index t (0 : Fin 2) = 0
    ∧ win8_5.index t (1 : Fin 2) = 0
    ∧ win8_6.index t (0 : Fin 2) = 0
    ∧ win8_6.index t (1 : Fin 2) = 0
    ∧ win8_7.index t (0 : Fin 2) = 0
    ∧ win8_7.index t (1 : Fin 2) = 0
    ∧ win8_8.index t (0 : Fin 2) = t.val
    ∧ win8_8.index t (1 : Fin 2) = 0
    ∧ win8_9.index t (0 : Fin 2) = t.val
    ∧ win8_9.index t (1 : Fin 2) = 0 :=
  (by decide +kernel : ∀ t : Fin grid8.N, _)

/-- Row `y` of block `t` is a row of the array. -/
theorem row_lt8 (t : Fin cfg8.N) (y : Fin 5000) : t.val * 5000 + y.val < 50000 := by
  have ht : t.val < 10 := lt_of_lt_of_eq t.isLt (show cfg8.N = 10 from N_8); have := y.isLt; omega

/-- Each input block's element is the array's element at the block's offset. -/
theorem iblk8_0_apply (c : Dev nD) (t : Fin cfg8.N) (y : Fin 5000) (j : Fin 128) :
    Fr.iblk8 V c 0 t (ix2 y j) = V c main_v97 (ix2 ⟨t.val * 5000 + y.val, row_lt8 t y⟩ j) := by
  obtain ⟨e0_0, e0_1, e1_0, e1_1, e2_0, e2_1, e3_0, e3_1, e4_0, e4_1, e5_0, e5_1, e6_0, e6_1, e7_0, e7_1, e8_0, e8_1, e9_0, e9_1⟩ := idx8 t
  show V c main_v97 (((cfg8.win 0).blk t).view.emb (ix2 y j)) = V c main_v97 _
  refine congrArg (V c main_v97) (funext fun a => Fin.ext ?_)
  match a with
  | ⟨0, _⟩ => show win8_0.index t (0 : Fin 2) * 5000 + 1 * y.val = t.val * 5000 + y.val; rw [e0_0]; omega
  | ⟨1, _⟩ => show win8_0.index t (1 : Fin 2) * 128 + 1 * j.val = j.val; rw [e0_1]; omega
theorem iblk8_1_apply (c : Dev nD) (t : Fin cfg8.N) (y : Fin 5000) (j : Fin 128) :
    Fr.iblk8 V c 1 t (ix2 y j) = V c main_v84 (ix2 ⟨t.val * 5000 + y.val, row_lt8 t y⟩ j) := by
  obtain ⟨e0_0, e0_1, e1_0, e1_1, e2_0, e2_1, e3_0, e3_1, e4_0, e4_1, e5_0, e5_1, e6_0, e6_1, e7_0, e7_1, e8_0, e8_1, e9_0, e9_1⟩ := idx8 t
  show V c main_v84 (((cfg8.win 1).blk t).view.emb (ix2 y j)) = V c main_v84 _
  refine congrArg (V c main_v84) (funext fun a => Fin.ext ?_)
  match a with
  | ⟨0, _⟩ => show win8_1.index t (0 : Fin 2) * 5000 + 1 * y.val = t.val * 5000 + y.val; rw [e1_0]; omega
  | ⟨1, _⟩ => show win8_1.index t (1 : Fin 2) * 128 + 1 * j.val = j.val; rw [e1_1]; omega
theorem iblk8_2_apply (c : Dev nD) (t : Fin cfg8.N) (y : Fin 5000) :
    Fr.iblk8 V c 2 t (ix2 y (0 : Fin 1)) = V c main_v27 (ix2 ⟨t.val * 5000 + y.val, row_lt8 t y⟩ (0 : Fin 1)) := by
  obtain ⟨e0_0, e0_1, e1_0, e1_1, e2_0, e2_1, e3_0, e3_1, e4_0, e4_1, e5_0, e5_1, e6_0, e6_1, e7_0, e7_1, e8_0, e8_1, e9_0, e9_1⟩ := idx8 t
  show V c main_v27 (((cfg8.win 2).blk t).view.emb (ix2 y (0 : Fin 1))) = V c main_v27 _
  refine congrArg (V c main_v27) (funext fun a => Fin.ext ?_)
  match a with
  | ⟨0, _⟩ => show win8_2.index t (0 : Fin 2) * 5000 + 1 * y.val = t.val * 5000 + y.val; rw [e2_0]; omega
  | ⟨1, _⟩ => show win8_2.index t (1 : Fin 2) * 1 + 1 * 0 = 0; rw [e2_1]
theorem iblk8_3_apply (c : Dev nD) (t : Fin cfg8.N) (j : Fin 128) :
    Fr.iblk8 V c 3 t (ix2 (0 : Fin 1) j) = V c main_v100 (ix2 (0 : Fin 1) j) := by
  obtain ⟨e0_0, e0_1, e1_0, e1_1, e2_0, e2_1, e3_0, e3_1, e4_0, e4_1, e5_0, e5_1, e6_0, e6_1, e7_0, e7_1, e8_0, e8_1, e9_0, e9_1⟩ := idx8 t
  show V c main_v100 (((cfg8.win 3).blk t).view.emb (ix2 (0 : Fin 1) j)) = V c main_v100 _
  refine congrArg (V c main_v100) (funext fun a => Fin.ext ?_)
  match a with
  | ⟨0, _⟩ => show win8_3.index t (0 : Fin 2) * 1 + 1 * 0 = 0; rw [e3_0]
  | ⟨1, _⟩ => show win8_3.index t (1 : Fin 2) * 128 + 1 * j.val = j.val; rw [e3_1]; omega
theorem iblk8_4_apply (c : Dev nD) (t : Fin cfg8.N) (j : Fin 128) :
    Fr.iblk8 V c 4 t (ix2 (0 : Fin 1) j) = V c main_v101_0 (ix2 (0 : Fin 1) j) := by
  obtain ⟨e0_0, e0_1, e1_0, e1_1, e2_0, e2_1, e3_0, e3_1, e4_0, e4_1, e5_0, e5_1, e6_0, e6_1, e7_0, e7_1, e8_0, e8_1, e9_0, e9_1⟩ := idx8 t
  show V c main_v101_0 (((cfg8.win 4).blk t).view.emb (ix2 (0 : Fin 1) j)) = V c main_v101_0 _
  refine congrArg (V c main_v101_0) (funext fun a => Fin.ext ?_)
  match a with
  | ⟨0, _⟩ => show win8_4.index t (0 : Fin 2) * 1 + 1 * 0 = 0; rw [e4_0]
  | ⟨1, _⟩ => show win8_4.index t (1 : Fin 2) * 128 + 1 * j.val = j.val; rw [e4_1]; omega
theorem iblk8_5_apply (c : Dev nD) (t : Fin cfg8.N) (j : Fin 128) :
    Fr.iblk8 V c 5 t (ix2 (0 : Fin 1) j) = V c main_v101_1 (ix2 (0 : Fin 1) j) := by
  obtain ⟨e0_0, e0_1, e1_0, e1_1, e2_0, e2_1, e3_0, e3_1, e4_0, e4_1, e5_0, e5_1, e6_0, e6_1, e7_0, e7_1, e8_0, e8_1, e9_0, e9_1⟩ := idx8 t
  show V c main_v101_1 (((cfg8.win 5).blk t).view.emb (ix2 (0 : Fin 1) j)) = V c main_v101_1 _
  refine congrArg (V c main_v101_1) (funext fun a => Fin.ext ?_)
  match a with
  | ⟨0, _⟩ => show win8_5.index t (0 : Fin 2) * 1 + 1 * 0 = 0; rw [e5_0]
  | ⟨1, _⟩ => show win8_5.index t (1 : Fin 2) * 128 + 1 * j.val = j.val; rw [e5_1]; omega
theorem iblk8_6_apply (c : Dev nD) (t : Fin cfg8.N) (j : Fin 128) :
    Fr.iblk8 V c 6 t (ix2 (0 : Fin 1) j) = V c main_v104 (ix2 (0 : Fin 1) j) := by
  obtain ⟨e0_0, e0_1, e1_0, e1_1, e2_0, e2_1, e3_0, e3_1, e4_0, e4_1, e5_0, e5_1, e6_0, e6_1, e7_0, e7_1, e8_0, e8_1, e9_0, e9_1⟩ := idx8 t
  show V c main_v104 (((cfg8.win 6).blk t).view.emb (ix2 (0 : Fin 1) j)) = V c main_v104 _
  refine congrArg (V c main_v104) (funext fun a => Fin.ext ?_)
  match a with
  | ⟨0, _⟩ => show win8_6.index t (0 : Fin 2) * 1 + 1 * 0 = 0; rw [e6_0]
  | ⟨1, _⟩ => show win8_6.index t (1 : Fin 2) * 128 + 1 * j.val = j.val; rw [e6_1]; omega
theorem iblk8_7_apply (c : Dev nD) (t : Fin cfg8.N) (j : Fin 128) :
    Fr.iblk8 V c 7 t (ix2 (0 : Fin 1) j) = V c main_v107 (ix2 (0 : Fin 1) j) := by
  obtain ⟨e0_0, e0_1, e1_0, e1_1, e2_0, e2_1, e3_0, e3_1, e4_0, e4_1, e5_0, e5_1, e6_0, e6_1, e7_0, e7_1, e8_0, e8_1, e9_0, e9_1⟩ := idx8 t
  show V c main_v107 (((cfg8.win 7).blk t).view.emb (ix2 (0 : Fin 1) j)) = V c main_v107 _
  refine congrArg (V c main_v107) (funext fun a => Fin.ext ?_)
  match a with
  | ⟨0, _⟩ => show win8_7.index t (0 : Fin 2) * 1 + 1 * 0 = 0; rw [e7_0]
  | ⟨1, _⟩ => show win8_7.index t (1 : Fin 2) * 128 + 1 * j.val = j.val; rw [e7_1]; omega
theorem iblk8_8_apply (c : Dev nD) (t : Fin cfg8.N) (y : Fin 5000) (j : Fin 128) :
    Fr.iblk8 V c 8 t (ix2 y j) = V c main_v81 (ix2 ⟨t.val * 5000 + y.val, row_lt8 t y⟩ j) := by
  obtain ⟨e0_0, e0_1, e1_0, e1_1, e2_0, e2_1, e3_0, e3_1, e4_0, e4_1, e5_0, e5_1, e6_0, e6_1, e7_0, e7_1, e8_0, e8_1, e9_0, e9_1⟩ := idx8 t
  show V c main_v81 (((cfg8.win 8).blk t).view.emb (ix2 y j)) = V c main_v81 _
  refine congrArg (V c main_v81) (funext fun a => Fin.ext ?_)
  match a with
  | ⟨0, _⟩ => show win8_8.index t (0 : Fin 2) * 5000 + 1 * y.val = t.val * 5000 + y.val; rw [e8_0]; omega
  | ⟨1, _⟩ => show win8_8.index t (1 : Fin 2) * 128 + 1 * j.val = j.val; rw [e8_1]; omega

/-- The layer's value before normalisation, from the four arrays the region reads as it finds them. -/
abbrev Fn8 (c : Dev nD) : Fin 50000 → Fin 128 → EReal :=
  Cert.Spec.full (fun r j => V c main_v97 (ix2 r j)) (fun r j => V c main_v84 (ix2 r j)) (fun r => V c main_v27 (ix2 r (0 : Fin 1))) (fun j => V c main_v100 (ix2 (0 : Fin 1) j))

/-- What the region leaves at row `r`, feature `j` of its output array. -/
def nv8 (c : Dev nD) (r : Fin 50000) (j : Fin 128) : EReal :=
  addRes (nrm (V c main_v104 (ix2 (0 : Fin 1) j)) (Fn8 V c r j) (V c main_v101_0 (ix2 (0 : Fin 1) j)) (V c main_v101_1 (ix2 (0 : Fin 1) j)) (V c main_v107 (ix2 (0 : Fin 1) j))) (V c main_v81 (ix2 r j))

/-- The output array as one function of its index. -/
def Gn8 (c : Dev nD) : S50000x128.Idx → EReal := fun i => nv8 V c (i 0) (i 1)

/-- WHAT POINT `t` WRITES BACK is block `t` of that function. -/
theorem flushed8_9 (c : Dev nD) (t : Fin cfg8.N) :
    (Fr.dat8 V c).flushed 9 t = ((cfg8.win 9).blk t).view.read (Elt Ideal) (Gn8 V c) := by
  show (cfg8.win 9).cut (grid8.coords t) ((Fr.dat8 V c).after 9 t) = _
  rw [Fr.after8_9]
  funext y
  obtain ⟨p, q, rfl⟩ : ∃ (p : Fin 5000) (q : Fin 128), y = ix2 p q := ⟨y 0, y 1, eq_ix2 y⟩
  have hemb : ((cfg8.win 9).blk t).view.emb (ix2 p q) = ix2 ⟨t.val * 5000 + p.val, row_lt8 t p⟩ q := by
    obtain ⟨e0_0, e0_1, e1_0, e1_1, e2_0, e2_1, e3_0, e3_1, e4_0, e4_1, e5_0, e5_1, e6_0, e6_1, e7_0, e7_1, e8_0, e8_1, e9_0, e9_1⟩ := idx8 t
    funext a; apply Fin.ext
    match a with
    | ⟨0, _⟩ => show win8_9.index t (0 : Fin 2) * 5000 + 1 * p.val = t.val * 5000 + p.val; rw [e9_0]; omega
    | ⟨1, _⟩ => show win8_9.index t (1 : Fin 2) * 128 + 1 * q.val = q.val; rw [e9_1]; omega
  show Fr.out8_9 (Fr.iblk8 V c 0 t) (Fr.iblk8 V c 1 t) (Fr.iblk8 V c 2 t) (Fr.iblk8 V c 3 t) (Fr.iblk8 V c 4 t) (Fr.iblk8 V c 5 t) (Fr.iblk8 V c 6 t) (Fr.iblk8 V c 7 t) (Fr.iblk8 V c 8 t) (ix2 p q)
    = Gn8 V c (((cfg8.win 9).blk t).view.emb (ix2 p q))
  rw [hemb, out8_9_apply, iblk8_0_apply, iblk8_1_apply, iblk8_2_apply, iblk8_3_apply, iblk8_4_apply, iblk8_5_apply, iblk8_6_apply, iblk8_7_apply, iblk8_8_apply]
  rfl

/-- Every row lies in the block of the point its row number divided by 5000 names. -/
theorem cover8_9 (i : S50000x128.Idx) : ∃ t : Fin cfg8.N, (cfg8.win 9).flush t = true ∧ i ∈ ((cfg8.win 9).blk t).view.set := by
  have hi0 : (i 0).val < 50000 := idx2_lt0 i
  have hi1 : (i 1).val < 128 := idx2_lt1 i
  let t : Fin cfg8.N := ⟨(i 0).val / 5000, lt_of_lt_of_eq (by omega : (i 0).val / 5000 < 10) (show cfg8.N = 10 from N_8).symm⟩
  have htv : t.val = (i 0).val / 5000 := rfl
  refine ⟨t, flush8_9 t, ?_⟩
  obtain ⟨e0_0, e0_1, e1_0, e1_1, e2_0, e2_1, e3_0, e3_1, e4_0, e4_1, e5_0, e5_1, e6_0, e6_1, e7_0, e7_1, e8_0, e8_1, e9_0, e9_1⟩ := idx8 t
  show i ∈ ((View.whole main_v108).slice (win8_9.rect t)).set
  rw [View.set_slice_whole, Rect.mem_set_unit]
  intro a
  match a with
  | ⟨0, _⟩ => show win8_9.index t (0 : Fin 2) * 5000 ≤ (i 0).val ∧ (i 0).val < win8_9.index t (0 : Fin 2) * 5000 + 5000; rw [e9_0, htv]; omega
  | ⟨1, _⟩ => show win8_9.index t (1 : Fin 2) * 128 ≤ (i 1).val ∧ (i 1).val < win8_9.index t (1 : Fin 2) * 128 + 128; rw [e9_1]; omega

/-- The output array after the region. -/
theorem final8_9 (c : Dev nD) : (Fr.dat8 V c).arrAt 9 cfg8.N = Gn8 V c :=
  (Fr.dat8 V c).arrAt_eq_of_cover 9 _ (fun t _ => flushed8_9 V c t) cover8_9

/-- THE NORMALISED VALUE: after region 8 its output array holds, at row `r` and feature `j`, the layer's value minus the
    feature's mean, times the inverse deviation and the scale, plus the shift, plus the residual. -/
theorem norm8_apply (c : Dev nD) (r : Fin 50000) (j : Fin 128) :
    (Fr.dat8 V c).arrAt 9 cfg8.N (ix2 r j) = addRes (nrm (V c main_v104 (ix2 (0 : Fin 1) j)) (Fn8 V c r j) (V c main_v101_0 (ix2 (0 : Fin 1) j)) (V c main_v101_1 (ix2 (0 : Fin 1) j)) (V c main_v107 (ix2 (0 : Fin 1) j))) (V c main_v81 (ix2 r j)) := by
  rw [final8_9]; rfl

end Region8

end Cert.KernelIdeal.Val

end
-- ==== Proof.ValStats.lean ====
/- The value of the three BatchNorm-statistics regions (custom_calls 1, 4, 7) at the ideal values: after a region its two
   output arrays hold, feature by feature, the mean over the 50000 nodes of the layer's value
   f r j = agg r j + s r · h r j + b j  and its one-pass variance (the second moment minus the squared mean).
   Each of the ten grid points adds to the two accumulators the column sums, over its block of 5000 rows, of f and of f·f;
   ten blocks of 5000 rows are the 50000 rows; the last point divides by the node count and stores, and its block is the
   whole output array. -/
import proofs.«135670_j59253368815959_1_alg».proof.Proof.FrStats
import proofs.«135670_j59253368815959_1_alg».proof.Proof.Spec
import proofs.«135670_j59253368815959_1_alg».proof.Proof.LibColSum
import proofs.«135670_j59253368815959_1_alg».proof.Proof.LibBlockSum
import proofs.«135670_j59253368815959_1_alg».proof.Proof.LibRowBias
import proofs.«135670_j59253368815959_1_alg».proof.Proof.LibRowSum
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

/-- The whole-buffer rectangles start at the origin. -/
theorem hzSt : (![0, 0] : Fin 2 → Nat) = fun _ => 0 := funext fun a => by fin_cases a <;> rfl

/-! # Region 1: the payloads of the statistics kernel at an index, at the ideal values -/

/-- The value the kernel sums: the aggregate block plus the self-loop column times the feature block plus the bias row. -/
theorem pay5_1 (x0 x1 : Vec Ideal S5000x128 .f32) (x2 : Vec Ideal S5000x1 .f32) (x3 : Vec Ideal S1x128 .f32) (y : Fin 5000) (j : Fin 128) :
    k1_pay5 (F := Ideal) x0 x2 x1 x3 (ix2 y j) = x0 (ix2 y j) + x2 (ix2 y 0) * x1 (ix2 y j) + x3 (ix2 0 j) := by
  unfold k1_pay5
  simp only [shapeCast_self]
  exact congrArg₂ (· + ·) (congrArg₂ (· + ·) rfl (congrArg₂ (· * ·) (Cert.LibRowSum.broadcastTo_a1_ab_apply x2 _ y j) rfl)) (broadcastTo_1b_ab_apply x3 _ y j)

/-- The sum accumulator after a point: what it held plus the block's column sum. -/
theorem accS1_apply (x0 x1 : Vec Ideal S5000x128 .f32) (x2 : Vec Ideal S5000x1 .f32) (x3 s : Vec Ideal S1x128 .f32) (j : Fin 128) :
    Fr.accS1 (F := Ideal) x0 x1 x2 x3 s (ix2 0 j)
      = s (ix2 0 j) + ∑ y : Fin 5000, (x0 (ix2 y j) + x2 (ix2 y 0) * x1 (ix2 y j) + x3 (ix2 0 j)) := by
  unfold Fr.accS1
  rw [View.canon_unit_zero hzSt]
  simp only [View.ld_unit_zero (S := S5000x128) hzSt, View.ld_unit_zero (S := S5000x1) hzSt, View.ld_unit_zero (S := S1x128) hzSt]
  unfold k1_pay6
  simp only [shapeCast_self]
  refine congrArg₂ (· + ·) rfl ?_
  refine (shapeCast_a_1a_apply _ _ 0 j).trans ?_
  refine (Cert.LibColSum.multiReduction_row_apply _ _ _ _ _ j).trans ?_
  exact Finset.sum_congr rfl fun y _ => pay5_1 x0 x1 x2 x3 y j

/-- The sum-of-squares accumulator after a point: what it held plus the block's column sum of squares. -/
theorem accQ1_apply (x0 x1 : Vec Ideal S5000x128 .f32) (x2 : Vec Ideal S5000x1 .f32) (x3 q : Vec Ideal S1x128 .f32) (j : Fin 128) :
    Fr.accQ1 (F := Ideal) x0 x1 x2 x3 q (ix2 0 j)
      = q (ix2 0 j) + ∑ y : Fin 5000, ((x0 (ix2 y j) + x2 (ix2 y 0) * x1 (ix2 y j) + x3 (ix2 0 j)) * (x0 (ix2 y j) + x2 (ix2 y 0) * x1 (ix2 y j) + x3 (ix2 0 j))) := by
  unfold Fr.accQ1
  rw [View.canon_unit_zero hzSt]
  simp only [View.ld_unit_zero (S := S5000x128) hzSt, View.ld_unit_zero (S := S5000x1) hzSt, View.ld_unit_zero (S := S1x128) hzSt]
  unfold k1_pay7
  simp only [shapeCast_self]
  refine congrArg₂ (· + ·) rfl ?_
  refine (shapeCast_a_1a_apply _ _ 0 j).trans ?_
  refine (Cert.LibColSum.multiReduction_row_apply _ _ _ _ _ j).trans ?_
  exact Finset.sum_congr rfl fun y _ => congrArg₂ (· * ·) (pay5_1 x0 x1 x2 x3 y j) (pay5_1 x0 x1 x2 x3 y j)

/-- The zeroed accumulators hold zero. -/
theorem zS1_apply (i : S1x128.Idx) : Fr.zS1 (F := Ideal) i = 0 := by
  unfold Fr.zS1
  rw [View.canon_unit_zero hzSt]
  unfold k1_pay3
  simp only [shapeCast_self]
  exact Ideal.ofBits_zero_f32
theorem zQ1_apply (i : S1x128.Idx) : Fr.zQ1 (F := Ideal) i = 0 := by
  unfold Fr.zQ1
  rw [View.canon_unit_zero hzSt]
  unfold k1_pay4
  simp only [shapeCast_self]
  exact Ideal.ofBits_zero_f32

/-- The mean the last point stores: the sum over the count. -/
theorem out1_4_apply (s : Vec Ideal S1x128 .f32) (i : S1x128.Idx) :
    Fr.out1_4 (F := Ideal) s i = Ideal.div (s i) Cert.Spec.nW := by
  unfold Fr.out1_4
  rw [View.canon_unit_zero hzSt]
  simp only [View.ld_unit_zero (S := S1x128) hzSt]
  rfl

/-- The variance the last point stores: the second moment minus the squared mean. -/
theorem out1_5_apply (s q : Vec Ideal S1x128 .f32) (i : S1x128.Idx) :
    Fr.out1_5 (F := Ideal) s q i = Ideal.div (q i) Cert.Spec.nW - Ideal.div (s i) Cert.Spec.nW * Ideal.div (s i) Cert.Spec.nW := by
  unfold Fr.out1_5
  rw [View.canon_unit_zero hzSt]
  simp only [View.ld_unit_zero (S := S1x128) hzSt]
  rfl

/-! # Region 1: the two output arrays as the mean and the one-pass variance of the layer's value -/

section Region1
variable (V : (c : Dev nD) → (b : Ref sig .tc) → Buf (Elt Ideal) ((c : Thread nD τ).loc b))

/-- The printed index maps, decided over the grid: the three tall inputs' blocks move down with the point, the bias
    row and the two outputs stay at block zero. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

/-- Row `y` of block `t` is a row of the array. -/
theorem row_lt1 (t : Fin cfg1.N) (y : Fin 5000) : t.val * 5000 + y.val < 50000 := by
  have ht : t.val < 10 := lt_of_lt_of_eq t.isLt (show cfg1.N = 10 from N_1); have := y.isLt; omega

/-- Each input block's element is the array's element at the block's offset. -/
theorem iblk1_0_apply (c : Dev nD) (t : Fin cfg1.N) (y : Fin 5000) (j : Fin 128) :
    Fr.iblk1 V c 0 t (ix2 y j) = V c main_v43 (ix2 ⟨t.val * 5000 + y.val, row_lt1 t y⟩ j) := by
  obtain ⟨e0, e1, -⟩ := idx1 t
  show V c main_v43 (((cfg1.win 0).blk t).view.emb (ix2 y j)) = V c main_v43 _
  refine congrArg (V c main_v43) (funext fun a => Fin.ext ?_)
  match a with
  | ⟨0, _⟩ => show win1_0.index t (0 : Fin 2) * 5000 + 1 * y.val = t.val * 5000 + y.val; rw [e0]; omega
  | ⟨1, _⟩ => show win1_0.index t (1 : Fin 2) * 128 + 1 * j.val = j.val; rw [e1]; omega
theorem iblk1_1_apply (c : Dev nD) (t : Fin cfg1.N) (y : Fin 5000) (j : Fin 128) :
    Fr.iblk1 V c 1 t (ix2 y j) = V c main_v30 (ix2 ⟨t.val * 5000 + y.val, row_lt1 t y⟩ j) := by
  obtain ⟨-, -, e0, e1, -⟩ := idx1 t
  show V c main_v30 (((cfg1.win 1).blk t).view.emb (ix2 y j)) = V c main_v30 _
  refine congrArg (V c main_v30) (funext fun a => Fin.ext ?_)
  match a with
  | ⟨0, _⟩ => show win1_1.index t (0 : Fin 2) * 5000 + 1 * y.val = t.val * 5000 + y.val; rw [e0]; omega
  | ⟨1, _⟩ => show win1_1.index t (1 : Fin 2) * 128 + 1 * j.val = j.val; rw [e1]; omega
theorem iblk1_2_apply (c : Dev nD) (t : Fin cfg1.N) (y : Fin 5000) :
    Fr.iblk1 V c 2 t (ix2 y (0 : Fin 1)) = V c main_v27 (ix2 ⟨t.val * 5000 + y.val, row_lt1 t y⟩ (0 : Fin 1)) := by
  obtain ⟨-, -, -, -, e0, e1, -⟩ := idx1 t
  show V c main_v27 (((cfg1.win 2).blk t).view.emb (ix2 y (0 : Fin 1))) = V c main_v27 _
  refine congrArg (V c main_v27) (funext fun a => Fin.ext ?_)
  match a with
  | ⟨0, _⟩ => show win1_2.index t (0 : Fin 2) * 5000 + 1 * y.val = t.val * 5000 + y.val; rw [e0]; omega
  | ⟨1, _⟩ => show win1_2.index t (1 : Fin 2) * 1 + 1 * 0 = 0; rw [e1]
theorem iblk1_3_apply (c : Dev nD) (t : Fin cfg1.N) (j : Fin 128) :
    Fr.iblk1 V c 3 t (ix2 (0 : Fin 1) j) = V c main_v46 (ix2 (0 : Fin 1) j) := by
  obtain ⟨-, -, -, -, -, -, e0, e1, -⟩ := idx1 t
  show V c main_v46 (((cfg1.win 3).blk t).view.emb (ix2 (0 : Fin 1) j)) = V c main_v46 _
  refine congrArg (V c main_v46) (funext fun a => Fin.ext ?_)
  match a with
  | ⟨0, _⟩ => show win1_3.index t (0 : Fin 2) * 1 + 1 * 0 = 0; rw [e0]
  | ⟨1, _⟩ => show win1_3.index t (1 : Fin 2) * 128 + 1 * j.val = j.val; rw [e1]; omega

/-- The layer's value before normalisation, from the four arrays the region reads as it finds them: the aggregate, the
    transformed features, the self-loop weights (a column) and the bias (a row). -/
abbrev Fk1 (c : Dev nD) : Fin 50000 → Fin 128 → EReal :=
  Cert.Spec.full (fun r j => V c main_v43 (ix2 r j)) (fun r j => V c main_v30 (ix2 r j)) (fun r => V c main_v27 (ix2 r (0 : Fin 1))) (fun j => V c main_v46 (ix2 (0 : Fin 1) j))

/-- One point adds its block's column sums to the accumulators. -/
theorem accS1_step (c : Dev nD) (t : Fin cfg1.N) (j : Fin 128) :
    (Fr.acc1 V c (t.val + 1)).1 (ix2 0 j)
      = (Fr.acc1 V c t.val).1 (ix2 0 j) + ∑ y : Fin 5000, Fk1 V c ⟨t.val * 5000 + y.val, row_lt1 t y⟩ j := by
  rw [Fr.acc1_succ_fst V c t, accS1_apply]
  refine congrArg₂ (· + ·) rfl (Finset.sum_congr rfl fun y _ => ?_)
  rw [iblk1_0_apply, iblk1_1_apply, iblk1_2_apply, iblk1_3_apply]
  rfl
theorem accQ1_step (c : Dev nD) (t : Fin cfg1.N) (j : Fin 128) :
    (Fr.acc1 V c (t.val + 1)).2 (ix2 0 j)
      = (Fr.acc1 V c t.val).2 (ix2 0 j) + ∑ y : Fin 5000, (Fk1 V c ⟨t.val * 5000 + y.val, row_lt1 t y⟩ j * Fk1 V c ⟨t.val * 5000 + y.val, row_lt1 t y⟩ j) := by
  rw [Fr.acc1_succ_snd V c t, accQ1_apply]
  refine congrArg₂ (· + ·) rfl (Finset.sum_congr rfl fun y _ => ?_)
  rw [iblk1_0_apply, iblk1_1_apply, iblk1_2_apply, iblk1_3_apply]
  rfl

/-- Point `n` of the ten. -/
def pt1 (n : ℕ) (h : n < 10) : Fin cfg1.N := ⟨n, lt_of_lt_of_eq h (show cfg1.N = 10 from N_1).symm⟩

/-- After the ten points the sum accumulator holds the column sum over all 50000 rows, -/
theorem accS1_total (c : Dev nD) (j : Fin 128) : (Fr.acc1 V c 10).1 (ix2 0 j) = ∑ r : Fin 50000, Fk1 V c r j := by
  have key := Cert.LibBlockSum.acc_fin_10 (fun t : Fin 10 => ∑ y : Fin 5000, Fk1 V c ⟨t.val * 5000 + y.val, Cert.LibBlockSum.blk_lt t y⟩ j) 0
    (fun n => (Fr.acc1 V c (n + 1)).1 (ix2 0 j))
    ((accS1_step V c (pt1 0 (by omega)) j).trans (congrArg₂ (· + ·) (zS1_apply _) rfl))
    (fun t ht => accS1_step V c (pt1 (t + 1) (by omega)) j)
  rw [zero_add, Cert.LibBlockSum.sum_rows_10x5000 (fun r => Fk1 V c r j)] at key
  exact key
/-- and the other the column sum of squares. -/
theorem accQ1_total (c : Dev nD) (j : Fin 128) : (Fr.acc1 V c 10).2 (ix2 0 j) = ∑ r : Fin 50000, Fk1 V c r j * Fk1 V c r j := by
  have key := Cert.LibBlockSum.acc_fin_10 (fun t : Fin 10 => ∑ y : Fin 5000, (Fk1 V c ⟨t.val * 5000 + y.val, Cert.LibBlockSum.blk_lt t y⟩ j * Fk1 V c ⟨t.val * 5000 + y.val, Cert.LibBlockSum.blk_lt t y⟩ j)) 0
    (fun n => (Fr.acc1 V c (n + 1)).2 (ix2 0 j))
    ((accQ1_step V c (pt1 0 (by omega)) j).trans (congrArg₂ (· + ·) (zQ1_apply _) rfl))
    (fun t ht => accQ1_step V c (pt1 (t + 1) (by omega)) j)
  rw [zero_add, Cert.LibBlockSum.sum_rows_10x5000 (fun r => Fk1 V c r j * Fk1 V c r j)] at key
  exact key

/-! ## From the last point's block to the output arrays -/

/-- Only the last point writes the outputs back. -/
theorem last_of_flush1_4 (t : Fin cfg1.N) (hf : (cfg1.win 4).flush t = true) : t.val = 9 := by
  have h := (flush1_4 t).mp hf; have ht : t.val < 10 := lt_of_lt_of_eq t.isLt (show cfg1.N = 10 from N_1); omega
theorem last_of_flush1_5 (t : Fin cfg1.N) (hf : (cfg1.win 5).flush t = true) : t.val = 9 := by
  have h := (flush1_5 t).mp hf; have ht : t.val < 10 := lt_of_lt_of_eq t.isLt (show cfg1.N = 10 from N_1); omega

/-- What a flushing point writes back into window 4's array is the mean of the final sum, block for block. -/
theorem flushed1_4 (c : Dev nD) (t : Fin cfg1.N) (hf : (cfg1.win 4).flush t = true) :
    (Fr.dat1 V c).flushed 4 t = ((cfg1.win 4).blk t).view.read (Elt Ideal) (Fr.out1_4 (Fr.acc1 V c 10).1) := by
  have h9 := last_of_flush1_4 t hf
  show (cfg1.win 4).cut (grid1.coords t) ((Fr.dat1 V c).after 4 t) = _
  rw [Fr.after1_4, h9]
  obtain ⟨-, -, -, -, -, -, -, -, e0, e1, -⟩ := idx1 t
  funext y
  show Fr.out1_4 (Fr.acc1 V c 10).1 y = Fr.out1_4 (Fr.acc1 V c 10).1 (((cfg1.win 4).blk t).view.emb y)
  refine congrArg _ (funext fun a => Fin.ext ?_)
  match a with
  | ⟨0, _⟩ => show (y 0).val = win1_4.index t (0 : Fin 2) * 1 + 1 * (y 0).val; rw [e0]; omega
  | ⟨1, _⟩ => show (y 1).val = win1_4.index t (1 : Fin 2) * 128 + 1 * (y 1).val; rw [e1]; omega
theorem flushed1_5 (c : Dev nD) (t : Fin cfg1.N) (hf : (cfg1.win 5).flush t = true) :
    (Fr.dat1 V c).flushed 5 t = ((cfg1.win 5).blk t).view.read (Elt Ideal) (Fr.out1_5 (Fr.acc1 V c 10).1 (Fr.acc1 V c 10).2) := by
  have h9 := last_of_flush1_5 t hf
  show (cfg1.win 5).cut (grid1.coords t) ((Fr.dat1 V c).after 5 t) = _
  rw [Fr.after1_5, h9]
  obtain ⟨-, -, -, -, -, -, -, -, -, -, e0, e1⟩ := idx1 t
  funext y
  show Fr.out1_5 (Fr.acc1 V c 10).1 (Fr.acc1 V c 10).2 y = Fr.out1_5 (Fr.acc1 V c 10).1 (Fr.acc1 V c 10).2 (((cfg1.win 5).blk t).view.emb y)
  refine congrArg _ (funext fun a => Fin.ext ?_)
  match a with
  | ⟨0, _⟩ => show (y 0).val = win1_5.index t (0 : Fin 2) * 1 + 1 * (y 0).val; rw [e0]; omega
  | ⟨1, _⟩ => show (y 1).val = win1_5.index t (1 : Fin 2) * 128 + 1 * (y 1).val; rw [e1]; omega

/-- The last point's block is the whole `[1,128]` array. -/
theorem cover1_4 (i : S1x128.Idx) : ∃ t : Fin cfg1.N, (cfg1.win 4).flush t = true ∧ i ∈ ((cfg1.win 4).blk t).view.set := by
  refine ⟨Fr.tl1, (flush1_4 Fr.tl1).mpr rfl, ?_⟩
  obtain ⟨-, -, -, -, -, -, -, -, e0, e1, -⟩ := idx1 Fr.tl1
  show i ∈ ((View.whole main_v47_0).slice (win1_4.rect Fr.tl1)).set
  rw [View.set_slice_whole, Rect.mem_set_unit]
  intro a
  match a with
  | ⟨0, _⟩ => show win1_4.index Fr.tl1 (0 : Fin 2) * 1 ≤ (i 0).val ∧ (i 0).val < win1_4.index Fr.tl1 (0 : Fin 2) * 1 + 1; rw [e0]; have := idx2_lt0 i; omega
  | ⟨1, _⟩ => show win1_4.index Fr.tl1 (1 : Fin 2) * 128 ≤ (i 1).val ∧ (i 1).val < win1_4.index Fr.tl1 (1 : Fin 2) * 128 + 128; rw [e1]; have := idx2_lt1 i; omega
theorem cover1_5 (i : S1x128.Idx) : ∃ t : Fin cfg1.N, (cfg1.win 5).flush t = true ∧ i ∈ ((cfg1.win 5).blk t).view.set := by
  refine ⟨Fr.tl1, (flush1_5 Fr.tl1).mpr rfl, ?_⟩
  obtain ⟨-, -, -, -, -, -, -, -, -, -, e0, e1⟩ := idx1 Fr.tl1
  show i ∈ ((View.whole main_v47_1).slice (win1_5.rect Fr.tl1)).set
  rw [View.set_slice_whole, Rect.mem_set_unit]
  intro a
  match a with
  | ⟨0, _⟩ => show win1_5.index Fr.tl1 (0 : Fin 2) * 1 ≤ (i 0).val ∧ (i 0).val < win1_5.index Fr.tl1 (0 : Fin 2) * 1 + 1; rw [e0]; have := idx2_lt0 i; omega
  | ⟨1, _⟩ => show win1_5.index Fr.tl1 (1 : Fin 2) * 128 ≤ (i 1).val ∧ (i 1).val < win1_5.index Fr.tl1 (1 : Fin 2) * 128 + 128; rw [e1]; have := idx2_lt1 i; omega

/-- The two output arrays after the region. -/
theorem final1_4 (c : Dev nD) : (Fr.dat1 V c).arrAt 4 cfg1.N = Fr.out1_4 (Fr.acc1 V c 10).1 :=
  (Fr.dat1 V c).arrAt_eq_of_cover 4 _ (fun t hf => flushed1_4 V c t hf) cover1_4
theorem final1_5 (c : Dev nD) : (Fr.dat1 V c).arrAt 5 cfg1.N = Fr.out1_5 (Fr.acc1 V c 10).1 (Fr.acc1 V c 10).2 :=
  (Fr.dat1 V c).arrAt_eq_of_cover 5 _ (fun t hf => flushed1_5 V c t hf) cover1_5

/-- THE MEAN: after region 1 its first output holds each feature's mean of the layer's value over the nodes. -/
theorem stats1_mean (c : Dev nD) (j : Fin 128) : (Fr.dat1 V c).arrAt 4 cfg1.N (ix2 0 j) = Cert.Spec.mean (Fk1 V c) j := by
  rw [final1_4, out1_4_apply, accS1_total]; rfl
/-- THE VARIANCE: and its second output the second moment minus the squared mean. -/
theorem stats1_var (c : Dev nD) (j : Fin 128) : (Fr.dat1 V c).arrAt 5 cfg1.N (ix2 0 j) = Cert.Spec.varOnePass (Fk1 V c) j := by
  rw [final1_5, out1_5_apply, accS1_total, accQ1_total]; rfl

end Region1

/-! # Region 4: the payloads of the statistics kernel at an index, at the ideal values -/

/-- The value the kernel sums: the aggregate block plus the self-loop column times the feature block plus the bias row. -/
theorem pay5_4 (x0 x1 : Vec Ideal S5000x128 .f32) (x2 : Vec Ideal S5000x1 .f32) (x3 : Vec Ideal S1x128 .f32) (y : Fin 5000) (j : Fin 128) :
    k4_pay5 (F := Ideal) x0 x2 x1 x3 (ix2 y j) = x0 (ix2 y j) + x2 (ix2 y 0) * x1 (ix2 y j) + x3 (ix2 0 j) := by
  unfold k4_pay5
  simp only [shapeCast_self]
  exact congrArg₂ (· + ·) (congrArg₂ (· + ·) rfl (congrArg₂ (· * ·) (Cert.LibRowSum.broadcastTo_a1_ab_apply x2 _ y j) rfl)) (broadcastTo_1b_ab_apply x3 _ y j)

/-- The sum accumulator after a point: what it held plus the block's column sum. -/
theorem accS4_apply (x0 x1 : Vec Ideal S5000x128 .f32) (x2 : Vec Ideal S5000x1 .f32) (x3 s : Vec Ideal S1x128 .f32) (j : Fin 128) :
    Fr.accS4 (F := Ideal) x0 x1 x2 x3 s (ix2 0 j)
      = s (ix2 0 j) + ∑ y : Fin 5000, (x0 (ix2 y j) + x2 (ix2 y 0) * x1 (ix2 y j) + x3 (ix2 0 j)) := by
  unfold Fr.accS4
  rw [View.canon_unit_zero hzSt]
  simp only [View.ld_unit_zero (S := S5000x128) hzSt, View.ld_unit_zero (S := S5000x1) hzSt, View.ld_unit_zero (S := S1x128) hzSt]
  unfold k4_pay6
  simp only [shapeCast_self]
  refine congrArg₂ (· + ·) rfl ?_
  refine (shapeCast_a_1a_apply _ _ 0 j).trans ?_
  refine (Cert.LibColSum.multiReduction_row_apply _ _ _ _ _ j).trans ?_
  exact Finset.sum_congr rfl fun y _ => pay5_4 x0 x1 x2 x3 y j

/-- The sum-of-squares accumulator after a point: what it held plus the block's column sum of squares. -/
theorem accQ4_apply (x0 x1 : Vec Ideal S5000x128 .f32) (x2 : Vec Ideal S5000x1 .f32) (x3 q : Vec Ideal S1x128 .f32) (j : Fin 128) :
    Fr.accQ4 (F := Ideal) x0 x1 x2 x3 q (ix2 0 j)
      = q (ix2 0 j) + ∑ y : Fin 5000, ((x0 (ix2 y j) + x2 (ix2 y 0) * x1 (ix2 y j) + x3 (ix2 0 j)) * (x0 (ix2 y j) + x2 (ix2 y 0) * x1 (ix2 y j) + x3 (ix2 0 j))) := by
  unfold Fr.accQ4
  rw [View.canon_unit_zero hzSt]
  simp only [View.ld_unit_zero (S := S5000x128) hzSt, View.ld_unit_zero (S := S5000x1) hzSt, View.ld_unit_zero (S := S1x128) hzSt]
  unfold k4_pay7
  simp only [shapeCast_self]
  refine congrArg₂ (· + ·) rfl ?_
  refine (shapeCast_a_1a_apply _ _ 0 j).trans ?_
  refine (Cert.LibColSum.multiReduction_row_apply _ _ _ _ _ j).trans ?_
  exact Finset.sum_congr rfl fun y _ => congrArg₂ (· * ·) (pay5_4 x0 x1 x2 x3 y j) (pay5_4 x0 x1 x2 x3 y j)

/-- The zeroed accumulators hold zero. -/
theorem zS4_apply (i : S1x128.Idx) : Fr.zS4 (F := Ideal) i = 0 := by
  unfold Fr.zS4
  rw [View.canon_unit_zero hzSt]
  unfold k4_pay3
  simp only [shapeCast_self]
  exact Ideal.ofBits_zero_f32
theorem zQ4_apply (i : S1x128.Idx) : Fr.zQ4 (F := Ideal) i = 0 := by
  unfold Fr.zQ4
  rw [View.canon_unit_zero hzSt]
  unfold k4_pay4
  simp only [shapeCast_self]
  exact Ideal.ofBits_zero_f32

/-- The mean the last point stores: the sum over the count. -/
theorem out4_4_apply (s : Vec Ideal S1x128 .f32) (i : S1x128.Idx) :
    Fr.out4_4 (F := Ideal) s i = Ideal.div (s i) Cert.Spec.nW := by
  unfold Fr.out4_4
  rw [View.canon_unit_zero hzSt]
  simp only [View.ld_unit_zero (S := S1x128) hzSt]
  rfl

/-- The variance the last point stores: the second moment minus the squared mean. -/
theorem out4_5_apply (s q : Vec Ideal S1x128 .f32) (i : S1x128.Idx) :
    Fr.out4_5 (F := Ideal) s q i = Ideal.div (q i) Cert.Spec.nW - Ideal.div (s i) Cert.Spec.nW * Ideal.div (s i) Cert.Spec.nW := by
  unfold Fr.out4_5
  rw [View.canon_unit_zero hzSt]
  simp only [View.ld_unit_zero (S := S1x128) hzSt]
  rfl

/-! # Region 4: the two output arrays as the mean and the one-pass variance of the layer's value -/

section Region4
variable (V : (c : Dev nD) → (b : Ref sig .tc) → Buf (Elt Ideal) ((c : Thread nD τ).loc b))

/-- The printed index maps, decided over the grid: the three tall inputs' blocks move down with the point, the bias
    row and the two outputs stay at block zero. -/
theorem idx4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0 :=
  (by decide +kernel : ∀ t : Fin grid4.N, _)

/-- Row `y` of block `t` is a row of the array. -/
theorem row_lt4 (t : Fin cfg4.N) (y : Fin 5000) : t.val * 5000 + y.val < 50000 := by
  have ht : t.val < 10 := lt_of_lt_of_eq t.isLt (show cfg4.N = 10 from N_4); have := y.isLt; omega

/-- Each input block's element is the array's element at the block's offset. -/
theorem iblk4_0_apply (c : Dev nD) (t : Fin cfg4.N) (y : Fin 5000) (j : Fin 128) :
    Fr.iblk4 V c 0 t (ix2 y j) = V c main_v70 (ix2 ⟨t.val * 5000 + y.val, row_lt4 t y⟩ j) := by
  obtain ⟨e0, e1, -⟩ := idx4 t
  show V c main_v70 (((cfg4.win 0).blk t).view.emb (ix2 y j)) = V c main_v70 _
  refine congrArg (V c main_v70) (funext fun a => Fin.ext ?_)
  match a with
  | ⟨0, _⟩ => show win4_0.index t (0 : Fin 2) * 5000 + 1 * y.val = t.val * 5000 + y.val; rw [e0]; omega
  | ⟨1, _⟩ => show win4_0.index t (1 : Fin 2) * 128 + 1 * j.val = j.val; rw [e1]; omega
theorem iblk4_1_apply (c : Dev nD) (t : Fin cfg4.N) (y : Fin 5000) (j : Fin 128) :
    Fr.iblk4 V c 1 t (ix2 y j) = V c main_v57 (ix2 ⟨t.val * 5000 + y.val, row_lt4 t y⟩ j) := by
  obtain ⟨-, -, e0, e1, -⟩ := idx4 t
  show V c main_v57 (((cfg4.win 1).blk t).view.emb (ix2 y j)) = V c main_v57 _
  refine congrArg (V c main_v57) (funext fun a => Fin.ext ?_)
  match a with
  | ⟨0, _⟩ => show win4_1.index t (0 : Fin 2) * 5000 + 1 * y.val = t.val * 5000 + y.val; rw [e0]; omega
  | ⟨1, _⟩ => show win4_1.index t (1 : Fin 2) * 128 + 1 * j.val = j.val; rw [e1]; omega
theorem iblk4_2_apply (c : Dev nD) (t : Fin cfg4.N) (y : Fin 5000) :
    Fr.iblk4 V c 2 t (ix2 y (0 : Fin 1)) = V c main_v27 (ix2 ⟨t.val * 5000 + y.val, row_lt4 t y⟩ (0 : Fin 1)) := by
  obtain ⟨-, -, -, -, e0, e1, -⟩ := idx4 t
  show V c main_v27 (((cfg4.win 2).blk t).view.emb (ix2 y (0 : Fin 1))) = V c main_v27 _
  refine congrArg (V c main_v27) (funext fun a => Fin.ext ?_)
  match a with
  | ⟨0, _⟩ => show win4_2.index t (0 : Fin 2) * 5000 + 1 * y.val = t.val * 5000 + y.val; rw [e0]; omega
  | ⟨1, _⟩ => show win4_2.index t (1 : Fin 2) * 1 + 1 * 0 = 0; rw [e1]
theorem iblk4_3_apply (c : Dev nD) (t : Fin cfg4.N) (j : Fin 128) :
    Fr.iblk4 V c 3 t (ix2 (0 : Fin 1) j) = V c main_v73 (ix2 (0 : Fin 1) j) := by
  obtain ⟨-, -, -, -, -, -, e0, e1, -⟩ := idx4 t
  show V c main_v73 (((cfg4.win 3).blk t).view.emb (ix2 (0 : Fin 1) j)) = V c main_v73 _
  refine congrArg (V c main_v73) (funext fun a => Fin.ext ?_)
  match a with
  | ⟨0, _⟩ => show win4_3.index t (0 : Fin 2) * 1 + 1 * 0 = 0; rw [e0]
  | ⟨1, _⟩ => show win4_3.index t (1 : Fin 2) * 128 + 1 * j.val = j.val; rw [e1]; omega

/-- The layer's value before normalisation, from the four arrays the region reads as it finds them: the aggregate, the
    transformed features, the self-loop weights (a column) and the bias (a row). -/
abbrev Fk4 (c : Dev nD) : Fin 50000 → Fin 128 → EReal :=
  Cert.Spec.full (fun r j => V c main_v70 (ix2 r j)) (fun r j => V c main_v57 (ix2 r j)) (fun r => V c main_v27 (ix2 r (0 : Fin 1))) (fun j => V c main_v73 (ix2 (0 : Fin 1) j))

/-- One point adds its block's column sums to the accumulators. -/
theorem accS4_step (c : Dev nD) (t : Fin cfg4.N) (j : Fin 128) :
    (Fr.acc4 V c (t.val + 1)).1 (ix2 0 j)
      = (Fr.acc4 V c t.val).1 (ix2 0 j) + ∑ y : Fin 5000, Fk4 V c ⟨t.val * 5000 + y.val, row_lt4 t y⟩ j := by
  rw [Fr.acc4_succ_fst V c t, accS4_apply]
  refine congrArg₂ (· + ·) rfl (Finset.sum_congr rfl fun y _ => ?_)
  rw [iblk4_0_apply, iblk4_1_apply, iblk4_2_apply, iblk4_3_apply]
  rfl
theorem accQ4_step (c : Dev nD) (t : Fin cfg4.N) (j : Fin 128) :
    (Fr.acc4 V c (t.val + 1)).2 (ix2 0 j)
      = (Fr.acc4 V c t.val).2 (ix2 0 j) + ∑ y : Fin 5000, (Fk4 V c ⟨t.val * 5000 + y.val, row_lt4 t y⟩ j * Fk4 V c ⟨t.val * 5000 + y.val, row_lt4 t y⟩ j) := by
  rw [Fr.acc4_succ_snd V c t, accQ4_apply]
  refine congrArg₂ (· + ·) rfl (Finset.sum_congr rfl fun y _ => ?_)
  rw [iblk4_0_apply, iblk4_1_apply, iblk4_2_apply, iblk4_3_apply]
  rfl

/-- Point `n` of the ten. -/
def pt4 (n : ℕ) (h : n < 10) : Fin cfg4.N := ⟨n, lt_of_lt_of_eq h (show cfg4.N = 10 from N_4).symm⟩

/-- After the ten points the sum accumulator holds the column sum over all 50000 rows, -/
theorem accS4_total (c : Dev nD) (j : Fin 128) : (Fr.acc4 V c 10).1 (ix2 0 j) = ∑ r : Fin 50000, Fk4 V c r j := by
  have key := Cert.LibBlockSum.acc_fin_10 (fun t : Fin 10 => ∑ y : Fin 5000, Fk4 V c ⟨t.val * 5000 + y.val, Cert.LibBlockSum.blk_lt t y⟩ j) 0
    (fun n => (Fr.acc4 V c (n + 1)).1 (ix2 0 j))
    ((accS4_step V c (pt4 0 (by omega)) j).trans (congrArg₂ (· + ·) (zS4_apply _) rfl))
    (fun t ht => accS4_step V c (pt4 (t + 1) (by omega)) j)
  rw [zero_add, Cert.LibBlockSum.sum_rows_10x5000 (fun r => Fk4 V c r j)] at key
  exact key
/-- and the other the column sum of squares. -/
theorem accQ4_total (c : Dev nD) (j : Fin 128) : (Fr.acc4 V c 10).2 (ix2 0 j) = ∑ r : Fin 50000, Fk4 V c r j * Fk4 V c r j := by
  have key := Cert.LibBlockSum.acc_fin_10 (fun t : Fin 10 => ∑ y : Fin 5000, (Fk4 V c ⟨t.val * 5000 + y.val, Cert.LibBlockSum.blk_lt t y⟩ j * Fk4 V c ⟨t.val * 5000 + y.val, Cert.LibBlockSum.blk_lt t y⟩ j)) 0
    (fun n => (Fr.acc4 V c (n + 1)).2 (ix2 0 j))
    ((accQ4_step V c (pt4 0 (by omega)) j).trans (congrArg₂ (· + ·) (zQ4_apply _) rfl))
    (fun t ht => accQ4_step V c (pt4 (t + 1) (by omega)) j)
  rw [zero_add, Cert.LibBlockSum.sum_rows_10x5000 (fun r => Fk4 V c r j * Fk4 V c r j)] at key
  exact key

/-! ## From the last point's block to the output arrays -/

/-- Only the last point writes the outputs back. -/
theorem last_of_flush4_4 (t : Fin cfg4.N) (hf : (cfg4.win 4).flush t = true) : t.val = 9 := by
  have h := (flush4_4 t).mp hf; have ht : t.val < 10 := lt_of_lt_of_eq t.isLt (show cfg4.N = 10 from N_4); omega
theorem last_of_flush4_5 (t : Fin cfg4.N) (hf : (cfg4.win 5).flush t = true) : t.val = 9 := by
  have h := (flush4_5 t).mp hf; have ht : t.val < 10 := lt_of_lt_of_eq t.isLt (show cfg4.N = 10 from N_4); omega

/-- What a flushing point writes back into window 4's array is the mean of the final sum, block for block. -/
theorem flushed4_4 (c : Dev nD) (t : Fin cfg4.N) (hf : (cfg4.win 4).flush t = true) :
    (Fr.dat4 V c).flushed 4 t = ((cfg4.win 4).blk t).view.read (Elt Ideal) (Fr.out4_4 (Fr.acc4 V c 10).1) := by
  have h9 := last_of_flush4_4 t hf
  show (cfg4.win 4).cut (grid4.coords t) ((Fr.dat4 V c).after 4 t) = _
  rw [Fr.after4_4, h9]
  obtain ⟨-, -, -, -, -, -, -, -, e0, e1, -⟩ := idx4 t
  funext y
  show Fr.out4_4 (Fr.acc4 V c 10).1 y = Fr.out4_4 (Fr.acc4 V c 10).1 (((cfg4.win 4).blk t).view.emb y)
  refine congrArg _ (funext fun a => Fin.ext ?_)
  match a with
  | ⟨0, _⟩ => show (y 0).val = win4_4.index t (0 : Fin 2) * 1 + 1 * (y 0).val; rw [e0]; omega
  | ⟨1, _⟩ => show (y 1).val = win4_4.index t (1 : Fin 2) * 128 + 1 * (y 1).val; rw [e1]; omega
theorem flushed4_5 (c : Dev nD) (t : Fin cfg4.N) (hf : (cfg4.win 5).flush t = true) :
    (Fr.dat4 V c).flushed 5 t = ((cfg4.win 5).blk t).view.read (Elt Ideal) (Fr.out4_5 (Fr.acc4 V c 10).1 (Fr.acc4 V c 10).2) := by
  have h9 := last_of_flush4_5 t hf
  show (cfg4.win 5).cut (grid4.coords t) ((Fr.dat4 V c).after 5 t) = _
  rw [Fr.after4_5, h9]
  obtain ⟨-, -, -, -, -, -, -, -, -, -, e0, e1⟩ := idx4 t
  funext y
  show Fr.out4_5 (Fr.acc4 V c 10).1 (Fr.acc4 V c 10).2 y = Fr.out4_5 (Fr.acc4 V c 10).1 (Fr.acc4 V c 10).2 (((cfg4.win 5).blk t).view.emb y)
  refine congrArg _ (funext fun a => Fin.ext ?_)
  match a with
  | ⟨0, _⟩ => show (y 0).val = win4_5.index t (0 : Fin 2) * 1 + 1 * (y 0).val; rw [e0]; omega
  | ⟨1, _⟩ => show (y 1).val = win4_5.index t (1 : Fin 2) * 128 + 1 * (y 1).val; rw [e1]; omega

/-- The last point's block is the whole `[1,128]` array. -/
theorem cover4_4 (i : S1x128.Idx) : ∃ t : Fin cfg4.N, (cfg4.win 4).flush t = true ∧ i ∈ ((cfg4.win 4).blk t).view.set := by
  refine ⟨Fr.tl4, (flush4_4 Fr.tl4).mpr rfl, ?_⟩
  obtain ⟨-, -, -, -, -, -, -, -, e0, e1, -⟩ := idx4 Fr.tl4
  show i ∈ ((View.whole main_v74_0).slice (win4_4.rect Fr.tl4)).set
  rw [View.set_slice_whole, Rect.mem_set_unit]
  intro a
  match a with
  | ⟨0, _⟩ => show win4_4.index Fr.tl4 (0 : Fin 2) * 1 ≤ (i 0).val ∧ (i 0).val < win4_4.index Fr.tl4 (0 : Fin 2) * 1 + 1; rw [e0]; have := idx2_lt0 i; omega
  | ⟨1, _⟩ => show win4_4.index Fr.tl4 (1 : Fin 2) * 128 ≤ (i 1).val ∧ (i 1).val < win4_4.index Fr.tl4 (1 : Fin 2) * 128 + 128; rw [e1]; have := idx2_lt1 i; omega
theorem cover4_5 (i : S1x128.Idx) : ∃ t : Fin cfg4.N, (cfg4.win 5).flush t = true ∧ i ∈ ((cfg4.win 5).blk t).view.set := by
  refine ⟨Fr.tl4, (flush4_5 Fr.tl4).mpr rfl, ?_⟩
  obtain ⟨-, -, -, -, -, -, -, -, -, -, e0, e1⟩ := idx4 Fr.tl4
  show i ∈ ((View.whole main_v74_1).slice (win4_5.rect Fr.tl4)).set
  rw [View.set_slice_whole, Rect.mem_set_unit]
  intro a
  match a with
  | ⟨0, _⟩ => show win4_5.index Fr.tl4 (0 : Fin 2) * 1 ≤ (i 0).val ∧ (i 0).val < win4_5.index Fr.tl4 (0 : Fin 2) * 1 + 1; rw [e0]; have := idx2_lt0 i; omega
  | ⟨1, _⟩ => show win4_5.index Fr.tl4 (1 : Fin 2) * 128 ≤ (i 1).val ∧ (i 1).val < win4_5.index Fr.tl4 (1 : Fin 2) * 128 + 128; rw [e1]; have := idx2_lt1 i; omega

/-- The two output arrays after the region. -/
theorem final4_4 (c : Dev nD) : (Fr.dat4 V c).arrAt 4 cfg4.N = Fr.out4_4 (Fr.acc4 V c 10).1 :=
  (Fr.dat4 V c).arrAt_eq_of_cover 4 _ (fun t hf => flushed4_4 V c t hf) cover4_4
theorem final4_5 (c : Dev nD) : (Fr.dat4 V c).arrAt 5 cfg4.N = Fr.out4_5 (Fr.acc4 V c 10).1 (Fr.acc4 V c 10).2 :=
  (Fr.dat4 V c).arrAt_eq_of_cover 5 _ (fun t hf => flushed4_5 V c t hf) cover4_5

/-- THE MEAN: after region 4 its first output holds each feature's mean of the layer's value over the nodes. -/
theorem stats4_mean (c : Dev nD) (j : Fin 128) : (Fr.dat4 V c).arrAt 4 cfg4.N (ix2 0 j) = Cert.Spec.mean (Fk4 V c) j := by
  rw [final4_4, out4_4_apply, accS4_total]; rfl
/-- THE VARIANCE: and its second output the second moment minus the squared mean. -/
theorem stats4_var (c : Dev nD) (j : Fin 128) : (Fr.dat4 V c).arrAt 5 cfg4.N (ix2 0 j) = Cert.Spec.varOnePass (Fk4 V c) j := by
  rw [final4_5, out4_5_apply, accS4_total, accQ4_total]; rfl

end Region4

/-! # Region 7: the payloads of the statistics kernel at an index, at the ideal values -/

/-- The value the kernel sums: the aggregate block plus the self-loop column times the feature block plus the bias row. -/
theorem pay5_7 (x0 x1 : Vec Ideal S5000x128 .f32) (x2 : Vec Ideal S5000x1 .f32) (x3 : Vec Ideal S1x128 .f32) (y : Fin 5000) (j : Fin 128) :
    k7_pay5 (F := Ideal) x0 x2 x1 x3 (ix2 y j) = x0 (ix2 y j) + x2 (ix2 y 0) * x1 (ix2 y j) + x3 (ix2 0 j) := by
  unfold k7_pay5
  simp only [shapeCast_self]
  exact congrArg₂ (· + ·) (congrArg₂ (· + ·) rfl (congrArg₂ (· * ·) (Cert.LibRowSum.broadcastTo_a1_ab_apply x2 _ y j) rfl)) (broadcastTo_1b_ab_apply x3 _ y j)

/-- The sum accumulator after a point: what it held plus the block's column sum. -/
theorem accS7_apply (x0 x1 : Vec Ideal S5000x128 .f32) (x2 : Vec Ideal S5000x1 .f32) (x3 s : Vec Ideal S1x128 .f32) (j : Fin 128) :
    Fr.accS7 (F := Ideal) x0 x1 x2 x3 s (ix2 0 j)
      = s (ix2 0 j) + ∑ y : Fin 5000, (x0 (ix2 y j) + x2 (ix2 y 0) * x1 (ix2 y j) + x3 (ix2 0 j)) := by
  unfold Fr.accS7
  rw [View.canon_unit_zero hzSt]
  simp only [View.ld_unit_zero (S := S5000x128) hzSt, View.ld_unit_zero (S := S5000x1) hzSt, View.ld_unit_zero (S := S1x128) hzSt]
  unfold k7_pay6
  simp only [shapeCast_self]
  refine congrArg₂ (· + ·) rfl ?_
  refine (shapeCast_a_1a_apply _ _ 0 j).trans ?_
  refine (Cert.LibColSum.multiReduction_row_apply _ _ _ _ _ j).trans ?_
  exact Finset.sum_congr rfl fun y _ => pay5_7 x0 x1 x2 x3 y j

/-- The sum-of-squares accumulator after a point: what it held plus the block's column sum of squares. -/
theorem accQ7_apply (x0 x1 : Vec Ideal S5000x128 .f32) (x2 : Vec Ideal S5000x1 .f32) (x3 q : Vec Ideal S1x128 .f32) (j : Fin 128) :
    Fr.accQ7 (F := Ideal) x0 x1 x2 x3 q (ix2 0 j)
      = q (ix2 0 j) + ∑ y : Fin 5000, ((x0 (ix2 y j) + x2 (ix2 y 0) * x1 (ix2 y j) + x3 (ix2 0 j)) * (x0 (ix2 y j) + x2 (ix2 y 0) * x1 (ix2 y j) + x3 (ix2 0 j))) := by
  unfold Fr.accQ7
  rw [View.canon_unit_zero hzSt]
  simp only [View.ld_unit_zero (S := S5000x128) hzSt, View.ld_unit_zero (S := S5000x1) hzSt, View.ld_unit_zero (S := S1x128) hzSt]
  unfold k7_pay7
  simp only [shapeCast_self]
  refine congrArg₂ (· + ·) rfl ?_
  refine (shapeCast_a_1a_apply _ _ 0 j).trans ?_
  refine (Cert.LibColSum.multiReduction_row_apply _ _ _ _ _ j).trans ?_
  exact Finset.sum_congr rfl fun y _ => congrArg₂ (· * ·) (pay5_7 x0 x1 x2 x3 y j) (pay5_7 x0 x1 x2 x3 y j)

/-- The zeroed accumulators hold zero. -/
theorem zS7_apply (i : S1x128.Idx) : Fr.zS7 (F := Ideal) i = 0 := by
  unfold Fr.zS7
  rw [View.canon_unit_zero hzSt]
  unfold k7_pay3
  simp only [shapeCast_self]
  exact Ideal.ofBits_zero_f32
theorem zQ7_apply (i : S1x128.Idx) : Fr.zQ7 (F := Ideal) i = 0 := by
  unfold Fr.zQ7
  rw [View.canon_unit_zero hzSt]
  unfold k7_pay4
  simp only [shapeCast_self]
  exact Ideal.ofBits_zero_f32

/-- The mean the last point stores: the sum over the count. -/
theorem out7_4_apply (s : Vec Ideal S1x128 .f32) (i : S1x128.Idx) :
    Fr.out7_4 (F := Ideal) s i = Ideal.div (s i) Cert.Spec.nW := by
  unfold Fr.out7_4
  rw [View.canon_unit_zero hzSt]
  simp only [View.ld_unit_zero (S := S1x128) hzSt]
  rfl

/-- The variance the last point stores: the second moment minus the squared mean. -/
theorem out7_5_apply (s q : Vec Ideal S1x128 .f32) (i : S1x128.Idx) :
    Fr.out7_5 (F := Ideal) s q i = Ideal.div (q i) Cert.Spec.nW - Ideal.div (s i) Cert.Spec.nW * Ideal.div (s i) Cert.Spec.nW := by
  unfold Fr.out7_5
  rw [View.canon_unit_zero hzSt]
  simp only [View.ld_unit_zero (S := S1x128) hzSt]
  rfl

/-! # Region 7: the two output arrays as the mean and the one-pass variance of the layer's value -/

section Region7
variable (V : (c : Dev nD) → (b : Ref sig .tc) → Buf (Elt Ideal) ((c : Thread nD τ).loc b))

/-- The printed index maps, decided over the grid: the three tall inputs' blocks move down with the point, the bias
    row and the two outputs stay at block zero. -/
theorem idx7 : ∀ t : Fin cfg7.N, win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = 0 ∧ win7_5.index t (1 : Fin 2) = 0 :=
  (by decide +kernel : ∀ t : Fin grid7.N, _)

/-- Row `y` of block `t` is a row of the array. -/
theorem row_lt7 (t : Fin cfg7.N) (y : Fin 5000) : t.val * 5000 + y.val < 50000 := by
  have ht : t.val < 10 := lt_of_lt_of_eq t.isLt (show cfg7.N = 10 from N_7); have := y.isLt; omega

/-- Each input block's element is the array's element at the block's offset. -/
theorem iblk7_0_apply (c : Dev nD) (t : Fin cfg7.N) (y : Fin 5000) (j : Fin 128) :
    Fr.iblk7 V c 0 t (ix2 y j) = V c main_v97 (ix2 ⟨t.val * 5000 + y.val, row_lt7 t y⟩ j) := by
  obtain ⟨e0, e1, -⟩ := idx7 t
  show V c main_v97 (((cfg7.win 0).blk t).view.emb (ix2 y j)) = V c main_v97 _
  refine congrArg (V c main_v97) (funext fun a => Fin.ext ?_)
  match a with
  | ⟨0, _⟩ => show win7_0.index t (0 : Fin 2) * 5000 + 1 * y.val = t.val * 5000 + y.val; rw [e0]; omega
  | ⟨1, _⟩ => show win7_0.index t (1 : Fin 2) * 128 + 1 * j.val = j.val; rw [e1]; omega
theorem iblk7_1_apply (c : Dev nD) (t : Fin cfg7.N) (y : Fin 5000) (j : Fin 128) :
    Fr.iblk7 V c 1 t (ix2 y j) = V c main_v84 (ix2 ⟨t.val * 5000 + y.val, row_lt7 t y⟩ j) := by
  obtain ⟨-, -, e0, e1, -⟩ := idx7 t
  show V c main_v84 (((cfg7.win 1).blk t).view.emb (ix2 y j)) = V c main_v84 _
  refine congrArg (V c main_v84) (funext fun a => Fin.ext ?_)
  match a with
  | ⟨0, _⟩ => show win7_1.index t (0 : Fin 2) * 5000 + 1 * y.val = t.val * 5000 + y.val; rw [e0]; omega
  | ⟨1, _⟩ => show win7_1.index t (1 : Fin 2) * 128 + 1 * j.val = j.val; rw [e1]; omega
theorem iblk7_2_apply (c : Dev nD) (t : Fin cfg7.N) (y : Fin 5000) :
    Fr.iblk7 V c 2 t (ix2 y (0 : Fin 1)) = V c main_v27 (ix2 ⟨t.val * 5000 + y.val, row_lt7 t y⟩ (0 : Fin 1)) := by
  obtain ⟨-, -, -, -, e0, e1, -⟩ := idx7 t
  show V c main_v27 (((cfg7.win 2).blk t).view.emb (ix2 y (0 : Fin 1))) = V c main_v27 _
  refine congrArg (V c main_v27) (funext fun a => Fin.ext ?_)
  match a with
  | ⟨0, _⟩ => show win7_2.index t (0 : Fin 2) * 5000 + 1 * y.val = t.val * 5000 + y.val; rw [e0]; omega
  | ⟨1, _⟩ => show win7_2.index t (1 : Fin 2) * 1 + 1 * 0 = 0; rw [e1]
theorem iblk7_3_apply (c : Dev nD) (t : Fin cfg7.N) (j : Fin 128) :
    Fr.iblk7 V c 3 t (ix2 (0 : Fin 1) j) = V c main_v100 (ix2 (0 : Fin 1) j) := by
  obtain ⟨-, -, -, -, -, -, e0, e1, -⟩ := idx7 t
  show V c main_v100 (((cfg7.win 3).blk t).view.emb (ix2 (0 : Fin 1) j)) = V c main_v100 _
  refine congrArg (V c main_v100) (funext fun a => Fin.ext ?_)
  match a with
  | ⟨0, _⟩ => show win7_3.index t (0 : Fin 2) * 1 + 1 * 0 = 0; rw [e0]
  | ⟨1, _⟩ => show win7_3.index t (1 : Fin 2) * 128 + 1 * j.val = j.val; rw [e1]; omega

/-- The layer's value before normalisation, from the four arrays the region reads as it finds them: the aggregate, the
    transformed features, the self-loop weights (a column) and the bias (a row). -/
abbrev Fk7 (c : Dev nD) : Fin 50000 → Fin 128 → EReal :=
  Cert.Spec.full (fun r j => V c main_v97 (ix2 r j)) (fun r j => V c main_v84 (ix2 r j)) (fun r => V c main_v27 (ix2 r (0 : Fin 1))) (fun j => V c main_v100 (ix2 (0 : Fin 1) j))

/-- One point adds its block's column sums to the accumulators. -/
theorem accS7_step (c : Dev nD) (t : Fin cfg7.N) (j : Fin 128) :
    (Fr.acc7 V c (t.val + 1)).1 (ix2 0 j)
      = (Fr.acc7 V c t.val).1 (ix2 0 j) + ∑ y : Fin 5000, Fk7 V c ⟨t.val * 5000 + y.val, row_lt7 t y⟩ j := by
  rw [Fr.acc7_succ_fst V c t, accS7_apply]
  refine congrArg₂ (· + ·) rfl (Finset.sum_congr rfl fun y _ => ?_)
  rw [iblk7_0_apply, iblk7_1_apply, iblk7_2_apply, iblk7_3_apply]
  rfl
theorem accQ7_step (c : Dev nD) (t : Fin cfg7.N) (j : Fin 128) :
    (Fr.acc7 V c (t.val + 1)).2 (ix2 0 j)
      = (Fr.acc7 V c t.val).2 (ix2 0 j) + ∑ y : Fin 5000, (Fk7 V c ⟨t.val * 5000 + y.val, row_lt7 t y⟩ j * Fk7 V c ⟨t.val * 5000 + y.val, row_lt7 t y⟩ j) := by
  rw [Fr.acc7_succ_snd V c t, accQ7_apply]
  refine congrArg₂ (· + ·) rfl (Finset.sum_congr rfl fun y _ => ?_)
  rw [iblk7_0_apply, iblk7_1_apply, iblk7_2_apply, iblk7_3_apply]
  rfl

/-- Point `n` of the ten. -/
def pt7 (n : ℕ) (h : n < 10) : Fin cfg7.N := ⟨n, lt_of_lt_of_eq h (show cfg7.N = 10 from N_7).symm⟩

/-- After the ten points the sum accumulator holds the column sum over all 50000 rows, -/
theorem accS7_total (c : Dev nD) (j : Fin 128) : (Fr.acc7 V c 10).1 (ix2 0 j) = ∑ r : Fin 50000, Fk7 V c r j := by
  have key := Cert.LibBlockSum.acc_fin_10 (fun t : Fin 10 => ∑ y : Fin 5000, Fk7 V c ⟨t.val * 5000 + y.val, Cert.LibBlockSum.blk_lt t y⟩ j) 0
    (fun n => (Fr.acc7 V c (n + 1)).1 (ix2 0 j))
    ((accS7_step V c (pt7 0 (by omega)) j).trans (congrArg₂ (· + ·) (zS7_apply _) rfl))
    (fun t ht => accS7_step V c (pt7 (t + 1) (by omega)) j)
  rw [zero_add, Cert.LibBlockSum.sum_rows_10x5000 (fun r => Fk7 V c r j)] at key
  exact key
/-- and the other the column sum of squares. -/
theorem accQ7_total (c : Dev nD) (j : Fin 128) : (Fr.acc7 V c 10).2 (ix2 0 j) = ∑ r : Fin 50000, Fk7 V c r j * Fk7 V c r j := by
  have key := Cert.LibBlockSum.acc_fin_10 (fun t : Fin 10 => ∑ y : Fin 5000, (Fk7 V c ⟨t.val * 5000 + y.val, Cert.LibBlockSum.blk_lt t y⟩ j * Fk7 V c ⟨t.val * 5000 + y.val, Cert.LibBlockSum.blk_lt t y⟩ j)) 0
    (fun n => (Fr.acc7 V c (n + 1)).2 (ix2 0 j))
    ((accQ7_step V c (pt7 0 (by omega)) j).trans (congrArg₂ (· + ·) (zQ7_apply _) rfl))
    (fun t ht => accQ7_step V c (pt7 (t + 1) (by omega)) j)
  rw [zero_add, Cert.LibBlockSum.sum_rows_10x5000 (fun r => Fk7 V c r j * Fk7 V c r j)] at key
  exact key

/-! ## From the last point's block to the output arrays -/

/-- Only the last point writes the outputs back. -/
theorem last_of_flush7_4 (t : Fin cfg7.N) (hf : (cfg7.win 4).flush t = true) : t.val = 9 := by
  have h := (flush7_4 t).mp hf; have ht : t.val < 10 := lt_of_lt_of_eq t.isLt (show cfg7.N = 10 from N_7); omega
theorem last_of_flush7_5 (t : Fin cfg7.N) (hf : (cfg7.win 5).flush t = true) : t.val = 9 := by
  have h := (flush7_5 t).mp hf; have ht : t.val < 10 := lt_of_lt_of_eq t.isLt (show cfg7.N = 10 from N_7); omega

/-- What a flushing point writes back into window 4's array is the mean of the final sum, block for block. -/
theorem flushed7_4 (c : Dev nD) (t : Fin cfg7.N) (hf : (cfg7.win 4).flush t = true) :
    (Fr.dat7 V c).flushed 4 t = ((cfg7.win 4).blk t).view.read (Elt Ideal) (Fr.out7_4 (Fr.acc7 V c 10).1) := by
  have h9 := last_of_flush7_4 t hf
  show (cfg7.win 4).cut (grid7.coords t) ((Fr.dat7 V c).after 4 t) = _
  rw [Fr.after7_4, h9]
  obtain ⟨-, -, -, -, -, -, -, -, e0, e1, -⟩ := idx7 t
  funext y
  show Fr.out7_4 (Fr.acc7 V c 10).1 y = Fr.out7_4 (Fr.acc7 V c 10).1 (((cfg7.win 4).blk t).view.emb y)
  refine congrArg _ (funext fun a => Fin.ext ?_)
  match a with
  | ⟨0, _⟩ => show (y 0).val = win7_4.index t (0 : Fin 2) * 1 + 1 * (y 0).val; rw [e0]; omega
  | ⟨1, _⟩ => show (y 1).val = win7_4.index t (1 : Fin 2) * 128 + 1 * (y 1).val; rw [e1]; omega
theorem flushed7_5 (c : Dev nD) (t : Fin cfg7.N) (hf : (cfg7.win 5).flush t = true) :
    (Fr.dat7 V c).flushed 5 t = ((cfg7.win 5).blk t).view.read (Elt Ideal) (Fr.out7_5 (Fr.acc7 V c 10).1 (Fr.acc7 V c 10).2) := by
  have h9 := last_of_flush7_5 t hf
  show (cfg7.win 5).cut (grid7.coords t) ((Fr.dat7 V c).after 5 t) = _
  rw [Fr.after7_5, h9]
  obtain ⟨-, -, -, -, -, -, -, -, -, -, e0, e1⟩ := idx7 t
  funext y
  show Fr.out7_5 (Fr.acc7 V c 10).1 (Fr.acc7 V c 10).2 y = Fr.out7_5 (Fr.acc7 V c 10).1 (Fr.acc7 V c 10).2 (((cfg7.win 5).blk t).view.emb y)
  refine congrArg _ (funext fun a => Fin.ext ?_)
  match a with
  | ⟨0, _⟩ => show (y 0).val = win7_5.index t (0 : Fin 2) * 1 + 1 * (y 0).val; rw [e0]; omega
  | ⟨1, _⟩ => show (y 1).val = win7_5.index t (1 : Fin 2) * 128 + 1 * (y 1).val; rw [e1]; omega

/-- The last point's block is the whole `[1,128]` array. -/
theorem cover7_4 (i : S1x128.Idx) : ∃ t : Fin cfg7.N, (cfg7.win 4).flush t = true ∧ i ∈ ((cfg7.win 4).blk t).view.set := by
  refine ⟨Fr.tl7, (flush7_4 Fr.tl7).mpr rfl, ?_⟩
  obtain ⟨-, -, -, -, -, -, -, -, e0, e1, -⟩ := idx7 Fr.tl7
  show i ∈ ((View.whole main_v101_0).slice (win7_4.rect Fr.tl7)).set
  rw [View.set_slice_whole, Rect.mem_set_unit]
  intro a
  match a with
  | ⟨0, _⟩ => show win7_4.index Fr.tl7 (0 : Fin 2) * 1 ≤ (i 0).val ∧ (i 0).val < win7_4.index Fr.tl7 (0 : Fin 2) * 1 + 1; rw [e0]; have := idx2_lt0 i; omega
  | ⟨1, _⟩ => show win7_4.index Fr.tl7 (1 : Fin 2) * 128 ≤ (i 1).val ∧ (i 1).val < win7_4.index Fr.tl7 (1 : Fin 2) * 128 + 128; rw [e1]; have := idx2_lt1 i; omega
theorem cover7_5 (i : S1x128.Idx) : ∃ t : Fin cfg7.N, (cfg7.win 5).flush t = true ∧ i ∈ ((cfg7.win 5).blk t).view.set := by
  refine ⟨Fr.tl7, (flush7_5 Fr.tl7).mpr rfl, ?_⟩
  obtain ⟨-, -, -, -, -, -, -, -, -, -, e0, e1⟩ := idx7 Fr.tl7
  show i ∈ ((View.whole main_v101_1).slice (win7_5.rect Fr.tl7)).set
  rw [View.set_slice_whole, Rect.mem_set_unit]
  intro a
  match a with
  | ⟨0, _⟩ => show win7_5.index Fr.tl7 (0 : Fin 2) * 1 ≤ (i 0).val ∧ (i 0).val < win7_5.index Fr.tl7 (0 : Fin 2) * 1 + 1; rw [e0]; have := idx2_lt0 i; omega
  | ⟨1, _⟩ => show win7_5.index Fr.tl7 (1 : Fin 2) * 128 ≤ (i 1).val ∧ (i 1).val < win7_5.index Fr.tl7 (1 : Fin 2) * 128 + 128; rw [e1]; have := idx2_lt1 i; omega

/-- The two output arrays after the region. -/
theorem final7_4 (c : Dev nD) : (Fr.dat7 V c).arrAt 4 cfg7.N = Fr.out7_4 (Fr.acc7 V c 10).1 :=
  (Fr.dat7 V c).arrAt_eq_of_cover 4 _ (fun t hf => flushed7_4 V c t hf) cover7_4
theorem final7_5 (c : Dev nD) : (Fr.dat7 V c).arrAt 5 cfg7.N = Fr.out7_5 (Fr.acc7 V c 10).1 (Fr.acc7 V c 10).2 :=
  (Fr.dat7 V c).arrAt_eq_of_cover 5 _ (fun t hf => flushed7_5 V c t hf) cover7_5

/-- THE MEAN: after region 7 its first output holds each feature's mean of the layer's value over the nodes. -/
theorem stats7_mean (c : Dev nD) (j : Fin 128) : (Fr.dat7 V c).arrAt 4 cfg7.N (ix2 0 j) = Cert.Spec.mean (Fk7 V c) j := by
  rw [final7_4, out7_4_apply, accS7_total]; rfl
/-- THE VARIANCE: and its second output the second moment minus the squared mean. -/
theorem stats7_var (c : Dev nD) (j : Fin 128) : (Fr.dat7 V c).arrAt 5 cfg7.N (ix2 0 j) = Cert.Spec.varOnePass (Fk7 V c) j := by
  rw [final7_5, out7_5_apply, accS7_total, accQ7_total]; rfl

end Region7

end Cert.KernelIdeal.Val

end
-- ==== Proof.RefLayers.lean ====
/-
  The reference, layer by layer, on the extended reals.

  Each of the three graph-convolution layers of the reference is read at a node r and a feature j: the transformed
  features are a matrix product with the layer's weight slice, the value the layer normalises is
  aggregate + self-loop weight · transformed features + bias, its mean and its variance (the mean of the squared
  deviations) are the column statistics over the 50000 nodes, and the layer's output is the normalised value
  γ · (f − μ) · (v + ε)^(−1/2) + β, clamped below at zero on layers 1 and 2 and added to the layer's input on layers 2
  and 3.  Every statement keeps the earlier stages as opaque arrays, so no stage is unfolded twice.
-/
import Mathlib
import proofs.«135670_j59253368815959_1_alg».proof.Proof.Spec
import proofs.«135670_j59253368815959_1_alg».proof.Proof.RefRead

noncomputable section

namespace Cert.RefSide

open Cert.ReferenceIdeal Cert.ReferenceIdeal.Read Idealize.ShloMosaic Idealize.ShloMosaic.ValueIdx

/-- The node-feature arrays (50000 × 128) with extended-real entries. -/
abbrev Nodes := (⟨S50000x128, .f32⟩ : BufTy).Contents (Elt Ideal)
/-- The edge list (2 × 800000 integer words). -/
abbrev Edges := (⟨S2x800000, .i32⟩ : BufTy).Contents (Elt Ideal)
/-- The three stacked weight matrices (3 × 128 × 128). -/
abbrev Weights := (⟨S3x128x128, .f32⟩ : BufTy).Contents (Elt Ideal)
/-- Three stacked rows of 128 entries (biases, scales, shifts). -/
abbrev Rows := (⟨S3x128, .f32⟩ : BufTy).Contents (Elt Ideal)

/-! ## Layer 1 -/

/-- Layer 1: the layer's weight matrix is the layer's slice of the stacked weights. -/
theorem refW_1 (x2 : Weights) (k j : Fin 128) :
    val_main_v28 (F := Ideal) x2 (ix2 k j) = x2 (ix3 (⟨0, by decide⟩ : Fin 3) k j) := by
  have e : idx_main_v27 (idx_main_v28 (ix2 k j)) = ix3 (⟨0, by decide⟩ : Fin 3) k j :=
    funext fun a => Fin.ext (by
      have hk := k.isLt; have hj := j.isLt
      match a with
      | ⟨0, _⟩ => rfl
      | ⟨1, _⟩ => show (k.val * 128 + j.val) / 128 % 128 = k.val; omega
      | ⟨2, _⟩ => show (k.val * 128 + j.val) % 128 = j.val; omega)
  rw [val_main_v28_apply, val_main_v27_apply, e]

/-- Layer 1: the transformed features are the matrix product of the layer's input with the layer's weight slice. -/
theorem refH_1 (x0 : Nodes) (x2 : Weights) (r : Fin 50000) (j : Fin 128) :
    val_main_v29 (F := Ideal) x0 x2 (ix2 r j) = ∑ k : Fin 128, x0 (ix2 r k) * x2 (ix3 (⟨0, by decide⟩ : Fin 3) k j) := by
  rw [val_main_v29_apply]
  refine Finset.sum_congr rfl fun k _ => ?_
  have el : lidx_main_v29 (ix2 r j) k = ix2 r k := funext fun a => Fin.ext (by match a with | ⟨0, _⟩ => rfl | ⟨1, _⟩ => rfl)
  have er : idx_main_v27 (idx_main_v28 (ridx_main_v29 (ix2 r j) k)) = ix3 (⟨0, by decide⟩ : Fin 3) k j :=
    funext fun a => Fin.ext (by
      have hk := k.isLt; have hj := j.isLt
      match a with
      | ⟨0, _⟩ => rfl
      | ⟨1, _⟩ => show (k.val * 128 + j.val) / 128 % 128 = k.val; omega
      | ⟨2, _⟩ => show (k.val * 128 + j.val) % 128 = j.val; omega)
  rw [val_main_v28_apply, val_main_v27_apply, el, er]

/-- Layer 1: the value the layer normalises is aggregate + self-loop weight · transformed features + bias. -/
theorem refFull_1 (x0 : Nodes) (x1 : Edges) (x2 : Weights) (x3 : Rows) (r : Fin 50000) (j : Fin 128) :
    val_main_v51 (F := Ideal) x0 x1 x2 x3 (ix2 r j)
      = Cert.Spec.full (fun r j => val_main_v42 (F := Ideal) x0 x1 x2 (ix2 r j)) (fun r j => val_main_v29 (F := Ideal) x0 x2 (ix2 r j))
          (fun r => val_main_v26 (F := Ideal) x1 (ix1 r)) (fun j => x3 (ix2 (⟨0, by decide⟩ : Fin 3) j)) r j := by
  have es : idx_main_v43 (idx_main_v44 (ix2 r j)) = ix1 r := funext fun a => Fin.ext (by match a with | ⟨0, _⟩ => rfl)
  have eb : idx_main_v47 (idx_main_v48 (idx_main_v49 (idx_main_v50 (ix2 r j)))) = ix2 (⟨0, by decide⟩ : Fin 3) j :=
    funext fun a => Fin.ext (by match a with | ⟨0, _⟩ => rfl | ⟨1, _⟩ => exact Nat.mod_eq_of_lt j.isLt)
  rw [val_main_v51_apply, val_main_v46_apply, val_main_v45_apply, val_main_v44_apply, val_main_v43_apply, val_main_v50_apply, val_main_v49_apply, val_main_v48_apply, val_main_v47_apply, es, eb]
  simp only [Ideal.addf_def, Ideal.mulf_def, Cert.Spec.full]

/-- Layer 1: the mean stage is the feature's mean over the nodes. -/
theorem refMean_1 (x0 : Nodes) (x1 : Edges) (x2 : Weights) (x3 : Rows) (j : Fin 128) :
    val_main_v54 (F := Ideal) x0 x1 x2 x3 (ix1 j) = Cert.Spec.mean (fun r j => val_main_v51 (F := Ideal) x0 x1 x2 x3 (ix2 r j)) j := by
  have e : ∀ k : Fin 50000, idx_main_v52 (ix1 j) k = ix2 k j := fun k => funext fun a => Fin.ext (by match a with | ⟨0, _⟩ => rfl | ⟨1, _⟩ => rfl)
  rw [val_main_v54_apply, val_main_v52_apply, val_main_v53_apply, val_main_cst_9_apply, val_main_cst_8_apply]
  simp only [e, Ideal.hostDivf_def, Ideal.ofBits_def, Ideal.ofBits_zero_f32, zero_add, Cert.Spec.mean, Cert.Spec.nW]

/-- Layer 1: the variance stage is the mean of the squared deviations from the mean. -/
theorem refVar_1 (x0 : Nodes) (x1 : Edges) (x2 : Weights) (x3 : Rows) (j : Fin 128) :
    val_main_v61 (F := Ideal) x0 x1 x2 x3 (ix1 j) = Cert.Spec.varTwoPass (fun r j => val_main_v51 (F := Ideal) x0 x1 x2 x3 (ix2 r j)) j := by
  have e : ∀ k : Fin 50000, idx_main_v59 (ix1 j) k = ix2 k j := fun k => funext fun a => Fin.ext (by match a with | ⟨0, _⟩ => rfl | ⟨1, _⟩ => rfl)
  have em : ∀ k : Fin 50000, idx_main_v55 (idx_main_v56 (ix2 k j)) = ix1 j := fun k => funext fun a => Fin.ext (by match a with | ⟨0, _⟩ => rfl)
  have hs : ∀ k : Fin 50000, val_main_v58 (F := Ideal) x0 x1 x2 x3 (idx_main_v59 (ix1 j) k)
      = (val_main_v51 (F := Ideal) x0 x1 x2 x3 (ix2 k j) - Cert.Spec.mean (fun r j => val_main_v51 (F := Ideal) x0 x1 x2 x3 (ix2 r j)) j)
        * (val_main_v51 (F := Ideal) x0 x1 x2 x3 (ix2 k j) - Cert.Spec.mean (fun r j => val_main_v51 (F := Ideal) x0 x1 x2 x3 (ix2 r j)) j) := fun k => by
    rw [e k, val_main_v58_apply, val_main_v57_apply, val_main_v56_apply, val_main_v55_apply, em k, refMean_1]
    simp only [Ideal.mulf_def, Ideal.subf_def]
  rw [val_main_v61_apply, val_main_v59_apply, val_main_v60_apply, val_main_cst_11_apply, val_main_cst_10_apply]
  simp only [hs, Ideal.hostDivf_def, Ideal.ofBits_def, Ideal.ofBits_zero_f32, zero_add, Cert.Spec.varTwoPass, Cert.Spec.nW]

/-- Layer 1: the normalised stage, with the two-pass variance and the scale applied to the deviation first. -/
theorem refNorm_1 (x0 : Nodes) (x1 : Edges) (x2 : Weights) (x3 x4 x5 : Rows) (r : Fin 50000) (j : Fin 128) :
    val_main_v80 (F := Ideal) x0 x1 x2 x3 x4 x5 (ix2 r j)
      = Cert.Spec.normTwoPass (fun r j => val_main_v51 (F := Ideal) x0 x1 x2 x3 (ix2 r j))
          (fun j => x4 (ix2 (⟨0, by decide⟩ : Fin 3) j)) (fun j => x5 (ix2 (⟨0, by decide⟩ : Fin 3) j)) r j := by
  have eg : idx_main_v62 (idx_main_v63 (idx_main_v67 (idx_main_v68 (ix2 r j)))) = ix2 (⟨0, by decide⟩ : Fin 3) j :=
    funext fun a => Fin.ext (by match a with | ⟨0, _⟩ => rfl | ⟨1, _⟩ => exact Nat.mod_eq_of_lt j.isLt)
  have et : idx_main_v76 (idx_main_v77 (idx_main_v78 (idx_main_v79 (ix2 r j)))) = ix2 (⟨0, by decide⟩ : Fin 3) j :=
    funext fun a => Fin.ext (by match a with | ⟨0, _⟩ => rfl | ⟨1, _⟩ => exact Nat.mod_eq_of_lt j.isLt)
  have em : idx_main_v64 (idx_main_v65 (ix2 r j)) = ix1 j := funext fun a => Fin.ext (by match a with | ⟨0, _⟩ => rfl)
  have ev : idx_main_v73 (idx_main_v74 (ix2 r j)) = ix1 j := funext fun a => Fin.ext (by match a with | ⟨0, _⟩ => rfl)
  rw [val_main_v80_apply, val_main_v75_apply, val_main_v69_apply, val_main_v68_apply, val_main_v67_apply, val_main_v63_apply, val_main_v62_apply, val_main_v66_apply, val_main_v65_apply, val_main_v64_apply, val_main_v74_apply, val_main_v73_apply, val_main_v72_apply, val_main_v71_apply, val_main_v70_apply, val_main_cst_12_apply,
    val_main_v79_apply, val_main_v78_apply, val_main_v77_apply, val_main_v76_apply, eg, et, em, ev, refMean_1, refVar_1]
  simp only [Ideal.addf_def, Ideal.mulf_def, Ideal.subf_def, Ideal.hostUnary_rsqrt_def, Ideal.ofBits_def,
    Cert.Spec.normTwoPass, Cert.Spec.epsW]

/-- Layer 1: the layer's output is the normalised value clamped below at the zero word. -/
theorem refOut_1 (x0 : Nodes) (x1 : Edges) (x2 : Weights) (x3 x4 x5 : Rows) (r : Fin 50000) (j : Fin 128) :
    val_main_v81 (F := Ideal) x0 x1 x2 x3 x4 x5 (ix2 r j)
      = max (Cert.Spec.normTwoPass (fun r j => val_main_v51 (F := Ideal) x0 x1 x2 x3 (ix2 r j))
          (fun j => x4 (ix2 (⟨0, by decide⟩ : Fin 3) j)) (fun j => x5 (ix2 (⟨0, by decide⟩ : Fin 3) j)) r j) (Ideal.ofBits .f32 0x00000000#32) := by
  rw [val_main_v81_apply, val_main_call0_v0_apply, val_main_call0_cst_apply, refNorm_1]
  simp only [Ideal.maximumf_def, Ideal.ofBits_def]

/-! ## Layer 2 -/

/-- Layer 2: the layer's weight matrix is the layer's slice of the stacked weights. -/
theorem refW_2 (x2 : Weights) (k j : Fin 128) :
    val_main_v83 (F := Ideal) x2 (ix2 k j) = x2 (ix3 (⟨1, by decide⟩ : Fin 3) k j) := by
  have e : idx_main_v82 (idx_main_v83 (ix2 k j)) = ix3 (⟨1, by decide⟩ : Fin 3) k j :=
    funext fun a => Fin.ext (by
      have hk := k.isLt; have hj := j.isLt
      match a with
      | ⟨0, _⟩ => rfl
      | ⟨1, _⟩ => show (k.val * 128 + j.val) / 128 % 128 = k.val; omega
      | ⟨2, _⟩ => show (k.val * 128 + j.val) % 128 = j.val; omega)
  rw [val_main_v83_apply, val_main_v82_apply, e]

/-- Layer 2: the transformed features are the matrix product of the layer's input with the layer's weight slice. -/
theorem refH_2 (x0 : Nodes) (x1 : Edges) (x2 : Weights) (x3 x4 x5 : Rows) (r : Fin 50000) (j : Fin 128) :
    val_main_v84 (F := Ideal) x0 x1 x2 x3 x4 x5 (ix2 r j) = ∑ k : Fin 128, (val_main_v81 (F := Ideal) x0 x1 x2 x3 x4 x5) (ix2 r k) * x2 (ix3 (⟨1, by decide⟩ : Fin 3) k j) := by
  rw [val_main_v84_apply]
  refine Finset.sum_congr rfl fun k _ => ?_
  have el : lidx_main_v84 (ix2 r j) k = ix2 r k := funext fun a => Fin.ext (by match a with | ⟨0, _⟩ => rfl | ⟨1, _⟩ => rfl)
  have er : idx_main_v82 (idx_main_v83 (ridx_main_v84 (ix2 r j) k)) = ix3 (⟨1, by decide⟩ : Fin 3) k j :=
    funext fun a => Fin.ext (by
      have hk := k.isLt; have hj := j.isLt
      match a with
      | ⟨0, _⟩ => rfl
      | ⟨1, _⟩ => show (k.val * 128 + j.val) / 128 % 128 = k.val; omega
      | ⟨2, _⟩ => show (k.val * 128 + j.val) % 128 = j.val; omega)
  rw [val_main_v83_apply, val_main_v82_apply, el, er]

/-- Layer 2: the value the layer normalises is aggregate + self-loop weight · transformed features + bias. -/
theorem refFull_2 (x0 : Nodes) (x1 : Edges) (x2 : Weights) (x3 x4 x5 : Rows) (r : Fin 50000) (j : Fin 128) :
    val_main_v106 (F := Ideal) x0 x1 x2 x3 x4 x5 (ix2 r j)
      = Cert.Spec.full (fun r j => val_main_v97 (F := Ideal) x0 x1 x2 x3 x4 x5 (ix2 r j)) (fun r j => val_main_v84 (F := Ideal) x0 x1 x2 x3 x4 x5 (ix2 r j))
          (fun r => val_main_v26 (F := Ideal) x1 (ix1 r)) (fun j => x3 (ix2 (⟨1, by decide⟩ : Fin 3) j)) r j := by
  have es : idx_main_v98 (idx_main_v99 (ix2 r j)) = ix1 r := funext fun a => Fin.ext (by match a with | ⟨0, _⟩ => rfl)
  have eb : idx_main_v102 (idx_main_v103 (idx_main_v104 (idx_main_v105 (ix2 r j)))) = ix2 (⟨1, by decide⟩ : Fin 3) j :=
    funext fun a => Fin.ext (by match a with | ⟨0, _⟩ => rfl | ⟨1, _⟩ => exact Nat.mod_eq_of_lt j.isLt)
  rw [val_main_v106_apply, val_main_v101_apply, val_main_v100_apply, val_main_v99_apply, val_main_v98_apply, val_main_v105_apply, val_main_v104_apply, val_main_v103_apply, val_main_v102_apply, es, eb]
  simp only [Ideal.addf_def, Ideal.mulf_def, Cert.Spec.full]

/-- Layer 2: the mean stage is the feature's mean over the nodes. -/
theorem refMean_2 (x0 : Nodes) (x1 : Edges) (x2 : Weights) (x3 x4 x5 : Rows) (j : Fin 128) :
    val_main_v109 (F := Ideal) x0 x1 x2 x3 x4 x5 (ix1 j) = Cert.Spec.mean (fun r j => val_main_v106 (F := Ideal) x0 x1 x2 x3 x4 x5 (ix2 r j)) j := by
  have e : ∀ k : Fin 50000, idx_main_v107 (ix1 j) k = ix2 k j := fun k => funext fun a => Fin.ext (by match a with | ⟨0, _⟩ => rfl | ⟨1, _⟩ => rfl)
  rw [val_main_v109_apply, val_main_v107_apply, val_main_v108_apply, val_main_cst_17_apply, val_main_cst_16_apply]
  simp only [e, Ideal.hostDivf_def, Ideal.ofBits_def, Ideal.ofBits_zero_f32, zero_add, Cert.Spec.mean, Cert.Spec.nW]

/-- Layer 2: the variance stage is the mean of the squared deviations from the mean. -/
theorem refVar_2 (x0 : Nodes) (x1 : Edges) (x2 : Weights) (x3 x4 x5 : Rows) (j : Fin 128) :
    val_main_v116 (F := Ideal) x0 x1 x2 x3 x4 x5 (ix1 j) = Cert.Spec.varTwoPass (fun r j => val_main_v106 (F := Ideal) x0 x1 x2 x3 x4 x5 (ix2 r j)) j := by
  have e : ∀ k : Fin 50000, idx_main_v114 (ix1 j) k = ix2 k j := fun k => funext fun a => Fin.ext (by match a with | ⟨0, _⟩ => rfl | ⟨1, _⟩ => rfl)
  have em : ∀ k : Fin 50000, idx_main_v110 (idx_main_v111 (ix2 k j)) = ix1 j := fun k => funext fun a => Fin.ext (by match a with | ⟨0, _⟩ => rfl)
  have hs : ∀ k : Fin 50000, val_main_v113 (F := Ideal) x0 x1 x2 x3 x4 x5 (idx_main_v114 (ix1 j) k)
      = (val_main_v106 (F := Ideal) x0 x1 x2 x3 x4 x5 (ix2 k j) - Cert.Spec.mean (fun r j => val_main_v106 (F := Ideal) x0 x1 x2 x3 x4 x5 (ix2 r j)) j)
        * (val_main_v106 (F := Ideal) x0 x1 x2 x3 x4 x5 (ix2 k j) - Cert.Spec.mean (fun r j => val_main_v106 (F := Ideal) x0 x1 x2 x3 x4 x5 (ix2 r j)) j) := fun k => by
    rw [e k, val_main_v113_apply, val_main_v112_apply, val_main_v111_apply, val_main_v110_apply, em k, refMean_2]
    simp only [Ideal.mulf_def, Ideal.subf_def]
  rw [val_main_v116_apply, val_main_v114_apply, val_main_v115_apply, val_main_cst_19_apply, val_main_cst_18_apply]
  simp only [hs, Ideal.hostDivf_def, Ideal.ofBits_def, Ideal.ofBits_zero_f32, zero_add, Cert.Spec.varTwoPass, Cert.Spec.nW]

/-- Layer 2: the normalised stage, with the two-pass variance and the scale applied to the deviation first. -/
theorem refNorm_2 (x0 : Nodes) (x1 : Edges) (x2 : Weights) (x3 x4 x5 : Rows) (r : Fin 50000) (j : Fin 128) :
    val_main_v135 (F := Ideal) x0 x1 x2 x3 x4 x5 (ix2 r j)
      = Cert.Spec.normTwoPass (fun r j => val_main_v106 (F := Ideal) x0 x1 x2 x3 x4 x5 (ix2 r j))
          (fun j => x4 (ix2 (⟨1, by decide⟩ : Fin 3) j)) (fun j => x5 (ix2 (⟨1, by decide⟩ : Fin 3) j)) r j := by
  have eg : idx_main_v117 (idx_main_v118 (idx_main_v122 (idx_main_v123 (ix2 r j)))) = ix2 (⟨1, by decide⟩ : Fin 3) j :=
    funext fun a => Fin.ext (by match a with | ⟨0, _⟩ => rfl | ⟨1, _⟩ => exact Nat.mod_eq_of_lt j.isLt)
  have et : idx_main_v131 (idx_main_v132 (idx_main_v133 (idx_main_v134 (ix2 r j)))) = ix2 (⟨1, by decide⟩ : Fin 3) j :=
    funext fun a => Fin.ext (by match a with | ⟨0, _⟩ => rfl | ⟨1, _⟩ => exact Nat.mod_eq_of_lt j.isLt)
  have em : idx_main_v119 (idx_main_v120 (ix2 r j)) = ix1 j := funext fun a => Fin.ext (by match a with | ⟨0, _⟩ => rfl)
  have ev : idx_main_v128 (idx_main_v129 (ix2 r j)) = ix1 j := funext fun a => Fin.ext (by match a with | ⟨0, _⟩ => rfl)
  rw [val_main_v135_apply, val_main_v130_apply, val_main_v124_apply, val_main_v123_apply, val_main_v122_apply, val_main_v118_apply, val_main_v117_apply, val_main_v121_apply, val_main_v120_apply, val_main_v119_apply, val_main_v129_apply, val_main_v128_apply, val_main_v127_apply, val_main_v126_apply, val_main_v125_apply, val_main_cst_20_apply,
    val_main_v134_apply, val_main_v133_apply, val_main_v132_apply, val_main_v131_apply, eg, et, em, ev, refMean_2, refVar_2]
  simp only [Ideal.addf_def, Ideal.mulf_def, Ideal.subf_def, Ideal.hostUnary_rsqrt_def, Ideal.ofBits_def,
    Cert.Spec.normTwoPass, Cert.Spec.epsW]

/-- Layer 2: the layer's output is the layer's input plus the normalised value clamped below at the zero word. -/
theorem refOut_2 (x0 : Nodes) (x1 : Edges) (x2 : Weights) (x3 x4 x5 : Rows) (r : Fin 50000) (j : Fin 128) :
    val_main_v137 (F := Ideal) x0 x1 x2 x3 x4 x5 (ix2 r j)
      = val_main_v81 (F := Ideal) x0 x1 x2 x3 x4 x5 (ix2 r j)
        + max (Cert.Spec.normTwoPass (fun r j => val_main_v106 (F := Ideal) x0 x1 x2 x3 x4 x5 (ix2 r j))
            (fun j => x4 (ix2 (⟨1, by decide⟩ : Fin 3) j)) (fun j => x5 (ix2 (⟨1, by decide⟩ : Fin 3) j)) r j) (Ideal.ofBits .f32 0x00000000#32) := by
  rw [val_main_v137_apply, val_main_v136_apply, val_main_call1_v0_apply, val_main_call1_cst_apply, refNorm_2]
  simp only [Ideal.addf_def, Ideal.maximumf_def, Ideal.ofBits_def]

/-! ## Layer 3 -/

/-- Layer 3: the layer's weight matrix is the layer's slice of the stacked weights. -/
theorem refW_3 (x2 : Weights) (k j : Fin 128) :
    val_main_v139 (F := Ideal) x2 (ix2 k j) = x2 (ix3 (⟨2, by decide⟩ : Fin 3) k j) := by
  have e : idx_main_v138 (idx_main_v139 (ix2 k j)) = ix3 (⟨2, by decide⟩ : Fin 3) k j :=
    funext fun a => Fin.ext (by
      have hk := k.isLt; have hj := j.isLt
      match a with
      | ⟨0, _⟩ => rfl
      | ⟨1, _⟩ => show (k.val * 128 + j.val) / 128 % 128 = k.val; omega
      | ⟨2, _⟩ => show (k.val * 128 + j.val) % 128 = j.val; omega)
  rw [val_main_v139_apply, val_main_v138_apply, e]

/-- Layer 3: the transformed features are the matrix product of the layer's input with the layer's weight slice. -/
theorem refH_3 (x0 : Nodes) (x1 : Edges) (x2 : Weights) (x3 x4 x5 : Rows) (r : Fin 50000) (j : Fin 128) :
    val_main_v140 (F := Ideal) x0 x1 x2 x3 x4 x5 (ix2 r j) = ∑ k : Fin 128, (val_main_v137 (F := Ideal) x0 x1 x2 x3 x4 x5) (ix2 r k) * x2 (ix3 (⟨2, by decide⟩ : Fin 3) k j) := by
  rw [val_main_v140_apply]
  refine Finset.sum_congr rfl fun k _ => ?_
  have el : lidx_main_v140 (ix2 r j) k = ix2 r k := funext fun a => Fin.ext (by match a with | ⟨0, _⟩ => rfl | ⟨1, _⟩ => rfl)
  have er : idx_main_v138 (idx_main_v139 (ridx_main_v140 (ix2 r j) k)) = ix3 (⟨2, by decide⟩ : Fin 3) k j :=
    funext fun a => Fin.ext (by
      have hk := k.isLt; have hj := j.isLt
      match a with
      | ⟨0, _⟩ => rfl
      | ⟨1, _⟩ => show (k.val * 128 + j.val) / 128 % 128 = k.val; omega
      | ⟨2, _⟩ => show (k.val * 128 + j.val) % 128 = j.val; omega)
  rw [val_main_v139_apply, val_main_v138_apply, el, er]

/-- Layer 3: the value the layer normalises is aggregate + self-loop weight · transformed features + bias. -/
theorem refFull_3 (x0 : Nodes) (x1 : Edges) (x2 : Weights) (x3 x4 x5 : Rows) (r : Fin 50000) (j : Fin 128) :
    val_main_v162 (F := Ideal) x0 x1 x2 x3 x4 x5 (ix2 r j)
      = Cert.Spec.full (fun r j => val_main_v153 (F := Ideal) x0 x1 x2 x3 x4 x5 (ix2 r j)) (fun r j => val_main_v140 (F := Ideal) x0 x1 x2 x3 x4 x5 (ix2 r j))
          (fun r => val_main_v26 (F := Ideal) x1 (ix1 r)) (fun j => x3 (ix2 (⟨2, by decide⟩ : Fin 3) j)) r j := by
  have es : idx_main_v154 (idx_main_v155 (ix2 r j)) = ix1 r := funext fun a => Fin.ext (by match a with | ⟨0, _⟩ => rfl)
  have eb : idx_main_v158 (idx_main_v159 (idx_main_v160 (idx_main_v161 (ix2 r j)))) = ix2 (⟨2, by decide⟩ : Fin 3) j :=
    funext fun a => Fin.ext (by match a with | ⟨0, _⟩ => rfl | ⟨1, _⟩ => exact Nat.mod_eq_of_lt j.isLt)
  rw [val_main_v162_apply, val_main_v157_apply, val_main_v156_apply, val_main_v155_apply, val_main_v154_apply, val_main_v161_apply, val_main_v160_apply, val_main_v159_apply, val_main_v158_apply, es, eb]
  simp only [Ideal.addf_def, Ideal.mulf_def, Cert.Spec.full]

/-- Layer 3: the mean stage is the feature's mean over the nodes. -/
theorem refMean_3 (x0 : Nodes) (x1 : Edges) (x2 : Weights) (x3 x4 x5 : Rows) (j : Fin 128) :
    val_main_v165 (F := Ideal) x0 x1 x2 x3 x4 x5 (ix1 j) = Cert.Spec.mean (fun r j => val_main_v162 (F := Ideal) x0 x1 x2 x3 x4 x5 (ix2 r j)) j := by
  have e : ∀ k : Fin 50000, idx_main_v163 (ix1 j) k = ix2 k j := fun k => funext fun a => Fin.ext (by match a with | ⟨0, _⟩ => rfl | ⟨1, _⟩ => rfl)
  rw [val_main_v165_apply, val_main_v163_apply, val_main_v164_apply, val_main_cst_25_apply, val_main_cst_24_apply]
  simp only [e, Ideal.hostDivf_def, Ideal.ofBits_def, Ideal.ofBits_zero_f32, zero_add, Cert.Spec.mean, Cert.Spec.nW]

/-- Layer 3: the variance stage is the mean of the squared deviations from the mean. -/
theorem refVar_3 (x0 : Nodes) (x1 : Edges) (x2 : Weights) (x3 x4 x5 : Rows) (j : Fin 128) :
    val_main_v172 (F := Ideal) x0 x1 x2 x3 x4 x5 (ix1 j) = Cert.Spec.varTwoPass (fun r j => val_main_v162 (F := Ideal) x0 x1 x2 x3 x4 x5 (ix2 r j)) j := by
  have e : ∀ k : Fin 50000, idx_main_v170 (ix1 j) k = ix2 k j := fun k => funext fun a => Fin.ext (by match a with | ⟨0, _⟩ => rfl | ⟨1, _⟩ => rfl)
  have em : ∀ k : Fin 50000, idx_main_v166 (idx_main_v167 (ix2 k j)) = ix1 j := fun k => funext fun a => Fin.ext (by match a with | ⟨0, _⟩ => rfl)
  have hs : ∀ k : Fin 50000, val_main_v169 (F := Ideal) x0 x1 x2 x3 x4 x5 (idx_main_v170 (ix1 j) k)
      = (val_main_v162 (F := Ideal) x0 x1 x2 x3 x4 x5 (ix2 k j) - Cert.Spec.mean (fun r j => val_main_v162 (F := Ideal) x0 x1 x2 x3 x4 x5 (ix2 r j)) j)
        * (val_main_v162 (F := Ideal) x0 x1 x2 x3 x4 x5 (ix2 k j) - Cert.Spec.mean (fun r j => val_main_v162 (F := Ideal) x0 x1 x2 x3 x4 x5 (ix2 r j)) j) := fun k => by
    rw [e k, val_main_v169_apply, val_main_v168_apply, val_main_v167_apply, val_main_v166_apply, em k, refMean_3]
    simp only [Ideal.mulf_def, Ideal.subf_def]
  rw [val_main_v172_apply, val_main_v170_apply, val_main_v171_apply, val_main_cst_27_apply, val_main_cst_26_apply]
  simp only [hs, Ideal.hostDivf_def, Ideal.ofBits_def, Ideal.ofBits_zero_f32, zero_add, Cert.Spec.varTwoPass, Cert.Spec.nW]

/-- Layer 3: the normalised stage, with the two-pass variance and the scale applied to the deviation first. -/
theorem refNorm_3 (x0 : Nodes) (x1 : Edges) (x2 : Weights) (x3 x4 x5 : Rows) (r : Fin 50000) (j : Fin 128) :
    val_main_v191 (F := Ideal) x0 x1 x2 x3 x4 x5 (ix2 r j)
      = Cert.Spec.normTwoPass (fun r j => val_main_v162 (F := Ideal) x0 x1 x2 x3 x4 x5 (ix2 r j))
          (fun j => x4 (ix2 (⟨2, by decide⟩ : Fin 3) j)) (fun j => x5 (ix2 (⟨2, by decide⟩ : Fin 3) j)) r j := by
  have eg : idx_main_v173 (idx_main_v174 (idx_main_v178 (idx_main_v179 (ix2 r j)))) = ix2 (⟨2, by decide⟩ : Fin 3) j :=
    funext fun a => Fin.ext (by match a with | ⟨0, _⟩ => rfl | ⟨1, _⟩ => exact Nat.mod_eq_of_lt j.isLt)
  have et : idx_main_v187 (idx_main_v188 (idx_main_v189 (idx_main_v190 (ix2 r j)))) = ix2 (⟨2, by decide⟩ : Fin 3) j :=
    funext fun a => Fin.ext (by match a with | ⟨0, _⟩ => rfl | ⟨1, _⟩ => exact Nat.mod_eq_of_lt j.isLt)
  have em : idx_main_v175 (idx_main_v176 (ix2 r j)) = ix1 j := funext fun a => Fin.ext (by match a with | ⟨0, _⟩ => rfl)
  have ev : idx_main_v184 (idx_main_v185 (ix2 r j)) = ix1 j := funext fun a => Fin.ext (by match a with | ⟨0, _⟩ => rfl)
  rw [val_main_v191_apply, val_main_v186_apply, val_main_v180_apply, val_main_v179_apply, val_main_v178_apply, val_main_v174_apply, val_main_v173_apply, val_main_v177_apply, val_main_v176_apply, val_main_v175_apply, val_main_v185_apply, val_main_v184_apply, val_main_v183_apply, val_main_v182_apply, val_main_v181_apply, val_main_cst_28_apply,
    val_main_v190_apply, val_main_v189_apply, val_main_v188_apply, val_main_v187_apply, eg, et, em, ev, refMean_3, refVar_3]
  simp only [Ideal.addf_def, Ideal.mulf_def, Ideal.subf_def, Ideal.hostUnary_rsqrt_def, Ideal.ofBits_def,
    Cert.Spec.normTwoPass, Cert.Spec.epsW]

/-- Layer 3: the layer's output is the layer's input plus the normalised value. -/
theorem refOut_3 (x0 : Nodes) (x1 : Edges) (x2 : Weights) (x3 x4 x5 : Rows) (r : Fin 50000) (j : Fin 128) :
    val_main_v192 (F := Ideal) x0 x1 x2 x3 x4 x5 (ix2 r j)
      = val_main_v137 (F := Ideal) x0 x1 x2 x3 x4 x5 (ix2 r j)
        + Cert.Spec.normTwoPass (fun r j => val_main_v162 (F := Ideal) x0 x1 x2 x3 x4 x5 (ix2 r j))
            (fun j => x4 (ix2 (⟨2, by decide⟩ : Fin 3) j)) (fun j => x5 (ix2 (⟨2, by decide⟩ : Fin 3) j)) r j := by
  rw [val_main_v192_apply, refNorm_3]
  simp only [Ideal.addf_def]

end Cert.RefSide

end
-- ==== Proof.SpecLaws.lean ====
/-
  The laws that join the two spellings of a normalised layer.

  The count word is the real 50000 and the stabiliser word a positive real. For a real-valued f the mean is real, the two
  variances are one nonnegative real, so the variance plus the stabiliser is a positive real and its inverse square root is
  real; the two groupings of the product then differ only by associativity of the multiplication of extended reals.
  A layer's output for real f, real scale and shift (and a real residual) is real again, which carries the argument from
  one layer to the next.
-/
import Mathlib
import Idealize.ShloMosaic.PureOps.Ideal
import proofs.«135670_j59253368815959_1_alg».proof.Proof.LibBatchNormMoments
import proofs.«135670_j59253368815959_1_alg».proof.Proof.Spec

noncomputable section

namespace Cert.Spec

open Idealize.ShloMosaic Cert.Lib.BatchNormMoments

/-- The count word denotes 50000. -/
theorem nW_eq : nW = ((50000 : ℝ) : EReal) := by
  unfold nW; simp [Ideal.ofBits, Ideal.ieee, -EReal.coe_mul]; norm_num

/-- The zero word denotes 0. -/
theorem zeroW_eq : Ideal.ofBits .f32 0x00000000#32 = 0 := by
  simp [Ideal.ofBits, Ideal.ieee]

/-- The one word denotes 1. -/
theorem oneW_eq : Ideal.ofBits .f32 0x3F800000#32 = ((1 : ℝ) : EReal) := by
  simp [Ideal.ofBits, Ideal.ieee, -EReal.coe_mul]; norm_num

/-- The stabiliser word denotes a positive real. -/
theorem epsW_pos : ∃ e : ℝ, 0 < e ∧ epsW = ((e : ℝ) : EReal) := by
  unfold epsW
  refine ⟨_, ?_, by simp [Ideal.ofBits, Ideal.ieee, -EReal.coe_mul]; rfl⟩
  norm_num

/-- An array of extended reals all of whose entries are real. -/
def Real2 (f : Fin 50000 → Fin 128 → EReal) : Prop := ∀ r j, ∃ x : ℝ, f r j = ((x : ℝ) : EReal)

/-- For a real-valued f the two normalised values are one extended real. -/
theorem normOnePass_eq_normTwoPass (f : Fin 50000 → Fin 128 → EReal) (hf : Real2 f) (g b : Fin 128 → EReal)
    (r : Fin 50000) (j : Fin 128) : normOnePass f g b r j = normTwoPass f g b r j := by
  choose x hx using hf
  have hv : varOnePass f j = varTwoPass f j := by
    unfold varOnePass varTwoPass mean
    simp only [hx, nW_eq]
    exact variance_two_forms (fun r => x r j) 50000 (by norm_num) (by simp)
  unfold normOnePass normTwoPass
  rw [hv, mul_assoc]

/-- The normalised value of a real-valued f with real scale and shift is real. -/
theorem normTwoPass_real (f : Fin 50000 → Fin 128 → EReal) (hf : Real2 f) (g b : Fin 128 → EReal)
    (hg : ∀ j, ∃ x : ℝ, g j = ((x : ℝ) : EReal)) (hb : ∀ j, ∃ x : ℝ, b j = ((x : ℝ) : EReal)) :
    Real2 (normTwoPass f g b) := by
  intro r j
  choose x hx using hf
  obtain ⟨gj, hgj⟩ := hg j
  obtain ⟨bj, hbj⟩ := hb j
  obtain ⟨e, he, hee⟩ := epsW_pos
  obtain ⟨v, hv0, hv⟩ := variance_coe_nonneg (fun r => x r j) 50000 (by norm_num)
  have hm := mean_coe (fun r => x r j) 50000 (by norm_num)
  unfold normTwoPass varTwoPass mean
  simp only [hx, nW_eq, hgj, hbj, hee]
  rw [hv, hm]
  have hpos : 0 < v + e := by linarith
  rw [← EReal.coe_add, Ideal.rsqrt_coe, if_neg (not_lt.mpr hpos.le), if_neg hpos.ne']
  rw [← EReal.coe_sub, ← EReal.coe_mul, ← EReal.coe_mul, ← EReal.coe_add]
  exact ⟨_, rfl⟩

end Cert.Spec

end
-- ==== Proof.RefReal.lean ====
/-
  Every stage of the reference that the value proof reads is an array of real numbers when the argument arrays are.

  The law joining the two spellings of the variance holds for real entries only, so each layer's value must be shown
  real.  A node's degree is a count of edges plus one, a positive real, so its inverse square root is real; the edge
  weights and the self-loop weights are products of those.  Within a layer the transformed features are finite sums of
  products of reals, the aggregate is zero plus a finite sum of products of gathered features and edge weights, and
  the normalised value of a real array with real scale and shift is real; clamping at zero and adding the layer's input
  keep it real, which carries the argument to the next layer.
-/
import Mathlib
import proofs.«135670_j59253368815959_1_alg».proof.Proof.RefLayers
import proofs.«135670_j59253368815959_1_alg».proof.Proof.SpecLaws
import proofs.«135670_j59253368815959_1_alg».proof.Proof.LibRealEntries

noncomputable section

namespace Cert.RefSide

open Cert.ReferenceIdeal Cert.ReferenceIdeal.Read Idealize.ShloMosaic Idealize.ShloMosaic.ValueIdx Cert.RealEntries

/-! ## Real entries under the operations -/

/-- A sum of two reals is a real. -/
theorem real_add {a b : EReal} (ha : ∃ r : ℝ, a = (r : EReal)) (hb : ∃ r : ℝ, b = (r : EReal)) :
    ∃ r : ℝ, a + b = (r : EReal) := by
  obtain ⟨a, rfl⟩ := ha; obtain ⟨b, rfl⟩ := hb; exact ⟨a + b, (EReal.coe_add a b).symm⟩

/-- A product of two reals is a real. -/
theorem real_mul {a b : EReal} (ha : ∃ r : ℝ, a = (r : EReal)) (hb : ∃ r : ℝ, b = (r : EReal)) :
    ∃ r : ℝ, a * b = (r : EReal) := by
  obtain ⟨a, rfl⟩ := ha; obtain ⟨b, rfl⟩ := hb; exact ⟨a * b, (EReal.coe_mul a b).symm⟩

/-- The larger of two reals is a real. -/
theorem real_max {a b : EReal} (ha : ∃ r : ℝ, a = (r : EReal)) (hb : ∃ r : ℝ, b = (r : EReal)) :
    ∃ r : ℝ, max a b = (r : EReal) := by
  rcases max_choice a b with h | h
  · rw [h]; exact ha
  · rw [h]; exact hb

/-- A finite sum of reals is a real. -/
theorem real_sum {ι : Type} (s : Finset ι) (f : ι → EReal) (hf : AllReal f) : ∃ r : ℝ, ∑ k ∈ s, f k = (r : EReal) := by
  choose g hg using hf
  exact ⟨∑ k ∈ s, g k, by rw [coe_sum]; exact Finset.sum_congr rfl fun k _ => hg k⟩

/-- The zero word is a real. -/
theorem real_zeroW : ∃ r : ℝ, Ideal.ofBits .f32 0x00000000#32 = (r : EReal) :=
  ⟨0, by rw [Cert.Spec.zeroW_eq, EReal.coe_zero]⟩

/-- A count of ones plus one is a positive real. -/
theorem count_pos {ι : Type} (s : Finset ι) :
    ∃ d : ℝ, 0 < d ∧ ((0 : EReal) + ∑ _k ∈ s, ((1 : ℝ) : EReal)) + ((1 : ℝ) : EReal) = (d : EReal) := by
  refine ⟨(s.card : ℝ) + 1, by positivity, ?_⟩
  rw [zero_add, ← coe_sum, ← EReal.coe_add]
  congr 1
  simp

/-- The inverse square root of a positive real is a real. -/
theorem real_rsqrt_pos {a : EReal} (ha : ∃ d : ℝ, 0 < d ∧ a = (d : EReal)) : ∃ r : ℝ, Ideal.rsqrt a = (r : EReal) := by
  obtain ⟨d, hd, rfl⟩ := ha
  rw [Ideal.rsqrt_coe, if_neg (not_lt.mpr hd.le), if_neg hd.ne']
  exact ⟨_, rfl⟩

/-- A gather reads its operand at some index: real entries stay real. -/
theorem allReal_gather {s si t : Shape} {w : Nat} (d : GatherDims s si t) (x : s.Idx → EReal) (idx : IVec si w)
    (hx : AllReal x) : AllReal (Host.gather d x idx) := fun j => hx _

/-- An accumulating scatter of real updates into a real operand is real: each entry is the operand's plus a finite sum of
    updates. -/
theorem allReal_scatterAdd {s si su : Shape} {w : Nat} (d : ScatterDims s si su) (x : FVec Ideal s .f32) (idx : IVec si w)
    (upd : FVec Ideal su .f32) (hx : AllReal x) (hu : AllReal upd) : AllReal (Host.scatterAdd d x idx upd) := by
  intro i
  show ∃ r : ℝ, Ideal.hostScatterAdd d x idx upd i = (r : EReal)
  unfold Ideal.hostScatterAdd
  exact real_add (hx i) (real_sum _ _ hu)

/-- An accumulating scatter of ones into zeros, plus one, is a positive real: each entry counts the updates that land on it. -/
theorem scatterAdd_count_pos {s si su : Shape} {w : Nat} (d : ScatterDims s si su) (x : FVec Ideal s .f32) (idx : IVec si w)
    (upd : FVec Ideal su .f32) (hx : ∀ i, x i = (0 : EReal)) (hu : ∀ j, upd j = ((1 : ℝ) : EReal)) (i : s.Idx) :
    ∃ c : ℝ, 0 < c ∧ Host.scatterAdd d x idx upd i + ((1 : ℝ) : EReal) = (c : EReal) := by
  show ∃ c : ℝ, 0 < c ∧ Ideal.hostScatterAdd d x idx upd i + ((1 : ℝ) : EReal) = (c : EReal)
  unfold Ideal.hostScatterAdd
  simp only [hx, hu]
  exact count_pos _

/-! ## The degrees and the edge weights -/

/-- A node's degree — the edges into it, plus one — is a positive real. -/
theorem deg_pos (x1 : Edges) (i : S50000.Idx) : ∃ d : ℝ, 0 < d ∧ val_main_v9 (F := Ideal) x1 i = (d : EReal) := by
  rw [val_main_v9_apply, val_main_v8_apply, val_main_cst_1_apply]
  simp only [Ideal.addf_def, Ideal.ofBits_def, Cert.Spec.oneW_eq]
  unfold val_main_v7
  have h5 : ∀ i : S50000.Idx, val_main_v5 (F := Ideal) i = (0 : EReal) := fun i => by
    rw [val_main_v5_apply, val_main_cst_0_apply]
    simp only [Ideal.ofBits_def, Cert.Spec.zeroW_eq]
  have h4 : ∀ j : S800000.Idx, val_main_v4 (F := Ideal) j = ((1 : ℝ) : EReal) := fun j => by
    rw [val_main_v4_apply, val_main_cst_apply]
    simp only [Ideal.ofBits_def, Cert.Spec.oneW_eq]
  exact scatterAdd_count_pos _ _ _ _ h5 h4 i

/-- The inverse square root of every degree is a real. -/
theorem real_dis (x1 : Edges) : AllReal (val_main_v10 (F := Ideal) x1) := fun i => by
  rw [val_main_v10_apply]
  simp only [Ideal.hostUnary_rsqrt_def]
  exact real_rsqrt_pos (deg_pos x1 i)

/-- The self-loop weights are real. -/
theorem real_selfnorm (x1 : Edges) : AllReal (val_main_v26 (F := Ideal) x1) := fun i => by
  rw [val_main_v26_apply]
  simp only [Ideal.mulf_def]
  exact real_mul (real_dis x1 i) (real_dis x1 i)

/-- The edge weights are real. -/
theorem real_norm (x1 : Edges) : AllReal (val_main_v25 (F := Ideal) x1) := fun i => by
  rw [val_main_v25_apply]
  simp only [Ideal.mulf_def]
  refine real_mul ?_ ?_
  · unfold val_main_v17; exact allReal_gather _ _ _ (real_dis x1) i
  · unfold val_main_v24; exact allReal_gather _ _ _ (real_dis x1) i

/-! ## Layer 1 -/

/-- Layer 1: the transformed features are real — finite sums of products of real entries. -/
theorem real_h_1 (x0 : Nodes) (x2 : Weights) (h0 : AllReal x0) (h2 : AllReal x2) :
    AllReal (val_main_v29 (F := Ideal) x0 x2) := by
  intro i
  obtain ⟨r, j, rfl⟩ : ∃ (r : Fin 50000) (j : Fin 128), i = ix2 r j := ⟨i 0, i 1, eq_ix2 i⟩
  rw [refH_1]
  exact sum_mul_real Finset.univ (fun k => x0 (ix2 r k)) (fun k => x2 (ix3 (⟨0, by decide⟩ : Fin 3) k j))
    (fun k => h0 _) (fun k => h2 _)

/-- Layer 1: the aggregate is real — zero plus a finite sum of gathered features times edge weights. -/
theorem real_agg_1 (x0 : Nodes) (x1 : Edges) (x2 : Weights) (h0 : AllReal x0) (h2 : AllReal x2) :
    AllReal (val_main_v42 (F := Ideal) x0 x1 x2) := by
  unfold val_main_v42
  refine allReal_scatterAdd _ _ _ _ (fun i => ?_) (fun i => ?_)
  · rw [val_main_v40_apply, val_main_cst_7_apply]
    simp only [Ideal.ofBits_def]
    exact real_zeroW
  · rw [val_main_v39_apply, val_main_v38_apply, val_main_v37_apply]
    simp only [Ideal.mulf_def]
    refine real_mul ?_ (real_norm x1 _)
    unfold val_main_v36
    exact allReal_gather _ _ _ (real_h_1 x0 x2 h0 h2) i

/-- Layer 1: the value the layer normalises is real. -/
theorem real_full_1 (x0 : Nodes) (x1 : Edges) (x2 : Weights) (x3 : Rows) (h0 : AllReal x0) (h2 : AllReal x2) (h3 : AllReal x3) :
    Cert.Spec.Real2 (fun r j => val_main_v51 (F := Ideal) x0 x1 x2 x3 (ix2 r j)) := by
  intro r j
  show ∃ x : ℝ, val_main_v51 (F := Ideal) x0 x1 x2 x3 (ix2 r j) = (x : EReal)
  rw [refFull_1]
  unfold Cert.Spec.full
  exact real_add (real_add ((real_agg_1 x0 x1 x2 h0 h2) _) (real_mul (real_selfnorm x1 _) ((real_h_1 x0 x2 h0 h2) _))) (h3 _)

/-- Layer 1: the layer's output is real. -/
theorem real_out_1 (x0 : Nodes) (x1 : Edges) (x2 : Weights) (x3 x4 x5 : Rows) (h0 : AllReal x0) (h2 : AllReal x2) (h3 : AllReal x3) (h4 : AllReal x4) (h5 : AllReal x5) :
    AllReal (val_main_v81 (F := Ideal) x0 x1 x2 x3 x4 x5) := by
  intro i
  obtain ⟨r, j, rfl⟩ : ∃ (r : Fin 50000) (j : Fin 128), i = ix2 r j := ⟨i 0, i 1, eq_ix2 i⟩
  rw [refOut_1]
  exact real_max (Cert.Spec.normTwoPass_real _ (real_full_1 x0 x1 x2 x3 h0 h2 h3) _ _ (fun j => h4 _) (fun j => h5 _) r j) real_zeroW

/-! ## Layer 2 -/

/-- Layer 2: the transformed features are real — finite sums of products of real entries. -/
theorem real_h_2 (x0 : Nodes) (x1 : Edges) (x2 : Weights) (x3 x4 x5 : Rows) (h0 : AllReal x0) (h2 : AllReal x2) (h3 : AllReal x3) (h4 : AllReal x4) (h5 : AllReal x5) :
    AllReal (val_main_v84 (F := Ideal) x0 x1 x2 x3 x4 x5) := by
  intro i
  obtain ⟨r, j, rfl⟩ : ∃ (r : Fin 50000) (j : Fin 128), i = ix2 r j := ⟨i 0, i 1, eq_ix2 i⟩
  rw [refH_2]
  exact sum_mul_real Finset.univ (fun k => (val_main_v81 (F := Ideal) x0 x1 x2 x3 x4 x5) (ix2 r k)) (fun k => x2 (ix3 (⟨1, by decide⟩ : Fin 3) k j))
    (fun k => (real_out_1 x0 x1 x2 x3 x4 x5 h0 h2 h3 h4 h5) _) (fun k => h2 _)

/-- Layer 2: the aggregate is real — zero plus a finite sum of gathered features times edge weights. -/
theorem real_agg_2 (x0 : Nodes) (x1 : Edges) (x2 : Weights) (x3 x4 x5 : Rows) (h0 : AllReal x0) (h2 : AllReal x2) (h3 : AllReal x3) (h4 : AllReal x4) (h5 : AllReal x5) :
    AllReal (val_main_v97 (F := Ideal) x0 x1 x2 x3 x4 x5) := by
  unfold val_main_v97
  refine allReal_scatterAdd _ _ _ _ (fun i => ?_) (fun i => ?_)
  · rw [val_main_v95_apply, val_main_cst_15_apply]
    simp only [Ideal.ofBits_def]
    exact real_zeroW
  · rw [val_main_v94_apply, val_main_v93_apply, val_main_v92_apply]
    simp only [Ideal.mulf_def]
    refine real_mul ?_ (real_norm x1 _)
    unfold val_main_v91
    exact allReal_gather _ _ _ (real_h_2 x0 x1 x2 x3 x4 x5 h0 h2 h3 h4 h5) i

/-- Layer 2: the value the layer normalises is real. -/
theorem real_full_2 (x0 : Nodes) (x1 : Edges) (x2 : Weights) (x3 x4 x5 : Rows) (h0 : AllReal x0) (h2 : AllReal x2) (h3 : AllReal x3) (h4 : AllReal x4) (h5 : AllReal x5) :
    Cert.Spec.Real2 (fun r j => val_main_v106 (F := Ideal) x0 x1 x2 x3 x4 x5 (ix2 r j)) := by
  intro r j
  show ∃ x : ℝ, val_main_v106 (F := Ideal) x0 x1 x2 x3 x4 x5 (ix2 r j) = (x : EReal)
  rw [refFull_2]
  unfold Cert.Spec.full
  exact real_add (real_add ((real_agg_2 x0 x1 x2 x3 x4 x5 h0 h2 h3 h4 h5) _) (real_mul (real_selfnorm x1 _) ((real_h_2 x0 x1 x2 x3 x4 x5 h0 h2 h3 h4 h5) _))) (h3 _)

/-- Layer 2: the layer's output is real. -/
theorem real_out_2 (x0 : Nodes) (x1 : Edges) (x2 : Weights) (x3 x4 x5 : Rows) (h0 : AllReal x0) (h2 : AllReal x2) (h3 : AllReal x3) (h4 : AllReal x4) (h5 : AllReal x5) :
    AllReal (val_main_v137 (F := Ideal) x0 x1 x2 x3 x4 x5) := by
  intro i
  obtain ⟨r, j, rfl⟩ : ∃ (r : Fin 50000) (j : Fin 128), i = ix2 r j := ⟨i 0, i 1, eq_ix2 i⟩
  rw [refOut_2]
  exact real_add (real_out_1 x0 x1 x2 x3 x4 x5 h0 h2 h3 h4 h5 _) (real_max (Cert.Spec.normTwoPass_real _ (real_full_2 x0 x1 x2 x3 x4 x5 h0 h2 h3 h4 h5) _ _ (fun j => h4 _) (fun j => h5 _) r j) real_zeroW)

/-! ## Layer 3 -/

/-- Layer 3: the transformed features are real — finite sums of products of real entries. -/
theorem real_h_3 (x0 : Nodes) (x1 : Edges) (x2 : Weights) (x3 x4 x5 : Rows) (h0 : AllReal x0) (h2 : AllReal x2) (h3 : AllReal x3) (h4 : AllReal x4) (h5 : AllReal x5) :
    AllReal (val_main_v140 (F := Ideal) x0 x1 x2 x3 x4 x5) := by
  intro i
  obtain ⟨r, j, rfl⟩ : ∃ (r : Fin 50000) (j : Fin 128), i = ix2 r j := ⟨i 0, i 1, eq_ix2 i⟩
  rw [refH_3]
  exact sum_mul_real Finset.univ (fun k => (val_main_v137 (F := Ideal) x0 x1 x2 x3 x4 x5) (ix2 r k)) (fun k => x2 (ix3 (⟨2, by decide⟩ : Fin 3) k j))
    (fun k => (real_out_2 x0 x1 x2 x3 x4 x5 h0 h2 h3 h4 h5) _) (fun k => h2 _)

/-- Layer 3: the aggregate is real — zero plus a finite sum of gathered features times edge weights. -/
theorem real_agg_3 (x0 : Nodes) (x1 : Edges) (x2 : Weights) (x3 x4 x5 : Rows) (h0 : AllReal x0) (h2 : AllReal x2) (h3 : AllReal x3) (h4 : AllReal x4) (h5 : AllReal x5) :
    AllReal (val_main_v153 (F := Ideal) x0 x1 x2 x3 x4 x5) := by
  unfold val_main_v153
  refine allReal_scatterAdd _ _ _ _ (fun i => ?_) (fun i => ?_)
  · rw [val_main_v151_apply, val_main_cst_23_apply]
    simp only [Ideal.ofBits_def]
    exact real_zeroW
  · rw [val_main_v150_apply, val_main_v149_apply, val_main_v148_apply]
    simp only [Ideal.mulf_def]
    refine real_mul ?_ (real_norm x1 _)
    unfold val_main_v147
    exact allReal_gather _ _ _ (real_h_3 x0 x1 x2 x3 x4 x5 h0 h2 h3 h4 h5) i

/-- Layer 3: the value the layer normalises is real. -/
theorem real_full_3 (x0 : Nodes) (x1 : Edges) (x2 : Weights) (x3 x4 x5 : Rows) (h0 : AllReal x0) (h2 : AllReal x2) (h3 : AllReal x3) (h4 : AllReal x4) (h5 : AllReal x5) :
    Cert.Spec.Real2 (fun r j => val_main_v162 (F := Ideal) x0 x1 x2 x3 x4 x5 (ix2 r j)) := by
  intro r j
  show ∃ x : ℝ, val_main_v162 (F := Ideal) x0 x1 x2 x3 x4 x5 (ix2 r j) = (x : EReal)
  rw [refFull_3]
  unfold Cert.Spec.full
  exact real_add (real_add ((real_agg_3 x0 x1 x2 x3 x4 x5 h0 h2 h3 h4 h5) _) (real_mul (real_selfnorm x1 _) ((real_h_3 x0 x1 x2 x3 x4 x5 h0 h2 h3 h4 h5) _))) (h3 _)

/-- Layer 3: the layer's output is real. -/
theorem real_out_3 (x0 : Nodes) (x1 : Edges) (x2 : Weights) (x3 x4 x5 : Rows) (h0 : AllReal x0) (h2 : AllReal x2) (h3 : AllReal x3) (h4 : AllReal x4) (h5 : AllReal x5) :
    AllReal (val_main_v192 (F := Ideal) x0 x1 x2 x3 x4 x5) := by
  intro i
  obtain ⟨r, j, rfl⟩ : ∃ (r : Fin 50000) (j : Fin 128), i = ix2 r j := ⟨i 0, i 1, eq_ix2 i⟩
  rw [refOut_3]
  exact real_add (real_out_2 x0 x1 x2 x3 x4 x5 h0 h2 h3 h4 h5 _) (Cert.Spec.normTwoPass_real _ (real_full_3 x0 x1 x2 x3 x4 x5 h0 h2 h3 h4 h5) _ _ (fun j => h4 _) (fun j => h5 _) r j)

end Cert.RefSide

end
-- ==== Proof.ValChain.lean ====
/-
  The kernel program's result, layer by layer, against the reference's stages.

  Each layer of the kernel program is a matrix-product region, a host stretch that aggregates over the edges, a statistics
  region, a host stretch that slices the scale and shift rows, and a normalising region.  The product region leaves the
  transformed features the reference's dot product computes (both are the same sum over the 128 input features); the
  stretch applies the reference's own gather, scaling and scatter; the statistics region leaves the mean and the
  one-pass variance of the layer's value f = agg + s·h + b; the normalising region leaves γ·((f − μ)·(v + ε)^(−1/2)) + β,
  then the maximum with 0 and the residual where the layer has them.  For real entries the one-pass and two-pass
  variances agree, so each layer's output array is the reference's output stage; the reference's stages are real because
  the arguments are, which carries the argument through the three layers.
-/
import proofs.«135670_j59253368815959_1_alg».proof.Proof.FrRun
import proofs.«135670_j59253368815959_1_alg».proof.Proof.ValHost
import proofs.«135670_j59253368815959_1_alg».proof.Proof.ValMat
import proofs.«135670_j59253368815959_1_alg».proof.Proof.ValNorm
import proofs.«135670_j59253368815959_1_alg».proof.Proof.ValStats
import proofs.«135670_j59253368815959_1_alg».proof.Proof.RefLayers
import proofs.«135670_j59253368815959_1_alg».proof.Proof.RefReal
import proofs.«135670_j59253368815959_1_alg».proof.Proof.SpecLaws

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open Cert.RefSide Cert.Spec Cert.RealEntries
open scoped BigOperators

variable (m : (ℓ : Loc nD τ sig) → Buf (Elt Ideal) ℓ) (ρ : Dev nD → PrngReg) (c : Dev nD)

/-- The argument arrays at launch. -/
abbrev a0 : (⟨S50000x128, .f32⟩ : BufTy).Contents (Elt Ideal) := m ((c.tc : Thread nD τ).loc main_arg0)
abbrev a1 : (⟨S2x800000, .i32⟩ : BufTy).Contents (Elt Ideal) := m ((c.tc : Thread nD τ).loc main_arg1)
abbrev a2 : (⟨S3x128x128, .f32⟩ : BufTy).Contents (Elt Ideal) := m ((c.tc : Thread nD τ).loc main_arg2)
abbrev a3 : (⟨S3x128, .f32⟩ : BufTy).Contents (Elt Ideal) := m ((c.tc : Thread nD τ).loc main_arg3)
abbrev a4 : (⟨S3x128, .f32⟩ : BufTy).Contents (Elt Ideal) := m ((c.tc : Thread nD τ).loc main_arg4)
abbrev a5 : (⟨S3x128, .f32⟩ : BufTy).Contents (Elt Ideal) := m ((c.tc : Thread nD τ).loc main_arg5)

/-! ## Layer 1 -/

/-- The transformed features the product region leaves are the reference's dot product. -/
theorem hEq_1 : W2 m ρ c (Proc.devRef .tc main_v30) = Cert.ReferenceIdeal.Read.val_main_v29 (F := Ideal) (a0 m c) (a2 m c) := by
  funext i
  obtain ⟨r, j, rfl⟩ : ∃ (r : Fin 50000) (j : Fin 128), i = ix2 r j := ⟨i 0, i 1, eq_ix2 i⟩
  have eX : V1 m ρ c main_arg0 = a0 m c := ((W1_keep m ρ c main_arg0 (by decide)).trans <| rfl)
  have eW : V1 m ρ c main_v29 = Cert.ReferenceIdeal.Read.val_main_v28 (F := Ideal) (a2 m c) :=
    (h0_v29 (W0 m ρ c)).trans (congrArg _ (rfl))
  rw [show W2 m ρ c (Proc.devRef .tc main_v30) = (dat0 (V1 m ρ) c).arrAt 2 cfg0.N from W2_arr m ρ c 2,
    mat0_apply, refH_1, eX, eW, matProd_apply]
  show @Eq EReal _ _
  refine Finset.sum_congr rfl fun k _ => ?_
  rw [refW_1]

/-- The aggregate the host stretch leaves is the reference's. -/
theorem aggEq_1 : W3 m ρ c (Proc.devRef .tc main_v43) = Cert.ReferenceIdeal.Read.val_main_v42 (F := Ideal) (a0 m c) (a1 m c) (a2 m c) :=
  h1_v43 (W2 m ρ c) (a0 m c) (a1 m c) (a2 m c)
    ((W2_keep m ρ c main_v1 (by decide)).trans <| h0_v1 (W0 m ρ c))
    ((W2_keep m ρ c main_v3 (by decide)).trans <| h0_v3 (W0 m ρ c))
    ((W2_keep m ρ c main_v25 (by decide)).trans <| h0_v25 (W0 m ρ c))
    (hEq_1 m ρ c)

/-- The layer's value the statistics region sums is the reference's stage. -/
theorem fullEq_1 : Fk1 (V3 m ρ) c = (fun r j => Cert.ReferenceIdeal.Read.val_main_v51 (F := Ideal) (a0 m c) (a1 m c) (a2 m c) (a3 m c) (ix2 r j)) := by
  funext r j
  have eA : V3 m ρ c main_v43 = Cert.ReferenceIdeal.Read.val_main_v42 (F := Ideal) (a0 m c) (a1 m c) (a2 m c) := aggEq_1 m ρ c
  have eH : V3 m ρ c main_v30 = Cert.ReferenceIdeal.Read.val_main_v29 (F := Ideal) (a0 m c) (a2 m c) := (W3_keep m ρ c main_v30 (by decide)).trans <| hEq_1 m ρ c
  have eS : V3 m ρ c main_v27 = shapeCast _ (Cert.ReferenceIdeal.Read.val_main_v26 (F := Ideal) (a1 m c)) shapeCasts_S50000_S50000x1 :=
    (W3_keep m ρ c main_v27 (by decide)).trans <| (W2_keep m ρ c main_v27 (by decide)).trans <| h0_v27 (W0 m ρ c)
  have eB : V3 m ρ c main_v46 = shapeCast _ (shapeCast _ (extractStridedSlice S1x128 ![0, 0] (a3 m c) slices_S3x128_S1x128_0_0) shapeCasts_S1x128_S128) shapeCasts_S128_S1x128 :=
    (h1_v46 (W2 m ρ c)).trans (by rw [show W2 m ρ c (Proc.devRef .tc main_arg3) = a3 m c from (W2_keep m ρ c main_arg3 (by decide)).trans <| (W1_keep m ρ c main_arg3 (by decide)).trans <| rfl])
  rw [refFull_1]
  show Cert.Spec.full (fun r j => V3 m ρ c main_v43 (ix2 r j)) (fun r j => V3 m ρ c main_v30 (ix2 r j))
    (fun r => V3 m ρ c main_v27 (ix2 r (0 : Fin 1))) (fun j => V3 m ρ c main_v46 (ix2 (0 : Fin 1) j)) r j = _
  unfold Cert.Spec.full
  beta_reduce
  rw [eA, eH, eS, eB, col_apply, row_apply (a3 m c) (⟨0, by decide⟩ : Fin 3)]

/-- The value the normalising region normalises is the reference's stage too: the same four arrays, unchanged since the
    statistics region read them. -/
theorem fullEqN_1 : Fn2 (V5 m ρ) c = (fun r j => Cert.ReferenceIdeal.Read.val_main_v51 (F := Ideal) (a0 m c) (a1 m c) (a2 m c) (a3 m c) (ix2 r j)) := by
  funext r j
  have eA : V5 m ρ c main_v43 = Cert.ReferenceIdeal.Read.val_main_v42 (F := Ideal) (a0 m c) (a1 m c) (a2 m c) := (W5_keep m ρ c main_v43 (by decide)).trans <| (W4_keep m ρ c main_v43 (by decide)).trans <| aggEq_1 m ρ c
  have eH : V5 m ρ c main_v30 = Cert.ReferenceIdeal.Read.val_main_v29 (F := Ideal) (a0 m c) (a2 m c) := (W5_keep m ρ c main_v30 (by decide)).trans <| (W4_keep m ρ c main_v30 (by decide)).trans <| (W3_keep m ρ c main_v30 (by decide)).trans <| hEq_1 m ρ c
  have eS : V5 m ρ c main_v27 = shapeCast _ (Cert.ReferenceIdeal.Read.val_main_v26 (F := Ideal) (a1 m c)) shapeCasts_S50000_S50000x1 :=
    (W5_keep m ρ c main_v27 (by decide)).trans <| (W4_keep m ρ c main_v27 (by decide)).trans <| (W3_keep m ρ c main_v27 (by decide)).trans <| (W2_keep m ρ c main_v27 (by decide)).trans <| h0_v27 (W0 m ρ c)
  have eB : V5 m ρ c main_v46 = shapeCast _ (shapeCast _ (extractStridedSlice S1x128 ![0, 0] (a3 m c) slices_S3x128_S1x128_0_0) shapeCasts_S1x128_S128) shapeCasts_S128_S1x128 :=
    (W5_keep m ρ c main_v46 (by decide)).trans <| (W4_keep m ρ c main_v46 (by decide)).trans <| (h1_v46 (W2 m ρ c)).trans (by rw [show W2 m ρ c (Proc.devRef .tc main_arg3) = a3 m c from (W2_keep m ρ c main_arg3 (by decide)).trans <| (W1_keep m ρ c main_arg3 (by decide)).trans <| rfl])
  rw [refFull_1]
  show Cert.Spec.full (fun r j => V5 m ρ c main_v43 (ix2 r j)) (fun r j => V5 m ρ c main_v30 (ix2 r j))
    (fun r => V5 m ρ c main_v27 (ix2 r (0 : Fin 1))) (fun j => V5 m ρ c main_v46 (ix2 (0 : Fin 1) j)) r j = _
  unfold Cert.Spec.full
  beta_reduce
  rw [eA, eH, eS, eB, col_apply, row_apply (a3 m c) (⟨0, by decide⟩ : Fin 3)]

/-- The layer's output array is the reference's output stage. -/
theorem layer_1 (h0 : AllReal (a0 m c)) (h2 : AllReal (a2 m c)) (h3 : AllReal (a3 m c)) (h4 : AllReal (a4 m c)) (h5 : AllReal (a5 m c)) :
    W6 m ρ c (Proc.devRef .tc main_v54) = Cert.ReferenceIdeal.Read.val_main_v81 (F := Ideal) (a0 m c) (a1 m c) (a2 m c) (a3 m c) (a4 m c) (a5 m c) := by
  funext i
  obtain ⟨r, j, rfl⟩ : ∃ (r : Fin 50000) (j : Fin 128), i = ix2 r j := ⟨i 0, i 1, eq_ix2 i⟩
  have eM : V5 m ρ c main_v47_0 (ix2 (0 : Fin 1) j) = Cert.Spec.mean (fun r j => Cert.ReferenceIdeal.Read.val_main_v51 (F := Ideal) (a0 m c) (a1 m c) (a2 m c) (a3 m c) (ix2 r j)) j :=
    (congrFun ((W5_keep m ρ c main_v47_0 (by decide)).trans <| W4_arr m ρ c 4) _).trans
      ((stats1_mean (V3 m ρ) c j).trans (by rw [fullEq_1 m ρ c]))
  have eV : V5 m ρ c main_v47_1 (ix2 (0 : Fin 1) j) = Cert.Spec.varOnePass (fun r j => Cert.ReferenceIdeal.Read.val_main_v51 (F := Ideal) (a0 m c) (a1 m c) (a2 m c) (a3 m c) (ix2 r j)) j :=
    (congrFun ((W5_keep m ρ c main_v47_1 (by decide)).trans <| W4_arr m ρ c 5) _).trans
      ((stats1_var (V3 m ρ) c j).trans (by rw [fullEq_1 m ρ c]))
  have eG : V5 m ρ c main_v50 = shapeCast _ (shapeCast _ (extractStridedSlice S1x128 ![0, 0] (a4 m c) slices_S3x128_S1x128_0_0) shapeCasts_S1x128_S128) shapeCasts_S128_S1x128 :=
    (h2_v50 (W4 m ρ c)).trans (by rw [show W4 m ρ c (Proc.devRef .tc main_arg4) = a4 m c from (W4_keep m ρ c main_arg4 (by decide)).trans <| (W3_keep m ρ c main_arg4 (by decide)).trans <| (W2_keep m ρ c main_arg4 (by decide)).trans <| (W1_keep m ρ c main_arg4 (by decide)).trans <| rfl])
  have eBe : V5 m ρ c main_v53 = shapeCast _ (shapeCast _ (extractStridedSlice S1x128 ![0, 0] (a5 m c) slices_S3x128_S1x128_0_0) shapeCasts_S1x128_S128) shapeCasts_S128_S1x128 :=
    (h2_v53 (W4 m ρ c)).trans (by rw [show W4 m ρ c (Proc.devRef .tc main_arg5) = a5 m c from (W4_keep m ρ c main_arg5 (by decide)).trans <| (W3_keep m ρ c main_arg5 (by decide)).trans <| (W2_keep m ρ c main_arg5 (by decide)).trans <| (W1_keep m ρ c main_arg5 (by decide)).trans <| rfl])
  rw [show W6 m ρ c (Proc.devRef .tc main_v54) = (dat2 (V5 m ρ) c).arrAt 9 cfg2.N from W6_arr m ρ c 9,
    norm2_apply, refOut_1, fullEqN_1 m ρ c, eG, eBe, row_apply (a4 m c) (⟨0, by decide⟩ : Fin 3), row_apply (a5 m c) (⟨0, by decide⟩ : Fin 3), eM, eV,
    ← normOnePass_eq_normTwoPass (fun r j => Cert.ReferenceIdeal.Read.val_main_v51 (F := Ideal) (a0 m c) (a1 m c) (a2 m c) (a3 m c) (ix2 r j)) (real_full_1 (a0 m c) (a1 m c) (a2 m c) (a3 m c) h0 h2 h3)]
  rfl

/-! ## Layer 2 -/

/-- The transformed features the product region leaves are the reference's dot product. -/
theorem hEq_2 (hX : W6 m ρ c (Proc.devRef .tc main_v54) = Cert.ReferenceIdeal.Read.val_main_v81 (F := Ideal) (a0 m c) (a1 m c) (a2 m c) (a3 m c) (a4 m c) (a5 m c)) : W8 m ρ c (Proc.devRef .tc main_v57) = Cert.ReferenceIdeal.Read.val_main_v84 (F := Ideal) (a0 m c) (a1 m c) (a2 m c) (a3 m c) (a4 m c) (a5 m c) := by
  funext i
  obtain ⟨r, j, rfl⟩ : ∃ (r : Fin 50000) (j : Fin 128), i = ix2 r j := ⟨i 0, i 1, eq_ix2 i⟩
  have eX : V7 m ρ c main_v54 = Cert.ReferenceIdeal.Read.val_main_v81 (F := Ideal) (a0 m c) (a1 m c) (a2 m c) (a3 m c) (a4 m c) (a5 m c) := ((W7_keep m ρ c main_v54 (by decide)).trans <| hX)
  have eW : V7 m ρ c main_v56 = Cert.ReferenceIdeal.Read.val_main_v83 (F := Ideal) (a2 m c) :=
    (h3_v56 (W6 m ρ c)).trans (congrArg _ ((W6_keep m ρ c main_arg2 (by decide)).trans <| (W5_keep m ρ c main_arg2 (by decide)).trans <| (W4_keep m ρ c main_arg2 (by decide)).trans <| (W3_keep m ρ c main_arg2 (by decide)).trans <| (W2_keep m ρ c main_arg2 (by decide)).trans <| (W1_keep m ρ c main_arg2 (by decide)).trans <| rfl))
  rw [show W8 m ρ c (Proc.devRef .tc main_v57) = (dat3 (V7 m ρ) c).arrAt 2 cfg3.N from W8_arr m ρ c 2,
    mat3_apply, refH_2, eX, eW, matProd_apply]
  show @Eq EReal _ _
  refine Finset.sum_congr rfl fun k _ => ?_
  rw [refW_2]

/-- The aggregate the host stretch leaves is the reference's. -/
theorem aggEq_2 (hX : W6 m ρ c (Proc.devRef .tc main_v54) = Cert.ReferenceIdeal.Read.val_main_v81 (F := Ideal) (a0 m c) (a1 m c) (a2 m c) (a3 m c) (a4 m c) (a5 m c)) : W9 m ρ c (Proc.devRef .tc main_v70) = Cert.ReferenceIdeal.Read.val_main_v97 (F := Ideal) (a0 m c) (a1 m c) (a2 m c) (a3 m c) (a4 m c) (a5 m c) :=
  h4_v70 (W8 m ρ c) (a0 m c) (a1 m c) (a2 m c) (a3 m c) (a4 m c) (a5 m c)
    ((W8_keep m ρ c main_v1 (by decide)).trans <| (W7_keep m ρ c main_v1 (by decide)).trans <| (W6_keep m ρ c main_v1 (by decide)).trans <| (W5_keep m ρ c main_v1 (by decide)).trans <| (W4_keep m ρ c main_v1 (by decide)).trans <| (W3_keep m ρ c main_v1 (by decide)).trans <| (W2_keep m ρ c main_v1 (by decide)).trans <| h0_v1 (W0 m ρ c))
    ((W8_keep m ρ c main_v3 (by decide)).trans <| (W7_keep m ρ c main_v3 (by decide)).trans <| (W6_keep m ρ c main_v3 (by decide)).trans <| (W5_keep m ρ c main_v3 (by decide)).trans <| (W4_keep m ρ c main_v3 (by decide)).trans <| (W3_keep m ρ c main_v3 (by decide)).trans <| (W2_keep m ρ c main_v3 (by decide)).trans <| h0_v3 (W0 m ρ c))
    ((W8_keep m ρ c main_v25 (by decide)).trans <| (W7_keep m ρ c main_v25 (by decide)).trans <| (W6_keep m ρ c main_v25 (by decide)).trans <| (W5_keep m ρ c main_v25 (by decide)).trans <| (W4_keep m ρ c main_v25 (by decide)).trans <| (W3_keep m ρ c main_v25 (by decide)).trans <| (W2_keep m ρ c main_v25 (by decide)).trans <| h0_v25 (W0 m ρ c))
    (hEq_2 m ρ c hX)

/-- The layer's value the statistics region sums is the reference's stage. -/
theorem fullEq_2 (hX : W6 m ρ c (Proc.devRef .tc main_v54) = Cert.ReferenceIdeal.Read.val_main_v81 (F := Ideal) (a0 m c) (a1 m c) (a2 m c) (a3 m c) (a4 m c) (a5 m c)) : Fk4 (V9 m ρ) c = (fun r j => Cert.ReferenceIdeal.Read.val_main_v106 (F := Ideal) (a0 m c) (a1 m c) (a2 m c) (a3 m c) (a4 m c) (a5 m c) (ix2 r j)) := by
  funext r j
  have eA : V9 m ρ c main_v70 = Cert.ReferenceIdeal.Read.val_main_v97 (F := Ideal) (a0 m c) (a1 m c) (a2 m c) (a3 m c) (a4 m c) (a5 m c) := aggEq_2 m ρ c hX
  have eH : V9 m ρ c main_v57 = Cert.ReferenceIdeal.Read.val_main_v84 (F := Ideal) (a0 m c) (a1 m c) (a2 m c) (a3 m c) (a4 m c) (a5 m c) := (W9_keep m ρ c main_v57 (by decide)).trans <| hEq_2 m ρ c hX
  have eS : V9 m ρ c main_v27 = shapeCast _ (Cert.ReferenceIdeal.Read.val_main_v26 (F := Ideal) (a1 m c)) shapeCasts_S50000_S50000x1 :=
    (W9_keep m ρ c main_v27 (by decide)).trans <| (W8_keep m ρ c main_v27 (by decide)).trans <| (W7_keep m ρ c main_v27 (by decide)).trans <| (W6_keep m ρ c main_v27 (by decide)).trans <| (W5_keep m ρ c main_v27 (by decide)).trans <| (W4_keep m ρ c main_v27 (by decide)).trans <| (W3_keep m ρ c main_v27 (by decide)).trans <| (W2_keep m ρ c main_v27 (by decide)).trans <| h0_v27 (W0 m ρ c)
  have eB : V9 m ρ c main_v73 = shapeCast _ (shapeCast _ (extractStridedSlice S1x128 ![1, 0] (a3 m c) slices_S3x128_S1x128_1_0) shapeCasts_S1x128_S128) shapeCasts_S128_S1x128 :=
    (h4_v73 (W8 m ρ c)).trans (by rw [show W8 m ρ c (Proc.devRef .tc main_arg3) = a3 m c from (W8_keep m ρ c main_arg3 (by decide)).trans <| (W7_keep m ρ c main_arg3 (by decide)).trans <| (W6_keep m ρ c main_arg3 (by decide)).trans <| (W5_keep m ρ c main_arg3 (by decide)).trans <| (W4_keep m ρ c main_arg3 (by decide)).trans <| (W3_keep m ρ c main_arg3 (by decide)).trans <| (W2_keep m ρ c main_arg3 (by decide)).trans <| (W1_keep m ρ c main_arg3 (by decide)).trans <| rfl])
  rw [refFull_2]
  show Cert.Spec.full (fun r j => V9 m ρ c main_v70 (ix2 r j)) (fun r j => V9 m ρ c main_v57 (ix2 r j))
    (fun r => V9 m ρ c main_v27 (ix2 r (0 : Fin 1))) (fun j => V9 m ρ c main_v73 (ix2 (0 : Fin 1) j)) r j = _
  unfold Cert.Spec.full
  beta_reduce
  rw [eA, eH, eS, eB, col_apply, row_apply (a3 m c) (⟨1, by decide⟩ : Fin 3)]

/-- The value the normalising region normalises is the reference's stage too: the same four arrays, unchanged since the
    statistics region read them. -/
theorem fullEqN_2 (hX : W6 m ρ c (Proc.devRef .tc main_v54) = Cert.ReferenceIdeal.Read.val_main_v81 (F := Ideal) (a0 m c) (a1 m c) (a2 m c) (a3 m c) (a4 m c) (a5 m c)) : Fn5 (V11 m ρ) c = (fun r j => Cert.ReferenceIdeal.Read.val_main_v106 (F := Ideal) (a0 m c) (a1 m c) (a2 m c) (a3 m c) (a4 m c) (a5 m c) (ix2 r j)) := by
  funext r j
  have eA : V11 m ρ c main_v70 = Cert.ReferenceIdeal.Read.val_main_v97 (F := Ideal) (a0 m c) (a1 m c) (a2 m c) (a3 m c) (a4 m c) (a5 m c) := (W11_keep m ρ c main_v70 (by decide)).trans <| (W10_keep m ρ c main_v70 (by decide)).trans <| aggEq_2 m ρ c hX
  have eH : V11 m ρ c main_v57 = Cert.ReferenceIdeal.Read.val_main_v84 (F := Ideal) (a0 m c) (a1 m c) (a2 m c) (a3 m c) (a4 m c) (a5 m c) := (W11_keep m ρ c main_v57 (by decide)).trans <| (W10_keep m ρ c main_v57 (by decide)).trans <| (W9_keep m ρ c main_v57 (by decide)).trans <| hEq_2 m ρ c hX
  have eS : V11 m ρ c main_v27 = shapeCast _ (Cert.ReferenceIdeal.Read.val_main_v26 (F := Ideal) (a1 m c)) shapeCasts_S50000_S50000x1 :=
    (W11_keep m ρ c main_v27 (by decide)).trans <| (W10_keep m ρ c main_v27 (by decide)).trans <| (W9_keep m ρ c main_v27 (by decide)).trans <| (W8_keep m ρ c main_v27 (by decide)).trans <| (W7_keep m ρ c main_v27 (by decide)).trans <| (W6_keep m ρ c main_v27 (by decide)).trans <| (W5_keep m ρ c main_v27 (by decide)).trans <| (W4_keep m ρ c main_v27 (by decide)).trans <| (W3_keep m ρ c main_v27 (by decide)).trans <| (W2_keep m ρ c main_v27 (by decide)).trans <| h0_v27 (W0 m ρ c)
  have eB : V11 m ρ c main_v73 = shapeCast _ (shapeCast _ (extractStridedSlice S1x128 ![1, 0] (a3 m c) slices_S3x128_S1x128_1_0) shapeCasts_S1x128_S128) shapeCasts_S128_S1x128 :=
    (W11_keep m ρ c main_v73 (by decide)).trans <| (W10_keep m ρ c main_v73 (by decide)).trans <| (h4_v73 (W8 m ρ c)).trans (by rw [show W8 m ρ c (Proc.devRef .tc main_arg3) = a3 m c from (W8_keep m ρ c main_arg3 (by decide)).trans <| (W7_keep m ρ c main_arg3 (by decide)).trans <| (W6_keep m ρ c main_arg3 (by decide)).trans <| (W5_keep m ρ c main_arg3 (by decide)).trans <| (W4_keep m ρ c main_arg3 (by decide)).trans <| (W3_keep m ρ c main_arg3 (by decide)).trans <| (W2_keep m ρ c main_arg3 (by decide)).trans <| (W1_keep m ρ c main_arg3 (by decide)).trans <| rfl])
  rw [refFull_2]
  show Cert.Spec.full (fun r j => V11 m ρ c main_v70 (ix2 r j)) (fun r j => V11 m ρ c main_v57 (ix2 r j))
    (fun r => V11 m ρ c main_v27 (ix2 r (0 : Fin 1))) (fun j => V11 m ρ c main_v73 (ix2 (0 : Fin 1) j)) r j = _
  unfold Cert.Spec.full
  beta_reduce
  rw [eA, eH, eS, eB, col_apply, row_apply (a3 m c) (⟨1, by decide⟩ : Fin 3)]

/-- The layer's output array is the reference's output stage. -/
theorem layer_2 (h0 : AllReal (a0 m c)) (h2 : AllReal (a2 m c)) (h3 : AllReal (a3 m c)) (h4 : AllReal (a4 m c)) (h5 : AllReal (a5 m c)) (hX : W6 m ρ c (Proc.devRef .tc main_v54) = Cert.ReferenceIdeal.Read.val_main_v81 (F := Ideal) (a0 m c) (a1 m c) (a2 m c) (a3 m c) (a4 m c) (a5 m c)) :
    W12 m ρ c (Proc.devRef .tc main_v81) = Cert.ReferenceIdeal.Read.val_main_v137 (F := Ideal) (a0 m c) (a1 m c) (a2 m c) (a3 m c) (a4 m c) (a5 m c) := by
  funext i
  obtain ⟨r, j, rfl⟩ : ∃ (r : Fin 50000) (j : Fin 128), i = ix2 r j := ⟨i 0, i 1, eq_ix2 i⟩
  have eM : V11 m ρ c main_v74_0 (ix2 (0 : Fin 1) j) = Cert.Spec.mean (fun r j => Cert.ReferenceIdeal.Read.val_main_v106 (F := Ideal) (a0 m c) (a1 m c) (a2 m c) (a3 m c) (a4 m c) (a5 m c) (ix2 r j)) j :=
    (congrFun ((W11_keep m ρ c main_v74_0 (by decide)).trans <| W10_arr m ρ c 4) _).trans
      ((stats4_mean (V9 m ρ) c j).trans (by rw [fullEq_2 m ρ c hX]))
  have eV : V11 m ρ c main_v74_1 (ix2 (0 : Fin 1) j) = Cert.Spec.varOnePass (fun r j => Cert.ReferenceIdeal.Read.val_main_v106 (F := Ideal) (a0 m c) (a1 m c) (a2 m c) (a3 m c) (a4 m c) (a5 m c) (ix2 r j)) j :=
    (congrFun ((W11_keep m ρ c main_v74_1 (by decide)).trans <| W10_arr m ρ c 5) _).trans
      ((stats4_var (V9 m ρ) c j).trans (by rw [fullEq_2 m ρ c hX]))
  have eG : V11 m ρ c main_v77 = shapeCast _ (shapeCast _ (extractStridedSlice S1x128 ![1, 0] (a4 m c) slices_S3x128_S1x128_1_0) shapeCasts_S1x128_S128) shapeCasts_S128_S1x128 :=
    (h5_v77 (W10 m ρ c)).trans (by rw [show W10 m ρ c (Proc.devRef .tc main_arg4) = a4 m c from (W10_keep m ρ c main_arg4 (by decide)).trans <| (W9_keep m ρ c main_arg4 (by decide)).trans <| (W8_keep m ρ c main_arg4 (by decide)).trans <| (W7_keep m ρ c main_arg4 (by decide)).trans <| (W6_keep m ρ c main_arg4 (by decide)).trans <| (W5_keep m ρ c main_arg4 (by decide)).trans <| (W4_keep m ρ c main_arg4 (by decide)).trans <| (W3_keep m ρ c main_arg4 (by decide)).trans <| (W2_keep m ρ c main_arg4 (by decide)).trans <| (W1_keep m ρ c main_arg4 (by decide)).trans <| rfl])
  have eBe : V11 m ρ c main_v80 = shapeCast _ (shapeCast _ (extractStridedSlice S1x128 ![1, 0] (a5 m c) slices_S3x128_S1x128_1_0) shapeCasts_S1x128_S128) shapeCasts_S128_S1x128 :=
    (h5_v80 (W10 m ρ c)).trans (by rw [show W10 m ρ c (Proc.devRef .tc main_arg5) = a5 m c from (W10_keep m ρ c main_arg5 (by decide)).trans <| (W9_keep m ρ c main_arg5 (by decide)).trans <| (W8_keep m ρ c main_arg5 (by decide)).trans <| (W7_keep m ρ c main_arg5 (by decide)).trans <| (W6_keep m ρ c main_arg5 (by decide)).trans <| (W5_keep m ρ c main_arg5 (by decide)).trans <| (W4_keep m ρ c main_arg5 (by decide)).trans <| (W3_keep m ρ c main_arg5 (by decide)).trans <| (W2_keep m ρ c main_arg5 (by decide)).trans <| (W1_keep m ρ c main_arg5 (by decide)).trans <| rfl])
  have eR : V11 m ρ c main_v54 = Cert.ReferenceIdeal.Read.val_main_v81 (F := Ideal) (a0 m c) (a1 m c) (a2 m c) (a3 m c) (a4 m c) (a5 m c) := (W11_keep m ρ c main_v54 (by decide)).trans <| (W10_keep m ρ c main_v54 (by decide)).trans <| (W9_keep m ρ c main_v54 (by decide)).trans <| (W8_keep m ρ c main_v54 (by decide)).trans <| (W7_keep m ρ c main_v54 (by decide)).trans <| hX
  rw [show W12 m ρ c (Proc.devRef .tc main_v81) = (dat5 (V11 m ρ) c).arrAt 9 cfg5.N from W12_arr m ρ c 9,
    norm5_apply, refOut_2, fullEqN_2 m ρ c hX, eG, eBe, eR, row_apply (a4 m c) (⟨1, by decide⟩ : Fin 3), row_apply (a5 m c) (⟨1, by decide⟩ : Fin 3), eM, eV,
    ← normOnePass_eq_normTwoPass (fun r j => Cert.ReferenceIdeal.Read.val_main_v106 (F := Ideal) (a0 m c) (a1 m c) (a2 m c) (a3 m c) (a4 m c) (a5 m c) (ix2 r j)) (real_full_2 (a0 m c) (a1 m c) (a2 m c) (a3 m c) (a4 m c) (a5 m c) h0 h2 h3 h4 h5)]
  show @Eq EReal _ _
  exact add_comm _ _

/-! ## Layer 3 -/

/-- The transformed features the product region leaves are the reference's dot product. -/
theorem hEq_3 (hX : W12 m ρ c (Proc.devRef .tc main_v81) = Cert.ReferenceIdeal.Read.val_main_v137 (F := Ideal) (a0 m c) (a1 m c) (a2 m c) (a3 m c) (a4 m c) (a5 m c)) : W14 m ρ c (Proc.devRef .tc main_v84) = Cert.ReferenceIdeal.Read.val_main_v140 (F := Ideal) (a0 m c) (a1 m c) (a2 m c) (a3 m c) (a4 m c) (a5 m c) := by
  funext i
  obtain ⟨r, j, rfl⟩ : ∃ (r : Fin 50000) (j : Fin 128), i = ix2 r j := ⟨i 0, i 1, eq_ix2 i⟩
  have eX : V13 m ρ c main_v81 = Cert.ReferenceIdeal.Read.val_main_v137 (F := Ideal) (a0 m c) (a1 m c) (a2 m c) (a3 m c) (a4 m c) (a5 m c) := ((W13_keep m ρ c main_v81 (by decide)).trans <| hX)
  have eW : V13 m ρ c main_v83 = Cert.ReferenceIdeal.Read.val_main_v139 (F := Ideal) (a2 m c) :=
    (h6_v83 (W12 m ρ c)).trans (congrArg _ ((W12_keep m ρ c main_arg2 (by decide)).trans <| (W11_keep m ρ c main_arg2 (by decide)).trans <| (W10_keep m ρ c main_arg2 (by decide)).trans <| (W9_keep m ρ c main_arg2 (by decide)).trans <| (W8_keep m ρ c main_arg2 (by decide)).trans <| (W7_keep m ρ c main_arg2 (by decide)).trans <| (W6_keep m ρ c main_arg2 (by decide)).trans <| (W5_keep m ρ c main_arg2 (by decide)).trans <| (W4_keep m ρ c main_arg2 (by decide)).trans <| (W3_keep m ρ c main_arg2 (by decide)).trans <| (W2_keep m ρ c main_arg2 (by decide)).trans <| (W1_keep m ρ c main_arg2 (by decide)).trans <| rfl))
  rw [show W14 m ρ c (Proc.devRef .tc main_v84) = (dat6 (V13 m ρ) c).arrAt 2 cfg6.N from W14_arr m ρ c 2,
    mat6_apply, refH_3, eX, eW, matProd_apply]
  show @Eq EReal _ _
  refine Finset.sum_congr rfl fun k _ => ?_
  rw [refW_3]

/-- The aggregate the host stretch leaves is the reference's. -/
theorem aggEq_3 (hX : W12 m ρ c (Proc.devRef .tc main_v81) = Cert.ReferenceIdeal.Read.val_main_v137 (F := Ideal) (a0 m c) (a1 m c) (a2 m c) (a3 m c) (a4 m c) (a5 m c)) : W15 m ρ c (Proc.devRef .tc main_v97) = Cert.ReferenceIdeal.Read.val_main_v153 (F := Ideal) (a0 m c) (a1 m c) (a2 m c) (a3 m c) (a4 m c) (a5 m c) :=
  h7_v97 (W14 m ρ c) (a0 m c) (a1 m c) (a2 m c) (a3 m c) (a4 m c) (a5 m c)
    ((W14_keep m ρ c main_v1 (by decide)).trans <| (W13_keep m ρ c main_v1 (by decide)).trans <| (W12_keep m ρ c main_v1 (by decide)).trans <| (W11_keep m ρ c main_v1 (by decide)).trans <| (W10_keep m ρ c main_v1 (by decide)).trans <| (W9_keep m ρ c main_v1 (by decide)).trans <| (W8_keep m ρ c main_v1 (by decide)).trans <| (W7_keep m ρ c main_v1 (by decide)).trans <| (W6_keep m ρ c main_v1 (by decide)).trans <| (W5_keep m ρ c main_v1 (by decide)).trans <| (W4_keep m ρ c main_v1 (by decide)).trans <| (W3_keep m ρ c main_v1 (by decide)).trans <| (W2_keep m ρ c main_v1 (by decide)).trans <| h0_v1 (W0 m ρ c))
    ((W14_keep m ρ c main_v3 (by decide)).trans <| (W13_keep m ρ c main_v3 (by decide)).trans <| (W12_keep m ρ c main_v3 (by decide)).trans <| (W11_keep m ρ c main_v3 (by decide)).trans <| (W10_keep m ρ c main_v3 (by decide)).trans <| (W9_keep m ρ c main_v3 (by decide)).trans <| (W8_keep m ρ c main_v3 (by decide)).trans <| (W7_keep m ρ c main_v3 (by decide)).trans <| (W6_keep m ρ c main_v3 (by decide)).trans <| (W5_keep m ρ c main_v3 (by decide)).trans <| (W4_keep m ρ c main_v3 (by decide)).trans <| (W3_keep m ρ c main_v3 (by decide)).trans <| (W2_keep m ρ c main_v3 (by decide)).trans <| h0_v3 (W0 m ρ c))
    ((W14_keep m ρ c main_v25 (by decide)).trans <| (W13_keep m ρ c main_v25 (by decide)).trans <| (W12_keep m ρ c main_v25 (by decide)).trans <| (W11_keep m ρ c main_v25 (by decide)).trans <| (W10_keep m ρ c main_v25 (by decide)).trans <| (W9_keep m ρ c main_v25 (by decide)).trans <| (W8_keep m ρ c main_v25 (by decide)).trans <| (W7_keep m ρ c main_v25 (by decide)).trans <| (W6_keep m ρ c main_v25 (by decide)).trans <| (W5_keep m ρ c main_v25 (by decide)).trans <| (W4_keep m ρ c main_v25 (by decide)).trans <| (W3_keep m ρ c main_v25 (by decide)).trans <| (W2_keep m ρ c main_v25 (by decide)).trans <| h0_v25 (W0 m ρ c))
    (hEq_3 m ρ c hX)

/-- The layer's value the statistics region sums is the reference's stage. -/
theorem fullEq_3 (hX : W12 m ρ c (Proc.devRef .tc main_v81) = Cert.ReferenceIdeal.Read.val_main_v137 (F := Ideal) (a0 m c) (a1 m c) (a2 m c) (a3 m c) (a4 m c) (a5 m c)) : Fk7 (V15 m ρ) c = (fun r j => Cert.ReferenceIdeal.Read.val_main_v162 (F := Ideal) (a0 m c) (a1 m c) (a2 m c) (a3 m c) (a4 m c) (a5 m c) (ix2 r j)) := by
  funext r j
  have eA : V15 m ρ c main_v97 = Cert.ReferenceIdeal.Read.val_main_v153 (F := Ideal) (a0 m c) (a1 m c) (a2 m c) (a3 m c) (a4 m c) (a5 m c) := aggEq_3 m ρ c hX
  have eH : V15 m ρ c main_v84 = Cert.ReferenceIdeal.Read.val_main_v140 (F := Ideal) (a0 m c) (a1 m c) (a2 m c) (a3 m c) (a4 m c) (a5 m c) := (W15_keep m ρ c main_v84 (by decide)).trans <| hEq_3 m ρ c hX
  have eS : V15 m ρ c main_v27 = shapeCast _ (Cert.ReferenceIdeal.Read.val_main_v26 (F := Ideal) (a1 m c)) shapeCasts_S50000_S50000x1 :=
    (W15_keep m ρ c main_v27 (by decide)).trans <| (W14_keep m ρ c main_v27 (by decide)).trans <| (W13_keep m ρ c main_v27 (by decide)).trans <| (W12_keep m ρ c main_v27 (by decide)).trans <| (W11_keep m ρ c main_v27 (by decide)).trans <| (W10_keep m ρ c main_v27 (by decide)).trans <| (W9_keep m ρ c main_v27 (by decide)).trans <| (W8_keep m ρ c main_v27 (by decide)).trans <| (W7_keep m ρ c main_v27 (by decide)).trans <| (W6_keep m ρ c main_v27 (by decide)).trans <| (W5_keep m ρ c main_v27 (by decide)).trans <| (W4_keep m ρ c main_v27 (by decide)).trans <| (W3_keep m ρ c main_v27 (by decide)).trans <| (W2_keep m ρ c main_v27 (by decide)).trans <| h0_v27 (W0 m ρ c)
  have eB : V15 m ρ c main_v100 = shapeCast _ (shapeCast _ (extractStridedSlice S1x128 ![2, 0] (a3 m c) slices_S3x128_S1x128_2_0) shapeCasts_S1x128_S128) shapeCasts_S128_S1x128 :=
    (h7_v100 (W14 m ρ c)).trans (by rw [show W14 m ρ c (Proc.devRef .tc main_arg3) = a3 m c from (W14_keep m ρ c main_arg3 (by decide)).trans <| (W13_keep m ρ c main_arg3 (by decide)).trans <| (W12_keep m ρ c main_arg3 (by decide)).trans <| (W11_keep m ρ c main_arg3 (by decide)).trans <| (W10_keep m ρ c main_arg3 (by decide)).trans <| (W9_keep m ρ c main_arg3 (by decide)).trans <| (W8_keep m ρ c main_arg3 (by decide)).trans <| (W7_keep m ρ c main_arg3 (by decide)).trans <| (W6_keep m ρ c main_arg3 (by decide)).trans <| (W5_keep m ρ c main_arg3 (by decide)).trans <| (W4_keep m ρ c main_arg3 (by decide)).trans <| (W3_keep m ρ c main_arg3 (by decide)).trans <| (W2_keep m ρ c main_arg3 (by decide)).trans <| (W1_keep m ρ c main_arg3 (by decide)).trans <| rfl])
  rw [refFull_3]
  show Cert.Spec.full (fun r j => V15 m ρ c main_v97 (ix2 r j)) (fun r j => V15 m ρ c main_v84 (ix2 r j))
    (fun r => V15 m ρ c main_v27 (ix2 r (0 : Fin 1))) (fun j => V15 m ρ c main_v100 (ix2 (0 : Fin 1) j)) r j = _
  unfold Cert.Spec.full
  beta_reduce
  rw [eA, eH, eS, eB, col_apply, row_apply (a3 m c) (⟨2, by decide⟩ : Fin 3)]

/-- The value the normalising region normalises is the reference's stage too: the same four arrays, unchanged since the
    statistics region read them. -/
theorem fullEqN_3 (hX : W12 m ρ c (Proc.devRef .tc main_v81) = Cert.ReferenceIdeal.Read.val_main_v137 (F := Ideal) (a0 m c) (a1 m c) (a2 m c) (a3 m c) (a4 m c) (a5 m c)) : Fn8 (V17 m ρ) c = (fun r j => Cert.ReferenceIdeal.Read.val_main_v162 (F := Ideal) (a0 m c) (a1 m c) (a2 m c) (a3 m c) (a4 m c) (a5 m c) (ix2 r j)) := by
  funext r j
  have eA : V17 m ρ c main_v97 = Cert.ReferenceIdeal.Read.val_main_v153 (F := Ideal) (a0 m c) (a1 m c) (a2 m c) (a3 m c) (a4 m c) (a5 m c) := (W17_keep m ρ c main_v97 (by decide)).trans <| (W16_keep m ρ c main_v97 (by decide)).trans <| aggEq_3 m ρ c hX
  have eH : V17 m ρ c main_v84 = Cert.ReferenceIdeal.Read.val_main_v140 (F := Ideal) (a0 m c) (a1 m c) (a2 m c) (a3 m c) (a4 m c) (a5 m c) := (W17_keep m ρ c main_v84 (by decide)).trans <| (W16_keep m ρ c main_v84 (by decide)).trans <| (W15_keep m ρ c main_v84 (by decide)).trans <| hEq_3 m ρ c hX
  have eS : V17 m ρ c main_v27 = shapeCast _ (Cert.ReferenceIdeal.Read.val_main_v26 (F := Ideal) (a1 m c)) shapeCasts_S50000_S50000x1 :=
    (W17_keep m ρ c main_v27 (by decide)).trans <| (W16_keep m ρ c main_v27 (by decide)).trans <| (W15_keep m ρ c main_v27 (by decide)).trans <| (W14_keep m ρ c main_v27 (by decide)).trans <| (W13_keep m ρ c main_v27 (by decide)).trans <| (W12_keep m ρ c main_v27 (by decide)).trans <| (W11_keep m ρ c main_v27 (by decide)).trans <| (W10_keep m ρ c main_v27 (by decide)).trans <| (W9_keep m ρ c main_v27 (by decide)).trans <| (W8_keep m ρ c main_v27 (by decide)).trans <| (W7_keep m ρ c main_v27 (by decide)).trans <| (W6_keep m ρ c main_v27 (by decide)).trans <| (W5_keep m ρ c main_v27 (by decide)).trans <| (W4_keep m ρ c main_v27 (by decide)).trans <| (W3_keep m ρ c main_v27 (by decide)).trans <| (W2_keep m ρ c main_v27 (by decide)).trans <| h0_v27 (W0 m ρ c)
  have eB : V17 m ρ c main_v100 = shapeCast _ (shapeCast _ (extractStridedSlice S1x128 ![2, 0] (a3 m c) slices_S3x128_S1x128_2_0) shapeCasts_S1x128_S128) shapeCasts_S128_S1x128 :=
    (W17_keep m ρ c main_v100 (by decide)).trans <| (W16_keep m ρ c main_v100 (by decide)).trans <| (h7_v100 (W14 m ρ c)).trans (by rw [show W14 m ρ c (Proc.devRef .tc main_arg3) = a3 m c from (W14_keep m ρ c main_arg3 (by decide)).trans <| (W13_keep m ρ c main_arg3 (by decide)).trans <| (W12_keep m ρ c main_arg3 (by decide)).trans <| (W11_keep m ρ c main_arg3 (by decide)).trans <| (W10_keep m ρ c main_arg3 (by decide)).trans <| (W9_keep m ρ c main_arg3 (by decide)).trans <| (W8_keep m ρ c main_arg3 (by decide)).trans <| (W7_keep m ρ c main_arg3 (by decide)).trans <| (W6_keep m ρ c main_arg3 (by decide)).trans <| (W5_keep m ρ c main_arg3 (by decide)).trans <| (W4_keep m ρ c main_arg3 (by decide)).trans <| (W3_keep m ρ c main_arg3 (by decide)).trans <| (W2_keep m ρ c main_arg3 (by decide)).trans <| (W1_keep m ρ c main_arg3 (by decide)).trans <| rfl])
  rw [refFull_3]
  show Cert.Spec.full (fun r j => V17 m ρ c main_v97 (ix2 r j)) (fun r j => V17 m ρ c main_v84 (ix2 r j))
    (fun r => V17 m ρ c main_v27 (ix2 r (0 : Fin 1))) (fun j => V17 m ρ c main_v100 (ix2 (0 : Fin 1) j)) r j = _
  unfold Cert.Spec.full
  beta_reduce
  rw [eA, eH, eS, eB, col_apply, row_apply (a3 m c) (⟨2, by decide⟩ : Fin 3)]

/-- The layer's output array is the reference's output stage. -/
theorem layer_3 (h0 : AllReal (a0 m c)) (h2 : AllReal (a2 m c)) (h3 : AllReal (a3 m c)) (h4 : AllReal (a4 m c)) (h5 : AllReal (a5 m c)) (hX : W12 m ρ c (Proc.devRef .tc main_v81) = Cert.ReferenceIdeal.Read.val_main_v137 (F := Ideal) (a0 m c) (a1 m c) (a2 m c) (a3 m c) (a4 m c) (a5 m c)) :
    W18 m ρ c (Proc.devRef .tc main_v108) = Cert.ReferenceIdeal.Read.val_main_v192 (F := Ideal) (a0 m c) (a1 m c) (a2 m c) (a3 m c) (a4 m c) (a5 m c) := by
  funext i
  obtain ⟨r, j, rfl⟩ : ∃ (r : Fin 50000) (j : Fin 128), i = ix2 r j := ⟨i 0, i 1, eq_ix2 i⟩
  have eM : V17 m ρ c main_v101_0 (ix2 (0 : Fin 1) j) = Cert.Spec.mean (fun r j => Cert.ReferenceIdeal.Read.val_main_v162 (F := Ideal) (a0 m c) (a1 m c) (a2 m c) (a3 m c) (a4 m c) (a5 m c) (ix2 r j)) j :=
    (congrFun ((W17_keep m ρ c main_v101_0 (by decide)).trans <| W16_arr m ρ c 4) _).trans
      ((stats7_mean (V15 m ρ) c j).trans (by rw [fullEq_3 m ρ c hX]))
  have eV : V17 m ρ c main_v101_1 (ix2 (0 : Fin 1) j) = Cert.Spec.varOnePass (fun r j => Cert.ReferenceIdeal.Read.val_main_v162 (F := Ideal) (a0 m c) (a1 m c) (a2 m c) (a3 m c) (a4 m c) (a5 m c) (ix2 r j)) j :=
    (congrFun ((W17_keep m ρ c main_v101_1 (by decide)).trans <| W16_arr m ρ c 5) _).trans
      ((stats7_var (V15 m ρ) c j).trans (by rw [fullEq_3 m ρ c hX]))
  have eG : V17 m ρ c main_v104 = shapeCast _ (shapeCast _ (extractStridedSlice S1x128 ![2, 0] (a4 m c) slices_S3x128_S1x128_2_0) shapeCasts_S1x128_S128) shapeCasts_S128_S1x128 :=
    (h8_v104 (W16 m ρ c)).trans (by rw [show W16 m ρ c (Proc.devRef .tc main_arg4) = a4 m c from (W16_keep m ρ c main_arg4 (by decide)).trans <| (W15_keep m ρ c main_arg4 (by decide)).trans <| (W14_keep m ρ c main_arg4 (by decide)).trans <| (W13_keep m ρ c main_arg4 (by decide)).trans <| (W12_keep m ρ c main_arg4 (by decide)).trans <| (W11_keep m ρ c main_arg4 (by decide)).trans <| (W10_keep m ρ c main_arg4 (by decide)).trans <| (W9_keep m ρ c main_arg4 (by decide)).trans <| (W8_keep m ρ c main_arg4 (by decide)).trans <| (W7_keep m ρ c main_arg4 (by decide)).trans <| (W6_keep m ρ c main_arg4 (by decide)).trans <| (W5_keep m ρ c main_arg4 (by decide)).trans <| (W4_keep m ρ c main_arg4 (by decide)).trans <| (W3_keep m ρ c main_arg4 (by decide)).trans <| (W2_keep m ρ c main_arg4 (by decide)).trans <| (W1_keep m ρ c main_arg4 (by decide)).trans <| rfl])
  have eBe : V17 m ρ c main_v107 = shapeCast _ (shapeCast _ (extractStridedSlice S1x128 ![2, 0] (a5 m c) slices_S3x128_S1x128_2_0) shapeCasts_S1x128_S128) shapeCasts_S128_S1x128 :=
    (h8_v107 (W16 m ρ c)).trans (by rw [show W16 m ρ c (Proc.devRef .tc main_arg5) = a5 m c from (W16_keep m ρ c main_arg5 (by decide)).trans <| (W15_keep m ρ c main_arg5 (by decide)).trans <| (W14_keep m ρ c main_arg5 (by decide)).trans <| (W13_keep m ρ c main_arg5 (by decide)).trans <| (W12_keep m ρ c main_arg5 (by decide)).trans <| (W11_keep m ρ c main_arg5 (by decide)).trans <| (W10_keep m ρ c main_arg5 (by decide)).trans <| (W9_keep m ρ c main_arg5 (by decide)).trans <| (W8_keep m ρ c main_arg5 (by decide)).trans <| (W7_keep m ρ c main_arg5 (by decide)).trans <| (W6_keep m ρ c main_arg5 (by decide)).trans <| (W5_keep m ρ c main_arg5 (by decide)).trans <| (W4_keep m ρ c main_arg5 (by decide)).trans <| (W3_keep m ρ c main_arg5 (by decide)).trans <| (W2_keep m ρ c main_arg5 (by decide)).trans <| (W1_keep m ρ c main_arg5 (by decide)).trans <| rfl])
  have eR : V17 m ρ c main_v81 = Cert.ReferenceIdeal.Read.val_main_v137 (F := Ideal) (a0 m c) (a1 m c) (a2 m c) (a3 m c) (a4 m c) (a5 m c) := (W17_keep m ρ c main_v81 (by decide)).trans <| (W16_keep m ρ c main_v81 (by decide)).trans <| (W15_keep m ρ c main_v81 (by decide)).trans <| (W14_keep m ρ c main_v81 (by decide)).trans <| (W13_keep m ρ c main_v81 (by decide)).trans <| hX
  rw [show W18 m ρ c (Proc.devRef .tc main_v108) = (dat8 (V17 m ρ) c).arrAt 9 cfg8.N from W18_arr m ρ c 9,
    norm8_apply, refOut_3, fullEqN_3 m ρ c hX, eG, eBe, eR, row_apply (a4 m c) (⟨2, by decide⟩ : Fin 3), row_apply (a5 m c) (⟨2, by decide⟩ : Fin 3), eM, eV,
    ← normOnePass_eq_normTwoPass (fun r j => Cert.ReferenceIdeal.Read.val_main_v162 (F := Ideal) (a0 m c) (a1 m c) (a2 m c) (a3 m c) (a4 m c) (a5 m c) (ix2 r j)) (real_full_3 (a0 m c) (a1 m c) (a2 m c) (a3 m c) (a4 m c) (a5 m c) h0 h2 h3 h4 h5)]
  show @Eq EReal _ _
  exact add_comm _ _

/-! ## The result -/

/-- The kernel program's result array is the reference's last stage at the same arguments. -/
theorem result_eq (h0 : AllReal (a0 m c)) (h2 : AllReal (a2 m c)) (h3 : AllReal (a3 m c)) (h4 : AllReal (a4 m c)) (h5 : AllReal (a5 m c)) :
    W18 m ρ c (Proc.devRef .tc main_v108) = Cert.ReferenceIdeal.Read.val_main_v192 (F := Ideal) (a0 m c) (a1 m c) (a2 m c) (a3 m c) (a4 m c) (a5 m c) :=
  layer_3 m ρ c h0 h2 h3 h4 h5 (layer_2 m ρ c h0 h2 h3 h4 h5 (layer_1 m ρ c h0 h2 h3 h4 h5))

end Cert.KernelIdeal.Val

end
-- ==== Proof.lean ====
/- A three-layer graph convolution with batch normalisation: the Pallas program (per layer a matrix-product kernel, a
   statistics kernel that accumulates column sums over ten row blocks, a normalising kernel, with the edge aggregation on
   the host between them) against the plain reference, equal at the ideal values.

   The frames of the two kernel programs come from one run theorem each: the program is a chain of nine host stretches
   and nine kernel regions, every region's body proved once for any float values, and the final memory holds at every
   buffer the fold of the stretches and regions from the launch memory; the arguments are never written. The reference's
   frame is its run with the result dropped. The ideal pass rewrote nothing, so the idealized kernel is the kernel's own
   text. For the values: each product region computes the reference's dot product, the host stretches are the
   reference's own operations, the statistics kernel's one-pass variance (second moment minus squared mean, summed block
   by block) equals the reference's two-pass variance because every entry is real — the arguments are finite, and sums,
   products, and inverse square roots of positive reals stay real —, and the two groupings of the normalising product
   differ by associativity. -/
import proofs.«135670_j59253368815959_1_alg».proof.Defs
import proofs.«135670_j59253368815959_1_alg».proof.Proof.Gen.Kernel
import proofs.«135670_j59253368815959_1_alg».proof.Proof.Gen.Kernel.Skeleton
import proofs.«135670_j59253368815959_1_alg».proof.Proof.Gen.Kernel.Launch
import proofs.«135670_j59253368815959_1_alg».proof.Proof.Gen.Kernel.Regions
import proofs.«135670_j59253368815959_1_alg».proof.Proof.Gen.Kernel.Points
import proofs.«135670_j59253368815959_1_alg».proof.Proof.Gen.KernelIdeal
import proofs.«135670_j59253368815959_1_alg».proof.Proof.Gen.KernelIdeal.Skeleton
import proofs.«135670_j59253368815959_1_alg».proof.Proof.Gen.KernelIdeal.Launch
import proofs.«135670_j59253368815959_1_alg».proof.Proof.Gen.KernelIdeal.Regions
import proofs.«135670_j59253368815959_1_alg».proof.Proof.Gen.KernelIdeal.Points
import proofs.«135670_j59253368815959_1_alg».proof.Proof.Gen.ReferenceIdeal
import proofs.«135670_j59253368815959_1_alg».proof.Proof.RefRead
import proofs.«135670_j59253368815959_1_alg».proof.Proof.RefRun
import proofs.«135670_j59253368815959_1_alg».proof.Proof.Gen.Pre_finite_inputs
import proofs.«135670_j59253368815959_1_alg».proof.Proof.FrRun
import proofs.«135670_j59253368815959_1_alg».proof.Proof.KFrRun
import proofs.«135670_j59253368815959_1_alg».proof.Proof.PreReal
import proofs.«135670_j59253368815959_1_alg».proof.Proof.ValChain
import Idealize.ShloMosaic.Adequacy
import Idealize.ShloMosaic.Init

noncomputable section

namespace Cert.Proof

open Idealize.ShloMosaic Idealize.SL.Sem

/-- The kernel program runs to the end, nothing faulting, its arguments unchanged. -/
theorem frame_k : Cert.frame_Kernel := fun m ρ _ => Cert.Kernel.Fr.frame m ρ

/-- So does its idealization. -/
theorem frame_ki : Cert.frame_KernelIdeal := fun m ρ _ => Cert.KernelIdeal.Fr.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- At the ideal values both programs end with the reference's last stage of the (agreeing) arguments. -/
theorem algebraic : Cert.algebraic_KernelIdeal_ReferenceIdeal := by
  intro m ρ m' ρ' hpre hagree
  refine ⟨fun c => Cert.ReferenceIdeal.Read.val_main_v192 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · refine (θ_run Cert.KernelIdeal.defs _ _).mono (fun r h c => ?_) (Cert.KernelIdeal.Fr.run_all m ρ)
    obtain ⟨h0, h2, h3, h4, h5⟩ := Cert.PreReal.args_real _ _ _ _ _ _ (hpre c)
    exact ⟨(h c Cert.KernelIdeal.main_v108 (by decide)).trans (Cert.KernelIdeal.Val.result_eq m ρ c h0 h2 h3 h4 h5),
      (h c Cert.KernelIdeal.main_arg0 (by decide)).trans (Cert.KernelIdeal.Fr.W18_main_arg0 m ρ c),
      (h c Cert.KernelIdeal.main_arg1 (by decide)).trans (Cert.KernelIdeal.Fr.W18_main_arg1 m ρ c),
      (h c Cert.KernelIdeal.main_arg2 (by decide)).trans (Cert.KernelIdeal.Fr.W18_main_arg2 m ρ c),
      (h c Cert.KernelIdeal.main_arg3 (by decide)).trans (Cert.KernelIdeal.Fr.W18_main_arg3 m ρ c),
      (h c Cert.KernelIdeal.main_arg4 (by decide)).trans (Cert.KernelIdeal.Fr.W18_main_arg4 m ρ c),
      (h c Cert.KernelIdeal.main_arg5 (by decide)).trans (Cert.KernelIdeal.Fr.W18_main_arg5 m ρ c)⟩
  · refine (θ_run Cert.ReferenceIdeal.defs _ _).mono (fun r h c => ⟨(h c).1.trans ?_, (h c).2⟩)
      (Cert.ReferenceIdeal.Value.run (F := Ideal) m' ρ')
    unfold Cert.ReferenceIdeal.Value.res_main_v192
    rw [(hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
